-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S1x16 : Shape := ⟨2, ![1, 16]⟩
abbrev S50000 : Shape := ⟨1, ![50000]⟩
abbrev S96x128 : Shape := ⟨2, ![96, 128]⟩
abbrev S128 : Shape := ⟨1, ![128]⟩
abbrev S128x128 : Shape := ⟨2, ![128, 128]⟩
abbrev S192x128 : Shape := ⟨2, ![192, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S1x16 : S_.BroadcastsInDim S1x16 (![] : Fin 0 → Fin S1x16.rank)
  reducesTo_S1x16_S_d0_1 : S1x16.ReducesTo [0, 1] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S192x128 : S_.BroadcastsInDim S192x128 (![] : Fin 0 → Fin S192x128.rank)
  reducesTo_S192x128_S_d0_1 : S192x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg13 : FVec F S128 .f32) (main_arg14 : FVec F S128 .f32) (main_arg15 : FVec F S128x64 .f32) (main_arg16 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg15
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S192x128 .f32) (main_arg12 : FVec F S128 .f32) (main_arg13 : FVec F S128 .f32) (main_arg14 : FVec F S128 .f32) (main_arg15 : FVec F S128x64 .f32) (main_arg16 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S192x128 .f32 := Host.absf main_arg11
  let main_cst_16 : FVec F S_ .f32 := constant S_ .f32 0x7F800000#32
  let main_v45 : FVec F S192x128 .f32 := broadcastInDim S192x128 ![] bcast_S_S192x128 main_cst_16
  let main_v46 : IVec S192x128 1 := cmpf .olt main_v44 main_v45
  let main_c_17 : IVec S_ 1 := constantI S_ 1 1#1
  let main_v47 : IVec S_ 1 := (fun x v => Host.reduce IntOp.andi x v reducesTo_S192x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S192x128 .f32) (main_arg12 : FVec F S128 .f32) (main_arg13 : FVec F S128 .f32) (main_arg14 : FVec F S128 .f32) (main_arg15 : FVec F S128x64 .f32) (main_arg16 : FVec F S64 .f32) (main_v13 : IVec S_ 1) (main_v16 : IVec S96x128 1) : IVec S_ 1 :=
  let main_c_5 : IVec S_ 1 := constantI S_ 1 1#1
  let main_v17 : IVec S_ 1 := (fun x v => Host.reduce IntOp.andi x v reducesTo_S96x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x64 .f32) (main_arg1 : IVec S2x800000 32) (main_arg2 : FVec F S800000x32 .f32) (main_arg3 : FVec F S1x16 .f32) (main_arg4 : IVec S50000 32) (main_arg5 : FVec F S96x128 .f32) (main_arg6 : FVec F S128 .f32) (main_arg7 : FVec F S128 .f32) (main_arg8 : FVec F S128 .f32) (main_arg9 : FVec F S128x128 .f32) (main_arg10 : FVec F S128 .f32) (main_arg11 : FVec F S192x128 .f32) (main_arg12 : FVec F S128 .f32) (main_arg13 : FVec F S128 .f32) (main_arg14 : FVec F S128 .f32) (main_arg15 : FVec F S128x64 .f32) (main_arg16 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S96x128 .f32 := Host.absf main_arg5
  let main_cst_4 : FVec F S_ .f32 := constant S_ .f32 0x7F800000#32
  let main_v15 : FVec F S96x128 .f32 := broadcastInDim S96x128 ![] bcast_S_S96x128 main_cst_4
  let main_v16 : IVec S96x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S1x16 : Shape := ⟨2, ![1, 16]⟩
abbrev S50000 : Shape := ⟨1, ![50000]⟩
abbrev S96x128 : Shape := ⟨2, ![96, 128]⟩
abbrev S128 : Shape := ⟨1, ![128]⟩
abbrev S128x128 : Shape := ⟨2, ![128, 128]⟩
abbrev S192x128 : Shape := ⟨2, ![192, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S64x128 : Shape := ⟨2, ![64, 128]⟩
abbrev S32x128 : Shape := ⟨2, ![32, 128]⟩
abbrev S1x128 : Shape := ⟨2, ![1, 128]⟩
abbrev S6400x64 : Shape := ⟨2, ![6400, 64]⟩
abbrev S6400x32 : Shape := ⟨2, ![6400, 32]⟩
abbrev S6400x128 : Shape := ⟨2, ![6400, 128]⟩
abbrev S800000x128 : Shape := ⟨2, ![800000, 128]⟩
abbrev S50000x128 : Shape := ⟨2, ![50000, 128]⟩
abbrev S5000x64 : Shape := ⟨2, ![5000, 64]⟩
abbrev S5000x128 : Shape := ⟨2, ![5000, 128]⟩
abbrev S1x64 : Shape := ⟨2, ![1, 64]⟩

abbrev nBuf : Space → Nat
  | .hbm => 100
  | .vmem => 44
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S1x16, .f32⟩
  | .hbm, ⟨4, _⟩ => ⟨S50000, .i32⟩
  | .hbm, ⟨5, _⟩ => ⟨S96x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S192x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S64x128, .f32⟩
  | .hbm, ⟨31, _⟩ => ⟨S32x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S64x128, .f32⟩
  | .hbm, ⟨55, _⟩ => ⟨S64x128, .f32⟩
  | .hbm, ⟨56, _⟩ => ⟨S32x128, .f32⟩
  | .hbm, ⟨57, _⟩ => ⟨S32x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S128, .f32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S64x128, .f32⟩
  | .hbm, ⟨68, _⟩ => ⟨S128x128, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S_, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S_, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S64x128, .f32⟩
  | .hbm, ⟨92, _⟩ => ⟨S64x128, .f32⟩
  | .hbm, ⟨93, _⟩ => ⟨S128x128, .f32⟩
  | .hbm, ⟨94, _⟩ => ⟨S128x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S128, .f32⟩
  | .hbm, ⟨99, _⟩ => ⟨S50000x64, .f32⟩
  | .local _ .vmem, ⟨0, _⟩ => ⟨S6400x64, .f32⟩
  | .local _ .vmem, ⟨1, _⟩ => ⟨S6400x64, .f32⟩
  | .local _ .vmem, ⟨2, _⟩ => ⟨S6400x32, .f32⟩
  | .local _ .vmem, ⟨3, _⟩ => ⟨S6400x32, .f32⟩
  | .local _ .vmem, ⟨4, _⟩ => ⟨S64x128, .f32⟩
  | .local _ .vmem, ⟨5, _⟩ => ⟨S32x128, .f32⟩
  | .local _ .vmem, ⟨6, _⟩ => ⟨S128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S6400x64, .f32⟩
  | .local _ .vmem, ⟨12, _⟩ => ⟨S6400x64, .f32⟩
  | .local _ .vmem, ⟨13, _⟩ => ⟨S6400x32, .f32⟩
  | .local _ .vmem, ⟨14, _⟩ => ⟨S6400x32, .f32⟩
  | .local _ .vmem, ⟨15, _⟩ => ⟨S64x128, .f32⟩
  | .local _ .vmem, ⟨16, _⟩ => ⟨S32x128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S6400x128, .f32⟩
  | .local _ .vmem, ⟨21, _⟩ => ⟨S6400x128, .f32⟩
  | .local _ .vmem, ⟨22, _⟩ => ⟨S5000x64, .f32⟩
  | .local _ .vmem, ⟨23, _⟩ => ⟨S5000x64, .f32⟩
  | .local _ .vmem, ⟨24, _⟩ => ⟨S5000x128, .f32⟩
  | .local _ .vmem, ⟨25, _⟩ => ⟨S5000x128, .f32⟩
  | .local _ .vmem, ⟨26, _⟩ => ⟨S64x128, .f32⟩
  | .local _ .vmem, ⟨27, _⟩ => ⟨S128x128, .f32⟩
  | .local _ .vmem, ⟨28, _⟩ => ⟨S128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S5000x64, .f32⟩
  | .local _ .vmem, ⟨34, _⟩ => ⟨S5000x64, .f32⟩
  | .local _ .vmem, ⟨35, _⟩ => ⟨S5000x128, .f32⟩
  | .local _ .vmem, ⟨36, _⟩ => ⟨S5000x128, .f32⟩
  | .local _ .vmem, ⟨37, _⟩ => ⟨S64x128, .f32⟩
  | .local _ .vmem, ⟨38, _⟩ => ⟨S128x128, .f32⟩
  | .local _ .vmem, ⟨39, _⟩ => ⟨S128, .f32⟩
  | .local _ .vmem, ⟨40, _⟩ => ⟨S128x64, .f32⟩
  | .local _ .vmem, ⟨41, _⟩ => ⟨S64, .f32⟩
  | .local _ .vmem, ⟨42, _⟩ => ⟨S5000x64, .f32⟩
  | .local _ .vmem, ⟨43, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13_0 : Ref sig .tc := ⟨.hbm, 32, rfl⟩
abbrev main_v13_1 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_4 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44_0 : Ref sig .tc := ⟨.hbm, 69, rfl⟩
abbrev main_v44_1 : Ref sig .tc := ⟨.hbm, 70, rfl⟩
abbrev main_cst_5 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_scratch0 : Ref sig .tc := ⟨.vmem, 31, rfl⟩
abbrev cc2_scratch1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S6400x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S96x128_S64x128_0_0 : S96x128.Slices ![0, 0] S64x128
  slices_S96x128_S32x128_64_0 : S96x128.Slices ![64, 0] S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bitsLt_bf16_f32 : FTy.bits .bf16 < FTy.bits .f32
  inb_S6400x32_S6400x32_0_0 : ∀ a, (![0, 0] : Fin 2 → Nat) a + S6400x32.size a ≤ S6400x32.size a
  h_S6400x32 : 0 < S6400x32.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  reduces_S6400x128_S128 : S6400x128.Reduces [0] S128
  bcast_S_S1x128 : S_.BroadcastsInDim S1x128 (![] : Fin 0 → Fin S1x128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S1x128_S32x128_0_1 : S1x128.BroadcastsInDim S32x128 (![0, 1] : Fin 2 → Fin S32x128.rank)
  shapeCasts_S1x128_S128 : S1x128.ShapeCasts S128
  shapeCasts_S128_S128 : S128.ShapeCasts S128
  inb_S128x128_S128x128_0_0 : ∀ a, (![0, 0] : Fin 2 → Nat) a + S128x128.size a ≤ S128x128.size a
  h_S128x128 : 0 < S128x128.numel
  inb_S6400x128_S6400x128_0_0 : ∀ a, (![0, 0] : Fin 2 → Nat) a + S6400x128.size a ≤ S6400x128.size a
  h_S6400x128 : 0 < S6400x128.numel
  bcast_S_S50000x128 : S_.BroadcastsInDim S50000x128 (![] : Fin 0 → Fin S50000x128.rank)
  slices_S192x128_S64x128_0_0 : S192x128.Slices ![0, 0] S64x128
  slices_S192x128_S128x128_64_0 : S192x128.Slices ![64, 0] S128x128
  inb_S5000x64_S5000x64_0_0 : ∀ a, (![0, 0] : Fin 2 → Nat) a + S5000x64.size a ≤ S5000x64.size a
  h_S5000x64 : 0 < S5000x64.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S128x128_S128x128 : S128x128.ShapeCasts S128x128
  broadcasts_S1x128_S5000x128 : S1x128.Broadcasts S5000x128
  reduces_S5000x128_S128 : S5000x128.Reduces [0] S128
  bcast_S1x128_S128x128_0_1 : S1x128.BroadcastsInDim S128x128 (![0, 1] : Fin 2 → Fin S128x128.rank)
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S6400x64_S64x128_S6400x128_1_0_0_1_n_n_wf : DotDims.WF S6400x64 S64x128 S6400x128 [1] [0] [0] [1] [] []
  dot_S6400x32_S32x128_S6400x128_1_0_0_1_n_n_wf : DotDims.WF S6400x32 S32x128 S6400x128 [1] [0] [0] [1] [] []
  dot_S6400x128_S128x128_S6400x128_1_0_0_1_n_n_wf : DotDims.WF S6400x128 S128x128 S6400x128 [1] [0] [0] [1] [] []
  scatter_S50000x128_S800000x1_S800000x128_1_0_0_1_wf : ScatterDims.WF S50000x128 S800000x1 S800000x128 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S800000x64.size a
  hwx0_0 : ∀ i : grid0.Coords, EltTy.bits .f32 = 32 ∨ (Rect.block (s := S800000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x32.size a ≤ S800000x32.size a
  hwx0_1 : ∀ i : grid0.Coords, EltTy.bits .f32 = 32 ∨ (Rect.block (s := S800000x32) S6400x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x64.size a ≤ S800000x64.size a
  hwx1_0 : ∀ i : grid1.Coords, EltTy.bits .f32 = 32 ∨ (Rect.block (s := S800000x64) S6400x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x32.size a ≤ S800000x32.size a
  hwx1_1 : ∀ i : grid1.Coords, EltTy.bits .f32 = 32 ∨ (Rect.block (s := S800000x32) S6400x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S32x128.size a
  hwx1_3 : ∀ i : grid1.Coords, EltTy.bits .f32 = 32 ∨ (Rect.block (s := S32x128) S32x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6400x128.size a ≤ S800000x128.size a
  hwx1_7 : ∀ i : grid1.Coords, EltTy.bits .f32 = 32 ∨ (Rect.block (s := S800000x128) S6400x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x64.size a ≤ S128x64.size a
  hwx3_5 : ∀ i : grid3.Coords, EltTy.bits .f32 = 32 ∨ (Rect.block (s := S128x64) S128x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S50000x64.size a
  hwx3_7 : ∀ i : grid3.Coords, EltTy.bits .f32 = 32 ∨ (Rect.block (s := S50000x64) S5000x64.size (cc3_transform_7 i) (hinb3_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x64_S64x128_S6400x128_1_0_0_1_n_n : DotDims S6400x64 S64x128 S6400x128 where
  lhsContracting := [1]
  rhsContracting := [0]
  lhsNonContracting := [0]
  rhsNonContracting := [1]
  lhsBatch := []
  rhsBatch := []
  wf := dot_S6400x64_S64x128_S6400x128_1_0_0_1_n_n_wf
def dot_S6400x32_S32x128_S6400x128_1_0_0_1_n_n : DotDims S6400x32 S32x128 S6400x128 where
  lhsContracting := [1]
  rhsContracting := [0]
  lhsNonContracting := [0]
  rhsNonContracting := [1]
  lhsBatch := []
  rhsBatch := []
  wf := dot_S6400x32_S32x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v10) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13_0) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13_1) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v10) S6400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S6400x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S32x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S6400x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44_0) S1x128.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44_1) S1x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S128x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg16) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v69) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S1x16 : Shape := ⟨2, ![1, 16]⟩
abbrev S50000 : Shape := ⟨1, ![50000]⟩
abbrev S96x128 : Shape := ⟨2, ![96, 128]⟩
abbrev S128 : Shape := ⟨1, ![128]⟩
abbrev S128x128 : Shape := ⟨2, ![128, 128]⟩
abbrev S192x128 : Shape := ⟨2, ![192, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x96 : Shape := ⟨2, ![800000, 96]⟩
abbrev S800000x128 : Shape := ⟨2, ![800000, 128]⟩
abbrev S1x128 : Shape := ⟨2, ![1, 128]⟩
abbrev S50000x128 : Shape := ⟨2, ![50000, 128]⟩
abbrev S50000x192 : Shape := ⟨2, ![50000, 192]⟩
abbrev S1x64 : Shape := ⟨2, ![1, 64]⟩

abbrev nBuf : Space → Nat
  | .hbm => 146
  | .vmem => 0
  | .smem => 0
  | _ => 0

abbrev hbmTy0_0 (i : Nat) : BufTy := match i % 128 with
  | 0 => ⟨S50000x64, .f32⟩
  | 1 => ⟨S2x800000, .i32⟩
  | 2 => ⟨S800000x32, .f32⟩
  | 3 => ⟨S1x16, .f32⟩
  | 4 => ⟨S50000, .i32⟩
  | 5 => ⟨S96x128, .f32⟩
  | 6 => ⟨S128, .f32⟩
  | 7 => ⟨S128, .f32⟩
  | 8 => ⟨S128, .f32⟩
  | 9 => ⟨S128x128, .f32⟩
  | 10 => ⟨S128, .f32⟩
  | 11 => ⟨S192x128, .f32⟩
  | 12 => ⟨S128, .f32⟩
  | 13 => ⟨S128, .f32⟩
  | 14 => ⟨S128, .f32⟩
  | 15 => ⟨S128x64, .f32⟩
  | 16 => ⟨S64, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x64, .f32⟩
  | 30 => ⟨S800000x96, .f32⟩
  | 31 => ⟨S800000x128, .f32⟩
  | 32 => ⟨S1x128, .f32⟩
  | 33 => ⟨S800000x128, .f32⟩
  | 34 => ⟨S800000x128, .f32⟩
  | 35 => ⟨S_, .f32⟩
  | 36 => ⟨S128, .f32⟩
  | 37 => ⟨S_, .f32⟩
  | 38 => ⟨S128, .f32⟩
  | 39 => ⟨S128, .f32⟩
  | 40 => ⟨S_, .i32⟩
  | 41 => ⟨S_, .f32⟩
  | 42 => ⟨S128, .f32⟩
  | 43 => ⟨S1x128, .f32⟩
  | 44 => ⟨S_, .f32⟩
  | 45 => ⟨S1x128, .f32⟩
  | 46 => ⟨S1x128, .f32⟩
  | 47 => ⟨S800000x128, .f32⟩
  | 48 => ⟨S800000x128, .f32⟩
  | 49 => ⟨S800000x128, .f32⟩
  | 50 => ⟨S_, .f32⟩
  | 51 => ⟨S_, .f32⟩
  | 52 => ⟨S_, .f32⟩
  | 53 => ⟨S_, .f32⟩
  | 54 => ⟨S128, .f32⟩
  | 55 => ⟨S128, .f32⟩
  | 56 => ⟨S128, .f32⟩
  | 57 => ⟨S_, .f32⟩
  | 58 => ⟨S_, .i1⟩
  | 59 => ⟨S_, .f32⟩
  | 60 => ⟨S_, .f32⟩
  | 61 => ⟨S128, .f32⟩
  | 62 => ⟨S128, .f32⟩
  | 63 => ⟨S1x128, .f32⟩
  | 64 => ⟨S800000x128, .f32⟩
  | 65 => ⟨S800000x128, .f32⟩
  | 66 => ⟨S1x128, .f32⟩
  | 67 => ⟨S800000x128, .f32⟩
  | 68 => ⟨S800000x128, .f32⟩
  | 69 => ⟨S_, .f32⟩
  | 70 => ⟨S128, .f32⟩
  | 71 => ⟨S128, .f32⟩
  | 72 => ⟨S128, .f32⟩
  | 73 => ⟨S1x128, .f32⟩
  | 74 => ⟨S800000x128, .f32⟩
  | 75 => ⟨S800000x128, .f32⟩
  | 76 => ⟨S1x128, .f32⟩
  | 77 => ⟨S800000x128, .f32⟩
  | 78 => ⟨S800000x128, .f32⟩
  | 79 => ⟨S_, .f32⟩
  | 80 => ⟨S800000x128, .f32⟩
  | 81 => ⟨S800000x128, .f32⟩
  | 82 => ⟨S800000x128, .f32⟩
  | 83 => ⟨S1x128, .f32⟩
  | 84 => ⟨S800000x128, .f32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S50000x192, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S128, .f32⟩
  | 97 => ⟨S_, .f32⟩
  | 98 => ⟨S128, .f32⟩
  | 99 => ⟨S128, .f32⟩
  | 100 => ⟨S_, .i32⟩
  | 101 => ⟨S_, .f32⟩
  | 102 => ⟨S128, .f32⟩
  | 103 => ⟨S1x128, .f32⟩
  | 104 => ⟨S_, .f32⟩
  | 105 => ⟨S1x128, .f32⟩
  | 106 => ⟨S1x128, .f32⟩
  | 107 => ⟨S50000x128, .f32⟩
  | 108 => ⟨S50000x128, .f32⟩
  | 109 => ⟨S50000x128, .f32⟩
  | 110 => ⟨S_, .f32⟩
  | 111 => ⟨S_, .f32⟩
  | 112 => ⟨S_, .f32⟩
  | 113 => ⟨S_, .f32⟩
  | 114 => ⟨S128, .f32⟩
  | 115 => ⟨S128, .f32⟩
  | 116 => ⟨S128, .f32⟩
  | 117 => ⟨S_, .f32⟩
  | 118 => ⟨S_, .i1⟩
  | 119 => ⟨S_, .f32⟩
  | 120 => ⟨S_, .f32⟩
  | 121 => ⟨S128, .f32⟩
  | 122 => ⟨S128, .f32⟩
  | 123 => ⟨S1x128, .f32⟩
  | 124 => ⟨S50000x128, .f32⟩
  | 125 => ⟨S50000x128, .f32⟩
  | 126 => ⟨S1x128, .f32⟩
  | 127 => ⟨S50000x128, .f32⟩
  | _ => ⟨S50000x64, .f32⟩

abbrev hbmTy0_1 (i : Nat) : BufTy := match i % 128 with
  | 0 => ⟨S50000x128, .f32⟩
  | 1 => ⟨S_, .f32⟩
  | 2 => ⟨S128, .f32⟩
  | 3 => ⟨S128, .f32⟩
  | 4 => ⟨S128, .f32⟩
  | 5 => ⟨S1x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S50000x128, .f32⟩
  | 13 => ⟨S50000x128, .f32⟩
  | 14 => ⟨S50000x64, .f32⟩
  | 15 => ⟨S1x64, .f32⟩
  | 16 => ⟨S50000x64, .f32⟩
  | 17 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_cst_2 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_cst_3 : Ref sig .tc := ⟨.hbm, 57, rfl⟩
abbrev main_call0_v12 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_cst_3 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_call1_cst : Ref sig .tc := ⟨.hbm, 79, rfl⟩
abbrev main_call1_v0 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_4 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_cst_5 : Ref sig .tc := ⟨.hbm, 95, rfl⟩
abbrev main_v48 : Ref sig .tc := ⟨.hbm, 96, rfl⟩
abbrev main_cst_6 : Ref sig .tc := ⟨.hbm, 97, rfl⟩
abbrev main_v49 : Ref sig .tc := ⟨.hbm, 98, rfl⟩
abbrev main_v50 : Ref sig .tc := ⟨.hbm, 99, rfl⟩
abbrev main_c_7 : Ref sig .tc := ⟨.hbm, 100, rfl⟩
abbrev main_call2_cst : Ref sig .tc := ⟨.hbm, 101, rfl⟩
abbrev main_call2_v0 : Ref sig .tc := ⟨.hbm, 102, rfl⟩
abbrev main_call2_v1 : Ref sig .tc := ⟨.hbm, 103, rfl⟩
abbrev main_call2_cst_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_cst_1 : Ref sig .tc := ⟨.hbm, 111, rfl⟩
abbrev main_call2_v8 : Ref sig .tc := ⟨.hbm, 112, rfl⟩
abbrev main_call2_cst_2 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_cst_3 : Ref sig .tc := ⟨.hbm, 117, rfl⟩
abbrev main_call2_v12 : Ref sig .tc := ⟨.hbm, 118, rfl⟩
abbrev main_call2_cst_4 : Ref sig .tc := ⟨.hbm, 119, rfl⟩
abbrev main_call2_call0_v0 : Ref sig .tc := ⟨.hbm, 120, rfl⟩
abbrev main_call2_call0_v1 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_cst_8 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_call3_cst : Ref sig .tc := ⟨.hbm, 139, rfl⟩
abbrev main_call3_v0 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x32_S800000x96_d1 : Shape.Concatenates [S800000x64, S800000x32] S800000x96 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  reducesTo_S800000x128_S128_d0 : S800000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x64_S50000x128_S50000x192_d1 : Shape.Concatenates [S50000x64, S50000x128] S50000x192 1
  bcast_S1x128_S50000x128_0_1 : S1x128.BroadcastsInDim S50000x128 (![0, 1] : Fin 2 → Fin S50000x128.rank)
  reducesTo_S50000x128_S128_d0 : S50000x128.ReducesTo [0] S128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x96_S96x128_S800000x128_1_0_0_1_n_n_wf : DotDims.WF S800000x96 S96x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x192_S192x128_S50000x128_1_0_0_1_n_n_wf : DotDims.WF S50000x192 S192x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x96_S96x128_S800000x128_1_0_0_1_n_n : DotDims S800000x96 S96x128 S800000x128 where
  lhsContracting := [1]
  rhsContracting := [0]
  lhsNonContracting := [0]
  rhsNonContracting := [1]
  lhsBatch := []
  rhsBatch := []
  wf := dot_S800000x96_S96x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KStats0.lean ====
import proofs.«167414_j65335042507073_2_alg».proof.Proof.Gen.Kernel.Launch
import proofs.«167414_j65335042507073_2_alg».proof.Proof.Gen.Kernel.Skeleton
import proofs.«167414_j65335042507073_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the statistics kernel, at the contents `V` the region is entered with

Each grid point reads one block of rows of the two row operands and the whole of the two weight operands and the bias,
forms h = a·Wa + b·Wb + bias on the block, and adds the column sums of h and of h·h to two running sums it keeps in
scratch between points (zeroed at the first point); both result blocks receive the running sums at every point and are
written back after the last. -/

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, fetched there or not: unfetched, its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 holds its block at every point, fetched there or not: unfetched, its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 holds its block at every point, fetched there or not: unfetched, its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 holds its block at every point, fetched there or not: unfetched, its block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 holds its block at every point, fetched there or not: unfetched, its block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The body's branch: the grid coordinate is zero. It holds at the first point only. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-! ## Whole-buffer loads and stores, at literal sizes -/

theorem hz2 : (![0, 0] : Fin 2 → Nat) = fun _ => 0 := by funext a; fin_cases a <;> rfl
theorem hz1 : (![0] : Fin 1 → Nat) = fun _ => 0 := by funext a; fin_cases a; rfl

/-- A load of the whole of a rank-2 buffer reads its contents. -/
theorem ld_z2 {Val : EltTy → Type} {e : EltTy} {a b : Nat} (inb : ∀ x, (![0, 0] : Fin 2 → Nat) x + (⟨2, ![a, b]⟩ : Shape).size x ≤ (⟨2, ![a, b]⟩ : Shape).size x)
    (X : (⟨2, ![a, b]⟩ : Shape).Idx → Val e) : View.ld X (Rect.unit (s := ⟨2, ![a, b]⟩) ![0, 0] ![a, b] inb) = X :=
  View.ld_unit_zero (S := ⟨2, ![a, b]⟩) hz2 inb X
/-- A load of the whole of a rank-1 buffer reads its contents. -/
theorem ld_z1 {Val : EltTy → Type} {e : EltTy} {a : Nat} (inb : ∀ x, (![0] : Fin 1 → Nat) x + (⟨1, ![a]⟩ : Shape).size x ≤ (⟨1, ![a]⟩ : Shape).size x)
    (X : (⟨1, ![a]⟩ : Shape).Idx → Val e) : View.ld X (Rect.unit (s := ⟨1, ![a]⟩) ![0] ![a] inb) = X :=
  View.ld_unit_zero (S := ⟨1, ![a]⟩) hz1 inb X
/-- A store of the whole of a rank-2 buffer, last, leaves its payload. -/
theorem canon_z2 {Val : EltTy → Type} [∀ e, Nonempty (Val e)] {e : EltTy} {a b : Nat} (inb : ∀ x, (![0, 0] : Fin 2 → Nat) x + (⟨2, ![a, b]⟩ : Shape).size x ≤ (⟨2, ![a, b]⟩ : Shape).size x)
    (w : (⟨2, ![a, b]⟩ : Shape).Idx → Val e) (L : List (View.Piece Val ⟨2, ![a, b]⟩ e)) :
    View.canon ((⟨Rect.unit (s := ⟨2, ![a, b]⟩) ![0, 0] ![a, b] inb, w⟩ : View.Piece Val ⟨2, ![a, b]⟩ e) :: L) = w :=
  View.canon_cons_unit_zero (S := ⟨2, ![a, b]⟩) hz2 inb w L
/-- A load of the whole buffer after stores the last of which was of the whole buffer reads that store's payload. -/
theorem readCov_z2 {Val : EltTy → Type} [∀ e, Nonempty (Val e)] {sig : RefSig} {κ : Kind} {sp : Space} {e : EltTy} {a b : Nat}
    (v : View sig κ sp ⟨2, ![a, b]⟩ e) (inb : ∀ x, (![0, 0] : Fin 2 → Nat) x + (⟨2, ![a, b]⟩ : Shape).size x ≤ (⟨2, ![a, b]⟩ : Shape).size x)
    (w : (⟨2, ![a, b]⟩ : Shape).Idx → Val e) (L : List (View.Piece Val ⟨2, ![a, b]⟩ e)) :
    v.readCov ((⟨Rect.unit (s := ⟨2, ![a, b]⟩) ![0, 0] ![a, b] inb, w⟩ : View.Piece Val ⟨2, ![a, b]⟩ e) :: L)
      (Rect.unit (s := ⟨2, ![a, b]⟩) ![0, 0] ![a, b] inb).toLoadRect = w := by
  have hcov : ∀ y : (⟨2, ![a, b]⟩ : Shape).Idx, ∃ p ∈ ((⟨Rect.unit (s := ⟨2, ![a, b]⟩) ![0, 0] ![a, b] inb, w⟩ : View.Piece Val ⟨2, ![a, b]⟩ e) :: L), y ∈ p.1.set :=
    fun y => ⟨⟨Rect.unit (s := ⟨2, ![a, b]⟩) ![0, 0] ![a, b] inb, w⟩, List.Mem.head _, View.mem_set_unit_zero (S := ⟨2, ![a, b]⟩) hz2 inb y⟩
  exact (View.readCov_eq_canon_ld v _ (Rect.unit (s := ⟨2, ![a, b]⟩) ![0, 0] ![a, b] inb) hcov).trans ((congrArg (fun X => View.ld X _) (canon_z2 inb w L)).trans (ld_z2 inb w))

/-- One point's step of the running column sum of h: the sum so far plus the block's column sums. -/
def stepS0 (x0 : Vec F S6400x64 .f32) (x1 : Vec F S6400x32 .f32) (x2 : Vec F S64x128 .f32) (x3 : Vec F S32x128 .f32) (x4 : Vec F S128 .f32) (s : Vec F S1x128 .f32) : Vec F S1x128 .f32 := k0_pay5 x0 x1 x2 x3 x4 s
/-- One point's step of the running column sum of h·h. -/
def stepQ0 (x0 : Vec F S6400x64 .f32) (x1 : Vec F S6400x32 .f32) (x2 : Vec F S64x128 .f32) (x3 : Vec F S32x128 .f32) (x4 : Vec F S128 .f32) (q : Vec F S1x128 .f32) : Vec F S1x128 .f32 := k0_pay1 (k0_pay6 x0 x1 x2 x3 x4 q)

set_option maxHeartbeats 4000000 in
/-- The body at the first point: both scratch sums are zeroed, then stepped; both results receive them. -/
theorem sound_kernel0_first (c : Dev nD) (E : Set ℕ) (i : grid0.Coords) (hc : cond0 i) (arg1 : Memref sig .tc .vmem S6400x64 .f32) (harg1 : arg1.IsWhole) (arg2 : Memref sig .tc .vmem S6400x32 .f32) (harg2 : arg2.IsWhole) (arg3 : Memref sig .tc .vmem S64x128 .f32) (harg3 : arg3.IsWhole) (arg4 : Memref sig .tc .vmem S32x128 .f32) (harg4 : arg4.IsWhole) (arg5 : Memref sig .tc .vmem S128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S6400x64 .f32) (x1 : Vec F S6400x32 .f32) (x2 : Vec F S64x128 .f32) (x3 : Vec F S32x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (stepS0 x0 x1 x2 x3 x4 k0_pay2) ∗ owns (c : Thread nD τ) arg7 fullShare (stepQ0 x0 x1 x2 x3 x4 k0_pay3)
            ∗ owns (c : Thread nD τ) arg8 fullShare (stepS0 x0 x1 x2 x3 x4 k0_pay2) ∗ owns (c : Thread nD τ) arg9 fullShare (stepQ0 x0 x1 x2 x3 x4 k0_pay3)) -∗ K ⟨⟩))
      ⊢ wp frame (wpE (defs₀ (F := F)) Variants.none c none) E (cc0__mlp_stats_kernel i arg1 harg1 arg2 harg2 arg3 harg3 arg4 harg4 arg5 harg5 arg6 harg6 arg7 harg7 arg8 harg8 arg9 harg9) K := by
  simp only [cc0__mlp_stats_kernel_eq_skeleton]; unfold cc0__mlp_stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0; subst hf1; subst hf2; subst hf3; subst hf4
  sl_exec (disch := exact hc)
  sl_step
  iapply Hk
  unfold stepS0 stepQ0
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  isplitl [H6]
  · iexists _; isplitr
    swap; · iexact H6
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  isplitl [H7]
  · iexists _; isplitr
    swap; · iexact H7
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  iexists _; isplitr
  swap; · iexact H8
  ipureintro
  sl_unfold_run_names
  dsimp only
  rw [View.read_writes_eq_canon _ _ _ (fun y => ⟨_, List.Mem.head _, View.mem_set_unit_zero (S := S1x128) hz2 inb_S1x128_S1x128_0_0 y⟩)]
  simp only [canon_z2, readCov_z2, View.readAt_eq_ld, ld_z2, ld_z1]
  try rfl

set_option maxHeartbeats 4000000 in
/-- The body at a later point: both scratch sums, found at `s0` and `s1`, are stepped; both results receive them. -/
theorem sound_kernel0_later (c : Dev nD) (E : Set ℕ) (i : grid0.Coords) (hc : ¬ cond0 i) (arg1 : Memref sig .tc .vmem S6400x64 .f32) (harg1 : arg1.IsWhole) (arg2 : Memref sig .tc .vmem S6400x32 .f32) (harg2 : arg2.IsWhole) (arg3 : Memref sig .tc .vmem S64x128 .f32) (harg3 : arg3.IsWhole) (arg4 : Memref sig .tc .vmem S32x128 .f32) (harg4 : arg4.IsWhole) (arg5 : Memref sig .tc .vmem S128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S6400x64 .f32) (x1 : Vec F S6400x32 .f32) (x2 : Vec F S64x128 .f32) (x3 : Vec F S32x128 .f32) (x4 : Vec F S128 .f32) (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (stepS0 x0 x1 x2 x3 x4 s0) ∗ owns (c : Thread nD τ) arg7 fullShare (stepQ0 x0 x1 x2 x3 x4 s1)
            ∗ owns (c : Thread nD τ) arg8 fullShare (stepS0 x0 x1 x2 x3 x4 s0) ∗ owns (c : Thread nD τ) arg9 fullShare (stepQ0 x0 x1 x2 x3 x4 s1)) -∗ K ⟨⟩))
      ⊢ wp frame (wpE (defs₀ (F := F)) Variants.none c none) E (cc0__mlp_stats_kernel i arg1 harg1 arg2 harg2 arg3 harg3 arg4 harg4 arg5 harg5 arg6 harg6 arg7 harg7 arg8 harg8 arg9 harg9) K := by
  simp only [cc0__mlp_stats_kernel_eq_skeleton]; unfold cc0__mlp_stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf0; subst hf1; subst hf2; subst hf3; subst hf4; subst hf7; subst hf8
  sl_exec (disch := exact hc)
  sl_step
  iapply Hk
  unfold stepS0 stepQ0
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  isplitl [H6]
  · iexists _; isplitr
    swap; · iexact H6
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  isplitl [H7]
  · iexists _; isplitr
    swap; · iexact H7
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  iexists _; isplitr
  swap; · iexact H8
  ipureintro
  sl_unfold_run_names
  dsimp only
  rw [View.read_writes_eq_canon _ _ _ (fun y => ⟨_, List.Mem.head _, View.mem_set_unit_zero (S := S1x128) hz2 inb_S1x128_S1x128_0_0 y⟩)]
  simp only [canon_z2, readCov_z2, View.readAt_eq_ld, ld_z2, ld_z1]
  try rfl

/-! ## The running sums after each point -/

/-- The kernel's two scratch operands, whole scoped buffers of its own. -/
abbrev scM0_0 : Memref sig .tc .vmem S1x128 .f32 := Memref.whole cc0_scratch0
abbrev scM0_1 : Memref sig .tc .vmem S1x128 .f32 := Memref.whole cc0_scratch1

/-- What the two scratch sums (and both result blocks) hold after the body at position `n`: zero stepped once at the first
    point, afterwards what the point before left, stepped. -/
def acc0 (c : Dev nD) : (n : ℕ) → n < cfg0.N → Vec F S1x128 .f32 × Vec F S1x128 .f32
  | 0, hn => (stepS0 (iblk0 V c 0 ⟨0, hn⟩) (iblk0 V c 1 ⟨0, hn⟩) (iblk0 V c 2 ⟨0, hn⟩) (iblk0 V c 3 ⟨0, hn⟩) (iblk0 V c 4 ⟨0, hn⟩) k0_pay2, stepQ0 (iblk0 V c 0 ⟨0, hn⟩) (iblk0 V c 1 ⟨0, hn⟩) (iblk0 V c 2 ⟨0, hn⟩) (iblk0 V c 3 ⟨0, hn⟩) (iblk0 V c 4 ⟨0, hn⟩) k0_pay3)
  | n + 1, hn => (stepS0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (acc0 c n (Nat.lt_of_succ_lt hn)).1,
      stepQ0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (acc0 c n (Nat.lt_of_succ_lt hn)).2)

theorem acc0_first (c : Dev nD) (t : Fin cfg0.N) (h0 : t.val = 0) :
    acc0 V c t.val t.isLt = (stepS0 (iblk0 V c 0 t) (iblk0 V c 1 t) (iblk0 V c 2 t) (iblk0 V c 3 t) (iblk0 V c 4 t) k0_pay2, stepQ0 (iblk0 V c 0 t) (iblk0 V c 1 t) (iblk0 V c 2 t) (iblk0 V c 3 t) (iblk0 V c 4 t) k0_pay3) := by
  obtain ⟨n, hn⟩ := t
  cases n with
  | zero => rfl
  | succ n => exact absurd h0 (Nat.succ_ne_zero n)

theorem acc0_later (c : Dev nD) (t : Fin cfg0.N) (h0 : t.val ≠ 0) :
    acc0 V c t.val t.isLt = (stepS0 (iblk0 V c 0 t) (iblk0 V c 1 t) (iblk0 V c 2 t) (iblk0 V c 3 t) (iblk0 V c 4 t) (acc0 V c (t.val - 1) (Nat.lt_of_le_of_lt (Nat.sub_le _ _) t.isLt)).1,
      stepQ0 (iblk0 V c 0 t) (iblk0 V c 1 t) (iblk0 V c 2 t) (iblk0 V c 3 t) (iblk0 V c 4 t) (acc0 V c (t.val - 1) (Nat.lt_of_le_of_lt (Nat.sub_le _ _) t.isLt)).2) := by
  obtain ⟨n, hn⟩ := t
  cases n with
  | zero => exact absurd rfl h0
  | succ n => rfl

/-- The class invariant with the two scratch operands split off as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]
  try rfl

/-- The region invariant before position `n`: before the first point the class's (every scratch at anything); afterwards
    the two scratch sums at what the point before left, the other scoped buffers at anything, the generator register at
    some state. -/
def PhiS0 (c : Dev nD) : (n : ℕ) → n ≤ cfg0.N → sProp 𝕄
  | 0, _ => Pipeline.ΦA spec0 c
  | n + 1, hn => iprop(iprop(iprop(owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (acc0 V c (n - 1) (by omega)).1 ∗ owns (c : Thread nD τ) scM0_1 fullShare (acc0 V c (n - 1) (by omega)).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data of region 0 -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (acc0 V c t.val t.isLt).1
    | ⟨6, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (acc0 V c t.val t.isLt).1 := by dsimp only [dat0]
theorem after0_6 (c : Dev nD) (t : Fin cfg0.N) : (dat0 V c).after 6 t = (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: the inputs' memrefs hold their blocks; at the first point the invariant hands the body both
    scratch sums at anything, at a later point at what the point before left; it takes them back stepped. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, after0_6]
  rw [show (dat0 V c).Φ t.succ = PhiS0 V c (t.val + 1) t.isLt from rfl, PhiS0_succ, PhiS0_castSucc]
  by_cases h0 : t.val = 0
  · rw [PhiS0_zero V c t.val _ h0, PhiA0_eq, acc0_first V c t h0]
    iintro ⟨⟨⟨⟨Hs0, Hs1⟩, Hrest⟩, Hp⟩, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ _ ((hcond0 t).mpr h0) _ _ _ _ _ _ _ _ _ _ _ _ _ _ _ _ _ _ (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs0]; · iexact Hs0
    isplitl [Hs1]; · iexact Hs1
    iintro ⟨H0, H1, H2, H3, H4, H5, H6, Hs0, Hs1⟩
    isplitl [Hs0 Hs1 Hrest Hp]
    · isplitl [Hs0 Hs1 Hrest]
      · isplitl [Hs0 Hs1]
        · isplitl [Hs0]; · iexact Hs0
          iexact Hs1
        iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS0_pos V c t.val _ h0, acc0_later V c t h0]
    iintro ⟨⟨⟨⟨Hs0, Hs1⟩, Hrest⟩, Hp⟩, Ho, ⟨%d0, H0⟩, ⟨%d1, H1⟩, ⟨%d2, H2⟩, ⟨%d3, H3⟩, ⟨%d4, H4⟩, ⟨%d5, H5⟩, ⟨%d6, H6⟩⟩
    iapply (sound_kernel0_later c Set.univ _ (fun h => h0 ((hcond0 t).mp h)) _ _ _ _ _ _ _ _ _ _ _ _ _ _ _ _ _ _ (iblk0 V c 0 t) (iblk0 V c 1 t) (iblk0 V c 2 t) (iblk0 V c 3 t) (iblk0 V c 4 t) _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs0]; · iexact Hs0
    isplitl [Hs1]; · iexact Hs1
    iintro ⟨H0, H1, H2, H3, H4, H5, H6, Hs0, Hs1⟩
    isplitl [Hs0 Hs1 Hrest Hp]
    · isplitl [Hs0 Hs1 Hrest]
      · isplitl [Hs0 Hs1]
        · isplitl [Hs0]; · iexact Hs0
          iexact Hs1
        iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The class invariant makes the invariant before the first point. -/
theorem hin0 (c : Dev nD) : Pipeline.ΦA spec0 c ⊢ (dat0 V c).Φ 0 := by
  rw [show (dat0 V c).Φ 0 = Pipeline.ΦA spec0 c from rfl]

/-- After any point the invariant gives the class invariant back: the scratch sums forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c t.val _ ht, PhiA0_eq]
  iintro ⟨⟨⟨Hs0, Hs1⟩, Hrest⟩, Hp⟩
  isplitl [Hs0 Hs1 Hrest]
  · isplitl [Hs0 Hs1]
    · isplitl [Hs0]; · iexists _; iexact Hs0
      iexists _; iexact Hs1
    iexact Hrest
  iexact Hp

theorem hout0 (c : Dev nD) : (dat0 V c).Φ (Fin.last cfg0.N) ⊢ Pipeline.ΦA spec0 c :=
  Phi_out0 V c (Fin.last cfg0.N) (by decide)

end Region
end Cert.Kernel.Hand

end
-- ==== Proof.KFused1.lean ====
import proofs.«167414_j65335042507073_2_alg».proof.Proof.Gen.Kernel.Launch
import proofs.«167414_j65335042507073_2_alg».proof.Proof.Gen.Kernel.Skeleton
import proofs.«167414_j65335042507073_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the fused two-layer kernel, at the contents `V` the region is entered with

Each grid point reads one block of rows of the two row operands and the whole of the five weight and bias operands,
and writes one block of rows of the result: relu (a·Wa + b·Wb + bias₁) · W₂ + bias₂. -/

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, fetched there or not: unfetched, its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 holds its block at every point, fetched there or not: unfetched, its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 holds its block at every point, fetched there or not: unfetched, its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 holds its block at every point, fetched there or not: unfetched, its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 holds its block at every point, fetched there or not: unfetched, its block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 holds its block at every point, fetched there or not: unfetched, its block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6 holds its block at every point, fetched there or not: unfetched, its block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The whole of each staging buffer, as the rectangle the body's loads and its one store name. -/
abbrev r1_0 : Rect S6400x64 := Rect.unit (s := S6400x64) ![0, 0] S6400x64.size inb_S6400x64_S6400x64_0_0
abbrev r1_1 : Rect S6400x32 := Rect.unit (s := S6400x32) ![0, 0] S6400x32.size inb_S6400x32_S6400x32_0_0
abbrev r1_2 : Rect S64x128 := Rect.unit (s := S64x128) ![0, 0] S64x128.size inb_S64x128_S64x128_0_0
abbrev r1_3 : Rect S32x128 := Rect.unit (s := S32x128) ![0, 0] S32x128.size inb_S32x128_S32x128_0_0
abbrev r1_4 : Rect S128 := Rect.unit (s := S128) ![0] S128.size inb_S128_S128_0
abbrev r1_5 : Rect S128x128 := Rect.unit (s := S128x128) ![0, 0] S128x128.size inb_S128x128_S128x128_0_0
abbrev r1_6 : Rect S128 := Rect.unit (s := S128) ![0] S128.size inb_S128_S128_0
abbrev r1_7 : Rect S6400x128 := Rect.unit (s := S6400x128) ![0, 0] S6400x128.size inb_S6400x128_S6400x128_0_0

/-- The result block after the body, from the seven input blocks: the body's one store, of the whole block. -/
def out1_7 (x0 : Vec F S6400x64 .f32) (x1 : Vec F S6400x32 .f32) (x2 : Vec F S64x128 .f32) (x3 : Vec F S32x128 .f32) (x4 : Vec F S128 .f32) (x5 : Vec F S128x128 .f32) (x6 : Vec F S128 .f32) : Vec F S6400x128 .f32 :=
  View.canon [⟨r1_7, k1_pay1 (View.ld x0 r1_0) (View.ld x1 r1_1) (View.ld x2 r1_2) (View.ld x3 r1_3) (View.ld x4 r1_4) (View.ld x5 r1_5) (View.ld x6 r1_6)⟩]

/-- The store covers the block. -/
theorem cover1_7 (p0 : Vec F S6400x128 .f32) (y : S6400x128.Idx) :
    ∃ pc ∈ ([⟨r1_7, p0⟩] : List (View.Piece (Elt F) S6400x128 .f32)), y ∈ pc.1.set :=
  View.cover_of_tiled [⟨r1_7, p0⟩] S6400x128.size (by rfl) y

set_option maxHeartbeats 4000000 in
/-- The body on whole staging memrefs, the inputs' at contents `xW` and the result's at anything, runs to the continuation
    holding the inputs' unchanged and the result's at `out1_7` of the inputs'. -/
theorem sound_kernel1 (c : Dev nD) (E : Set ℕ) (i : grid1.Coords)
    (arg0 : Memref sig .tc .vmem S6400x64 .f32) (harg0 : arg0.IsWhole) (arg1 : Memref sig .tc .vmem S6400x32 .f32) (harg1 : arg1.IsWhole) (arg2 : Memref sig .tc .vmem S64x128 .f32) (harg2 : arg2.IsWhole) (arg3 : Memref sig .tc .vmem S32x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S6400x128 .f32) (harg7 : arg7.IsWhole)
    (x0 : Vec F S6400x64 .f32) (x1 : Vec F S6400x32 .f32) (x2 : Vec F S64x128 .f32) (x3 : Vec F S32x128 .f32) (x4 : Vec F S128 .f32) (x5 : Vec F S128x128 .f32) (x6 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__mlp_fused_kernel i arg0 harg0 arg1 harg1 arg2 harg2 arg3 harg3 arg4 harg4 arg5 harg5 arg6 harg6 arg7 harg7) K := by
  simp only [cc1__mlp_fused_kernel_eq_skeleton]; unfold cc1__mlp_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The proof data of region 1 -/

/-- The arrays as the region finds them; after the body at point `t` each input's buffer at its block and the result's at
    `out1_7` of the input blocks; the invariant is the scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the inputs' memrefs hold their blocks, so the kernel's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region
end Cert.Kernel.Hand

end
-- ==== Proof.KStats2.lean ====
import proofs.«167414_j65335042507073_2_alg».proof.Proof.KStats0
import proofs.«167414_j65335042507073_2_alg».proof.Proof.Gen.Kernel.Launch
import proofs.«167414_j65335042507073_2_alg».proof.Proof.Gen.Kernel.Skeleton
import proofs.«167414_j65335042507073_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the statistics kernel, at the contents `V` the region is entered with

Each grid point reads one block of rows of the two row operands and the whole of the two weight operands and the bias,
forms h = a·Wa + b·Wb + bias on the block, and adds the column sums of h and of h·h to two running sums it keeps in
scratch between points (zeroed at the first point); both result blocks receive the running sums at every point and are
written back after the last. -/

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block at every point, fetched there or not: unfetched, its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 holds its block at every point, fetched there or not: unfetched, its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 holds its block at every point, fetched there or not: unfetched, its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 holds its block at every point, fetched there or not: unfetched, its block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 holds its block at every point, fetched there or not: unfetched, its block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The body's branch: the grid coordinate is zero. It holds at the first point only. -/
abbrev cond2 (i : grid2.Coords) : Prop := (Scalar.cmpi .ne (Scalar.extui (Scalar.cmpi .eq (BitVec.ofNat 32 (i 0).val) 0#32)) 0#32) = 1#1
theorem hcond2 : ∀ t : Fin cfg2.N, cond2 (grid2.coords t) ↔ t.val = 0 :=
  (by decide +kernel : ∀ t : Fin grid2.N, cond2 (grid2.coords t) ↔ t.val = 0)

/-- One point's step of the running column sum of h: the sum so far plus the block's column sums. -/
def stepS2 (x0 : Vec F S5000x64 .f32) (x1 : Vec F S5000x128 .f32) (x2 : Vec F S64x128 .f32) (x3 : Vec F S128x128 .f32) (x4 : Vec F S128 .f32) (s : Vec F S1x128 .f32) : Vec F S1x128 .f32 := k2_pay5 x0 x1 x2 x3 x4 s
/-- One point's step of the running column sum of h·h. -/
def stepQ2 (x0 : Vec F S5000x64 .f32) (x1 : Vec F S5000x128 .f32) (x2 : Vec F S64x128 .f32) (x3 : Vec F S128x128 .f32) (x4 : Vec F S128 .f32) (q : Vec F S1x128 .f32) : Vec F S1x128 .f32 := k2_pay1 (k2_pay6 x0 x1 x2 x3 x4 q)

set_option maxHeartbeats 4000000 in
/-- The body at the first point: both scratch sums are zeroed, then stepped; both results receive them. -/
theorem sound_kernel2_first (c : Dev nD) (E : Set ℕ) (i : grid2.Coords) (hc : cond2 i) (arg1 : Memref sig .tc .vmem S5000x64 .f32) (harg1 : arg1.IsWhole) (arg2 : Memref sig .tc .vmem S5000x128 .f32) (harg2 : arg2.IsWhole) (arg3 : Memref sig .tc .vmem S64x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S5000x64 .f32) (x1 : Vec F S5000x128 .f32) (x2 : Vec F S64x128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (stepS2 x0 x1 x2 x3 x4 k2_pay2) ∗ owns (c : Thread nD τ) arg7 fullShare (stepQ2 x0 x1 x2 x3 x4 k2_pay3)
            ∗ owns (c : Thread nD τ) arg8 fullShare (stepS2 x0 x1 x2 x3 x4 k2_pay2) ∗ owns (c : Thread nD τ) arg9 fullShare (stepQ2 x0 x1 x2 x3 x4 k2_pay3)) -∗ K ⟨⟩))
      ⊢ wp frame (wpE (defs₀ (F := F)) Variants.none c none) E (cc2__mlp_stats_kernel i arg1 harg1 arg2 harg2 arg3 harg3 arg4 harg4 arg5 harg5 arg6 harg6 arg7 harg7 arg8 harg8 arg9 harg9) K := by
  simp only [cc2__mlp_stats_kernel_eq_skeleton]; unfold cc2__mlp_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0; subst hf1; subst hf2; subst hf3; subst hf4
  sl_exec (disch := exact hc)
  sl_step
  iapply Hk
  unfold stepS2 stepQ2
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  isplitl [H6]
  · iexists _; isplitr
    swap; · iexact H6
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  isplitl [H7]
  · iexists _; isplitr
    swap; · iexact H7
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  iexists _; isplitr
  swap; · iexact H8
  ipureintro
  sl_unfold_run_names
  dsimp only
  rw [View.read_writes_eq_canon _ _ _ (fun y => ⟨_, List.Mem.head _, View.mem_set_unit_zero (S := S1x128) hz2 inb_S1x128_S1x128_0_0 y⟩)]
  simp only [canon_z2, readCov_z2, View.readAt_eq_ld, ld_z2, ld_z1]
  try rfl

set_option maxHeartbeats 4000000 in
/-- The body at a later point: both scratch sums, found at `s0` and `s1`, are stepped; both results receive them. -/
theorem sound_kernel2_later (c : Dev nD) (E : Set ℕ) (i : grid2.Coords) (hc : ¬ cond2 i) (arg1 : Memref sig .tc .vmem S5000x64 .f32) (harg1 : arg1.IsWhole) (arg2 : Memref sig .tc .vmem S5000x128 .f32) (harg2 : arg2.IsWhole) (arg3 : Memref sig .tc .vmem S64x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S5000x64 .f32) (x1 : Vec F S5000x128 .f32) (x2 : Vec F S64x128 .f32) (x3 : Vec F S128x128 .f32) (x4 : Vec F S128 .f32) (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (stepS2 x0 x1 x2 x3 x4 s0) ∗ owns (c : Thread nD τ) arg7 fullShare (stepQ2 x0 x1 x2 x3 x4 s1)
            ∗ owns (c : Thread nD τ) arg8 fullShare (stepS2 x0 x1 x2 x3 x4 s0) ∗ owns (c : Thread nD τ) arg9 fullShare (stepQ2 x0 x1 x2 x3 x4 s1)) -∗ K ⟨⟩))
      ⊢ wp frame (wpE (defs₀ (F := F)) Variants.none c none) E (cc2__mlp_stats_kernel i arg1 harg1 arg2 harg2 arg3 harg3 arg4 harg4 arg5 harg5 arg6 harg6 arg7 harg7 arg8 harg8 arg9 harg9) K := by
  simp only [cc2__mlp_stats_kernel_eq_skeleton]; unfold cc2__mlp_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf0; subst hf1; subst hf2; subst hf3; subst hf4; subst hf7; subst hf8
  sl_exec (disch := exact hc)
  sl_step
  iapply Hk
  unfold stepS2 stepQ2
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  isplitl [H6]
  · iexists _; isplitr
    swap; · iexact H6
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  isplitl [H7]
  · iexists _; isplitr
    swap; · iexact H7
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  iexists _; isplitr
  swap; · iexact H8
  ipureintro
  sl_unfold_run_names
  dsimp only
  rw [View.read_writes_eq_canon _ _ _ (fun y => ⟨_, List.Mem.head _, View.mem_set_unit_zero (S := S1x128) hz2 inb_S1x128_S1x128_0_0 y⟩)]
  simp only [canon_z2, readCov_z2, View.readAt_eq_ld, ld_z2, ld_z1]
  try rfl

/-! ## The running sums after each point -/

/-- The kernel's two scratch operands, whole scoped buffers of its own. -/
abbrev scM2_0 : Memref sig .tc .vmem S1x128 .f32 := Memref.whole cc2_scratch0
abbrev scM2_1 : Memref sig .tc .vmem S1x128 .f32 := Memref.whole cc2_scratch1

/-- What the two scratch sums (and both result blocks) hold after the body at position `n`: zero stepped once at the first
    point, afterwards what the point before left, stepped. -/
def acc2 (c : Dev nD) : (n : ℕ) → n < cfg2.N → Vec F S1x128 .f32 × Vec F S1x128 .f32
  | 0, hn => (stepS2 (iblk2 V c 0 ⟨0, hn⟩) (iblk2 V c 1 ⟨0, hn⟩) (iblk2 V c 2 ⟨0, hn⟩) (iblk2 V c 3 ⟨0, hn⟩) (iblk2 V c 4 ⟨0, hn⟩) k2_pay2, stepQ2 (iblk2 V c 0 ⟨0, hn⟩) (iblk2 V c 1 ⟨0, hn⟩) (iblk2 V c 2 ⟨0, hn⟩) (iblk2 V c 3 ⟨0, hn⟩) (iblk2 V c 4 ⟨0, hn⟩) k2_pay3)
  | n + 1, hn => (stepS2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (acc2 c n (Nat.lt_of_succ_lt hn)).1,
      stepQ2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (acc2 c n (Nat.lt_of_succ_lt hn)).2)

theorem acc2_first (c : Dev nD) (t : Fin cfg2.N) (h0 : t.val = 0) :
    acc2 V c t.val t.isLt = (stepS2 (iblk2 V c 0 t) (iblk2 V c 1 t) (iblk2 V c 2 t) (iblk2 V c 3 t) (iblk2 V c 4 t) k2_pay2, stepQ2 (iblk2 V c 0 t) (iblk2 V c 1 t) (iblk2 V c 2 t) (iblk2 V c 3 t) (iblk2 V c 4 t) k2_pay3) := by
  obtain ⟨n, hn⟩ := t
  cases n with
  | zero => rfl
  | succ n => exact absurd h0 (Nat.succ_ne_zero n)

theorem acc2_later (c : Dev nD) (t : Fin cfg2.N) (h0 : t.val ≠ 0) :
    acc2 V c t.val t.isLt = (stepS2 (iblk2 V c 0 t) (iblk2 V c 1 t) (iblk2 V c 2 t) (iblk2 V c 3 t) (iblk2 V c 4 t) (acc2 V c (t.val - 1) (Nat.lt_of_le_of_lt (Nat.sub_le _ _) t.isLt)).1,
      stepQ2 (iblk2 V c 0 t) (iblk2 V c 1 t) (iblk2 V c 2 t) (iblk2 V c 3 t) (iblk2 V c 4 t) (acc2 V c (t.val - 1) (Nat.lt_of_le_of_lt (Nat.sub_le _ _) t.isLt)).2) := by
  obtain ⟨n, hn⟩ := t
  cases n with
  | zero => exact absurd rfl h0
  | succ n => rfl

/-- The class invariant with the two scratch operands split off as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]
  try rfl

/-- The region invariant before position `n`: before the first point the class's (every scratch at anything); afterwards
    the two scratch sums at what the point before left, the other scoped buffers at anything, the generator register at
    some state. -/
def PhiS2 (c : Dev nD) : (n : ℕ) → n ≤ cfg2.N → sProp 𝕄
  | 0, _ => Pipeline.ΦA spec2 c
  | n + 1, hn => iprop(iprop(iprop(owns (c : Thread nD τ) scM2_0 fullShare (acc2 V c n hn).1 ∗ owns (c : Thread nD τ) scM2_1 fullShare (acc2 V c n hn).2)
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (acc2 V c n hn).1 ∗ owns (c : Thread nD τ) scM2_1 fullShare (acc2 V c n hn).2)
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (acc2 V c (n - 1) (by omega)).1 ∗ owns (c : Thread nD τ) scM2_1 fullShare (acc2 V c (n - 1) (by omega)).2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The proof data of region 2 -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (acc2 V c t.val t.isLt).1
    | ⟨6, _⟩ => (acc2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (acc2 V c t.val t.isLt).1 := by dsimp only [dat2]
theorem after2_6 (c : Dev nD) (t : Fin cfg2.N) : (dat2 V c).after 6 t = (acc2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 4000000 in
/-- The body at any point: the inputs' memrefs hold their blocks; at the first point the invariant hands the body both
    scratch sums at anything, at a later point at what the point before left; it takes them back stepped. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl,
    after2_0, after2_1, after2_2, after2_3, after2_4, after2_5, after2_6]
  rw [show (dat2 V c).Φ t.succ = PhiS2 V c (t.val + 1) t.isLt from rfl, PhiS2_succ, PhiS2_castSucc]
  by_cases h0 : t.val = 0
  · rw [PhiS2_zero V c t.val _ h0, PhiA2_eq, acc2_first V c t h0]
    iintro ⟨⟨⟨⟨Hs0, Hs1⟩, Hrest⟩, Hp⟩, Ho, ⟨%d0, H0⟩, ⟨%d1, H1⟩, ⟨%d2, H2⟩, ⟨%d3, H3⟩, ⟨%d4, H4⟩, ⟨%d5, H5⟩, ⟨%d6, H6⟩⟩
    iapply (sound_kernel2_first c Set.univ _ ((hcond2 t).mpr h0) _ _ _ _ _ _ _ _ _ _ _ _ _ _ _ _ _ _ (iblk2 V c 0 t) (iblk2 V c 1 t) (iblk2 V c 2 t) (iblk2 V c 3 t) (iblk2 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs0]; · iexact Hs0
    isplitl [Hs1]; · iexact Hs1
    iintro ⟨H0, H1, H2, H3, H4, H5, H6, Hs0, Hs1⟩
    isplitl [Hs0 Hs1 Hrest Hp]
    · isplitl [Hs0 Hs1 Hrest]
      · isplitl [Hs0 Hs1]
        · isplitl [Hs0]; · iexact Hs0
          iexact Hs1
        iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS2_pos V c t.val _ h0, acc2_later V c t h0]
    iintro ⟨⟨⟨⟨Hs0, Hs1⟩, Hrest⟩, Hp⟩, Ho, ⟨%d0, H0⟩, ⟨%d1, H1⟩, ⟨%d2, H2⟩, ⟨%d3, H3⟩, ⟨%d4, H4⟩, ⟨%d5, H5⟩, ⟨%d6, H6⟩⟩
    iapply (sound_kernel2_later c Set.univ _ (fun h => h0 ((hcond2 t).mp h)) _ _ _ _ _ _ _ _ _ _ _ _ _ _ _ _ _ _ (iblk2 V c 0 t) (iblk2 V c 1 t) (iblk2 V c 2 t) (iblk2 V c 3 t) (iblk2 V c 4 t) _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs0]; · iexact Hs0
    isplitl [Hs1]; · iexact Hs1
    iintro ⟨H0, H1, H2, H3, H4, H5, H6, Hs0, Hs1⟩
    isplitl [Hs0 Hs1 Hrest Hp]
    · isplitl [Hs0 Hs1 Hrest]
      · isplitl [Hs0 Hs1]
        · isplitl [Hs0]; · iexact Hs0
          iexact Hs1
        iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The class invariant makes the invariant before the first point. -/
theorem hin2 (c : Dev nD) : Pipeline.ΦA spec2 c ⊢ (dat2 V c).Φ 0 := by
  rw [show (dat2 V c).Φ 0 = Pipeline.ΦA spec2 c from rfl]

/-- After any point the invariant gives the class invariant back: the scratch sums forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c t.val _ ht, PhiA2_eq]
  iintro ⟨⟨⟨Hs0, Hs1⟩, Hrest⟩, Hp⟩
  isplitl [Hs0 Hs1 Hrest]
  · isplitl [Hs0 Hs1]
    · isplitl [Hs0]; · iexists _; iexact Hs0
      iexists _; iexact Hs1
    iexact Hrest
  iexact Hp

theorem hout2 (c : Dev nD) : (dat2 V c).Φ (Fin.last cfg2.N) ⊢ Pipeline.ΦA spec2 c :=
  Phi_out2 V c (Fin.last cfg2.N) (by decide)

end Region
end Cert.Kernel.Hand

end
-- ==== Proof.KFused3.lean ====
import proofs.«167414_j65335042507073_2_alg».proof.Proof.Gen.Kernel.Launch
import proofs.«167414_j65335042507073_2_alg».proof.Proof.Gen.Kernel.Skeleton
import proofs.«167414_j65335042507073_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the fused two-layer kernel, at the contents `V` the region is entered with

Each grid point reads one block of rows of the two row operands and the whole of the five weight and bias operands,
and writes one block of rows of the result: relu (a·Wa + b·Wb + bias₁) · W₂ + bias₂. -/

section Region
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 holds its block at every point, fetched there or not: unfetched, its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 holds its block at every point, fetched there or not: unfetched, its block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 holds its block at every point, fetched there or not: unfetched, its block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3 holds its block at every point, fetched there or not: unfetched, its block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4 holds its block at every point, fetched there or not: unfetched, its block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5 holds its block at every point, fetched there or not: unfetched, its block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6 holds its block at every point, fetched there or not: unfetched, its block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- The whole of each staging buffer, as the rectangle the body's loads and its one store name. -/
abbrev r3_0 : Rect S5000x64 := Rect.unit (s := S5000x64) ![0, 0] S5000x64.size inb_S5000x64_S5000x64_0_0
abbrev r3_1 : Rect S5000x128 := Rect.unit (s := S5000x128) ![0, 0] S5000x128.size inb_S5000x128_S5000x128_0_0
abbrev r3_2 : Rect S64x128 := Rect.unit (s := S64x128) ![0, 0] S64x128.size inb_S64x128_S64x128_0_0
abbrev r3_3 : Rect S128x128 := Rect.unit (s := S128x128) ![0, 0] S128x128.size inb_S128x128_S128x128_0_0
abbrev r3_4 : Rect S128 := Rect.unit (s := S128) ![0] S128.size inb_S128_S128_0
abbrev r3_5 : Rect S128x64 := Rect.unit (s := S128x64) ![0, 0] S128x64.size inb_S128x64_S128x64_0_0
abbrev r3_6 : Rect S64 := Rect.unit (s := S64) ![0] S64.size inb_S64_S64_0
abbrev r3_7 : Rect S5000x64 := Rect.unit (s := S5000x64) ![0, 0] S5000x64.size inb_S5000x64_S5000x64_0_0

/-- The result block after the body, from the seven input blocks: the body's one store, of the whole block. -/
def out3_7 (x0 : Vec F S5000x64 .f32) (x1 : Vec F S5000x128 .f32) (x2 : Vec F S64x128 .f32) (x3 : Vec F S128x128 .f32) (x4 : Vec F S128 .f32) (x5 : Vec F S128x64 .f32) (x6 : Vec F S64 .f32) : Vec F S5000x64 .f32 :=
  View.canon [⟨r3_7, k3_pay1 (View.ld x0 r3_0) (View.ld x1 r3_1) (View.ld x2 r3_2) (View.ld x3 r3_3) (View.ld x4 r3_4) (View.ld x5 r3_5) (View.ld x6 r3_6)⟩]

/-- The store covers the block. -/
theorem cover3_7 (p0 : Vec F S5000x64 .f32) (y : S5000x64.Idx) :
    ∃ pc ∈ ([⟨r3_7, p0⟩] : List (View.Piece (Elt F) S5000x64 .f32)), y ∈ pc.1.set :=
  View.cover_of_tiled [⟨r3_7, p0⟩] S5000x64.size (by rfl) y

set_option maxHeartbeats 4000000 in
/-- The body on whole staging memrefs, the inputs' at contents `xW` and the result's at anything, runs to the continuation
    holding the inputs' unchanged and the result's at `out3_7` of the inputs'. -/
theorem sound_kernel3 (c : Dev nD) (E : Set ℕ) (i : grid3.Coords)
    (arg0 : Memref sig .tc .vmem S5000x64 .f32) (harg0 : arg0.IsWhole) (arg1 : Memref sig .tc .vmem S5000x128 .f32) (harg1 : arg1.IsWhole) (arg2 : Memref sig .tc .vmem S64x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x64 .f32) (harg5 : arg5.IsWhole) (arg6 : Memref sig .tc .vmem S64 .f32) (harg6 : arg6.IsWhole) (arg7 : Memref sig .tc .vmem S5000x64 .f32) (harg7 : arg7.IsWhole)
    (x0 : Vec F S5000x64 .f32) (x1 : Vec F S5000x128 .f32) (x2 : Vec F S64x128 .f32) (x3 : Vec F S128x128 .f32) (x4 : Vec F S128 .f32) (x5 : Vec F S128x64 .f32) (x6 : Vec F S64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out3_7 x0 x1 x2 x3 x4 x5 x6)) -∗ K ⟨⟩))
      ⊢ wp frame (wpE (defs₀ (F := F)) Variants.none c none) E (cc3__mlp_fused_kernel i arg0 harg0 arg1 harg1 arg2 harg2 arg3 harg3 arg4 harg4 arg5 harg5 arg6 harg6 arg7 harg7) K := by
  simp only [cc3__mlp_fused_kernel_eq_skeleton]; unfold cc3__mlp_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The proof data of region 3 -/

/-- The arrays as the region finds them; after the body at point `t` each input's buffer at its block and the result's at
    `out3_7` of the input blocks; the invariant is the scoped rest and the generator register, untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 4000000 in
/-- The body at any point: the inputs' memrefs hold their blocks, so the kernel's triple applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region
end Cert.Kernel.Hand

end
-- ==== Proof.KRun.lean ====
import proofs.«167414_j65335042507073_2_alg».proof.Proof.KStats0
import proofs.«167414_j65335042507073_2_alg».proof.Proof.KFused1
import proofs.«167414_j65335042507073_2_alg».proof.Proof.KStats2
import proofs.«167414_j65335042507073_2_alg».proof.Proof.KFused3
import proofs.«167414_j65335042507073_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's eight segments from the launch to the return

Four stretches of host operations alternate with the four kernel regions. Between two segments every unscoped buffer of
the core is held at known contents: the launch memory, then each host stretch's operations applied, then each region's
arrays at what its write-backs leave. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- A buffer that is no result of region 0 leaves it as it entered: an input window's array is never written back. -/
theorem W2_keep (c : Dev nD) (b : Ref sig .tc) (hb : b ∉ ([main_v13_0, main_v13_1] : List (Ref sig .tc))) :
    W2 m ρ c (Proc.devRef .tc b) = W1 m ρ c (Proc.devRef .tc b) := by
  by_cases h : ∃ w, Pipeline.arrRef spec0 w = b
  · obtain ⟨w, rfl⟩ := h
    have hin : (cfg0.win w).isOut = false := by revert hb; revert w; decide
    exact (W2_arr m ρ c w).trans (((dat0 (U1 m ρ) c).arrAt_in w hin _).trans (A_eq0 (U1 m ρ) c w))
  · exact W2_of_ne m ρ c b fun w e => h ⟨w, e⟩

/-- After host stretch 1 (region 1's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- A buffer that is no result of region 1 leaves it as it entered: an input window's array is never written back. -/
theorem W4_keep (c : Dev nD) (b : Ref sig .tc) (hb : b ∉ ([main_v38] : List (Ref sig .tc))) :
    W4 m ρ c (Proc.devRef .tc b) = W3 m ρ c (Proc.devRef .tc b) := by
  by_cases h : ∃ w, Pipeline.arrRef spec1 w = b
  · obtain ⟨w, rfl⟩ := h
    have hin : (cfg1.win w).isOut = false := by revert hb; revert w; decide
    exact (W4_arr m ρ c w).trans (((dat1 (U3 m ρ) c).arrAt_in w hin _).trans (A_eq1 (U3 m ρ) c w))
  · exact W4_of_ne m ρ c b fun w e => h ⟨w, e⟩

/-- After host stretch 2 (region 2's entry). -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)
/-- A buffer that is no result of region 2 leaves it as it entered: an input window's array is never written back. -/
theorem W6_keep (c : Dev nD) (b : Ref sig .tc) (hb : b ∉ ([main_v44_0, main_v44_1] : List (Ref sig .tc))) :
    W6 m ρ c (Proc.devRef .tc b) = W5 m ρ c (Proc.devRef .tc b) := by
  by_cases h : ∃ w, Pipeline.arrRef spec2 w = b
  · obtain ⟨w, rfl⟩ := h
    have hin : (cfg2.win w).isOut = false := by revert hb; revert w; decide
    exact (W6_arr m ρ c w).trans (((dat2 (U5 m ρ) c).arrAt_in w hin _).trans (A_eq2 (U5 m ρ) c w))
  · exact W6_of_ne m ρ c b fun w e => h ⟨w, e⟩

/-- After host stretch 3 (region 3's entry). -/
abbrev W7 : Dev nD → Valuation τ sig (Elt F) := fun c => StableHlo.after hostOps3 (W6 m ρ c)
abbrev U7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev U8 : (c : Dev nD) → (b : Ref sig .tc) → Buf (Elt F) ((c : Thread nD τ).loc b) := fun c b => W8 m ρ c b
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)
/-- A buffer that is no result of region 3 leaves it as it entered: an input window's array is never written back. -/
theorem W8_keep (c : Dev nD) (b : Ref sig .tc) (hb : b ∉ ([main_v69] : List (Ref sig .tc))) :
    W8 m ρ c (Proc.devRef .tc b) = W7 m ρ c (Proc.devRef .tc b) := by
  by_cases h : ∃ w, Pipeline.arrRef spec3 w = b
  · obtain ⟨w, rfl⟩ := h
    have hin : (cfg3.win w).isOut = false := by revert hb; revert w; decide
    exact (W8_arr m ρ c w).trans (((dat3 (U7 m ρ) c).arrAt_in w hin _).trans (A_eq3 (U7 m ρ) c w))
  · exact W8_of_ne m ρ c b fun w e => h ⟨w, e⟩

/-- A buffer no host operation writes and no region changes ends as launched. -/
theorem W8_of_not_written (c : Dev nD) (b : Ref sig .tc) (h0 : b ∉ hostOps0_W) (h1 : b ∉ hostOps1_W) (h2 : b ∉ hostOps2_W) (h3 : b ∉ hostOps3_W)
    (hr : b ∉ ([main_v13_0, main_v13_1, main_v38, main_v44_0, main_v44_1, main_v69] : List (Ref sig .tc))) :
    W8 m ρ c (Proc.devRef .tc b) = m ((c : Thread nD τ).loc b) := by
  have e8 := W8_keep m ρ c b (fun h => hr (by simp only [List.mem_cons, List.mem_nil_iff, or_false] at h ⊢; tauto))
  have e6 := W6_keep m ρ c b (fun h => hr (by simp only [List.mem_cons, List.mem_nil_iff, or_false] at h ⊢; tauto))
  have e4 := W4_keep m ρ c b (fun h => hr (by simp only [List.mem_cons, List.mem_nil_iff, or_false] at h ⊢; tauto))
  have e2 := W2_keep m ρ c b (fun h => hr (by simp only [List.mem_cons, List.mem_nil_iff, or_false] at h ⊢; tauto))
  have e7 : W7 m ρ c (Proc.devRef .tc b) = W6 m ρ c (Proc.devRef .tc b) := StableHlo.after_of_writes_sub hostOps3 _ hostOps3_writes h3
  have e5 : W5 m ρ c (Proc.devRef .tc b) = W4 m ρ c (Proc.devRef .tc b) := StableHlo.after_of_writes_sub hostOps2 _ hostOps2_writes h2
  have e3 : W3 m ρ c (Proc.devRef .tc b) = W2 m ρ c (Proc.devRef .tc b) := StableHlo.after_of_writes_sub hostOps1 _ hostOps1_writes h1
  have e1 : W1 m ρ c (Proc.devRef .tc b) = W0 m ρ c (Proc.devRef .tc b) := StableHlo.after_of_writes_sub hostOps0 _ hostOps0_writes h0
  exact e8.trans (e7.trans (e6.trans (e5.trans (e4.trans (e3.trans (e2.trans (e1.trans rfl)))))))

/-! ## The proof data family and the thread state -/

def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (U1 m ρ) c)
    unfold Pipeline.ΦA
    iintro ⟨Hp, -, Hr⟩
    isplitl [Hr]; · iexact Hr
    iexact Hp
  hout c := by
    refine (hout0 (U1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers and put back at the exit contents; the generator register goes into the invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (U5 m ρ) c)
    unfold Pipeline.ΦA
    iintro ⟨Hp, -, Hr⟩
    isplitl [Hr]; · iexact Hr
    iexact Hp
  hout c := by
    refine (hout2 (U5 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split out
    of the unscoped buffers and put back at the exit contents; the generator register goes into the invariant and comes
    back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

theorem main_run (c : Dev nD) : main (F := F) c = Pipeline.Seg.run (segs m ρ) := (main_chain c).trans (by chain_rfl)

set_option backward.isDefEq.respectTransparency.types false in
/-- THE RUN, at any instance: from any memory with zero counters every weakly fair execution of @main terminates, nothing
    faulting, and in every final state each unscoped buffer of each core holds the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME, at any instance: every weakly fair execution of @main terminates, nothing faulting, and every argument array
    ends as launched — no host operation writes an argument and no region changes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (W8_of_not_written m ρ c main_arg0 (by decide) (by decide) (by decide) (by decide) (by decide)),
    (h c _ (mem_uc main_arg1 (by decide))).trans (W8_of_not_written m ρ c main_arg1 (by decide) (by decide) (by decide) (by decide) (by decide)),
    (h c _ (mem_uc main_arg2 (by decide))).trans (W8_of_not_written m ρ c main_arg2 (by decide) (by decide) (by decide) (by decide) (by decide)),
    (h c _ (mem_uc main_arg3 (by decide))).trans (W8_of_not_written m ρ c main_arg3 (by decide) (by decide) (by decide) (by decide) (by decide)),
    (h c _ (mem_uc main_arg4 (by decide))).trans (W8_of_not_written m ρ c main_arg4 (by decide) (by decide) (by decide) (by decide) (by decide)),
    (h c _ (mem_uc main_arg5 (by decide))).trans (W8_of_not_written m ρ c main_arg5 (by decide) (by decide) (by decide) (by decide) (by decide)),
    (h c _ (mem_uc main_arg6 (by decide))).trans (W8_of_not_written m ρ c main_arg6 (by decide) (by decide) (by decide) (by decide) (by decide)),
    (h c _ (mem_uc main_arg7 (by decide))).trans (W8_of_not_written m ρ c main_arg7 (by decide) (by decide) (by decide) (by decide) (by decide)),
    (h c _ (mem_uc main_arg8 (by decide))).trans (W8_of_not_written m ρ c main_arg8 (by decide) (by decide) (by decide) (by decide) (by decide)),
    (h c _ (mem_uc main_arg9 (by decide))).trans (W8_of_not_written m ρ c main_arg9 (by decide) (by decide) (by decide) (by decide) (by decide)),
    (h c _ (mem_uc main_arg10 (by decide))).trans (W8_of_not_written m ρ c main_arg10 (by decide) (by decide) (by decide) (by decide) (by decide)),
    (h c _ (mem_uc main_arg11 (by decide))).trans (W8_of_not_written m ρ c main_arg11 (by decide) (by decide) (by decide) (by decide) (by decide)),
    (h c _ (mem_uc main_arg12 (by decide))).trans (W8_of_not_written m ρ c main_arg12 (by decide) (by decide) (by decide) (by decide) (by decide)),
    (h c _ (mem_uc main_arg13 (by decide))).trans (W8_of_not_written m ρ c main_arg13 (by decide) (by decide) (by decide) (by decide) (by decide)),
    (h c _ (mem_uc main_arg14 (by decide))).trans (W8_of_not_written m ρ c main_arg14 (by decide) (by decide) (by decide) (by decide) (by decide)),
    (h c _ (mem_uc main_arg15 (by decide))).trans (W8_of_not_written m ρ c main_arg15 (by decide) (by decide) (by decide) (by decide) (by decide)),
    (h c _ (mem_uc main_arg16 (by decide))).trans (W8_of_not_written m ρ c main_arg16 (by decide) (by decide) (by decide) (by decide) (by decide))⟩)
    (run_all m ρ)

/-- The result array after the run: what region 3's write-backs leave. -/
theorem result_eq (r : PUnit × MemSt nD τ sig (Elt F)) (h : ∀ c : Dev nD, ∀ b ∈ Pipeline.ucRefs τ sig, r.2.mem (((c : Thread nD τ)).1, b) = W8 m ρ c b) (c : Dev nD) :
    r.2.mem ((c.tc : Thread nD τ).loc main_v69) = (dat3 (U7 m ρ) c).arrAt 7 cfg3.N :=
  (h c _ (mem_uc main_v69 (by decide))).trans (W8_arr m ρ c 7)

end Cert.Kernel.Hand

end
-- ==== Proof.KIStats0.lean ====
import proofs.«167414_j65335042507073_2_alg».proof.Proof.Gen.KernelIdeal.Launch
import proofs.«167414_j65335042507073_2_alg».proof.Proof.Gen.KernelIdeal.Skeleton
import proofs.«167414_j65335042507073_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the statistics kernel, at the contents `V` the region is entered with

Each grid point reads one block of rows of the two row operands and the whole of the two weight operands and the bias,
forms h = a·Wa + b·Wb + bias on the block, and adds the column sums of h and of h·h to two running sums it keeps in
scratch between points (zeroed at the first point); both result blocks receive the running sums at every point and are
written back after the last. -/

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, fetched there or not: unfetched, its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 holds its block at every point, fetched there or not: unfetched, its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 holds its block at every point, fetched there or not: unfetched, its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 holds its block at every point, fetched there or not: unfetched, its block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 holds its block at every point, fetched there or not: unfetched, its block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The body's branch: the grid coordinate is zero. It holds at the first point only. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-! ## Whole-buffer loads and stores, at literal sizes -/

theorem hz2 : (![0, 0] : Fin 2 → Nat) = fun _ => 0 := by funext a; fin_cases a <;> rfl
theorem hz1 : (![0] : Fin 1 → Nat) = fun _ => 0 := by funext a; fin_cases a; rfl

/-- A load of the whole of a rank-2 buffer reads its contents. -/
theorem ld_z2 {Val : EltTy → Type} {e : EltTy} {a b : Nat} (inb : ∀ x, (![0, 0] : Fin 2 → Nat) x + (⟨2, ![a, b]⟩ : Shape).size x ≤ (⟨2, ![a, b]⟩ : Shape).size x)
    (X : (⟨2, ![a, b]⟩ : Shape).Idx → Val e) : View.ld X (Rect.unit (s := ⟨2, ![a, b]⟩) ![0, 0] ![a, b] inb) = X :=
  View.ld_unit_zero (S := ⟨2, ![a, b]⟩) hz2 inb X
/-- A load of the whole of a rank-1 buffer reads its contents. -/
theorem ld_z1 {Val : EltTy → Type} {e : EltTy} {a : Nat} (inb : ∀ x, (![0] : Fin 1 → Nat) x + (⟨1, ![a]⟩ : Shape).size x ≤ (⟨1, ![a]⟩ : Shape).size x)
    (X : (⟨1, ![a]⟩ : Shape).Idx → Val e) : View.ld X (Rect.unit (s := ⟨1, ![a]⟩) ![0] ![a] inb) = X :=
  View.ld_unit_zero (S := ⟨1, ![a]⟩) hz1 inb X
/-- A store of the whole of a rank-2 buffer, last, leaves its payload. -/
theorem canon_z2 {Val : EltTy → Type} [∀ e, Nonempty (Val e)] {e : EltTy} {a b : Nat} (inb : ∀ x, (![0, 0] : Fin 2 → Nat) x + (⟨2, ![a, b]⟩ : Shape).size x ≤ (⟨2, ![a, b]⟩ : Shape).size x)
    (w : (⟨2, ![a, b]⟩ : Shape).Idx → Val e) (L : List (View.Piece Val ⟨2, ![a, b]⟩ e)) :
    View.canon ((⟨Rect.unit (s := ⟨2, ![a, b]⟩) ![0, 0] ![a, b] inb, w⟩ : View.Piece Val ⟨2, ![a, b]⟩ e) :: L) = w :=
  View.canon_cons_unit_zero (S := ⟨2, ![a, b]⟩) hz2 inb w L
/-- A load of the whole buffer after stores the last of which was of the whole buffer reads that store's payload. -/
theorem readCov_z2 {Val : EltTy → Type} [∀ e, Nonempty (Val e)] {sig : RefSig} {κ : Kind} {sp : Space} {e : EltTy} {a b : Nat}
    (v : View sig κ sp ⟨2, ![a, b]⟩ e) (inb : ∀ x, (![0, 0] : Fin 2 → Nat) x + (⟨2, ![a, b]⟩ : Shape).size x ≤ (⟨2, ![a, b]⟩ : Shape).size x)
    (w : (⟨2, ![a, b]⟩ : Shape).Idx → Val e) (L : List (View.Piece Val ⟨2, ![a, b]⟩ e)) :
    v.readCov ((⟨Rect.unit (s := ⟨2, ![a, b]⟩) ![0, 0] ![a, b] inb, w⟩ : View.Piece Val ⟨2, ![a, b]⟩ e) :: L)
      (Rect.unit (s := ⟨2, ![a, b]⟩) ![0, 0] ![a, b] inb).toLoadRect = w := by
  have hcov : ∀ y : (⟨2, ![a, b]⟩ : Shape).Idx, ∃ p ∈ ((⟨Rect.unit (s := ⟨2, ![a, b]⟩) ![0, 0] ![a, b] inb, w⟩ : View.Piece Val ⟨2, ![a, b]⟩ e) :: L), y ∈ p.1.set :=
    fun y => ⟨⟨Rect.unit (s := ⟨2, ![a, b]⟩) ![0, 0] ![a, b] inb, w⟩, List.Mem.head _, View.mem_set_unit_zero (S := ⟨2, ![a, b]⟩) hz2 inb y⟩
  exact (View.readCov_eq_canon_ld v _ (Rect.unit (s := ⟨2, ![a, b]⟩) ![0, 0] ![a, b] inb) hcov).trans ((congrArg (fun X => View.ld X _) (canon_z2 inb w L)).trans (ld_z2 inb w))

/-- One point's step of the running column sum of h: the sum so far plus the block's column sums. -/
def stepS0 (x0 : Vec F S6400x64 .f32) (x1 : Vec F S6400x32 .f32) (x2 : Vec F S64x128 .f32) (x3 : Vec F S32x128 .f32) (x4 : Vec F S128 .f32) (s : Vec F S1x128 .f32) : Vec F S1x128 .f32 := k0_pay5 x0 x1 x2 x3 x4 s
/-- One point's step of the running column sum of h·h. -/
def stepQ0 (x0 : Vec F S6400x64 .f32) (x1 : Vec F S6400x32 .f32) (x2 : Vec F S64x128 .f32) (x3 : Vec F S32x128 .f32) (x4 : Vec F S128 .f32) (q : Vec F S1x128 .f32) : Vec F S1x128 .f32 := k0_pay1 (k0_pay6 x0 x1 x2 x3 x4 q)

set_option maxHeartbeats 4000000 in
/-- The body at the first point: both scratch sums are zeroed, then stepped; both results receive them. -/
theorem sound_kernel0_first (c : Dev nD) (E : Set ℕ) (i : grid0.Coords) (hc : cond0 i) (arg1 : Memref sig .tc .vmem S6400x64 .f32) (harg1 : arg1.IsWhole) (arg2 : Memref sig .tc .vmem S6400x32 .f32) (harg2 : arg2.IsWhole) (arg3 : Memref sig .tc .vmem S64x128 .f32) (harg3 : arg3.IsWhole) (arg4 : Memref sig .tc .vmem S32x128 .f32) (harg4 : arg4.IsWhole) (arg5 : Memref sig .tc .vmem S128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S6400x64 .f32) (x1 : Vec F S6400x32 .f32) (x2 : Vec F S64x128 .f32) (x3 : Vec F S32x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (stepS0 x0 x1 x2 x3 x4 k0_pay2) ∗ owns (c : Thread nD τ) arg7 fullShare (stepQ0 x0 x1 x2 x3 x4 k0_pay3)
            ∗ owns (c : Thread nD τ) arg8 fullShare (stepS0 x0 x1 x2 x3 x4 k0_pay2) ∗ owns (c : Thread nD τ) arg9 fullShare (stepQ0 x0 x1 x2 x3 x4 k0_pay3)) -∗ K ⟨⟩))
      ⊢ wp frame (wpE (defs₀ (F := F)) Variants.none c none) E (cc0__mlp_stats_kernel i arg1 harg1 arg2 harg2 arg3 harg3 arg4 harg4 arg5 harg5 arg6 harg6 arg7 harg7 arg8 harg8 arg9 harg9) K := by
  simp only [cc0__mlp_stats_kernel_eq_skeleton]; unfold cc0__mlp_stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0; subst hf1; subst hf2; subst hf3; subst hf4
  sl_exec (disch := exact hc)
  sl_step
  iapply Hk
  unfold stepS0 stepQ0
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  isplitl [H6]
  · iexists _; isplitr
    swap; · iexact H6
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  isplitl [H7]
  · iexists _; isplitr
    swap; · iexact H7
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  iexists _; isplitr
  swap; · iexact H8
  ipureintro
  sl_unfold_run_names
  dsimp only
  rw [View.read_writes_eq_canon _ _ _ (fun y => ⟨_, List.Mem.head _, View.mem_set_unit_zero (S := S1x128) hz2 inb_S1x128_S1x128_0_0 y⟩)]
  simp only [canon_z2, readCov_z2, View.readAt_eq_ld, ld_z2, ld_z1]
  try rfl

set_option maxHeartbeats 4000000 in
/-- The body at a later point: both scratch sums, found at `s0` and `s1`, are stepped; both results receive them. -/
theorem sound_kernel0_later (c : Dev nD) (E : Set ℕ) (i : grid0.Coords) (hc : ¬ cond0 i) (arg1 : Memref sig .tc .vmem S6400x64 .f32) (harg1 : arg1.IsWhole) (arg2 : Memref sig .tc .vmem S6400x32 .f32) (harg2 : arg2.IsWhole) (arg3 : Memref sig .tc .vmem S64x128 .f32) (harg3 : arg3.IsWhole) (arg4 : Memref sig .tc .vmem S32x128 .f32) (harg4 : arg4.IsWhole) (arg5 : Memref sig .tc .vmem S128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S6400x64 .f32) (x1 : Vec F S6400x32 .f32) (x2 : Vec F S64x128 .f32) (x3 : Vec F S32x128 .f32) (x4 : Vec F S128 .f32) (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (stepS0 x0 x1 x2 x3 x4 s0) ∗ owns (c : Thread nD τ) arg7 fullShare (stepQ0 x0 x1 x2 x3 x4 s1)
            ∗ owns (c : Thread nD τ) arg8 fullShare (stepS0 x0 x1 x2 x3 x4 s0) ∗ owns (c : Thread nD τ) arg9 fullShare (stepQ0 x0 x1 x2 x3 x4 s1)) -∗ K ⟨⟩))
      ⊢ wp frame (wpE (defs₀ (F := F)) Variants.none c none) E (cc0__mlp_stats_kernel i arg1 harg1 arg2 harg2 arg3 harg3 arg4 harg4 arg5 harg5 arg6 harg6 arg7 harg7 arg8 harg8 arg9 harg9) K := by
  simp only [cc0__mlp_stats_kernel_eq_skeleton]; unfold cc0__mlp_stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf0; subst hf1; subst hf2; subst hf3; subst hf4; subst hf7; subst hf8
  sl_exec (disch := exact hc)
  sl_step
  iapply Hk
  unfold stepS0 stepQ0
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  isplitl [H6]
  · iexists _; isplitr
    swap; · iexact H6
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  isplitl [H7]
  · iexists _; isplitr
    swap; · iexact H7
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  iexists _; isplitr
  swap; · iexact H8
  ipureintro
  sl_unfold_run_names
  dsimp only
  rw [View.read_writes_eq_canon _ _ _ (fun y => ⟨_, List.Mem.head _, View.mem_set_unit_zero (S := S1x128) hz2 inb_S1x128_S1x128_0_0 y⟩)]
  simp only [canon_z2, readCov_z2, View.readAt_eq_ld, ld_z2, ld_z1]
  try rfl

/-! ## The running sums after each point -/

/-- The kernel's two scratch operands, whole scoped buffers of its own. -/
abbrev scM0_0 : Memref sig .tc .vmem S1x128 .f32 := Memref.whole cc0_scratch0
abbrev scM0_1 : Memref sig .tc .vmem S1x128 .f32 := Memref.whole cc0_scratch1

/-- What the two scratch sums (and both result blocks) hold after the body at position `n`: zero stepped once at the first
    point, afterwards what the point before left, stepped. -/
def acc0 (c : Dev nD) : (n : ℕ) → n < cfg0.N → Vec F S1x128 .f32 × Vec F S1x128 .f32
  | 0, hn => (stepS0 (iblk0 V c 0 ⟨0, hn⟩) (iblk0 V c 1 ⟨0, hn⟩) (iblk0 V c 2 ⟨0, hn⟩) (iblk0 V c 3 ⟨0, hn⟩) (iblk0 V c 4 ⟨0, hn⟩) k0_pay2, stepQ0 (iblk0 V c 0 ⟨0, hn⟩) (iblk0 V c 1 ⟨0, hn⟩) (iblk0 V c 2 ⟨0, hn⟩) (iblk0 V c 3 ⟨0, hn⟩) (iblk0 V c 4 ⟨0, hn⟩) k0_pay3)
  | n + 1, hn => (stepS0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (acc0 c n (Nat.lt_of_succ_lt hn)).1,
      stepQ0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (acc0 c n (Nat.lt_of_succ_lt hn)).2)

theorem acc0_first (c : Dev nD) (t : Fin cfg0.N) (h0 : t.val = 0) :
    acc0 V c t.val t.isLt = (stepS0 (iblk0 V c 0 t) (iblk0 V c 1 t) (iblk0 V c 2 t) (iblk0 V c 3 t) (iblk0 V c 4 t) k0_pay2, stepQ0 (iblk0 V c 0 t) (iblk0 V c 1 t) (iblk0 V c 2 t) (iblk0 V c 3 t) (iblk0 V c 4 t) k0_pay3) := by
  obtain ⟨n, hn⟩ := t
  cases n with
  | zero => rfl
  | succ n => exact absurd h0 (Nat.succ_ne_zero n)

theorem acc0_later (c : Dev nD) (t : Fin cfg0.N) (h0 : t.val ≠ 0) :
    acc0 V c t.val t.isLt = (stepS0 (iblk0 V c 0 t) (iblk0 V c 1 t) (iblk0 V c 2 t) (iblk0 V c 3 t) (iblk0 V c 4 t) (acc0 V c (t.val - 1) (Nat.lt_of_le_of_lt (Nat.sub_le _ _) t.isLt)).1,
      stepQ0 (iblk0 V c 0 t) (iblk0 V c 1 t) (iblk0 V c 2 t) (iblk0 V c 3 t) (iblk0 V c 4 t) (acc0 V c (t.val - 1) (Nat.lt_of_le_of_lt (Nat.sub_le _ _) t.isLt)).2) := by
  obtain ⟨n, hn⟩ := t
  cases n with
  | zero => exact absurd rfl h0
  | succ n => rfl

/-- The class invariant with the two scratch operands split off as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]
  try rfl

/-- The region invariant before position `n`: before the first point the class's (every scratch at anything); afterwards
    the two scratch sums at what the point before left, the other scoped buffers at anything, the generator register at
    some state. -/
def PhiS0 (c : Dev nD) : (n : ℕ) → n ≤ cfg0.N → sProp 𝕄
  | 0, _ => Pipeline.ΦA spec0 c
  | n + 1, hn => iprop(iprop(iprop(owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (acc0 V c (n - 1) (by omega)).1 ∗ owns (c : Thread nD τ) scM0_1 fullShare (acc0 V c (n - 1) (by omega)).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data of region 0 -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (acc0 V c t.val t.isLt).1
    | ⟨6, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (acc0 V c t.val t.isLt).1 := by dsimp only [dat0]
theorem after0_6 (c : Dev nD) (t : Fin cfg0.N) : (dat0 V c).after 6 t = (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: the inputs' memrefs hold their blocks; at the first point the invariant hands the body both
    scratch sums at anything, at a later point at what the point before left; it takes them back stepped. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, after0_6]
  rw [show (dat0 V c).Φ t.succ = PhiS0 V c (t.val + 1) t.isLt from rfl, PhiS0_succ, PhiS0_castSucc]
  by_cases h0 : t.val = 0
  · rw [PhiS0_zero V c t.val _ h0, PhiA0_eq, acc0_first V c t h0]
    iintro ⟨⟨⟨⟨Hs0, Hs1⟩, Hrest⟩, Hp⟩, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ _ ((hcond0 t).mpr h0) _ _ _ _ _ _ _ _ _ _ _ _ _ _ _ _ _ _ (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs0]; · iexact Hs0
    isplitl [Hs1]; · iexact Hs1
    iintro ⟨H0, H1, H2, H3, H4, H5, H6, Hs0, Hs1⟩
    isplitl [Hs0 Hs1 Hrest Hp]
    · isplitl [Hs0 Hs1 Hrest]
      · isplitl [Hs0 Hs1]
        · isplitl [Hs0]; · iexact Hs0
          iexact Hs1
        iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS0_pos V c t.val _ h0, acc0_later V c t h0]
    iintro ⟨⟨⟨⟨Hs0, Hs1⟩, Hrest⟩, Hp⟩, Ho, ⟨%d0, H0⟩, ⟨%d1, H1⟩, ⟨%d2, H2⟩, ⟨%d3, H3⟩, ⟨%d4, H4⟩, ⟨%d5, H5⟩, ⟨%d6, H6⟩⟩
    iapply (sound_kernel0_later c Set.univ _ (fun h => h0 ((hcond0 t).mp h)) _ _ _ _ _ _ _ _ _ _ _ _ _ _ _ _ _ _ (iblk0 V c 0 t) (iblk0 V c 1 t) (iblk0 V c 2 t) (iblk0 V c 3 t) (iblk0 V c 4 t) _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs0]; · iexact Hs0
    isplitl [Hs1]; · iexact Hs1
    iintro ⟨H0, H1, H2, H3, H4, H5, H6, Hs0, Hs1⟩
    isplitl [Hs0 Hs1 Hrest Hp]
    · isplitl [Hs0 Hs1 Hrest]
      · isplitl [Hs0 Hs1]
        · isplitl [Hs0]; · iexact Hs0
          iexact Hs1
        iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The class invariant makes the invariant before the first point. -/
theorem hin0 (c : Dev nD) : Pipeline.ΦA spec0 c ⊢ (dat0 V c).Φ 0 := by
  rw [show (dat0 V c).Φ 0 = Pipeline.ΦA spec0 c from rfl]

/-- After any point the invariant gives the class invariant back: the scratch sums forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c t.val _ ht, PhiA0_eq]
  iintro ⟨⟨⟨Hs0, Hs1⟩, Hrest⟩, Hp⟩
  isplitl [Hs0 Hs1 Hrest]
  · isplitl [Hs0 Hs1]
    · isplitl [Hs0]; · iexists _; iexact Hs0
      iexists _; iexact Hs1
    iexact Hrest
  iexact Hp

theorem hout0 (c : Dev nD) : (dat0 V c).Φ (Fin.last cfg0.N) ⊢ Pipeline.ΦA spec0 c :=
  Phi_out0 V c (Fin.last cfg0.N) (by decide)

end Region
end Cert.KernelIdeal.Hand

end
-- ==== Proof.KIFused1.lean ====
import proofs.«167414_j65335042507073_2_alg».proof.Proof.Gen.KernelIdeal.Launch
import proofs.«167414_j65335042507073_2_alg».proof.Proof.Gen.KernelIdeal.Skeleton
import proofs.«167414_j65335042507073_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the fused two-layer kernel, at the contents `V` the region is entered with

Each grid point reads one block of rows of the two row operands and the whole of the five weight and bias operands,
and writes one block of rows of the result: relu (a·Wa + b·Wb + bias₁) · W₂ + bias₂. -/

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, fetched there or not: unfetched, its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 holds its block at every point, fetched there or not: unfetched, its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 holds its block at every point, fetched there or not: unfetched, its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 holds its block at every point, fetched there or not: unfetched, its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 holds its block at every point, fetched there or not: unfetched, its block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 holds its block at every point, fetched there or not: unfetched, its block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6 holds its block at every point, fetched there or not: unfetched, its block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The whole of each staging buffer, as the rectangle the body's loads and its one store name. -/
abbrev r1_0 : Rect S6400x64 := Rect.unit (s := S6400x64) ![0, 0] S6400x64.size inb_S6400x64_S6400x64_0_0
abbrev r1_1 : Rect S6400x32 := Rect.unit (s := S6400x32) ![0, 0] S6400x32.size inb_S6400x32_S6400x32_0_0
abbrev r1_2 : Rect S64x128 := Rect.unit (s := S64x128) ![0, 0] S64x128.size inb_S64x128_S64x128_0_0
abbrev r1_3 : Rect S32x128 := Rect.unit (s := S32x128) ![0, 0] S32x128.size inb_S32x128_S32x128_0_0
abbrev r1_4 : Rect S128 := Rect.unit (s := S128) ![0] S128.size inb_S128_S128_0
abbrev r1_5 : Rect S128x128 := Rect.unit (s := S128x128) ![0, 0] S128x128.size inb_S128x128_S128x128_0_0
abbrev r1_6 : Rect S128 := Rect.unit (s := S128) ![0] S128.size inb_S128_S128_0
abbrev r1_7 : Rect S6400x128 := Rect.unit (s := S6400x128) ![0, 0] S6400x128.size inb_S6400x128_S6400x128_0_0

/-- The result block after the body, from the seven input blocks: the body's one store, of the whole block. -/
def out1_7 (x0 : Vec F S6400x64 .f32) (x1 : Vec F S6400x32 .f32) (x2 : Vec F S64x128 .f32) (x3 : Vec F S32x128 .f32) (x4 : Vec F S128 .f32) (x5 : Vec F S128x128 .f32) (x6 : Vec F S128 .f32) : Vec F S6400x128 .f32 :=
  View.canon [⟨r1_7, k1_pay1 (View.ld x0 r1_0) (View.ld x1 r1_1) (View.ld x2 r1_2) (View.ld x3 r1_3) (View.ld x4 r1_4) (View.ld x5 r1_5) (View.ld x6 r1_6)⟩]

/-- The store covers the block. -/
theorem cover1_7 (p0 : Vec F S6400x128 .f32) (y : S6400x128.Idx) :
    ∃ pc ∈ ([⟨r1_7, p0⟩] : List (View.Piece (Elt F) S6400x128 .f32)), y ∈ pc.1.set :=
  View.cover_of_tiled [⟨r1_7, p0⟩] S6400x128.size (by rfl) y

set_option maxHeartbeats 4000000 in
/-- The body on whole staging memrefs, the inputs' at contents `xW` and the result's at anything, runs to the continuation
    holding the inputs' unchanged and the result's at `out1_7` of the inputs'. -/
theorem sound_kernel1 (c : Dev nD) (E : Set ℕ) (i : grid1.Coords)
    (arg0 : Memref sig .tc .vmem S6400x64 .f32) (harg0 : arg0.IsWhole) (arg1 : Memref sig .tc .vmem S6400x32 .f32) (harg1 : arg1.IsWhole) (arg2 : Memref sig .tc .vmem S64x128 .f32) (harg2 : arg2.IsWhole) (arg3 : Memref sig .tc .vmem S32x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S6400x128 .f32) (harg7 : arg7.IsWhole)
    (x0 : Vec F S6400x64 .f32) (x1 : Vec F S6400x32 .f32) (x2 : Vec F S64x128 .f32) (x3 : Vec F S32x128 .f32) (x4 : Vec F S128 .f32) (x5 : Vec F S128x128 .f32) (x6 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__mlp_fused_kernel i arg0 harg0 arg1 harg1 arg2 harg2 arg3 harg3 arg4 harg4 arg5 harg5 arg6 harg6 arg7 harg7) K := by
  simp only [cc1__mlp_fused_kernel_eq_skeleton]; unfold cc1__mlp_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The proof data of region 1 -/

/-- The arrays as the region finds them; after the body at point `t` each input's buffer at its block and the result's at
    `out1_7` of the input blocks; the invariant is the scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the inputs' memrefs hold their blocks, so the kernel's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region
end Cert.KernelIdeal.Hand

end
-- ==== Proof.KIStats2.lean ====
import proofs.«167414_j65335042507073_2_alg».proof.Proof.KIStats0
import proofs.«167414_j65335042507073_2_alg».proof.Proof.Gen.KernelIdeal.Launch
import proofs.«167414_j65335042507073_2_alg».proof.Proof.Gen.KernelIdeal.Skeleton
import proofs.«167414_j65335042507073_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the statistics kernel, at the contents `V` the region is entered with

Each grid point reads one block of rows of the two row operands and the whole of the two weight operands and the bias,
forms h = a·Wa + b·Wb + bias on the block, and adds the column sums of h and of h·h to two running sums it keeps in
scratch between points (zeroed at the first point); both result blocks receive the running sums at every point and are
written back after the last. -/

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block at every point, fetched there or not: unfetched, its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 holds its block at every point, fetched there or not: unfetched, its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 holds its block at every point, fetched there or not: unfetched, its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 holds its block at every point, fetched there or not: unfetched, its block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 holds its block at every point, fetched there or not: unfetched, its block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The body's branch: the grid coordinate is zero. It holds at the first point only. -/
abbrev cond2 (i : grid2.Coords) : Prop := (Scalar.cmpi .ne (Scalar.extui (Scalar.cmpi .eq (BitVec.ofNat 32 (i 0).val) 0#32)) 0#32) = 1#1
theorem hcond2 : ∀ t : Fin cfg2.N, cond2 (grid2.coords t) ↔ t.val = 0 :=
  (by decide +kernel : ∀ t : Fin grid2.N, cond2 (grid2.coords t) ↔ t.val = 0)

/-- One point's step of the running column sum of h: the sum so far plus the block's column sums. -/
def stepS2 (x0 : Vec F S5000x64 .f32) (x1 : Vec F S5000x128 .f32) (x2 : Vec F S64x128 .f32) (x3 : Vec F S128x128 .f32) (x4 : Vec F S128 .f32) (s : Vec F S1x128 .f32) : Vec F S1x128 .f32 := k2_pay5 x0 x1 x2 x3 x4 s
/-- One point's step of the running column sum of h·h. -/
def stepQ2 (x0 : Vec F S5000x64 .f32) (x1 : Vec F S5000x128 .f32) (x2 : Vec F S64x128 .f32) (x3 : Vec F S128x128 .f32) (x4 : Vec F S128 .f32) (q : Vec F S1x128 .f32) : Vec F S1x128 .f32 := k2_pay1 (k2_pay6 x0 x1 x2 x3 x4 q)

set_option maxHeartbeats 4000000 in
/-- The body at the first point: both scratch sums are zeroed, then stepped; both results receive them. -/
theorem sound_kernel2_first (c : Dev nD) (E : Set ℕ) (i : grid2.Coords) (hc : cond2 i) (arg1 : Memref sig .tc .vmem S5000x64 .f32) (harg1 : arg1.IsWhole) (arg2 : Memref sig .tc .vmem S5000x128 .f32) (harg2 : arg2.IsWhole) (arg3 : Memref sig .tc .vmem S64x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S5000x64 .f32) (x1 : Vec F S5000x128 .f32) (x2 : Vec F S64x128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (stepS2 x0 x1 x2 x3 x4 k2_pay2) ∗ owns (c : Thread nD τ) arg7 fullShare (stepQ2 x0 x1 x2 x3 x4 k2_pay3)
            ∗ owns (c : Thread nD τ) arg8 fullShare (stepS2 x0 x1 x2 x3 x4 k2_pay2) ∗ owns (c : Thread nD τ) arg9 fullShare (stepQ2 x0 x1 x2 x3 x4 k2_pay3)) -∗ K ⟨⟩))
      ⊢ wp frame (wpE (defs₀ (F := F)) Variants.none c none) E (cc2__mlp_stats_kernel i arg1 harg1 arg2 harg2 arg3 harg3 arg4 harg4 arg5 harg5 arg6 harg6 arg7 harg7 arg8 harg8 arg9 harg9) K := by
  simp only [cc2__mlp_stats_kernel_eq_skeleton]; unfold cc2__mlp_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0; subst hf1; subst hf2; subst hf3; subst hf4
  sl_exec (disch := exact hc)
  sl_step
  iapply Hk
  unfold stepS2 stepQ2
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  isplitl [H6]
  · iexists _; isplitr
    swap; · iexact H6
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  isplitl [H7]
  · iexists _; isplitr
    swap; · iexact H7
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  iexists _; isplitr
  swap; · iexact H8
  ipureintro
  sl_unfold_run_names
  dsimp only
  rw [View.read_writes_eq_canon _ _ _ (fun y => ⟨_, List.Mem.head _, View.mem_set_unit_zero (S := S1x128) hz2 inb_S1x128_S1x128_0_0 y⟩)]
  simp only [canon_z2, readCov_z2, View.readAt_eq_ld, ld_z2, ld_z1]
  try rfl

set_option maxHeartbeats 4000000 in
/-- The body at a later point: both scratch sums, found at `s0` and `s1`, are stepped; both results receive them. -/
theorem sound_kernel2_later (c : Dev nD) (E : Set ℕ) (i : grid2.Coords) (hc : ¬ cond2 i) (arg1 : Memref sig .tc .vmem S5000x64 .f32) (harg1 : arg1.IsWhole) (arg2 : Memref sig .tc .vmem S5000x128 .f32) (harg2 : arg2.IsWhole) (arg3 : Memref sig .tc .vmem S64x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S5000x64 .f32) (x1 : Vec F S5000x128 .f32) (x2 : Vec F S64x128 .f32) (x3 : Vec F S128x128 .f32) (x4 : Vec F S128 .f32) (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (stepS2 x0 x1 x2 x3 x4 s0) ∗ owns (c : Thread nD τ) arg7 fullShare (stepQ2 x0 x1 x2 x3 x4 s1)
            ∗ owns (c : Thread nD τ) arg8 fullShare (stepS2 x0 x1 x2 x3 x4 s0) ∗ owns (c : Thread nD τ) arg9 fullShare (stepQ2 x0 x1 x2 x3 x4 s1)) -∗ K ⟨⟩))
      ⊢ wp frame (wpE (defs₀ (F := F)) Variants.none c none) E (cc2__mlp_stats_kernel i arg1 harg1 arg2 harg2 arg3 harg3 arg4 harg4 arg5 harg5 arg6 harg6 arg7 harg7 arg8 harg8 arg9 harg9) K := by
  simp only [cc2__mlp_stats_kernel_eq_skeleton]; unfold cc2__mlp_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf0; subst hf1; subst hf2; subst hf3; subst hf4; subst hf7; subst hf8
  sl_exec (disch := exact hc)
  sl_step
  iapply Hk
  unfold stepS2 stepQ2
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  isplitl [H6]
  · iexists _; isplitr
    swap; · iexact H6
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  isplitl [H7]
  · iexists _; isplitr
    swap; · iexact H7
    ipureintro
    sl_unfold_run_names
    dsimp only
    rw [View.read_writes_eq_canon _ _ _ (fun y => ⟨_, List.Mem.head _, View.mem_set_unit_zero (S := S1x128) hz2 inb_S1x128_S1x128_0_0 y⟩)]
    simp only [canon_z2, readCov_z2, View.readAt_eq_ld, ld_z2, ld_z1]
    try rfl
  iexists _; isplitr
  swap; · iexact H8
  ipureintro
  sl_unfold_run_names
  dsimp only
  rw [View.read_writes_eq_canon _ _ _ (fun y => ⟨_, List.Mem.head _, View.mem_set_unit_zero (S := S1x128) hz2 inb_S1x128_S1x128_0_0 y⟩)]
  simp only [canon_z2, readCov_z2, View.readAt_eq_ld, ld_z2, ld_z1]
  try rfl

/-! ## The running sums after each point -/

/-- The kernel's two scratch operands, whole scoped buffers of its own. -/
abbrev scM2_0 : Memref sig .tc .vmem S1x128 .f32 := Memref.whole cc2_scratch0
abbrev scM2_1 : Memref sig .tc .vmem S1x128 .f32 := Memref.whole cc2_scratch1

/-- What the two scratch sums (and both result blocks) hold after the body at position `n`: zero stepped once at the first
    point, afterwards what the point before left, stepped. -/
def acc2 (c : Dev nD) : (n : ℕ) → n < cfg2.N → Vec F S1x128 .f32 × Vec F S1x128 .f32
  | 0, hn => (stepS2 (iblk2 V c 0 ⟨0, hn⟩) (iblk2 V c 1 ⟨0, hn⟩) (iblk2 V c 2 ⟨0, hn⟩) (iblk2 V c 3 ⟨0, hn⟩) (iblk2 V c 4 ⟨0, hn⟩) k2_pay2, stepQ2 (iblk2 V c 0 ⟨0, hn⟩) (iblk2 V c 1 ⟨0, hn⟩) (iblk2 V c 2 ⟨0, hn⟩) (iblk2 V c 3 ⟨0, hn⟩) (iblk2 V c 4 ⟨0, hn⟩) k2_pay3)
  | n + 1, hn => (stepS2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (acc2 c n (Nat.lt_of_succ_lt hn)).1,
      stepQ2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (acc2 c n (Nat.lt_of_succ_lt hn)).2)

theorem acc2_first (c : Dev nD) (t : Fin cfg2.N) (h0 : t.val = 0) :
    acc2 V c t.val t.isLt = (stepS2 (iblk2 V c 0 t) (iblk2 V c 1 t) (iblk2 V c 2 t) (iblk2 V c 3 t) (iblk2 V c 4 t) k2_pay2, stepQ2 (iblk2 V c 0 t) (iblk2 V c 1 t) (iblk2 V c 2 t) (iblk2 V c 3 t) (iblk2 V c 4 t) k2_pay3) := by
  obtain ⟨n, hn⟩ := t
  cases n with
  | zero => rfl
  | succ n => exact absurd h0 (Nat.succ_ne_zero n)

theorem acc2_later (c : Dev nD) (t : Fin cfg2.N) (h0 : t.val ≠ 0) :
    acc2 V c t.val t.isLt = (stepS2 (iblk2 V c 0 t) (iblk2 V c 1 t) (iblk2 V c 2 t) (iblk2 V c 3 t) (iblk2 V c 4 t) (acc2 V c (t.val - 1) (Nat.lt_of_le_of_lt (Nat.sub_le _ _) t.isLt)).1,
      stepQ2 (iblk2 V c 0 t) (iblk2 V c 1 t) (iblk2 V c 2 t) (iblk2 V c 3 t) (iblk2 V c 4 t) (acc2 V c (t.val - 1) (Nat.lt_of_le_of_lt (Nat.sub_le _ _) t.isLt)).2) := by
  obtain ⟨n, hn⟩ := t
  cases n with
  | zero => exact absurd rfl h0
  | succ n => rfl

/-- The class invariant with the two scratch operands split off as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]
  try rfl

/-- The region invariant before position `n`: before the first point the class's (every scratch at anything); afterwards
    the two scratch sums at what the point before left, the other scoped buffers at anything, the generator register at
    some state. -/
def PhiS2 (c : Dev nD) : (n : ℕ) → n ≤ cfg2.N → sProp 𝕄
  | 0, _ => Pipeline.ΦA spec2 c
  | n + 1, hn => iprop(iprop(iprop(owns (c : Thread nD τ) scM2_0 fullShare (acc2 V c n hn).1 ∗ owns (c : Thread nD τ) scM2_1 fullShare (acc2 V c n hn).2)
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (acc2 V c n hn).1 ∗ owns (c : Thread nD τ) scM2_1 fullShare (acc2 V c n hn).2)
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (acc2 V c (n - 1) (by omega)).1 ∗ owns (c : Thread nD τ) scM2_1 fullShare (acc2 V c (n - 1) (by omega)).2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The proof data of region 2 -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (acc2 V c t.val t.isLt).1
    | ⟨6, _⟩ => (acc2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (acc2 V c t.val t.isLt).1 := by dsimp only [dat2]
theorem after2_6 (c : Dev nD) (t : Fin cfg2.N) : (dat2 V c).after 6 t = (acc2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 4000000 in
/-- The body at any point: the inputs' memrefs hold their blocks; at the first point the invariant hands the body both
    scratch sums at anything, at a later point at what the point before left; it takes them back stepped. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl,
    after2_0, after2_1, after2_2, after2_3, after2_4, after2_5, after2_6]
  rw [show (dat2 V c).Φ t.succ = PhiS2 V c (t.val + 1) t.isLt from rfl, PhiS2_succ, PhiS2_castSucc]
  by_cases h0 : t.val = 0
  · rw [PhiS2_zero V c t.val _ h0, PhiA2_eq, acc2_first V c t h0]
    iintro ⟨⟨⟨⟨Hs0, Hs1⟩, Hrest⟩, Hp⟩, Ho, ⟨%d0, H0⟩, ⟨%d1, H1⟩, ⟨%d2, H2⟩, ⟨%d3, H3⟩, ⟨%d4, H4⟩, ⟨%d5, H5⟩, ⟨%d6, H6⟩⟩
    iapply (sound_kernel2_first c Set.univ _ ((hcond2 t).mpr h0) _ _ _ _ _ _ _ _ _ _ _ _ _ _ _ _ _ _ (iblk2 V c 0 t) (iblk2 V c 1 t) (iblk2 V c 2 t) (iblk2 V c 3 t) (iblk2 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs0]; · iexact Hs0
    isplitl [Hs1]; · iexact Hs1
    iintro ⟨H0, H1, H2, H3, H4, H5, H6, Hs0, Hs1⟩
    isplitl [Hs0 Hs1 Hrest Hp]
    · isplitl [Hs0 Hs1 Hrest]
      · isplitl [Hs0 Hs1]
        · isplitl [Hs0]; · iexact Hs0
          iexact Hs1
        iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS2_pos V c t.val _ h0, acc2_later V c t h0]
    iintro ⟨⟨⟨⟨Hs0, Hs1⟩, Hrest⟩, Hp⟩, Ho, ⟨%d0, H0⟩, ⟨%d1, H1⟩, ⟨%d2, H2⟩, ⟨%d3, H3⟩, ⟨%d4, H4⟩, ⟨%d5, H5⟩, ⟨%d6, H6⟩⟩
    iapply (sound_kernel2_later c Set.univ _ (fun h => h0 ((hcond2 t).mp h)) _ _ _ _ _ _ _ _ _ _ _ _ _ _ _ _ _ _ (iblk2 V c 0 t) (iblk2 V c 1 t) (iblk2 V c 2 t) (iblk2 V c 3 t) (iblk2 V c 4 t) _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs0]; · iexact Hs0
    isplitl [Hs1]; · iexact Hs1
    iintro ⟨H0, H1, H2, H3, H4, H5, H6, Hs0, Hs1⟩
    isplitl [Hs0 Hs1 Hrest Hp]
    · isplitl [Hs0 Hs1 Hrest]
      · isplitl [Hs0 Hs1]
        · isplitl [Hs0]; · iexact Hs0
          iexact Hs1
        iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The class invariant makes the invariant before the first point. -/
theorem hin2 (c : Dev nD) : Pipeline.ΦA spec2 c ⊢ (dat2 V c).Φ 0 := by
  rw [show (dat2 V c).Φ 0 = Pipeline.ΦA spec2 c from rfl]

/-- After any point the invariant gives the class invariant back: the scratch sums forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c t.val _ ht, PhiA2_eq]
  iintro ⟨⟨⟨Hs0, Hs1⟩, Hrest⟩, Hp⟩
  isplitl [Hs0 Hs1 Hrest]
  · isplitl [Hs0 Hs1]
    · isplitl [Hs0]; · iexists _; iexact Hs0
      iexists _; iexact Hs1
    iexact Hrest
  iexact Hp

theorem hout2 (c : Dev nD) : (dat2 V c).Φ (Fin.last cfg2.N) ⊢ Pipeline.ΦA spec2 c :=
  Phi_out2 V c (Fin.last cfg2.N) (by decide)

end Region
end Cert.KernelIdeal.Hand

end
-- ==== Proof.KIFused3.lean ====
import proofs.«167414_j65335042507073_2_alg».proof.Proof.Gen.KernelIdeal.Launch
import proofs.«167414_j65335042507073_2_alg».proof.Proof.Gen.KernelIdeal.Skeleton
import proofs.«167414_j65335042507073_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the fused two-layer kernel, at the contents `V` the region is entered with

Each grid point reads one block of rows of the two row operands and the whole of the five weight and bias operands,
and writes one block of rows of the result: relu (a·Wa + b·Wb + bias₁) · W₂ + bias₂. -/

section Region
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 holds its block at every point, fetched there or not: unfetched, its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 holds its block at every point, fetched there or not: unfetched, its block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 holds its block at every point, fetched there or not: unfetched, its block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3 holds its block at every point, fetched there or not: unfetched, its block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4 holds its block at every point, fetched there or not: unfetched, its block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5 holds its block at every point, fetched there or not: unfetched, its block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6 holds its block at every point, fetched there or not: unfetched, its block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- The whole of each staging buffer, as the rectangle the body's loads and its one store name. -/
abbrev r3_0 : Rect S5000x64 := Rect.unit (s := S5000x64) ![0, 0] S5000x64.size inb_S5000x64_S5000x64_0_0
abbrev r3_1 : Rect S5000x128 := Rect.unit (s := S5000x128) ![0, 0] S5000x128.size inb_S5000x128_S5000x128_0_0
abbrev r3_2 : Rect S64x128 := Rect.unit (s := S64x128) ![0, 0] S64x128.size inb_S64x128_S64x128_0_0
abbrev r3_3 : Rect S128x128 := Rect.unit (s := S128x128) ![0, 0] S128x128.size inb_S128x128_S128x128_0_0
abbrev r3_4 : Rect S128 := Rect.unit (s := S128) ![0] S128.size inb_S128_S128_0
abbrev r3_5 : Rect S128x64 := Rect.unit (s := S128x64) ![0, 0] S128x64.size inb_S128x64_S128x64_0_0
abbrev r3_6 : Rect S64 := Rect.unit (s := S64) ![0] S64.size inb_S64_S64_0
abbrev r3_7 : Rect S5000x64 := Rect.unit (s := S5000x64) ![0, 0] S5000x64.size inb_S5000x64_S5000x64_0_0

/-- The result block after the body, from the seven input blocks: the body's one store, of the whole block. -/
def out3_7 (x0 : Vec F S5000x64 .f32) (x1 : Vec F S5000x128 .f32) (x2 : Vec F S64x128 .f32) (x3 : Vec F S128x128 .f32) (x4 : Vec F S128 .f32) (x5 : Vec F S128x64 .f32) (x6 : Vec F S64 .f32) : Vec F S5000x64 .f32 :=
  View.canon [⟨r3_7, k3_pay1 (View.ld x0 r3_0) (View.ld x1 r3_1) (View.ld x2 r3_2) (View.ld x3 r3_3) (View.ld x4 r3_4) (View.ld x5 r3_5) (View.ld x6 r3_6)⟩]

/-- The store covers the block. -/
theorem cover3_7 (p0 : Vec F S5000x64 .f32) (y : S5000x64.Idx) :
    ∃ pc ∈ ([⟨r3_7, p0⟩] : List (View.Piece (Elt F) S5000x64 .f32)), y ∈ pc.1.set :=
  View.cover_of_tiled [⟨r3_7, p0⟩] S5000x64.size (by rfl) y

set_option maxHeartbeats 4000000 in
/-- The body on whole staging memrefs, the inputs' at contents `xW` and the result's at anything, runs to the continuation
    holding the inputs' unchanged and the result's at `out3_7` of the inputs'. -/
theorem sound_kernel3 (c : Dev nD) (E : Set ℕ) (i : grid3.Coords)
    (arg0 : Memref sig .tc .vmem S5000x64 .f32) (harg0 : arg0.IsWhole) (arg1 : Memref sig .tc .vmem S5000x128 .f32) (harg1 : arg1.IsWhole) (arg2 : Memref sig .tc .vmem S64x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x64 .f32) (harg5 : arg5.IsWhole) (arg6 : Memref sig .tc .vmem S64 .f32) (harg6 : arg6.IsWhole) (arg7 : Memref sig .tc .vmem S5000x64 .f32) (harg7 : arg7.IsWhole)
    (x0 : Vec F S5000x64 .f32) (x1 : Vec F S5000x128 .f32) (x2 : Vec F S64x128 .f32) (x3 : Vec F S128x128 .f32) (x4 : Vec F S128 .f32) (x5 : Vec F S128x64 .f32) (x6 : Vec F S64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out3_7 x0 x1 x2 x3 x4 x5 x6)) -∗ K ⟨⟩))
      ⊢ wp frame (wpE (defs₀ (F := F)) Variants.none c none) E (cc3__mlp_fused_kernel i arg0 harg0 arg1 harg1 arg2 harg2 arg3 harg3 arg4 harg4 arg5 harg5 arg6 harg6 arg7 harg7) K := by
  simp only [cc3__mlp_fused_kernel_eq_skeleton]; unfold cc3__mlp_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The proof data of region 3 -/

/-- The arrays as the region finds them; after the body at point `t` each input's buffer at its block and the result's at
    `out3_7` of the input blocks; the invariant is the scoped rest and the generator register, untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 4000000 in
/-- The body at any point: the inputs' memrefs hold their blocks, so the kernel's triple applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region
end Cert.KernelIdeal.Hand

end
-- ==== Proof.KIRun.lean ====
import proofs.«167414_j65335042507073_2_alg».proof.Proof.KIStats0
import proofs.«167414_j65335042507073_2_alg».proof.Proof.KIFused1
import proofs.«167414_j65335042507073_2_alg».proof.Proof.KIStats2
import proofs.«167414_j65335042507073_2_alg».proof.Proof.KIFused3
import proofs.«167414_j65335042507073_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's eight segments from the launch to the return

Four stretches of host operations alternate with the four kernel regions. Between two segments every unscoped buffer of
the core is held at known contents: the launch memory, then each host stretch's operations applied, then each region's
arrays at what its write-backs leave. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- A buffer that is no result of region 0 leaves it as it entered: an input window's array is never written back. -/
theorem W2_keep (c : Dev nD) (b : Ref sig .tc) (hb : b ∉ ([main_v13_0, main_v13_1] : List (Ref sig .tc))) :
    W2 m ρ c (Proc.devRef .tc b) = W1 m ρ c (Proc.devRef .tc b) := by
  by_cases h : ∃ w, Pipeline.arrRef spec0 w = b
  · obtain ⟨w, rfl⟩ := h
    have hin : (cfg0.win w).isOut = false := by revert hb; revert w; decide
    exact (W2_arr m ρ c w).trans (((dat0 (U1 m ρ) c).arrAt_in w hin _).trans (A_eq0 (U1 m ρ) c w))
  · exact W2_of_ne m ρ c b fun w e => h ⟨w, e⟩

/-- After host stretch 1 (region 1's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- A buffer that is no result of region 1 leaves it as it entered: an input window's array is never written back. -/
theorem W4_keep (c : Dev nD) (b : Ref sig .tc) (hb : b ∉ ([main_v38] : List (Ref sig .tc))) :
    W4 m ρ c (Proc.devRef .tc b) = W3 m ρ c (Proc.devRef .tc b) := by
  by_cases h : ∃ w, Pipeline.arrRef spec1 w = b
  · obtain ⟨w, rfl⟩ := h
    have hin : (cfg1.win w).isOut = false := by revert hb; revert w; decide
    exact (W4_arr m ρ c w).trans (((dat1 (U3 m ρ) c).arrAt_in w hin _).trans (A_eq1 (U3 m ρ) c w))
  · exact W4_of_ne m ρ c b fun w e => h ⟨w, e⟩

/-- After host stretch 2 (region 2's entry). -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)
/-- A buffer that is no result of region 2 leaves it as it entered: an input window's array is never written back. -/
theorem W6_keep (c : Dev nD) (b : Ref sig .tc) (hb : b ∉ ([main_v44_0, main_v44_1] : List (Ref sig .tc))) :
    W6 m ρ c (Proc.devRef .tc b) = W5 m ρ c (Proc.devRef .tc b) := by
  by_cases h : ∃ w, Pipeline.arrRef spec2 w = b
  · obtain ⟨w, rfl⟩ := h
    have hin : (cfg2.win w).isOut = false := by revert hb; revert w; decide
    exact (W6_arr m ρ c w).trans (((dat2 (U5 m ρ) c).arrAt_in w hin _).trans (A_eq2 (U5 m ρ) c w))
  · exact W6_of_ne m ρ c b fun w e => h ⟨w, e⟩

/-- After host stretch 3 (region 3's entry). -/
abbrev W7 : Dev nD → Valuation τ sig (Elt F) := fun c => StableHlo.after hostOps3 (W6 m ρ c)
abbrev U7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev U8 : (c : Dev nD) → (b : Ref sig .tc) → Buf (Elt F) ((c : Thread nD τ).loc b) := fun c b => W8 m ρ c b
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)
/-- A buffer that is no result of region 3 leaves it as it entered: an input window's array is never written back. -/
theorem W8_keep (c : Dev nD) (b : Ref sig .tc) (hb : b ∉ ([main_v69] : List (Ref sig .tc))) :
    W8 m ρ c (Proc.devRef .tc b) = W7 m ρ c (Proc.devRef .tc b) := by
  by_cases h : ∃ w, Pipeline.arrRef spec3 w = b
  · obtain ⟨w, rfl⟩ := h
    have hin : (cfg3.win w).isOut = false := by revert hb; revert w; decide
    exact (W8_arr m ρ c w).trans (((dat3 (U7 m ρ) c).arrAt_in w hin _).trans (A_eq3 (U7 m ρ) c w))
  · exact W8_of_ne m ρ c b fun w e => h ⟨w, e⟩

/-- A buffer no host operation writes and no region changes ends as launched. -/
theorem W8_of_not_written (c : Dev nD) (b : Ref sig .tc) (h0 : b ∉ hostOps0_W) (h1 : b ∉ hostOps1_W) (h2 : b ∉ hostOps2_W) (h3 : b ∉ hostOps3_W)
    (hr : b ∉ ([main_v13_0, main_v13_1, main_v38, main_v44_0, main_v44_1, main_v69] : List (Ref sig .tc))) :
    W8 m ρ c (Proc.devRef .tc b) = m ((c : Thread nD τ).loc b) := by
  have e8 := W8_keep m ρ c b (fun h => hr (by simp only [List.mem_cons, List.mem_nil_iff, or_false] at h ⊢; tauto))
  have e6 := W6_keep m ρ c b (fun h => hr (by simp only [List.mem_cons, List.mem_nil_iff, or_false] at h ⊢; tauto))
  have e4 := W4_keep m ρ c b (fun h => hr (by simp only [List.mem_cons, List.mem_nil_iff, or_false] at h ⊢; tauto))
  have e2 := W2_keep m ρ c b (fun h => hr (by simp only [List.mem_cons, List.mem_nil_iff, or_false] at h ⊢; tauto))
  have e7 : W7 m ρ c (Proc.devRef .tc b) = W6 m ρ c (Proc.devRef .tc b) := StableHlo.after_of_writes_sub hostOps3 _ hostOps3_writes h3
  have e5 : W5 m ρ c (Proc.devRef .tc b) = W4 m ρ c (Proc.devRef .tc b) := StableHlo.after_of_writes_sub hostOps2 _ hostOps2_writes h2
  have e3 : W3 m ρ c (Proc.devRef .tc b) = W2 m ρ c (Proc.devRef .tc b) := StableHlo.after_of_writes_sub hostOps1 _ hostOps1_writes h1
  have e1 : W1 m ρ c (Proc.devRef .tc b) = W0 m ρ c (Proc.devRef .tc b) := StableHlo.after_of_writes_sub hostOps0 _ hostOps0_writes h0
  exact e8.trans (e7.trans (e6.trans (e5.trans (e4.trans (e3.trans (e2.trans (e1.trans rfl)))))))

/-! ## The proof data family and the thread state -/

def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (U1 m ρ) c)
    unfold Pipeline.ΦA
    iintro ⟨Hp, -, Hr⟩
    isplitl [Hr]; · iexact Hr
    iexact Hp
  hout c := by
    refine (hout0 (U1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers and put back at the exit contents; the generator register goes into the invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (U5 m ρ) c)
    unfold Pipeline.ΦA
    iintro ⟨Hp, -, Hr⟩
    isplitl [Hr]; · iexact Hr
    iexact Hp
  hout c := by
    refine (hout2 (U5 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split out
    of the unscoped buffers and put back at the exit contents; the generator register goes into the invariant and comes
    back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

theorem main_run (c : Dev nD) : main (F := F) c = Pipeline.Seg.run (segs m ρ) := (main_chain c).trans (by chain_rfl)

set_option backward.isDefEq.respectTransparency.types false in
/-- THE RUN, at any instance: from any memory with zero counters every weakly fair execution of @main terminates, nothing
    faulting, and in every final state each unscoped buffer of each core holds the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME, at any instance: every weakly fair execution of @main terminates, nothing faulting, and every argument array
    ends as launched — no host operation writes an argument and no region changes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (W8_of_not_written m ρ c main_arg0 (by decide) (by decide) (by decide) (by decide) (by decide)),
    (h c _ (mem_uc main_arg1 (by decide))).trans (W8_of_not_written m ρ c main_arg1 (by decide) (by decide) (by decide) (by decide) (by decide)),
    (h c _ (mem_uc main_arg2 (by decide))).trans (W8_of_not_written m ρ c main_arg2 (by decide) (by decide) (by decide) (by decide) (by decide)),
    (h c _ (mem_uc main_arg3 (by decide))).trans (W8_of_not_written m ρ c main_arg3 (by decide) (by decide) (by decide) (by decide) (by decide)),
    (h c _ (mem_uc main_arg4 (by decide))).trans (W8_of_not_written m ρ c main_arg4 (by decide) (by decide) (by decide) (by decide) (by decide)),
    (h c _ (mem_uc main_arg5 (by decide))).trans (W8_of_not_written m ρ c main_arg5 (by decide) (by decide) (by decide) (by decide) (by decide)),
    (h c _ (mem_uc main_arg6 (by decide))).trans (W8_of_not_written m ρ c main_arg6 (by decide) (by decide) (by decide) (by decide) (by decide)),
    (h c _ (mem_uc main_arg7 (by decide))).trans (W8_of_not_written m ρ c main_arg7 (by decide) (by decide) (by decide) (by decide) (by decide)),
    (h c _ (mem_uc main_arg8 (by decide))).trans (W8_of_not_written m ρ c main_arg8 (by decide) (by decide) (by decide) (by decide) (by decide)),
    (h c _ (mem_uc main_arg9 (by decide))).trans (W8_of_not_written m ρ c main_arg9 (by decide) (by decide) (by decide) (by decide) (by decide)),
    (h c _ (mem_uc main_arg10 (by decide))).trans (W8_of_not_written m ρ c main_arg10 (by decide) (by decide) (by decide) (by decide) (by decide)),
    (h c _ (mem_uc main_arg11 (by decide))).trans (W8_of_not_written m ρ c main_arg11 (by decide) (by decide) (by decide) (by decide) (by decide)),
    (h c _ (mem_uc main_arg12 (by decide))).trans (W8_of_not_written m ρ c main_arg12 (by decide) (by decide) (by decide) (by decide) (by decide)),
    (h c _ (mem_uc main_arg13 (by decide))).trans (W8_of_not_written m ρ c main_arg13 (by decide) (by decide) (by decide) (by decide) (by decide)),
    (h c _ (mem_uc main_arg14 (by decide))).trans (W8_of_not_written m ρ c main_arg14 (by decide) (by decide) (by decide) (by decide) (by decide)),
    (h c _ (mem_uc main_arg15 (by decide))).trans (W8_of_not_written m ρ c main_arg15 (by decide) (by decide) (by decide) (by decide) (by decide)),
    (h c _ (mem_uc main_arg16 (by decide))).trans (W8_of_not_written m ρ c main_arg16 (by decide) (by decide) (by decide) (by decide) (by decide))⟩)
    (run_all m ρ)

/-- The result array after the run: what region 3's write-backs leave. -/
theorem result_eq (r : PUnit × MemSt nD τ sig (Elt F)) (h : ∀ c : Dev nD, ∀ b ∈ Pipeline.ucRefs τ sig, r.2.mem (((c : Thread nD τ)).1, b) = W8 m ρ c b) (c : Dev nD) :
    r.2.mem ((c.tc : Thread nD τ).loc main_v69) = (dat3 (U7 m ρ) c).arrAt 7 cfg3.N :=
  (h c _ (mem_uc main_v69 (by decide))).trans (W8_arr m ρ c 7)

end Cert.KernelIdeal.Hand

end
-- ==== Proof.RefRun.lean ====
import proofs.«167414_j65335042507073_2_alg».proof.Defs
import proofs.«167414_j65335042507073_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## What the program computes, stage by stage

Every stage is a function of array contents only. The float literals are bit patterns: 0x00000000 is 0,
0x49435000 is 800000, 0x47435000 is 50000, 0x3727C5AC is the f32 nearest 1e-5, 0x7FC00000 is a NaN. The arguments
are x (node features, 50000 × 64), ei (the edge table, 2 × 800000, row 0 the source and row 1 the destination of
each edge), ea (edge features, 800000 × 32), and the weights of two perceptrons of two layers each. -/

section Stages

/-- Row 0 of the edge table as a flat vector of 800000 indices. -/
def row0 (ei : IVec S2x800000 32) : IVec S800000 32 :=
  shapeCast S800000 (extractStridedSlice S1x800000 ![0, 0] ei slices_S2x800000_S1x800000_0_0) shapeCasts_S1x800000_S800000

/-- Row 1 of the edge table as a flat vector of 800000 indices. -/
def row1 (ei : IVec S2x800000 32) : IVec S800000 32 :=
  shapeCast S800000 (extractStridedSlice S1x800000 ![1, 0] ei slices_S2x800000_S1x800000_1_0) shapeCasts_S1x800000_S800000

/-- The source row of each edge, as a column: an index below zero is shifted up by the row count 50000. -/
def srcIdx (ei : IVec S2x800000 32) : IVec S800000x1 32 :=
  broadcastInDim S800000x1 ![0] bcast_S800000_S800000x1_0
    (select (cmpi .slt (row0 ei) (broadcastInDim S800000 ![] bcast_S_S800000 (constantI S_ 32 0#32)))
      (addi (row0 ei) (broadcastInDim S800000 ![] bcast_S_S800000 (constantI S_ 32 50000#32)))
      (row0 ei))

/-- The destination row of each edge, as a column (not normalised: the scatter drops an index outside the rows). -/
def dstIdx (ei : IVec S2x800000 32) : IVec S800000x1 32 :=
  broadcastInDim S800000x1 ![0] bcast_S800000_S800000x1_0 (row1 ei)

/-- The first layer's input: for each edge the 64 features of its source node, then its own 32 features. -/
def edgeIn (x : FVec F S50000x64 .f32) (ei : IVec S2x800000 32) (ea : FVec F S800000x32 .f32) : FVec F S800000x96 .f32 :=
  concatenate S800000x96 1
    [⟨S800000x64, Host.gather gather_S50000x64_S800000x1_S800000x64_1_0_n_n_0_1_164 x (srcIdx ei)⟩, ⟨S800000x32, ea⟩]
    concatenates_S800000x64_S800000x32_S800000x96_d1

/-- A vector of 128 as every row of an 800000 × 128 array. -/
def rowsE (v : FVec F S128 .f32) : FVec F S800000x128 .f32 :=
  broadcastInDim S800000x128 ![0, 1] bcast_S1x128_S800000x128_0_1 (broadcastInDim S1x128 ![1] bcast_S128_S1x128_1 v)

/-- A vector of 128 as every row of a 50000 × 128 array. -/
def rowsN (v : FVec F S128 .f32) : FVec F S50000x128 .f32 :=
  broadcastInDim S50000x128 ![0, 1] bcast_S1x128_S50000x128_0_1 (broadcastInDim S1x128 ![1] bcast_S128_S1x128_1 v)

/-- A vector of 64 as every row of a 50000 × 64 array. -/
def rows64 (v : FVec F S64 .f32) : FVec F S50000x64 .f32 :=
  broadcastInDim S50000x64 ![0, 1] bcast_S1x64_S50000x64_0_1 (broadcastInDim S1x64 ![1] bcast_S64_S1x64_1 v)

/-- The first linear layer: e · w + b on every edge. -/
def lin1 (e : FVec F S800000x96 .f32) (w : FVec F S96x128 .f32) (b : FVec F S128 .f32) : FVec F S800000x128 .f32 :=
  addf (Host.dotGeneral dot_S800000x96_S96x128_S800000x128_1_0_0_1_n_n none e w) (rowsE b)

/-- The mean over the 800000 rows: the column sums divided by 800000. -/
def meanE (h : FVec F S800000x128 .f32) : FVec F S128 .f32 :=
  Host.divf (Host.reduceAdd h (constant S_ .f32 0x00000000#32) reducesTo_S800000x128_S128_d0 h_S_)
    (broadcastInDim S128 ![] bcast_S_S128 (constant S_ .f32 0x49435000#32))

/-- 800000 − ddof as a float, ddof the integer constant 0. -/
def cntE : FVec F S_ .f32 :=
  subf (constant S_ .f32 0x49435000#32) (sitofp .f32 (constantI S_ 32 0#32))

/-- The deviations from the column means (the means computed again, as a 1 × 128 array). -/
def devE (h : FVec F S800000x128 .f32) : FVec F S800000x128 .f32 :=
  subf h (broadcastInDim S800000x128 ![0, 1] bcast_S1x128_S800000x128_0_1
    (Host.divf
      (broadcastInDim S1x128 ![1] bcast_S128_S1x128_1
        (Host.reduceAdd h (constant S_ .f32 0x00000000#32) reducesTo_S800000x128_S128_d0 h_S_))
      (broadcastInDim S1x128 ![] bcast_S_S1x128 (constant S_ .f32 0x49435000#32))))

/-- The variance over the 800000 rows: where 800000 − ddof > 0, the column sums of the squared deviations divided by
    800000 − ddof; a NaN elsewhere. -/
def varE (h : FVec F S800000x128 .f32) : FVec F S128 .f32 :=
  select (broadcastInDim S128 ![] bcast_S_S128 (cmpf .ogt (cntE (F := F)) (constant S_ .f32 0x00000000#32)))
    (Host.divf
      (Host.reduceAdd (mulf (devE h) (devE h)) (constant S_ .f32 0x00000000#32) reducesTo_S800000x128_S128_d0 h_S_)
      (broadcastInDim S128 ![] bcast_S_S128 cntE))
    (broadcastInDim S128 ![] bcast_S_S128 (constant S_ .f32 0x7FC00000#32))

/-- Normalisation of h by a mean μ and a variance v, with scale g and shift β: g · (h − μ) / sqrt (v + 1e-5) + β. -/
def normE (h : FVec F S800000x128 .f32) (μ v g β : FVec F S128 .f32) : FVec F S800000x128 .f32 :=
  addf
    (Host.divf (mulf (rowsE g) (subf h (rowsE μ)))
      (rowsE (Host.sqrt (addf v (broadcastInDim S128 ![] bcast_S_S128 (constant S_ .f32 0x3727C5AC#32))))))
    (rowsE β)

/-- max(·, 0) on 800000 × 128. -/
def reluE (a : FVec F S800000x128 .f32) : FVec F S800000x128 .f32 :=
  maximumf a (broadcastInDim S800000x128 ![] bcast_S_S800000x128 (constant S_ .f32 0x00000000#32))

/-- The second linear layer: a · w + b on every edge. -/
def lin2 (a : FVec F S800000x128 .f32) (w : FVec F S128x128 .f32) (b : FVec F S128 .f32) : FVec F S800000x128 .f32 :=
  addf (Host.dotGeneral dot_S800000x128_S128x128_S800000x128_1_0_0_1_n_n none a w) (rowsE b)

/-- The messages summed per destination node: from zeros, row r of msg added into row dst r. -/
def agg (ei : IVec S2x800000 32) (msg : FVec F S800000x128 .f32) : FVec F S50000x128 .f32 :=
  Host.scatterAdd scatter_S50000x128_S800000x1_S800000x128_1_0_0_1
    (broadcastInDim S50000x128 ![] bcast_S_S50000x128 (constant S_ .f32 0x00000000#32)) (dstIdx ei) msg

/-- The third layer's input: for each node its 64 features, then its 128 summed messages. -/
def nodeIn (x : FVec F S50000x64 .f32) (a : FVec F S50000x128 .f32) : FVec F S50000x192 .f32 :=
  concatenate S50000x192 1 [⟨S50000x64, x⟩, ⟨S50000x128, a⟩] concatenates_S50000x64_S50000x128_S50000x192_d1

/-- The third linear layer: n · w + b on every node. -/
def lin3 (n : FVec F S50000x192 .f32) (w : FVec F S192x128 .f32) (b : FVec F S128 .f32) : FVec F S50000x128 .f32 :=
  addf (Host.dotGeneral dot_S50000x192_S192x128_S50000x128_1_0_0_1_n_n none n w) (rowsN b)

/-- The mean over the 50000 rows: the column sums divided by 50000. -/
def meanN (h : FVec F S50000x128 .f32) : FVec F S128 .f32 :=
  Host.divf (Host.reduceAdd h (constant S_ .f32 0x00000000#32) reducesTo_S50000x128_S128_d0 h_S_)
    (broadcastInDim S128 ![] bcast_S_S128 (constant S_ .f32 0x47435000#32))

/-- 50000 − ddof as a float, ddof the integer constant 0. -/
def cntN : FVec F S_ .f32 :=
  subf (constant S_ .f32 0x47435000#32) (sitofp .f32 (constantI S_ 32 0#32))

/-- The deviations from the column means (the means computed again, as a 1 × 128 array). -/
def devN (h : FVec F S50000x128 .f32) : FVec F S50000x128 .f32 :=
  subf h (broadcastInDim S50000x128 ![0, 1] bcast_S1x128_S50000x128_0_1
    (Host.divf
      (broadcastInDim S1x128 ![1] bcast_S128_S1x128_1
        (Host.reduceAdd h (constant S_ .f32 0x00000000#32) reducesTo_S50000x128_S128_d0 h_S_))
      (broadcastInDim S1x128 ![] bcast_S_S1x128 (constant S_ .f32 0x47435000#32))))

/-- The variance over the 50000 rows: where 50000 − ddof > 0, the column sums of the squared deviations divided by
    50000 − ddof; a NaN elsewhere. -/
def varN (h : FVec F S50000x128 .f32) : FVec F S128 .f32 :=
  select (broadcastInDim S128 ![] bcast_S_S128 (cmpf .ogt (cntN (F := F)) (constant S_ .f32 0x00000000#32)))
    (Host.divf
      (Host.reduceAdd (mulf (devN h) (devN h)) (constant S_ .f32 0x00000000#32) reducesTo_S50000x128_S128_d0 h_S_)
      (broadcastInDim S128 ![] bcast_S_S128 cntN))
    (broadcastInDim S128 ![] bcast_S_S128 (constant S_ .f32 0x7FC00000#32))

/-- Normalisation on 50000 × 128: g · (h − μ) / sqrt (v + 1e-5) + β. -/
def normN (h : FVec F S50000x128 .f32) (μ v g β : FVec F S128 .f32) : FVec F S50000x128 .f32 :=
  addf
    (Host.divf (mulf (rowsN g) (subf h (rowsN μ)))
      (rowsN (Host.sqrt (addf v (broadcastInDim S128 ![] bcast_S_S128 (constant S_ .f32 0x3727C5AC#32))))))
    (rowsN β)

/-- max(·, 0) on 50000 × 128. -/
def reluN (a : FVec F S50000x128 .f32) : FVec F S50000x128 .f32 :=
  maximumf a (broadcastInDim S50000x128 ![] bcast_S_S50000x128 (constant S_ .f32 0x00000000#32))

/-- The last linear layer: a · w + b on every node, 64 wide. -/
def lin4 (a : FVec F S50000x128 .f32) (w : FVec F S128x64 .f32) (b : FVec F S64 .f32) : FVec F S50000x64 .f32 :=
  addf (Host.dotGeneral dot_S50000x128_S128x64_S50000x64_1_0_0_1_n_n none a w) (rows64 b)

/-- The first perceptron's hidden layer before normalisation, on every edge. -/
def hidE (x : FVec F S50000x64 .f32) (ei : IVec S2x800000 32) (ea : FVec F S800000x32 .f32)
    (w1 : FVec F S96x128 .f32) (b1 : FVec F S128 .f32) : FVec F S800000x128 .f32 :=
  lin1 (edgeIn x ei ea) w1 b1

/-- The summed messages: the first perceptron (normalised by its own batch mean and variance, then relu, then the
    second layer) on every edge, added up per destination node. -/
def msgs (x : FVec F S50000x64 .f32) (ei : IVec S2x800000 32) (ea : FVec F S800000x32 .f32)
    (w1 : FVec F S96x128 .f32) (b1 g1 β1 : FVec F S128 .f32) (w2 : FVec F S128x128 .f32) (b2 : FVec F S128 .f32) :
    FVec F S50000x128 .f32 :=
  agg ei (lin2 (reluE (normE (hidE x ei ea w1 b1) (meanE (hidE x ei ea w1 b1)) (varE (hidE x ei ea w1 b1)) g1 β1)) w2 b2)

/-- The second perceptron's hidden layer before normalisation, on every node. -/
def hidN (x : FVec F S50000x64 .f32) (ei : IVec S2x800000 32) (ea : FVec F S800000x32 .f32)
    (w1 : FVec F S96x128 .f32) (b1 g1 β1 : FVec F S128 .f32) (w2 : FVec F S128x128 .f32) (b2 : FVec F S128 .f32)
    (w3 : FVec F S192x128 .f32) (b3 : FVec F S128 .f32) : FVec F S50000x128 .f32 :=
  lin3 (nodeIn x (msgs x ei ea w1 b1 g1 β1 w2 b2)) w3 b3

/-- The result as a function of the seventeen arguments' contents (u and batch are not read): the second perceptron
    (normalised by its own batch mean and variance, then relu, then the last layer) on every node. -/
def out (x : FVec F S50000x64 .f32) (ei : IVec S2x800000 32) (ea : FVec F S800000x32 .f32) (u : FVec F S1x16 .f32)
    (batch : IVec S50000 32) (w1 : FVec F S96x128 .f32) (b1 g1 β1 : FVec F S128 .f32) (w2 : FVec F S128x128 .f32)
    (b2 : FVec F S128 .f32) (w3 : FVec F S192x128 .f32) (b3 g2 β2 : FVec F S128 .f32) (w4 : FVec F S128x64 .f32)
    (b4 : FVec F S64 .f32) : FVec F S50000x64 .f32 :=
  lin4 (reluN (normN (hidN x ei ea w1 b1 g1 β1 w2 b2 w3 b3) (meanN (hidN x ei ea w1 b1 g1 β1 w2 b2 w3 b3))
    (varN (hidN x ei ea w1 b1 g1 β1 w2 b2 w3 b3)) g2 β2)) w4 b4

end Stages

/-! ## The operations, in order, the calls unfolded at their buffers -/

/-- The two rows of the edge table as flat index vectors; the first row with negative entries shifted by 50000, as a column. -/
abbrev wA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)) ]

/-- The gathered node rows joined with the edge features, the first linear layer on them, and its mean over the 800000 rows. -/
abbrev wB : List (HloOp τ sig (Elt F)) :=
  [ StableHlo.binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v10 main_arg2 main_v11 ((fun a b => concatenate S800000x96 1 [⟨S800000x64, a⟩, ⟨S800000x32, b⟩] concatenates_S800000x64_S800000x32_S800000x96_d1) : (⟨S800000x64, .f32⟩ : BufTy).Contents (Elt F) → (⟨S800000x32, .f32⟩ : BufTy).Contents (Elt F) → (⟨S800000x96, .f32⟩ : BufTy).Contents (Elt F)),
    StableHlo.binary main_v11 main_arg5 main_v12 ((fun l r => Host.dotGeneral dot_S800000x96_S96x128_S800000x128_1_0_0_1_n_n none l r) : (⟨S800000x96, .f32⟩ : BufTy).Contents (Elt F) → (⟨S96x128, .f32⟩ : BufTy).Contents (Elt F) → (⟨S800000x128, .f32⟩ : BufTy).Contents (Elt F)),
    StableHlo.unary main_arg6 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S800000x128 ![0, 1] bcast_S1x128_S800000x128_0_1 : (⟨S1x128, .f32⟩ : BufTy).Contents (Elt F) → (⟨S800000x128, .f32⟩ : BufTy).Contents (Elt F)),
    StableHlo.binary main_v12 main_v14 main_v15 (addf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.binary main_v15 main_cst main_v16 ((fun x v => Host.reduceAdd x v reducesTo_S800000x128_S128_d0 h_S_) : (⟨S800000x128, .f32⟩ : BufTy).Contents (Elt F) → (⟨S_, .f32⟩ : BufTy).Contents (Elt F) → (⟨S128, .f32⟩ : BufTy).Contents (Elt F)),
    StableHlo.nullary main_cst_1 (constant S_ .f32 0x49435000#32),
    StableHlo.unary main_cst_1 main_v17 (broadcastInDim S128 ![] bcast_S_S128 : (⟨S_, .f32⟩ : BufTy).Contents (Elt F) → (⟨S128, .f32⟩ : BufTy).Contents (Elt F)),
    StableHlo.binary main_v16 main_v17 main_v18 (Host.divf : (⟨S128, .f32⟩ : BufTy).Contents (Elt F) → (⟨S128, .f32⟩ : BufTy).Contents (Elt F) → (⟨S128, .f32⟩ : BufTy).Contents (Elt F)) ]

/-- The variance of the first linear layer over its rows: the mean of the squared deviations, divided by 800000 - ddof with ddof = 0, and NaN unless that divisor is positive. -/
abbrev wC : List (HloOp τ sig (Elt F)) :=
  [ StableHlo.nullary main_c_2 (constantI S_ 32 0#32),
    StableHlo.TRef.nullary main_call0.cst (constant S_ .f32 0x00000000#32),
    StableHlo.TRef.binary (StableHlo.TRef.of main_v15 : StableHlo.TRef sig ⟨S800000x128, .f32⟩) main_call0.cst main_call0.v0 (fun x v => Host.reduceAdd x v reducesTo_S800000x128_S128_d0 h_S_),
    StableHlo.TRef.unary main_call0.v0 main_call0.v1 (broadcastInDim S1x128 ![1] bcast_S128_S1x128_1),
    StableHlo.TRef.nullary main_call0.cst_0 (constant S_ .f32 0x49435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S800000x128 ![0, 1] bcast_S1x128_S800000x128_0_1),
    StableHlo.TRef.binary (StableHlo.TRef.of main_v15 : StableHlo.TRef sig ⟨S800000x128, .f32⟩) main_call0.v4 main_call0.v5 subf,
    StableHlo.TRef.binary main_call0.v5 main_call0.v5 main_call0.v6 mulf,
    StableHlo.TRef.unary (StableHlo.TRef.of main_c_2 : StableHlo.TRef sig ⟨S_, .i32⟩) main_call0.v7 (sitofp .f32),
    StableHlo.TRef.nullary main_call0.cst_1 (constant S_ .f32 0x49435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S800000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- Normalisation of the first linear layer, relu, the second linear layer, and its rows summed into the 50000 node rows by the second row of the edge table. -/
abbrev wD : List (HloOp τ sig (Elt F)) :=
  [ StableHlo.unary main_v18 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S800000x128 ![0, 1] bcast_S1x128_S800000x128_0_1 : (⟨S1x128, .f32⟩ : BufTy).Contents (Elt F) → (⟨S800000x128, .f32⟩ : BufTy).Contents (Elt F)),
    StableHlo.binary main_v15 main_v21 main_v22 (subf : (⟨S800000x128, .f32⟩ : BufTy).Contents (Elt F) → (⟨S800000x128, .f32⟩ : BufTy).Contents (Elt F) → (⟨S800000x128, .f32⟩ : BufTy).Contents (Elt F)),
    StableHlo.unary main_arg7 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S800000x128 ![0, 1] bcast_S1x128_S800000x128_0_1 : (⟨S1x128, .f32⟩ : BufTy).Contents (Elt F) → (⟨S800000x128, .f32⟩ : BufTy).Contents (Elt F)),
    StableHlo.binary main_v24 main_v22 main_v25 (mulf : (⟨S800000x128, .f32⟩ : BufTy).Contents (Elt F) → (⟨S800000x128, .f32⟩ : BufTy).Contents (Elt F) → (⟨S800000x128, .f32⟩ : BufTy).Contents (Elt F)),
    StableHlo.nullary main_cst_3 (constant S_ .f32 0x3727C5AC#32),
    StableHlo.unary main_cst_3 main_v26 (broadcastInDim S128 ![] bcast_S_S128 : (⟨S_, .f32⟩ : BufTy).Contents (Elt F) → (⟨S128, .f32⟩ : BufTy).Contents (Elt F)),
    StableHlo.binary main_v19 main_v26 main_v27 (addf : (⟨S128, .f32⟩ : BufTy).Contents (Elt F) → (⟨S128, .f32⟩ : BufTy).Contents (Elt F) → (⟨S128, .f32⟩ : BufTy).Contents (Elt F)),
    StableHlo.unary main_v27 main_v28 (Host.sqrt : (⟨S128, .f32⟩ : BufTy).Contents (Elt F) → (⟨S128, .f32⟩ : BufTy).Contents (Elt F)),
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S800000x128 ![0, 1] bcast_S1x128_S800000x128_0_1 : (⟨S1x128, .f32⟩ : BufTy).Contents (Elt F) → (⟨S800000x128, .f32⟩ : BufTy).Contents (Elt F)),
    StableHlo.binary main_v25 main_v30 main_v31 (Host.divf : (⟨S800000x128, .f32⟩ : BufTy).Contents (Elt F) → (⟨S800000x128, .f32⟩ : BufTy).Contents (Elt F) → (⟨S800000x128, .f32⟩ : BufTy).Contents (Elt F)),
    StableHlo.unary main_arg8 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S800000x128 ![0, 1] bcast_S1x128_S800000x128_0_1 : (⟨S1x128, .f32⟩ : BufTy).Contents (Elt F) → (⟨S800000x128, .f32⟩ : BufTy).Contents (Elt F)),
    StableHlo.binary main_v31 main_v33 main_v34 (addf : (⟨S800000x128, .f32⟩ : BufTy).Contents (Elt F) → (⟨S800000x128, .f32⟩ : BufTy).Contents (Elt F) → (⟨S800000x128, .f32⟩ : BufTy).Contents (Elt F)),
    StableHlo.TRef.nullary main_call1.cst (constant S_ .f32 0x00000000#32),
    StableHlo.TRef.unary main_call1.cst main_call1.v0 (broadcastInDim S800000x128 ![] bcast_S_S800000x128),
    StableHlo.TRef.binary (StableHlo.TRef.of main_v34 : StableHlo.TRef sig ⟨S800000x128, .f32⟩) main_call1.v0 main_call1.v1 maximumf,
    StableHlo.binary main_v35 main_arg9 main_v36 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg10 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S800000x128 ![0, 1] bcast_S1x128_S800000x128_0_1 : (⟨S1x128, .f32⟩ : BufTy).Contents (Elt F) → (⟨S800000x128, .f32⟩ : BufTy).Contents (Elt F)),
    StableHlo.binary main_v36 main_v38 main_v39 (addf : (⟨S800000x128, .f32⟩ : BufTy).Contents (Elt F) → (⟨S800000x128, .f32⟩ : BufTy).Contents (Elt F) → (⟨S800000x128, .f32⟩ : BufTy).Contents (Elt F)),
    StableHlo.nullary main_cst_4 (constant S_ .f32 0x00000000#32),
    StableHlo.unary main_cst_4 main_v40 (broadcastInDim S50000x128 ![] bcast_S_S50000x128 : (⟨S_, .f32⟩ : BufTy).Contents (Elt F) → (⟨S50000x128, .f32⟩ : BufTy).Contents (Elt F)),
    StableHlo.unary main_v3 main_v41 (broadcastInDim S800000x1 ![0] bcast_S800000_S800000x1_0 : (⟨S800000, .i32⟩ : BufTy).Contents (Elt F) → (⟨S800000x1, .i32⟩ : BufTy).Contents (Elt F)),
    StableHlo.ternary main_v40 main_v41 main_v39 main_v42 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The node features joined with the summed messages, the third linear layer, and its mean over the 50000 rows. -/
abbrev wE : List (HloOp τ sig (Elt F)) :=
  [ StableHlo.binary main_arg0 main_v42 main_v43 ((fun a b => concatenate S50000x192 1 [⟨S50000x64, a⟩, ⟨S50000x128, b⟩] concatenates_S50000x64_S50000x128_S50000x192_d1) : (⟨S50000x64, .f32⟩ : BufTy).Contents (Elt F) → (⟨S50000x128, .f32⟩ : BufTy).Contents (Elt F) → (⟨S50000x192, .f32⟩ : BufTy).Contents (Elt F)),
    StableHlo.binary main_v43 main_arg11 main_v44 ((fun l r => Host.dotGeneral dot_S50000x192_S192x128_S50000x128_1_0_0_1_n_n none l r) : (⟨S50000x192, .f32⟩ : BufTy).Contents (Elt F) → (⟨S192x128, .f32⟩ : BufTy).Contents (Elt F) → (⟨S50000x128, .f32⟩ : BufTy).Contents (Elt F)),
    StableHlo.unary main_arg12 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v46 main_v47 (addf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x00000000#32),
    StableHlo.binary main_v47 main_cst_5 main_v48 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v49 (broadcastInDim S128 ![] bcast_S_S128 : (⟨S_, .f32⟩ : BufTy).Contents (Elt F) → (⟨S128, .f32⟩ : BufTy).Contents (Elt F)),
    StableHlo.binary main_v48 main_v49 main_v50 (Host.divf : (⟨S128, .f32⟩ : BufTy).Contents (Elt F) → (⟨S128, .f32⟩ : BufTy).Contents (Elt F) → (⟨S128, .f32⟩ : BufTy).Contents (Elt F)) ]

/-- The variance of the third linear layer over its rows, as before with 50000 in place of 800000. -/
abbrev wF : List (HloOp τ sig (Elt F)) :=
  [ StableHlo.nullary main_c_7 (constantI S_ 32 0#32),
    StableHlo.TRef.nullary main_call2.cst (constant S_ .f32 0x00000000#32),
    StableHlo.TRef.binary (StableHlo.TRef.of main_v47 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (StableHlo.TRef.of main_v47 : StableHlo.TRef sig ⟨S50000x128, .f32⟩) main_call2.v4 main_call2.v5 subf,
    StableHlo.TRef.binary main_call2.v5 main_call2.v5 main_call2.v6 mulf,
    StableHlo.TRef.unary (StableHlo.TRef.of main_c_7 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- Normalisation of the third linear layer, relu, and the last linear layer. -/
abbrev wG : List (HloOp τ sig (Elt F)) :=
  [ StableHlo.unary main_v50 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v53 main_v54 (subf : (⟨S50000x128, .f32⟩ : BufTy).Contents (Elt F) → (⟨S50000x128, .f32⟩ : BufTy).Contents (Elt F) → (⟨S50000x128, .f32⟩ : BufTy).Contents (Elt F)),
    StableHlo.unary main_arg13 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v54 main_v57 (mulf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v58 (broadcastInDim S128 ![] bcast_S_S128 : (⟨S_, .f32⟩ : BufTy).Contents (Elt F) → (⟨S128, .f32⟩ : BufTy).Contents (Elt F)),
    StableHlo.binary main_v51 main_v58 main_v59 (addf : (⟨S128, .f32⟩ : BufTy).Contents (Elt F) → (⟨S128, .f32⟩ : BufTy).Contents (Elt F) → (⟨S128, .f32⟩ : BufTy).Contents (Elt F)),
    StableHlo.unary main_v59 main_v60 (Host.sqrt : (⟨S128, .f32⟩ : BufTy).Contents (Elt F) → (⟨S128, .f32⟩ : BufTy).Contents (Elt F)),
    StableHlo.unary main_v60 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v57 main_v62 main_v63 (Host.divf : (⟨S50000x128, .f32⟩ : BufTy).Contents (Elt F) → (⟨S50000x128, .f32⟩ : BufTy).Contents (Elt F) → (⟨S50000x128, .f32⟩ : BufTy).Contents (Elt F)),
    StableHlo.unary main_arg14 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v65 main_v66 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (StableHlo.TRef.of main_v66 : StableHlo.TRef sig ⟨S50000x128, .f32⟩) main_call3.v0 main_call3.v1 maximumf,
    StableHlo.binary main_v67 main_arg15 main_v68 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg16 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S50000x64 ![0, 1] bcast_S1x64_S50000x64_0_1 : (⟨S1x64, .f32⟩ : BufTy).Contents (Elt F) → (⟨S50000x64, .f32⟩ : BufTy).Contents (Elt F)),
    StableHlo.binary main_v68 main_v70 main_v71 (addf : (⟨S50000x64, .f32⟩ : BufTy).Contents (Elt F) → (⟨S50000x64, .f32⟩ : BufTy).Contents (Elt F) → (⟨S50000x64, .f32⟩ : BufTy).Contents (Elt F)) ]

/-- The operations of the first 60 statements. -/
abbrev opsA : List (HloOp τ sig (Elt F)) := wA ++ (wB ++ (wC ++ (wD ++ wE)))
/-- The operations of the remaining statements. -/
abbrev opsB : List (HloOp τ sig (Elt F)) := wF ++ wG
/-- All 129 operations. -/
abbrev ops : List (HloOp τ sig (Elt F)) := opsA ++ opsB

set_option maxRecDepth 8192 in
set_option maxHeartbeats 4000000 in
/-- The first 60 statements are the straight line of their operations: the called functions unfold at their calls. -/
theorem partA_eq (c : Dev nD) : main_part0 (F := F) c = seq opsA := rfl
set_option maxRecDepth 8192 in
set_option maxHeartbeats 4000000 in
/-- The remaining statements likewise. -/
theorem partB_eq (c : Dev nD) : main_part1 (F := F) c = seq opsB := rfl
/-- @main is the straight line of all the operations. -/
theorem main_eq (c : Dev nD) : main (F := F) c = seq ops := by
  simp only [ops, seq_append, ← partA_eq c, ← partB_eq c]
  rfl
theorem scopedRefs_eq : (Finset.univ.filter fun b : Ref sig .tc => b.isScoped) = ∅ := by decide
theorem scopedSems_eq : (Finset.univ.filter fun sm : SemLoc sig => sm.isScoped .tc) = ∅ := by decide
theorem wA_sub : (wA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub ..⟩
theorem wB_sub : (wB : List (HloOp τ sig (Elt F))).Forall fun op => op.bufs ⊆ tcRefs τ sig :=
  ⟨binary_bufs_sub .., binary_bufs_sub .., binary_bufs_sub .., unary_bufs_sub .., unary_bufs_sub .., binary_bufs_sub .., nullary_bufs_sub .., binary_bufs_sub .., nullary_bufs_sub .., unary_bufs_sub .., binary_bufs_sub ..⟩
theorem wC_sub : (wC : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem wD_sub : (wD : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub ..⟩
theorem wE_sub : (wE : List (HloOp τ sig (Elt F))).Forall fun op => op.bufs ⊆ tcRefs τ sig :=
  ⟨binary_bufs_sub .., binary_bufs_sub .., unary_bufs_sub .., unary_bufs_sub .., binary_bufs_sub .., nullary_bufs_sub .., binary_bufs_sub .., nullary_bufs_sub .., unary_bufs_sub .., binary_bufs_sub ..⟩
theorem wF_sub : (wF : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem wG_sub : (wG : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, opsA, opsB, List.mem_append] at h
    rcases h with (h | h | h | h | h) | h | h
    exacts [List.forall_iff_forall_mem.mp wA_sub op h, List.forall_iff_forall_mem.mp wB_sub op h, List.forall_iff_forall_mem.mp wC_sub op h, List.forall_iff_forall_mem.mp wD_sub op h, List.forall_iff_forall_mem.mp wE_sub op h, List.forall_iff_forall_mem.mp wF_sub op h, List.forall_iff_forall_mem.mp wG_sub op h]

/-! ## The buffers' contents, window by window

`valK V` is the contents after the first K windows from contents `V`; each lemma below reads one buffer of it as a
stage of the arguments' contents in `V`. No window writes an argument (every buffer written has index 17 or more,
the arguments are the indices below 17), and a buffer a window does not write keeps its contents through it. -/

/-- A line of operations that writes only buffers of index 17 or more leaves the arguments as they were. -/
theorem keep_arg (ws : List (HloOp τ sig (Elt F))) (W : List (Ref sig .tc))
    (hw : ws.Forall fun op => op.writes ⊆ (W.map (Proc.devRef (τ := τ) .tc)).toFinset) (hW : ∀ y ∈ W, 17 ≤ y.idx.val)
    (V : Valuation τ sig (Elt F)) (r : Ref sig .tc) (h : r.idx.val < 17) :
    after ws V (Proc.devRef .tc r) = V (Proc.devRef .tc r) :=
  after_of_writes_sub ws V hw fun hr => absurd (hW r hr) (Nat.not_le.mpr h)

/-- The contents before the first window. -/
def val0 (V : Valuation τ sig (Elt F)) : Valuation τ sig (Elt F) := V
theorem val0_arg (V : Valuation τ sig (Elt F)) (r : Ref sig .tc) (h : r.idx.val < 17) :
    val0 V (no_index (Proc.devRef .tc r)) = V (Proc.devRef .tc r) := rfl

/-- The contents after window `wA`. -/
def valA (V : Valuation τ sig (Elt F)) : Valuation τ sig (Elt F) := after wA (val0 V)
/-- The buffers window `wA` writes. -/
abbrev wA_W : List (Ref sig .tc) := [main_v0, main_v1, main_v2, main_v3, main_c, main_v4, main_v5, main_c_0, main_v6, main_v7, main_v8, main_v9]
set_option maxRecDepth 8192 in
theorem wA_writes : (wA : List (HloOp τ sig (Elt F))).Forall fun op => op.writes ⊆ (wA_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem wA_W_ge : ∀ y ∈ wA_W, 17 ≤ y.idx.val := by decide
theorem valA_keep (V : Valuation τ sig (Elt F)) (r : Ref sig .tc) (h : r ∉ wA_W) :
    valA V (Proc.devRef .tc r) = val0 V (Proc.devRef .tc r) :=
  after_of_writes_sub wA _ wA_writes h
theorem valA_arg (V : Valuation τ sig (Elt F)) (r : Ref sig .tc) (h : r.idx.val < 17) :
    valA V (no_index (Proc.devRef .tc r)) = V (Proc.devRef .tc r) :=
  (keep_arg wA wA_W wA_writes wA_W_ge _ r h).trans (val0_arg V r h)
set_option maxRecDepth 8192 in
set_option maxHeartbeats 2000000 in
theorem valA_v9 (V : Valuation τ sig (Elt F)) : valA V (no_index (Proc.devRef .tc main_v9)) = srcIdx (V (Proc.devRef .tc main_arg1)) := by
  unfold valA
  simp only [wA]
  after_results_simp
  unfold val0
  rfl
set_option maxRecDepth 8192 in
set_option maxHeartbeats 2000000 in
theorem valA_v3 (V : Valuation τ sig (Elt F)) : valA V (no_index (Proc.devRef .tc main_v3)) = row1 (V (Proc.devRef .tc main_arg1)) := by
  unfold valA
  simp only [wA]
  after_results_simp
  unfold val0
  rfl

/-- The contents after window `wB`. -/
def valB (V : Valuation τ sig (Elt F)) : Valuation τ sig (Elt F) := after wB (valA V)
/-- The buffers window `wB` writes. -/
abbrev wB_W : List (Ref sig .tc) := [main_v10, main_v11, main_v12, main_v13, main_v14, main_v15, main_cst, main_v16, main_cst_1, main_v17, main_v18]
set_option maxRecDepth 8192 in
theorem wB_writes : (wB : List (HloOp τ sig (Elt F))).Forall fun op => op.writes ⊆ (wB_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem wB_W_ge : ∀ y ∈ wB_W, 17 ≤ y.idx.val := by decide
theorem valB_keep (V : Valuation τ sig (Elt F)) (r : Ref sig .tc) (h : r ∉ wB_W) :
    valB V (Proc.devRef .tc r) = valA V (Proc.devRef .tc r) :=
  after_of_writes_sub wB _ wB_writes h
theorem valB_arg (V : Valuation τ sig (Elt F)) (r : Ref sig .tc) (h : r.idx.val < 17) :
    valB V (no_index (Proc.devRef .tc r)) = V (Proc.devRef .tc r) :=
  (keep_arg wB wB_W wB_writes wB_W_ge _ r h).trans (valA_arg V r h)
theorem valB_v3 (V : Valuation τ sig (Elt F)) : valB V (no_index (Proc.devRef .tc main_v3)) = row1 (V (Proc.devRef .tc main_arg1)) :=
  (valB_keep V main_v3 (by decide)).trans (valA_v3 V)
set_option maxRecDepth 8192 in
set_option maxHeartbeats 2000000 in
theorem valB_v15 (V : Valuation τ sig (Elt F)) : valB V (no_index (Proc.devRef .tc main_v15)) = hidE (V (Proc.devRef .tc main_arg0)) (V (Proc.devRef .tc main_arg1)) (V (Proc.devRef .tc main_arg2)) (V (Proc.devRef .tc main_arg5)) (V (Proc.devRef .tc main_arg6)) := by
  unfold valB
  simp only [wB]
  after_results_simp
  simp only [valA_v9 V, valA_arg V main_arg0 (by decide), valA_arg V main_arg2 (by decide), valA_arg V main_arg5 (by decide), valA_arg V main_arg6 (by decide)]
  rfl
set_option maxRecDepth 8192 in
set_option maxHeartbeats 2000000 in
theorem valB_v18 (V : Valuation τ sig (Elt F)) : valB V (no_index (Proc.devRef .tc main_v18)) = meanE (hidE (V (Proc.devRef .tc main_arg0)) (V (Proc.devRef .tc main_arg1)) (V (Proc.devRef .tc main_arg2)) (V (Proc.devRef .tc main_arg5)) (V (Proc.devRef .tc main_arg6))) := by
  unfold valB
  simp only [wB]
  after_results_simp
  simp only [valA_v9 V, valA_arg V main_arg0 (by decide), valA_arg V main_arg2 (by decide), valA_arg V main_arg5 (by decide), valA_arg V main_arg6 (by decide)]
  rfl

/-- The contents after window `wC`. -/
def valC (V : Valuation τ sig (Elt F)) : Valuation τ sig (Elt F) := after wC (valB V)
/-- The buffers window `wC` writes. -/
abbrev wC_W : List (Ref sig .tc) := [main_c_2, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref]
set_option maxRecDepth 8192 in
theorem wC_writes : (wC : List (HloOp τ sig (Elt F))).Forall fun op => op.writes ⊆ (wC_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem wC_W_ge : ∀ y ∈ wC_W, 17 ≤ y.idx.val := by decide
theorem valC_keep (V : Valuation τ sig (Elt F)) (r : Ref sig .tc) (h : r ∉ wC_W) :
    valC V (Proc.devRef .tc r) = valB V (Proc.devRef .tc r) :=
  after_of_writes_sub wC _ wC_writes h
theorem valC_arg (V : Valuation τ sig (Elt F)) (r : Ref sig .tc) (h : r.idx.val < 17) :
    valC V (no_index (Proc.devRef .tc r)) = V (Proc.devRef .tc r) :=
  (keep_arg wC wC_W wC_writes wC_W_ge _ r h).trans (valB_arg V r h)
theorem valC_v15 (V : Valuation τ sig (Elt F)) : valC V (no_index (Proc.devRef .tc main_v15)) = hidE (V (Proc.devRef .tc main_arg0)) (V (Proc.devRef .tc main_arg1)) (V (Proc.devRef .tc main_arg2)) (V (Proc.devRef .tc main_arg5)) (V (Proc.devRef .tc main_arg6)) :=
  (valC_keep V main_v15 (by decide)).trans (valB_v15 V)
theorem valC_v18 (V : Valuation τ sig (Elt F)) : valC V (no_index (Proc.devRef .tc main_v18)) = meanE (hidE (V (Proc.devRef .tc main_arg0)) (V (Proc.devRef .tc main_arg1)) (V (Proc.devRef .tc main_arg2)) (V (Proc.devRef .tc main_arg5)) (V (Proc.devRef .tc main_arg6))) :=
  (valC_keep V main_v18 (by decide)).trans (valB_v18 V)
theorem valC_v3 (V : Valuation τ sig (Elt F)) : valC V (no_index (Proc.devRef .tc main_v3)) = row1 (V (Proc.devRef .tc main_arg1)) :=
  (valC_keep V main_v3 (by decide)).trans (valB_v3 V)
set_option maxRecDepth 8192 in
set_option maxHeartbeats 2000000 in
theorem valC_v19 (V : Valuation τ sig (Elt F)) : valC V (no_index (Proc.devRef .tc main_v19)) = varE (hidE (V (Proc.devRef .tc main_arg0)) (V (Proc.devRef .tc main_arg1)) (V (Proc.devRef .tc main_arg2)) (V (Proc.devRef .tc main_arg5)) (V (Proc.devRef .tc main_arg6))) := by
  unfold valC
  simp only [wC]
  after_results_simp
  simp only [valB_v15 V]
  rfl

/-- The contents after window `wD`. -/
def valD (V : Valuation τ sig (Elt F)) : Valuation τ sig (Elt F) := after wD (valC V)
/-- The buffers window `wD` writes. -/
abbrev wD_W : List (Ref sig .tc) := [main_v20, main_v21, main_v22, main_v23, main_v24, main_v25, main_cst_3, main_v26, main_v27, main_v28, main_v29, main_v30, main_v31, main_v32, main_v33, main_v34, main_call1.cst.ref, main_call1.v0.ref, main_call1.v1.ref, main_v36, main_v37, main_v38, main_v39, main_cst_4, main_v40, main_v41, main_v42]
set_option maxRecDepth 8192 in
theorem wD_writes : (wD : List (HloOp τ sig (Elt F))).Forall fun op => op.writes ⊆ (wD_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem wD_W_ge : ∀ y ∈ wD_W, 17 ≤ y.idx.val := by decide
theorem valD_keep (V : Valuation τ sig (Elt F)) (r : Ref sig .tc) (h : r ∉ wD_W) :
    valD V (Proc.devRef .tc r) = valC V (Proc.devRef .tc r) :=
  after_of_writes_sub wD _ wD_writes h
theorem valD_arg (V : Valuation τ sig (Elt F)) (r : Ref sig .tc) (h : r.idx.val < 17) :
    valD V (no_index (Proc.devRef .tc r)) = V (Proc.devRef .tc r) :=
  (keep_arg wD wD_W wD_writes wD_W_ge _ r h).trans (valC_arg V r h)
set_option maxRecDepth 8192 in
set_option maxHeartbeats 2000000 in
theorem valD_v42 (V : Valuation τ sig (Elt F)) : valD V (no_index (Proc.devRef .tc main_v42)) = msgs (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  unfold valD
  simp only [wD]
  after_results_simp
  simp only [valC_v15 V, valC_v18 V, valC_v19 V, valC_v3 V, valC_arg V main_arg7 (by decide), valC_arg V main_arg8 (by decide), valC_arg V main_arg9 (by decide), valC_arg V main_arg10 (by decide)]
  rfl

/-- The contents after window `wE`. -/
def valE (V : Valuation τ sig (Elt F)) : Valuation τ sig (Elt F) := after wE (valD V)
/-- The buffers window `wE` writes. -/
abbrev wE_W : List (Ref sig .tc) := [main_v43, main_v44, main_v45, main_v46, main_v47, main_cst_5, main_v48, main_cst_6, main_v49, main_v50]
set_option maxRecDepth 8192 in
theorem wE_writes : (wE : List (HloOp τ sig (Elt F))).Forall fun op => op.writes ⊆ (wE_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem wE_W_ge : ∀ y ∈ wE_W, 17 ≤ y.idx.val := by decide
theorem valE_keep (V : Valuation τ sig (Elt F)) (r : Ref sig .tc) (h : r ∉ wE_W) :
    valE V (Proc.devRef .tc r) = valD V (Proc.devRef .tc r) :=
  after_of_writes_sub wE _ wE_writes h
theorem valE_arg (V : Valuation τ sig (Elt F)) (r : Ref sig .tc) (h : r.idx.val < 17) :
    valE V (no_index (Proc.devRef .tc r)) = V (Proc.devRef .tc r) :=
  (keep_arg wE wE_W wE_writes wE_W_ge _ r h).trans (valD_arg V r h)
set_option maxRecDepth 8192 in
set_option maxHeartbeats 2000000 in
theorem valE_v47 (V : Valuation τ sig (Elt F)) : valE V (no_index (Proc.devRef .tc main_v47)) = hidN (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold valE
  simp only [wE]
  after_results_simp
  simp only [valD_v42 V, valD_arg V main_arg0 (by decide), valD_arg V main_arg11 (by decide), valD_arg V main_arg12 (by decide)]
  rfl
set_option maxRecDepth 8192 in
set_option maxHeartbeats 2000000 in
theorem valE_v50 (V : Valuation τ sig (Elt F)) : valE V (no_index (Proc.devRef .tc main_v50)) = meanN (hidN (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))) := by
  unfold valE
  simp only [wE]
  after_results_simp
  simp only [valD_v42 V, valD_arg V main_arg0 (by decide), valD_arg V main_arg11 (by decide), valD_arg V main_arg12 (by decide)]
  rfl

/-- The contents after window `wF`. -/
def valF (V : Valuation τ sig (Elt F)) : Valuation τ sig (Elt F) := after wF (valE V)
/-- The buffers window `wF` writes. -/
abbrev wF_W : List (Ref sig .tc) := [main_c_7, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref]
set_option maxRecDepth 8192 in
theorem wF_writes : (wF : List (HloOp τ sig (Elt F))).Forall fun op => op.writes ⊆ (wF_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem wF_W_ge : ∀ y ∈ wF_W, 17 ≤ y.idx.val := by decide
theorem valF_keep (V : Valuation τ sig (Elt F)) (r : Ref sig .tc) (h : r ∉ wF_W) :
    valF V (Proc.devRef .tc r) = valE V (Proc.devRef .tc r) :=
  after_of_writes_sub wF _ wF_writes h
theorem valF_arg (V : Valuation τ sig (Elt F)) (r : Ref sig .tc) (h : r.idx.val < 17) :
    valF V (no_index (Proc.devRef .tc r)) = V (Proc.devRef .tc r) :=
  (keep_arg wF wF_W wF_writes wF_W_ge _ r h).trans (valE_arg V r h)
theorem valF_v47 (V : Valuation τ sig (Elt F)) : valF V (no_index (Proc.devRef .tc main_v47)) = hidN (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (valF_keep V main_v47 (by decide)).trans (valE_v47 V)
theorem valF_v50 (V : Valuation τ sig (Elt F)) : valF V (no_index (Proc.devRef .tc main_v50)) = meanN (hidN (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))) :=
  (valF_keep V main_v50 (by decide)).trans (valE_v50 V)
set_option maxRecDepth 8192 in
set_option maxHeartbeats 2000000 in
theorem valF_v51 (V : Valuation τ sig (Elt F)) : valF V (no_index (Proc.devRef .tc main_v51)) = varN (hidN (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))) := by
  unfold valF
  simp only [wF]
  after_results_simp
  simp only [valE_v47 V]
  rfl

/-- The contents after window `wG`. -/
def valG (V : Valuation τ sig (Elt F)) : Valuation τ sig (Elt F) := after wG (valF V)
/-- The buffers window `wG` writes. -/
abbrev wG_W : List (Ref sig .tc) := [main_v52, main_v53, main_v54, main_v55, main_v56, main_v57, main_cst_8, main_v58, main_v59, main_v60, main_v61, main_v62, main_v63, main_v64, main_v65, main_v66, main_call3.cst.ref, main_call3.v0.ref, main_call3.v1.ref, main_v68, main_v69, main_v70, main_v71]
set_option maxRecDepth 8192 in
theorem wG_writes : (wG : List (HloOp τ sig (Elt F))).Forall fun op => op.writes ⊆ (wG_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem wG_W_ge : ∀ y ∈ wG_W, 17 ≤ y.idx.val := by decide
theorem valG_keep (V : Valuation τ sig (Elt F)) (r : Ref sig .tc) (h : r ∉ wG_W) :
    valG V (Proc.devRef .tc r) = valF V (Proc.devRef .tc r) :=
  after_of_writes_sub wG _ wG_writes h
theorem valG_arg (V : Valuation τ sig (Elt F)) (r : Ref sig .tc) (h : r.idx.val < 17) :
    valG V (no_index (Proc.devRef .tc r)) = V (Proc.devRef .tc r) :=
  (keep_arg wG wG_W wG_writes wG_W_ge _ r h).trans (valF_arg V r h)
set_option maxRecDepth 8192 in
set_option maxHeartbeats 2000000 in
theorem valG_v71 (V : Valuation τ sig (Elt F)) : valG V (no_index (Proc.devRef .tc main_v71)) = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  unfold valG
  simp only [wG]
  after_results_simp
  simp only [valF_v47 V, valF_v50 V, valF_v51 V, valF_arg V main_arg13 (by decide), valF_arg V main_arg14 (by decide), valF_arg V main_arg15 (by decide), valF_arg V main_arg16 (by decide)]
  rfl

/-! ## The run -/

/-- All the operations from contents `V`: the seven windows in order. -/
theorem after_ops (V : Valuation τ sig (Elt F)) : after ops V = valG V := by
  simp only [ops, opsA, opsB, after_append]
  rfl

/-- The result buffer after all the operations is `out` of the arguments' contents. -/
theorem out_eq (V : Valuation τ sig (Elt F)) : after ops V (Proc.devRef .tc main_v71) = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [after_ops]; exact valG_v71 V

/-- An argument's buffer after all the operations is as it was. -/
theorem arg_eq (V : Valuation τ sig (Elt F)) (r : Ref sig .tc) (h : r.idx.val < 17) : after ops V (Proc.devRef .tc r) = V (Proc.devRef .tc r) := by
  rw [after_ops]; exact valG_arg V r h

/-- On the one device, for any float values, from any memory with zero counters: every weakly fair execution of @main
    terminates with the result buffer at `out` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v71) = out
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v71).trans (out_eq _),
      (h c main_arg0).trans (arg_eq _ main_arg0 (by decide)),
      (h c main_arg1).trans (arg_eq _ main_arg1 (by decide)),
      (h c main_arg2).trans (arg_eq _ main_arg2 (by decide)),
      (h c main_arg3).trans (arg_eq _ main_arg3 (by decide)),
      (h c main_arg4).trans (arg_eq _ main_arg4 (by decide)),
      (h c main_arg5).trans (arg_eq _ main_arg5 (by decide)),
      (h c main_arg6).trans (arg_eq _ main_arg6 (by decide)),
      (h c main_arg7).trans (arg_eq _ main_arg7 (by decide)),
      (h c main_arg8).trans (arg_eq _ main_arg8 (by decide)),
      (h c main_arg9).trans (arg_eq _ main_arg9 (by decide)),
      (h c main_arg10).trans (arg_eq _ main_arg10 (by decide)),
      (h c main_arg11).trans (arg_eq _ main_arg11 (by decide)),
      (h c main_arg12).trans (arg_eq _ main_arg12 (by decide)),
      (h c main_arg13).trans (arg_eq _ main_arg13 (by decide)),
      (h c main_arg14).trans (arg_eq _ main_arg14 (by decide)),
      (h c main_arg15).trans (arg_eq _ main_arg15 (by decide)),
      (h c main_arg16).trans (arg_eq _ main_arg16 (by decide))⟩)
    (run_seq scopedRefs_eq scopedSems_eq defs main (fun _ => ops) main_eq (fun _ => ops_sub) m ρ)

end Cert.ReferenceIdeal.RefRun

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.KIPay.lean ====
import proofs.«167414_j65335042507073_2_alg».proof.Proof.Gen.KernelIdeal.Skeleton
import proofs.«167414_j65335042507073_2_alg».proof.Proof.LibPlainDot
import Idealize.ShloMosaic.Lib.ValueIdx
import Idealize.ShloMosaic.Lib.ValueLayout
import Idealize.ShloMosaic.PureOps.Ideal.Laws

/-!
# The kernel bodies' arithmetic, read at an index

Over the extended reals a change of float format is the identity and a product of matrices into a zero accumulator is
the plain sum of products, so each value a kernel body stores is, entry by entry, a closed expression in the entries
of the arrays it read:

* the first layer `h = (a · Wa + b · Wb) + bias` at row `r` and lane `k` is the two sums over the operands' shared axis,
  added, plus the bias's lane `k`;
* the two accumulators start at `0` and gain, per block of rows, the column sums `∑ r, h (r, k)` and
  `∑ r, h (r, k) · h (r, k)`;
* the fused body is `(∑ k, max (h (r, k)) 0 · W₂ (k, j)) + bias₂ j`.

The readings are stated twice: for blocks of 6400 rows with operand widths 64 and 32, and for blocks of 5000 rows with
operand widths 64 and 128 and 64 output lanes.
-/

noncomputable section

namespace Cert.KernelIdeal.Pay

open Cert.KernelIdeal Cert.KernelIdeal.Gen Idealize.ShloMosaic Idealize.ShloMosaic.ValueIdx
open scoped BigOperators

/-! ## Blocks of 6400 rows -/

/-- The first layer at row `r`, lane `k`: the two products' sums, added, plus the bias. -/
theorem pay4_apply (x0 : Vec Ideal S6400x64 .f32) (x1 : Vec Ideal S6400x32 .f32) (x2 : Vec Ideal S64x128 .f32)
    (x3 : Vec Ideal S32x128 .f32) (x4 : Vec Ideal S128 .f32) (r : Fin 6400) (k : Fin 128) :
    k0_pay4 (F := Ideal) x0 x1 x2 x3 x4 (ix2 r k)
      = ((∑ l : Fin 64, x0 (ix2 r l) * x2 (ix2 l k)) + (∑ l : Fin 32, x1 (ix2 r l) * x3 (ix2 l k))) + x4 (ix1 k) := by
  unfold k0_pay4
  rw [shapeCast_self, shapeCast_self, shapeCast_self]
  refine congrArg₂ (· + ·) (congrArg₂ (· + ·) ?_ ?_) ?_
  · exact Cert.LibPlainDot.matmul_zero_apply _ ⟨rfl, rfl, rfl, rfl, rfl, rfl⟩ none _ _ r k
  · exact Cert.LibPlainDot.matmul_zero_apply _ ⟨rfl, rfl, rfl, rfl, rfl, rfl⟩ none _ _ r k
  · exact (broadcastTo_1b_ab_apply _ _ r k).trans (shapeCast_a_1a_apply _ _ 0 k)

/-- The sum over the rows of a `[6400, 128]` block, at lane `k`. -/
theorem colsum6400 (v : FVec Ideal S6400x128 .f32) (k : Fin 128) :
    multiReduction (F := Ideal) .add [0] S128 v 0x00000000#32 reduces_S6400x128_S128 (.inl rfl) rfl (ix1 k)
      = ∑ r : Fin 6400, v (ix2 r k) := by
  refine (Ideal.multiReduction_add_single v _ reduces_S6400x128_S128 (.inl rfl) rfl (ix1 k)).trans ?_
  refine Finset.sum_congr rfl fun r _ => congrArg v ?_
  funext a
  match a with
  | ⟨0, _⟩ => rfl
  | ⟨1, _⟩ => rfl

/-- The running sum plus the block's column sums. -/
theorem pay5_apply (x0 : Vec Ideal S6400x64 .f32) (x1 : Vec Ideal S6400x32 .f32) (x2 : Vec Ideal S64x128 .f32)
    (x3 : Vec Ideal S32x128 .f32) (x4 : Vec Ideal S128 .f32) (s : Vec Ideal S1x128 .f32) (k : Fin 128) :
    k0_pay5 (F := Ideal) x0 x1 x2 x3 x4 s (ix2 0 k)
      = s (ix2 0 k) + ∑ r : Fin 6400, k0_pay4 (F := Ideal) x0 x1 x2 x3 x4 (ix2 r k) := by
  unfold k0_pay5
  rw [shapeCast_self]
  refine congrArg (s (ix2 0 k) + ·) ?_
  exact (shapeCast_a_1a_apply _ _ 0 k).trans (colsum6400 _ k)

/-- The running sum of squares plus the column sums of the block's squares. -/
theorem pay16_apply (x0 : Vec Ideal S6400x64 .f32) (x1 : Vec Ideal S6400x32 .f32) (x2 : Vec Ideal S64x128 .f32)
    (x3 : Vec Ideal S32x128 .f32) (x4 : Vec Ideal S128 .f32) (q : Vec Ideal S1x128 .f32) (k : Fin 128) :
    k0_pay1 (F := Ideal) (k0_pay6 (F := Ideal) x0 x1 x2 x3 x4 q) (ix2 0 k)
      = q (ix2 0 k) + ∑ r : Fin 6400, k0_pay4 (F := Ideal) x0 x1 x2 x3 x4 (ix2 r k) * k0_pay4 (F := Ideal) x0 x1 x2 x3 x4 (ix2 r k) := by
  unfold k0_pay1 k0_pay6
  rw [shapeCast_self]
  refine congrArg (q (ix2 0 k) + ·) ?_
  exact (shapeCast_a_1a_apply _ _ 0 k).trans (colsum6400 _ k)

/-- The first accumulator starts at zero. -/
theorem pay2_apply (k : Fin 128) : k0_pay2 (F := Ideal) (ix2 0 k) = 0 := by
  unfold k0_pay2
  rw [shapeCast_self]
  exact Ideal.ofBits_zero_f32

/-- The second accumulator starts at zero. -/
theorem pay3_apply (k : Fin 128) : k0_pay3 (F := Ideal) (ix2 0 k) = 0 := by
  unfold k0_pay3
  rw [shapeCast_self]
  exact Ideal.ofBits_zero_f32

/-- The fused body at row `r`, output lane `j`: the first layer clamped below at zero, times the second weight, summed over
    the hidden lanes, plus the second bias. -/
theorem pay1_fused_apply (x0 : Vec Ideal S6400x64 .f32) (x1 : Vec Ideal S6400x32 .f32) (x2 : Vec Ideal S64x128 .f32)
    (x3 : Vec Ideal S32x128 .f32) (x4 : Vec Ideal S128 .f32) (x5 : Vec Ideal S128x128 .f32) (x6 : Vec Ideal S128 .f32)
    (r : Fin 6400) (j : Fin 128) :
    k1_pay1 (F := Ideal) x0 x1 x2 x3 x4 x5 x6 (ix2 r j)
      = (∑ k : Fin 128, max (((∑ l : Fin 64, x0 (ix2 r l) * x2 (ix2 l k)) + (∑ l : Fin 32, x1 (ix2 r l) * x3 (ix2 l k))) + x4 (ix1 k)) 0
            * x5 (ix2 k j)) + x6 (ix1 j) := by
  unfold k1_pay1
  simp only [shapeCast_self]
  refine congrArg₂ (· + ·) ?_ ?_
  · refine (Cert.LibPlainDot.matmul_zero_apply _ ⟨rfl, rfl, rfl, rfl, rfl, rfl⟩ none _ _ r j).trans ?_
    refine Finset.sum_congr rfl fun k _ => congrArg (· * x5 (ix2 k j)) ?_
    refine congrArg₂ max ?_ Ideal.ofBits_zero_f32
    refine congrArg₂ (· + ·) (congrArg₂ (· + ·) ?_ ?_) ?_
    · exact Cert.LibPlainDot.matmul_zero_apply _ ⟨rfl, rfl, rfl, rfl, rfl, rfl⟩ none _ _ r k
    · exact Cert.LibPlainDot.matmul_zero_apply _ ⟨rfl, rfl, rfl, rfl, rfl, rfl⟩ none _ _ r k
    · exact (broadcastTo_1b_ab_apply _ _ r k).trans (shapeCast_a_1a_apply _ _ 0 k)
  · exact (broadcastTo_1b_ab_apply _ _ r j).trans (shapeCast_a_1a_apply _ _ 0 j)

/-! ## The same readings at 5000 rows -/

/-- The first layer at row `r`, lane `k`, for the block of 5000 rows. -/
theorem k2_pay4_apply (x0 : Vec Ideal S5000x64 .f32) (x1 : Vec Ideal S5000x128 .f32) (x2 : Vec Ideal S64x128 .f32)
    (x3 : Vec Ideal S128x128 .f32) (x4 : Vec Ideal S128 .f32) (r : Fin 5000) (k : Fin 128) :
    k2_pay4 (F := Ideal) x0 x1 x2 x3 x4 (ix2 r k)
      = ((∑ l : Fin 64, x0 (ix2 r l) * x2 (ix2 l k)) + (∑ l : Fin 128, x1 (ix2 r l) * x3 (ix2 l k))) + x4 (ix1 k) := by
  unfold k2_pay4
  simp only [shapeCast_self]
  refine congrArg₂ (· + ·) (congrArg₂ (· + ·) ?_ ?_) ?_
  · exact Cert.LibPlainDot.matmul_zero_apply _ ⟨rfl, rfl, rfl, rfl, rfl, rfl⟩ none _ _ r k
  · exact Cert.LibPlainDot.matmul_zero_apply _ ⟨rfl, rfl, rfl, rfl, rfl, rfl⟩ none _ _ r k
  · exact (broadcastTo_1b_ab_apply _ _ r k).trans (shapeCast_a_1a_apply _ _ 0 k)

/-- The sum over the rows of a `[5000, 128]` block, at lane `k`. -/
theorem colsum5000 (v : FVec Ideal S5000x128 .f32) (k : Fin 128) :
    multiReduction (F := Ideal) .add [0] S128 v 0x00000000#32 reduces_S5000x128_S128 (.inl rfl) rfl (ix1 k)
      = ∑ r : Fin 5000, v (ix2 r k) := by
  refine (Ideal.multiReduction_add_single v _ reduces_S5000x128_S128 (.inl rfl) rfl (ix1 k)).trans ?_
  refine Finset.sum_congr rfl fun r _ => congrArg v ?_
  funext a
  match a with
  | ⟨0, _⟩ => rfl
  | ⟨1, _⟩ => rfl

/-- The running sum plus the block's column sums. -/
theorem k2_pay5_apply (x0 : Vec Ideal S5000x64 .f32) (x1 : Vec Ideal S5000x128 .f32) (x2 : Vec Ideal S64x128 .f32)
    (x3 : Vec Ideal S128x128 .f32) (x4 : Vec Ideal S128 .f32) (s : Vec Ideal S1x128 .f32) (k : Fin 128) :
    k2_pay5 (F := Ideal) x0 x1 x2 x3 x4 s (ix2 0 k)
      = s (ix2 0 k) + ∑ r : Fin 5000, k2_pay4 (F := Ideal) x0 x1 x2 x3 x4 (ix2 r k) := by
  unfold k2_pay5
  rw [shapeCast_self]
  refine congrArg (s (ix2 0 k) + ·) ?_
  exact (shapeCast_a_1a_apply _ _ 0 k).trans (colsum5000 _ k)

/-- The running sum of squares plus the column sums of the block's squares. -/
theorem k2_pay16_apply (x0 : Vec Ideal S5000x64 .f32) (x1 : Vec Ideal S5000x128 .f32) (x2 : Vec Ideal S64x128 .f32)
    (x3 : Vec Ideal S128x128 .f32) (x4 : Vec Ideal S128 .f32) (q : Vec Ideal S1x128 .f32) (k : Fin 128) :
    k2_pay1 (F := Ideal) (k2_pay6 (F := Ideal) x0 x1 x2 x3 x4 q) (ix2 0 k)
      = q (ix2 0 k) + ∑ r : Fin 5000, k2_pay4 (F := Ideal) x0 x1 x2 x3 x4 (ix2 r k) * k2_pay4 (F := Ideal) x0 x1 x2 x3 x4 (ix2 r k) := by
  unfold k2_pay1 k2_pay6
  rw [shapeCast_self]
  refine congrArg (q (ix2 0 k) + ·) ?_
  exact (shapeCast_a_1a_apply _ _ 0 k).trans (colsum5000 _ k)

/-- The first accumulator starts at zero. -/
theorem k2_pay2_apply (k : Fin 128) : k2_pay2 (F := Ideal) (ix2 0 k) = 0 := by
  unfold k2_pay2
  rw [shapeCast_self]
  exact Ideal.ofBits_zero_f32

/-- The second accumulator starts at zero. -/
theorem k2_pay3_apply (k : Fin 128) : k2_pay3 (F := Ideal) (ix2 0 k) = 0 := by
  unfold k2_pay3
  rw [shapeCast_self]
  exact Ideal.ofBits_zero_f32

/-- The fused body at row `r`, output lane `j`, for the block of 5000 rows and 64 output lanes. -/
theorem k3_pay1_apply (x0 : Vec Ideal S5000x64 .f32) (x1 : Vec Ideal S5000x128 .f32) (x2 : Vec Ideal S64x128 .f32)
    (x3 : Vec Ideal S128x128 .f32) (x4 : Vec Ideal S128 .f32) (x5 : Vec Ideal S128x64 .f32) (x6 : Vec Ideal S64 .f32)
    (r : Fin 5000) (j : Fin 64) :
    k3_pay1 (F := Ideal) x0 x1 x2 x3 x4 x5 x6 (ix2 r j)
      = (∑ k : Fin 128, max (((∑ l : Fin 64, x0 (ix2 r l) * x2 (ix2 l k)) + (∑ l : Fin 128, x1 (ix2 r l) * x3 (ix2 l k))) + x4 (ix1 k)) 0
            * x5 (ix2 k j)) + x6 (ix1 j) := by
  unfold k3_pay1
  simp only [shapeCast_self]
  refine congrArg₂ (· + ·) ?_ ?_
  · refine (Cert.LibPlainDot.matmul_zero_apply _ ⟨rfl, rfl, rfl, rfl, rfl, rfl⟩ none _ _ r j).trans ?_
    refine Finset.sum_congr rfl fun k _ => congrArg (· * x5 (ix2 k j)) ?_
    refine congrArg₂ max ?_ Ideal.ofBits_zero_f32
    refine congrArg₂ (· + ·) (congrArg₂ (· + ·) ?_ ?_) ?_
    · exact Cert.LibPlainDot.matmul_zero_apply _ ⟨rfl, rfl, rfl, rfl, rfl, rfl⟩ none _ _ r k
    · exact Cert.LibPlainDot.matmul_zero_apply _ ⟨rfl, rfl, rfl, rfl, rfl, rfl⟩ none _ _ r k
    · exact (broadcastTo_1b_ab_apply _ _ r k).trans (shapeCast_a_1a_apply _ _ 0 k)
  · exact (broadcastTo_1b_ab_apply _ _ r j).trans (shapeCast_a_1a_apply _ _ 0 j)

end Cert.KernelIdeal.Pay

end
-- ==== Proof.KIFusedVal.lean ====
import proofs.«167414_j65335042507073_2_alg».proof.Proof.KIFused1
import proofs.«167414_j65335042507073_2_alg».proof.Proof.KIFused3
import proofs.«167414_j65335042507073_2_alg».proof.Proof.KIPay
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! # The two fused regions' result arrays at the exact-arithmetic instance

A point of a fused region writes one block of rows; row r of block t is row t·R + r of the array, and depends only on that
row of the two row operands and on the whole weight and bias arrays. So the blocks are restrictions of ONE function of
the array index, and they tile the array. -/

theorem hz2' : (![0, 0] : Fin 2 → Nat) = fun _ => 0 := by funext a; fin_cases a <;> rfl
theorem hz1' : (![0] : Fin 1 → Nat) = fun _ => 0 := by funext a; fin_cases a; rfl

/-- Entry (e, j) of a fused two-layer block product: the second layer applied to relu of the first, on row e of the two row
    operands. -/
def fusedAt {NR DB OD : Nat} (a : (⟨2, ![NR, 64]⟩ : Shape).Idx → EReal) (b : (⟨2, ![NR, DB]⟩ : Shape).Idx → EReal)
    (wa : (⟨2, ![64, 128]⟩ : Shape).Idx → EReal) (wb : (⟨2, ![DB, 128]⟩ : Shape).Idx → EReal) (b1 : (⟨1, ![128]⟩ : Shape).Idx → EReal)
    (w2 : (⟨2, ![128, OD]⟩ : Shape).Idx → EReal) (b2 : (⟨1, ![OD]⟩ : Shape).Idx → EReal) (e : Fin NR) (j : Fin OD) : EReal :=
  (∑ k : Fin 128, max (((∑ l : Fin 64, a (ix2 e l) * wa (ix2 l k)) + (∑ l : Fin DB, b (ix2 e l) * wb (ix2 l k))) + b1 (ix1 k)) 0 * w2 (ix2 k j)) + b2 (ix1 j)

/-! ## Region 1: the result array, index by index -/

section Region1
variable (V : (c : Dev nD) → (b : Ref sig .tc) → Buf (Elt Ideal) ((c : Thread nD τ).loc b))

/-- The index maps of region 1's windows, decided once over the grid: the two row operands and the result move one block
    of rows per point; the five weight and bias operands stay at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

theorem tlt1 (t : Fin cfg1.N) : t.val < 125 := lt_of_lt_of_eq t.isLt (show cfg1.N = 125 from N_1)

/-- A row-block operand at (r, l) is its array at global row t·6400 + r. -/
theorem iblk1_0_apply (c : Dev nD) (t : Fin cfg1.N) (r : Fin 6400) (l : Fin 64) :
    (iblk1 V c 0 t : S6400x64.Idx → EReal) (ix2 r l) = (V c main_v10 : S800000x64.Idx → EReal) (ix2 ⟨t.val * 6400 + r.val, by have := tlt1 t; have := r.isLt; omega⟩ l) := by
  obtain ⟨e0, e1, -⟩ := idx_facts1 t
  show (V c main_v10 : S800000x64.Idx → EReal) (((cfg1.win 0).blk t).view.emb (ix2 r l)) = _
  refine congrArg _ (funext fun a => Fin.ext ?_)
  match a with
  | ⟨0, _⟩ => show win1_0.index t (0 : Fin 2) * 6400 + 1 * r.val = t.val * 6400 + r.val; rw [e0]; omega
  | ⟨1, _⟩ => show win1_0.index t (1 : Fin 2) * 64 + 1 * l.val = l.val; rw [e1]; omega
theorem iblk1_1_apply (c : Dev nD) (t : Fin cfg1.N) (r : Fin 6400) (l : Fin 32) :
    (iblk1 V c 1 t : S6400x32.Idx → EReal) (ix2 r l) = (V c main_arg2 : S800000x32.Idx → EReal) (ix2 ⟨t.val * 6400 + r.val, by have := tlt1 t; have := r.isLt; omega⟩ l) := by
  obtain ⟨-, -, e0, e1, -⟩ := idx_facts1 t
  show (V c main_arg2 : S800000x32.Idx → EReal) (((cfg1.win 1).blk t).view.emb (ix2 r l)) = _
  refine congrArg _ (funext fun a => Fin.ext ?_)
  match a with
  | ⟨0, _⟩ => show win1_1.index t (0 : Fin 2) * 6400 + 1 * r.val = t.val * 6400 + r.val; rw [e0]; omega
  | ⟨1, _⟩ => show win1_1.index t (1 : Fin 2) * 32 + 1 * l.val = l.val; rw [e1]; omega
/-- A whole-array operand's block is the array. -/
theorem iblk1_2_apply (c : Dev nD) (t : Fin cfg1.N) (l : Fin 64) (k : Fin 128) :
    (iblk1 V c 2 t : S64x128.Idx → EReal) (ix2 l k) = (V c main_v31 : S64x128.Idx → EReal) (ix2 l k) := by
  obtain ⟨-, -, -, -, e0, e1, -⟩ := idx_facts1 t
  show (V c main_v31 : S64x128.Idx → EReal) (((cfg1.win 2).blk t).view.emb (ix2 l k)) = _
  refine congrArg _ (funext fun a => Fin.ext ?_)
  match a with
  | ⟨0, _⟩ => show win1_2.index t (0 : Fin 2) * 64 + 1 * l.val = l.val; rw [e0]; omega
  | ⟨1, _⟩ => show win1_2.index t (1 : Fin 2) * 128 + 1 * k.val = k.val; rw [e1]; omega
theorem iblk1_3_apply (c : Dev nD) (t : Fin cfg1.N) (l : Fin 32) (k : Fin 128) :
    (iblk1 V c 3 t : S32x128.Idx → EReal) (ix2 l k) = (V c main_v33 : S32x128.Idx → EReal) (ix2 l k) := by
  obtain ⟨-, -, -, -, -, -, e0, e1, -⟩ := idx_facts1 t
  show (V c main_v33 : S32x128.Idx → EReal) (((cfg1.win 3).blk t).view.emb (ix2 l k)) = _
  refine congrArg _ (funext fun a => Fin.ext ?_)
  match a with
  | ⟨0, _⟩ => show win1_3.index t (0 : Fin 2) * 32 + 1 * l.val = l.val; rw [e0]; omega
  | ⟨1, _⟩ => show win1_3.index t (1 : Fin 2) * 128 + 1 * k.val = k.val; rw [e1]; omega
theorem iblk1_4_apply (c : Dev nD) (t : Fin cfg1.N) (k : Fin 128) :
    (iblk1 V c 4 t : S128.Idx → EReal) (ix1 k) = (V c main_v37 : S128.Idx → EReal) (ix1 k) := by
  obtain ⟨-, -, -, -, -, -, -, -, e0, -⟩ := idx_facts1 t
  show (V c main_v37 : S128.Idx → EReal) (((cfg1.win 4).blk t).view.emb (ix1 k)) = _
  refine congrArg _ (funext fun a => Fin.ext ?_)
  match a with
  | ⟨0, _⟩ => show win1_4.index t (0 : Fin 1) * 128 + 1 * k.val = k.val; rw [e0]; omega
theorem iblk1_5_apply (c : Dev nD) (t : Fin cfg1.N) (k : Fin 128) (j : Fin 128) :
    (iblk1 V c 5 t : S128x128.Idx → EReal) (ix2 k j) = (V c main_arg9 : S128x128.Idx → EReal) (ix2 k j) := by
  obtain ⟨-, -, -, -, -, -, -, -, -, e0, e1, -⟩ := idx_facts1 t
  show (V c main_arg9 : S128x128.Idx → EReal) (((cfg1.win 5).blk t).view.emb (ix2 k j)) = _
  refine congrArg _ (funext fun a => Fin.ext ?_)
  match a with
  | ⟨0, _⟩ => show win1_5.index t (0 : Fin 2) * 128 + 1 * k.val = k.val; rw [e0]; omega
  | ⟨1, _⟩ => show win1_5.index t (1 : Fin 2) * 128 + 1 * j.val = j.val; rw [e1]; omega
theorem iblk1_6_apply (c : Dev nD) (t : Fin cfg1.N) (j : Fin 128) :
    (iblk1 V c 6 t : S128.Idx → EReal) (ix1 j) = (V c main_arg10 : S128.Idx → EReal) (ix1 j) := by
  obtain ⟨-, -, -, -, -, -, -, -, -, -, -, e0, -⟩ := idx_facts1 t
  show (V c main_arg10 : S128.Idx → EReal) (((cfg1.win 6).blk t).view.emb (ix1 j)) = _
  refine congrArg _ (funext fun a => Fin.ext ?_)
  match a with
  | ⟨0, _⟩ => show win1_6.index t (0 : Fin 1) * 128 + 1 * j.val = j.val; rw [e0]; omega

/-- The region's result array: `fusedAt` of the arrays the region was entered with. -/
def G1 (c : Dev nD) : S800000x128.Idx → EReal := fun i =>
  fusedAt (NR := 800000) (DB := 32) (OD := 128) (V c main_v10) (V c main_arg2) (V c main_v31) (V c main_v33) (V c main_v37) (V c main_arg9) (V c main_arg10) ⟨(i 0).val, (i 0).isLt⟩ ⟨(i 1).val, (i 1).isLt⟩
theorem G1_ix2 (c : Dev nD) (e : Fin 800000) (j : Fin 128) :
    G1 V c (ix2 e j) = fusedAt (NR := 800000) (DB := 32) (OD := 128) (V c main_v10) (V c main_arg2) (V c main_v31) (V c main_v33) (V c main_v37) (V c main_arg9) (V c main_arg10) e j := rfl

/-- The result block after the body at point `t`, at local (r, j): `G1` at global row t·6400 + r. -/
theorem out1_apply (c : Dev nD) (t : Fin cfg1.N) (r : Fin 6400) (j : Fin 128) :
    (out1_7 (F := Ideal) (iblk1 V c 0 t) (iblk1 V c 1 t) (iblk1 V c 2 t) (iblk1 V c 3 t) (iblk1 V c 4 t) (iblk1 V c 5 t) (iblk1 V c 6 t) : S6400x128.Idx → EReal) (ix2 r j)
      = G1 V c (ix2 ⟨t.val * 6400 + r.val, by have := tlt1 t; have := r.isLt; omega⟩ j) := by
  unfold out1_7
  rw [View.canon_unit_zero (S := S6400x128) hz2']
  simp only [View.ld_unit_zero (S := S6400x64) hz2', View.ld_unit_zero (S := S6400x32) hz2', View.ld_unit_zero (S := S64x128) hz2',
    View.ld_unit_zero (S := S32x128) hz2', View.ld_unit_zero (S := S128) hz1', View.ld_unit_zero (S := S128x128) hz2', View.ld_unit_zero (S := S128) hz1']
  rw [Cert.KernelIdeal.Pay.pay1_fused_apply]
  rw [G1_ix2]; unfold fusedAt
  simp only [iblk1_0_apply, iblk1_1_apply, iblk1_2_apply, iblk1_3_apply, iblk1_4_apply, iblk1_5_apply, iblk1_6_apply]
  try rfl

/-- What point `t` writes back is block `t` of `G1`. -/
theorem flushed1_eq (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  obtain ⟨-, -, -, -, -, -, -, -, -, -, -, -, e0, e1⟩ := idx_facts1 t
  funext y
  obtain ⟨r, j, rfl⟩ : ∃ (r : Fin 6400) (j : Fin 128), y = ix2 r j := ⟨y 0, y 1, eq_ix2 y⟩
  refine (out1_apply V c t r j).trans ?_
  show G1 V c _ = G1 V c (((cfg1.win 7).blk t).view.emb (ix2 r j))
  refine congrArg _ (funext fun a => Fin.ext ?_)
  match a with
  | ⟨0, _⟩ => show t.val * 6400 + r.val = win1_7.index t (0 : Fin 2) * 6400 + 1 * r.val; rw [e0]; omega
  | ⟨1, _⟩ => show j.val = win1_7.index t (1 : Fin 2) * 128 + 1 * j.val; rw [e1]; omega

/-- An index of the result array is in point `t`'s block iff each coordinate is in the block's range on its axis. -/
theorem mem_blk1 (t : Fin cfg1.N) (i : S800000x128.Idx) :
    i ∈ ((cfg1.win 7).blk t).view.set ↔ ∀ a : Fin 2, win1_7.index t a * S6400x128.size a ≤ (i a).val ∧ (i a).val < win1_7.index t a * S6400x128.size a + S6400x128.size a := by
  show i ∈ ((View.whole main_v38).slice (win1_7.rect t)).set ↔ _
  rw [View.set_slice_whole, Rect.mem_set_unit]
  exact Iff.rfl

/-- The blocks of rows tile the result array. -/
theorem cover1 (i : S800000x128.Idx) : ∃ t : Fin cfg1.N, (cfg1.win 7).flush t = true ∧ i ∈ ((cfg1.win 7).blk t).view.set := by
  have hi0 : (i 0).val < 800000 := (i 0).isLt
  have hi1 : (i 1).val < 128 := (i 1).isLt
  refine ⟨⟨(i 0).val / 6400, by rw [show cfg1.N = 125 from N_1]; omega⟩, flush1_7 _, ?_⟩
  rw [mem_blk1]
  obtain ⟨-, -, -, -, -, -, -, -, -, -, -, -, e0, e1⟩ := idx_facts1 ⟨(i 0).val / 6400, by rw [show cfg1.N = 125 from N_1]; omega⟩
  intro a
  match a with
  | ⟨0, _⟩ => show win1_7.index _ (0 : Fin 2) * 6400 ≤ (i 0).val ∧ (i 0).val < win1_7.index _ (0 : Fin 2) * 6400 + 6400; rw [e0]; dsimp only; omega
  | ⟨1, _⟩ => show win1_7.index _ (1 : Fin 2) * 128 ≤ (i 1).val ∧ (i 1).val < win1_7.index _ (1 : Fin 2) * 128 + 128; rw [e1]; omega

/-- THE RESULT ARRAY of region 1 after the run is `G1` of the arrays the region was entered with. -/
theorem final1 (c : Dev nD) : (dat1 V c).arrAt 7 cfg1.N = G1 V c :=
  (dat1 V c).arrAt_eq_of_cover 7 (G1 V c) (fun t _ => flushed1_eq V c t) (cover1)

end Region1

/-! ## Region 3: the result array, index by index -/

section Region3
variable (V : (c : Dev nD) → (b : Ref sig .tc) → Buf (Elt Ideal) ((c : Thread nD τ).loc b))

/-- The index maps of region 3's windows, decided once over the grid: the two row operands and the result move one block
    of rows per point; the five weight and bias operands stay at their one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = t.val ∧ win3_7.index t (1 : Fin 2) = 0 :=
  (by decide +kernel : ∀ t : Fin grid3.N, _)

theorem tlt3 (t : Fin cfg3.N) : t.val < 10 := lt_of_lt_of_eq t.isLt (show cfg3.N = 10 from N_3)

/-- A row-block operand at (r, l) is its array at global row t·5000 + r. -/
theorem iblk3_0_apply (c : Dev nD) (t : Fin cfg3.N) (r : Fin 5000) (l : Fin 64) :
    (iblk3 V c 0 t : S5000x64.Idx → EReal) (ix2 r l) = (V c main_arg0 : S50000x64.Idx → EReal) (ix2 ⟨t.val * 5000 + r.val, by have := tlt3 t; have := r.isLt; omega⟩ l) := by
  obtain ⟨e0, e1, -⟩ := idx_facts3 t
  show (V c main_arg0 : S50000x64.Idx → EReal) (((cfg3.win 0).blk t).view.emb (ix2 r l)) = _
  refine congrArg _ (funext fun a => Fin.ext ?_)
  match a with
  | ⟨0, _⟩ => show win3_0.index t (0 : Fin 2) * 5000 + 1 * r.val = t.val * 5000 + r.val; rw [e0]; omega
  | ⟨1, _⟩ => show win3_0.index t (1 : Fin 2) * 64 + 1 * l.val = l.val; rw [e1]; omega
theorem iblk3_1_apply (c : Dev nD) (t : Fin cfg3.N) (r : Fin 5000) (l : Fin 128) :
    (iblk3 V c 1 t : S5000x128.Idx → EReal) (ix2 r l) = (V c main_v41 : S50000x128.Idx → EReal) (ix2 ⟨t.val * 5000 + r.val, by have := tlt3 t; have := r.isLt; omega⟩ l) := by
  obtain ⟨-, -, e0, e1, -⟩ := idx_facts3 t
  show (V c main_v41 : S50000x128.Idx → EReal) (((cfg3.win 1).blk t).view.emb (ix2 r l)) = _
  refine congrArg _ (funext fun a => Fin.ext ?_)
  match a with
  | ⟨0, _⟩ => show win3_1.index t (0 : Fin 2) * 5000 + 1 * r.val = t.val * 5000 + r.val; rw [e0]; omega
  | ⟨1, _⟩ => show win3_1.index t (1 : Fin 2) * 128 + 1 * l.val = l.val; rw [e1]; omega
/-- A whole-array operand's block is the array. -/
theorem iblk3_2_apply (c : Dev nD) (t : Fin cfg3.N) (l : Fin 64) (k : Fin 128) :
    (iblk3 V c 2 t : S64x128.Idx → EReal) (ix2 l k) = (V c main_v62 : S64x128.Idx → EReal) (ix2 l k) := by
  obtain ⟨-, -, -, -, e0, e1, -⟩ := idx_facts3 t
  show (V c main_v62 : S64x128.Idx → EReal) (((cfg3.win 2).blk t).view.emb (ix2 l k)) = _
  refine congrArg _ (funext fun a => Fin.ext ?_)
  match a with
  | ⟨0, _⟩ => show win3_2.index t (0 : Fin 2) * 64 + 1 * l.val = l.val; rw [e0]; omega
  | ⟨1, _⟩ => show win3_2.index t (1 : Fin 2) * 128 + 1 * k.val = k.val; rw [e1]; omega
theorem iblk3_3_apply (c : Dev nD) (t : Fin cfg3.N) (l : Fin 128) (k : Fin 128) :
    (iblk3 V c 3 t : S128x128.Idx → EReal) (ix2 l k) = (V c main_v64 : S128x128.Idx → EReal) (ix2 l k) := by
  obtain ⟨-, -, -, -, -, -, e0, e1, -⟩ := idx_facts3 t
  show (V c main_v64 : S128x128.Idx → EReal) (((cfg3.win 3).blk t).view.emb (ix2 l k)) = _
  refine congrArg _ (funext fun a => Fin.ext ?_)
  match a with
  | ⟨0, _⟩ => show win3_3.index t (0 : Fin 2) * 128 + 1 * l.val = l.val; rw [e0]; omega
  | ⟨1, _⟩ => show win3_3.index t (1 : Fin 2) * 128 + 1 * k.val = k.val; rw [e1]; omega
theorem iblk3_4_apply (c : Dev nD) (t : Fin cfg3.N) (k : Fin 128) :
    (iblk3 V c 4 t : S128.Idx → EReal) (ix1 k) = (V c main_v68 : S128.Idx → EReal) (ix1 k) := by
  obtain ⟨-, -, -, -, -, -, -, -, e0, -⟩ := idx_facts3 t
  show (V c main_v68 : S128.Idx → EReal) (((cfg3.win 4).blk t).view.emb (ix1 k)) = _
  refine congrArg _ (funext fun a => Fin.ext ?_)
  match a with
  | ⟨0, _⟩ => show win3_4.index t (0 : Fin 1) * 128 + 1 * k.val = k.val; rw [e0]; omega
theorem iblk3_5_apply (c : Dev nD) (t : Fin cfg3.N) (k : Fin 128) (j : Fin 64) :
    (iblk3 V c 5 t : S128x64.Idx → EReal) (ix2 k j) = (V c main_arg15 : S128x64.Idx → EReal) (ix2 k j) := by
  obtain ⟨-, -, -, -, -, -, -, -, -, e0, e1, -⟩ := idx_facts3 t
  show (V c main_arg15 : S128x64.Idx → EReal) (((cfg3.win 5).blk t).view.emb (ix2 k j)) = _
  refine congrArg _ (funext fun a => Fin.ext ?_)
  match a with
  | ⟨0, _⟩ => show win3_5.index t (0 : Fin 2) * 128 + 1 * k.val = k.val; rw [e0]; omega
  | ⟨1, _⟩ => show win3_5.index t (1 : Fin 2) * 64 + 1 * j.val = j.val; rw [e1]; omega
theorem iblk3_6_apply (c : Dev nD) (t : Fin cfg3.N) (j : Fin 64) :
    (iblk3 V c 6 t : S64.Idx → EReal) (ix1 j) = (V c main_arg16 : S64.Idx → EReal) (ix1 j) := by
  obtain ⟨-, -, -, -, -, -, -, -, -, -, -, e0, -⟩ := idx_facts3 t
  show (V c main_arg16 : S64.Idx → EReal) (((cfg3.win 6).blk t).view.emb (ix1 j)) = _
  refine congrArg _ (funext fun a => Fin.ext ?_)
  match a with
  | ⟨0, _⟩ => show win3_6.index t (0 : Fin 1) * 64 + 1 * j.val = j.val; rw [e0]; omega

/-- The region's result array: `fusedAt` of the arrays the region was entered with. -/
def G3 (c : Dev nD) : S50000x64.Idx → EReal := fun i =>
  fusedAt (NR := 50000) (DB := 128) (OD := 64) (V c main_arg0) (V c main_v41) (V c main_v62) (V c main_v64) (V c main_v68) (V c main_arg15) (V c main_arg16) ⟨(i 0).val, (i 0).isLt⟩ ⟨(i 1).val, (i 1).isLt⟩
theorem G3_ix2 (c : Dev nD) (e : Fin 50000) (j : Fin 64) :
    G3 V c (ix2 e j) = fusedAt (NR := 50000) (DB := 128) (OD := 64) (V c main_arg0) (V c main_v41) (V c main_v62) (V c main_v64) (V c main_v68) (V c main_arg15) (V c main_arg16) e j := rfl

/-- The result block after the body at point `t`, at local (r, j): `G3` at global row t·5000 + r. -/
theorem out3_apply (c : Dev nD) (t : Fin cfg3.N) (r : Fin 5000) (j : Fin 64) :
    (out3_7 (F := Ideal) (iblk3 V c 0 t) (iblk3 V c 1 t) (iblk3 V c 2 t) (iblk3 V c 3 t) (iblk3 V c 4 t) (iblk3 V c 5 t) (iblk3 V c 6 t) : S5000x64.Idx → EReal) (ix2 r j)
      = G3 V c (ix2 ⟨t.val * 5000 + r.val, by have := tlt3 t; have := r.isLt; omega⟩ j) := by
  unfold out3_7
  rw [View.canon_unit_zero (S := S5000x64) hz2']
  simp only [View.ld_unit_zero (S := S5000x64) hz2', View.ld_unit_zero (S := S5000x128) hz2', View.ld_unit_zero (S := S64x128) hz2',
    View.ld_unit_zero (S := S128x128) hz2', View.ld_unit_zero (S := S128) hz1', View.ld_unit_zero (S := S128x64) hz2', View.ld_unit_zero (S := S64) hz1']
  rw [Cert.KernelIdeal.Pay.k3_pay1_apply]
  rw [G3_ix2]; unfold fusedAt
  simp only [iblk3_0_apply, iblk3_1_apply, iblk3_2_apply, iblk3_3_apply, iblk3_4_apply, iblk3_5_apply, iblk3_6_apply]
  try rfl

/-- What point `t` writes back is block `t` of `G3`. -/
theorem flushed3_eq (c : Dev nD) (t : Fin cfg3.N) :
    (dat3 V c).flushed 7 t = ((cfg3.win 7).blk t).view.read (Elt Ideal) (G3 V c) := by
  show (cfg3.win 7).cut (grid3.coords t) ((dat3 V c).after 7 t) = _
  rw [after3_7]
  obtain ⟨-, -, -, -, -, -, -, -, -, -, -, -, e0, e1⟩ := idx_facts3 t
  funext y
  obtain ⟨r, j, rfl⟩ : ∃ (r : Fin 5000) (j : Fin 64), y = ix2 r j := ⟨y 0, y 1, eq_ix2 y⟩
  refine (out3_apply V c t r j).trans ?_
  show G3 V c _ = G3 V c (((cfg3.win 7).blk t).view.emb (ix2 r j))
  refine congrArg _ (funext fun a => Fin.ext ?_)
  match a with
  | ⟨0, _⟩ => show t.val * 5000 + r.val = win3_7.index t (0 : Fin 2) * 5000 + 1 * r.val; rw [e0]; omega
  | ⟨1, _⟩ => show j.val = win3_7.index t (1 : Fin 2) * 64 + 1 * j.val; rw [e1]; omega

/-- An index of the result array is in point `t`'s block iff each coordinate is in the block's range on its axis. -/
theorem mem_blk3 (t : Fin cfg3.N) (i : S50000x64.Idx) :
    i ∈ ((cfg3.win 7).blk t).view.set ↔ ∀ a : Fin 2, win3_7.index t a * S5000x64.size a ≤ (i a).val ∧ (i a).val < win3_7.index t a * S5000x64.size a + S5000x64.size a := by
  show i ∈ ((View.whole main_v69).slice (win3_7.rect t)).set ↔ _
  rw [View.set_slice_whole, Rect.mem_set_unit]
  exact Iff.rfl

/-- The blocks of rows tile the result array. -/
theorem cover3 (i : S50000x64.Idx) : ∃ t : Fin cfg3.N, (cfg3.win 7).flush t = true ∧ i ∈ ((cfg3.win 7).blk t).view.set := by
  have hi0 : (i 0).val < 50000 := (i 0).isLt
  have hi1 : (i 1).val < 64 := (i 1).isLt
  refine ⟨⟨(i 0).val / 5000, by rw [show cfg3.N = 10 from N_3]; omega⟩, flush3_7 _, ?_⟩
  rw [mem_blk3]
  obtain ⟨-, -, -, -, -, -, -, -, -, -, -, -, e0, e1⟩ := idx_facts3 ⟨(i 0).val / 5000, by rw [show cfg3.N = 10 from N_3]; omega⟩
  intro a
  match a with
  | ⟨0, _⟩ => show win3_7.index _ (0 : Fin 2) * 5000 ≤ (i 0).val ∧ (i 0).val < win3_7.index _ (0 : Fin 2) * 5000 + 5000; rw [e0]; dsimp only; omega
  | ⟨1, _⟩ => show win3_7.index _ (1 : Fin 2) * 64 ≤ (i 1).val ∧ (i 1).val < win3_7.index _ (1 : Fin 2) * 64 + 64; rw [e1]; omega

/-- THE RESULT ARRAY of region 3 after the run is `G3` of the arrays the region was entered with. -/
theorem final3 (c : Dev nD) : (dat3 V c).arrAt 7 cfg3.N = G3 V c :=
  (dat3 V c).arrAt_eq_of_cover 7 (G3 V c) (fun t _ => flushed3_eq V c t) (cover3)

end Region3

end Cert.KernelIdeal.Hand

end
-- ==== Proof.LibBatchNormFold.lean ====
import Idealize.ShloMosaic.PureOps.Ideal
noncomputable section
namespace LibBatchNormFold
open Idealize.ShloMosaic
variable {ι κ₁ κ₂ : Type} [Fintype ι] [Fintype κ₁] [Fintype κ₂]

/-- One column of the first linear layer on two row operands: (a·wa + b·wb) + bias. -/
def pre (a : ι → κ₁ → EReal) (b : ι → κ₂ → EReal) (wa : κ₁ → EReal) (wb : κ₂ → EReal) (ba : EReal) (i : ι) : EReal :=
  ((∑ l, a i l * wa l) + (∑ l, b i l * wb l)) + ba
/-- The batch mean of a column: its sum divided by n. -/
def mean (h : ι → EReal) (n : EReal) : EReal := Ideal.div (∑ i, h i) n
/-- Batch normalisation as the reference computes it: g·(h − mean) / sqrt(var + eps) + be, var the mean of squared deviations. -/
def refNorm (h : ι → EReal) (g be n eps : EReal) (i : ι) : EReal :=
  Ideal.div (g * (h i - mean h n)) (Ideal.sqrt (Ideal.div (∑ i', (h i' - mean h n) * (h i' - mean h n)) n + eps)) + be
/-- The kernel's scale: g · rsqrt(max(E[h²] − E[h]², 0) + eps). -/
def scale (h : ι → EReal) (g n eps : EReal) : EReal :=
  g * Ideal.rsqrt (max (Ideal.div (∑ i, h i * h i) n - mean h n * mean h n) 0 + eps)
/-- The kernel's shift: be − mean · scale. -/
def shift (h : ι → EReal) (g be n eps : EReal) : EReal := be - mean h n * scale h g n eps
/-- The kernel's folded layer: the weights and the bias multiplied by the scale, the shift added to the bias. -/
def kerFold (a : ι → κ₁ → EReal) (b : ι → κ₂ → EReal) (wa : κ₁ → EReal) (wb : κ₂ → EReal) (ba g be n eps : EReal) (i : ι) : EReal :=
  ((∑ l, a i l * (wa l * scale (pre a b wa wb ba) g n eps)) + (∑ l, b i l * (wb l * scale (pre a b wa wb ba) g n eps)))
    + (ba * scale (pre a b wa wb ba) g n eps + shift (pre a b wa wb ba) g be n eps)

/-! ### Coercion of finite sums -/

/-- The coercion of a finite real sum is the sum of the coercions. -/
theorem coe_sum {α : Type} (s : Finset α) (f : α → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The coercion of a real sum over a whole finite type is the sum of the coercions. -/
theorem coe_sum_univ {α : Type} [Fintype α] (f : α → ℝ) :
    ((∑ i, f i : ℝ) : EReal) = ∑ i, (f i : EReal) := coe_sum Finset.univ f

/-- The coercion of the maximum of two reals is the maximum of the coercions. -/
theorem coe_max (x y : ℝ) : ((max x y : ℝ) : EReal) = max (x : EReal) (y : EReal) :=
  EReal.coe_strictMono.monotone.map_max

/-! ### The real-number counterparts -/

/-- The real column of the first linear layer: (a·wa + b·wb) + bias. -/
def rpre (a : ι → κ₁ → ℝ) (b : ι → κ₂ → ℝ) (wa : κ₁ → ℝ) (wb : κ₂ → ℝ) (ba : ℝ) (i : ι) : ℝ :=
  ((∑ l, a i l * wa l) + (∑ l, b i l * wb l)) + ba
/-- The real mean: the sum times the reciprocal of n. -/
def rmean (h : ι → ℝ) (n : ℝ) : ℝ := (∑ i, h i) * (1 / n)
/-- The real variance as the mean of the squared deviations. -/
def rvar (h : ι → ℝ) (n : ℝ) : ℝ := (∑ i, (h i - rmean h n) * (h i - rmean h n)) * (1 / n)
/-- The real variance as the mean of the squares minus the square of the mean. -/
def rvar' (h : ι → ℝ) (n : ℝ) : ℝ := (∑ i, h i * h i) * (1 / n) - rmean h n * rmean h n
/-- The real scale: g · (sqrt(max(var', 0) + eps))⁻¹. -/
def rscale (h : ι → ℝ) (g n eps : ℝ) : ℝ := g * (Real.sqrt (max (rvar' h n) 0 + eps))⁻¹

/-! ### Each extended-real term on coerced reals is the coercion of the real term -/

/-- The column of the first layer on coerced reals is the coercion of the real column. -/
theorem pre_coe_eq (a : ι → κ₁ → ℝ) (b : ι → κ₂ → ℝ) (wa : κ₁ → ℝ) (wb : κ₂ → ℝ) (ba : ℝ) :
    pre (fun i l => (a i l : EReal)) (fun i l => (b i l : EReal)) (fun l => (wa l : EReal)) (fun l => (wb l : EReal)) (ba : EReal)
      = fun i => ((rpre a b wa wb ba i : ℝ) : EReal) := by
  funext i
  simp only [pre, rpre, ← EReal.coe_mul, ← coe_sum_univ, ← EReal.coe_add]

/-- The mean of a coerced real column at a nonzero real n is the coercion of the real mean. -/
theorem mean_coe_eq (h : ι → ℝ) {n : ℝ} (hn : n ≠ 0) :
    mean (fun i => (h i : EReal)) (n : EReal) = ((rmean h n : ℝ) : EReal) := by
  simp only [mean, rmean, Ideal.div_coe hn, ← coe_sum_univ, ← EReal.coe_mul]

/-- The maximum with 0 of a real, plus a positive real, is positive. -/
theorem max_zero_add_pos (v : ℝ) {eps : ℝ} (heps : 0 < eps) : 0 < max v 0 + eps :=
  add_pos_of_nonneg_of_pos (le_max_right v 0) heps

/-- The scale of a coerced real column is the coercion of the real scale. -/
theorem scale_coe_eq (h : ι → ℝ) (g : ℝ) {n eps : ℝ} (hn : n ≠ 0) (heps : 0 < eps) :
    scale (fun i => (h i : EReal)) (g : EReal) (n : EReal) (eps : EReal) = ((rscale h g n eps : ℝ) : EReal) := by
  have hpos : 0 < max (rvar' h n) 0 + eps := max_zero_add_pos _ heps
  have e1 : Ideal.div (∑ i, (h i : EReal) * (h i : EReal)) (n : EReal) - mean (fun i => (h i : EReal)) (n : EReal) * mean (fun i => (h i : EReal)) (n : EReal)
      = ((rvar' h n : ℝ) : EReal) := by
    simp only [mean_coe_eq h hn, rvar', Ideal.div_coe hn, ← EReal.coe_mul, ← coe_sum_univ, ← EReal.coe_sub]
  simp only [scale]
  rw [e1, ← EReal.coe_zero, ← coe_max, ← EReal.coe_add, Ideal.rsqrt_coe, if_neg (not_lt.mpr hpos.le), if_neg hpos.ne',
    ← EReal.coe_mul, rscale]

/-- The reference normalisation of a coerced real column is the coercion of the real formula. -/
theorem refNorm_coe_eq (h : ι → ℝ) (g be : ℝ) {n eps : ℝ} (hn : n ≠ 0) (hpos : 0 < rvar h n + eps) (i : ι) :
    refNorm (fun i => (h i : EReal)) (g : EReal) (be : EReal) (n : EReal) (eps : EReal) i
      = ((g * (h i - rmean h n) * (1 / Real.sqrt (rvar h n + eps)) + be : ℝ) : EReal) := by
  have hs : Real.sqrt (rvar h n + eps) ≠ 0 := (Real.sqrt_pos.mpr hpos).ne'
  have e1 : Ideal.div (∑ i', ((h i' : EReal) - mean (fun i => (h i : EReal)) (n : EReal)) * ((h i' : EReal) - mean (fun i => (h i : EReal)) (n : EReal))) (n : EReal)
      = ((rvar h n : ℝ) : EReal) := by
    simp only [mean_coe_eq h hn, rvar, Ideal.div_coe hn, ← EReal.coe_sub, ← EReal.coe_mul, ← coe_sum_univ]
  simp only [refNorm]
  rw [e1, mean_coe_eq h hn, ← EReal.coe_add, Ideal.sqrt_coe, if_neg (not_lt.mpr hpos.le), Ideal.div_coe hs,
    ← EReal.coe_sub, ← EReal.coe_mul, ← EReal.coe_mul, ← EReal.coe_add]

/-- The folded layer on coerced reals is the coercion of the real folded layer. -/
theorem kerFold_coe_eq (a : ι → κ₁ → ℝ) (b : ι → κ₂ → ℝ) (wa : κ₁ → ℝ) (wb : κ₂ → ℝ) (ba g be : ℝ) {n eps : ℝ}
    (hn : n ≠ 0) (heps : 0 < eps) (i : ι) :
    kerFold (fun i l => (a i l : EReal)) (fun i l => (b i l : EReal)) (fun l => (wa l : EReal)) (fun l => (wb l : EReal))
        (ba : EReal) (g : EReal) (be : EReal) (n : EReal) (eps : EReal) i
      = ((((∑ l, a i l * (wa l * rscale (rpre a b wa wb ba) g n eps)) + (∑ l, b i l * (wb l * rscale (rpre a b wa wb ba) g n eps)))
          + (ba * rscale (rpre a b wa wb ba) g n eps + (be - rmean (rpre a b wa wb ba) n * rscale (rpre a b wa wb ba) g n eps)) : ℝ) : EReal) := by
  simp only [kerFold, shift, pre_coe_eq, scale_coe_eq _ g hn heps, mean_coe_eq _ hn, ← EReal.coe_mul, ← coe_sum_univ,
    ← EReal.coe_sub, ← EReal.coe_add]

/-! ### The identity in the reals -/

/-- With n the (positive) number of rows, the mean of the squared deviations is the mean of the squares minus the squared mean. -/
theorem rvar_eq_rvar' (h : ι → ℝ) {n : ℝ} (hn : n = (Fintype.card ι : ℝ)) (hn0 : n ≠ 0) : rvar h n = rvar' h n := by
  have hsum : ∑ i, h i = rmean h n * n := by
    rw [rmean, mul_assoc, one_div, inv_mul_cancel₀ hn0, mul_one]
  have hexp : ∑ i, (h i - rmean h n) * (h i - rmean h n)
      = (∑ i, h i * h i) - 2 * rmean h n * (∑ i, h i) + n * (rmean h n * rmean h n) := by
    have : ∀ i, (h i - rmean h n) * (h i - rmean h n) = h i * h i - 2 * rmean h n * h i + rmean h n * rmean h n := by
      intro i; ring
    simp only [this, Finset.sum_add_distrib, Finset.sum_sub_distrib, ← Finset.mul_sum, Finset.sum_const, Finset.card_univ,
      nsmul_eq_mul, ← hn]
    ring
  rw [rvar, rvar', hexp, hsum]
  field_simp
  ring

/-- The mean of squared deviations at a positive n is nonnegative. -/
theorem rvar_nonneg (h : ι → ℝ) {n : ℝ} (hn : 0 < n) : 0 ≤ rvar h n := by
  rw [rvar]
  exact mul_nonneg (Finset.sum_nonneg (fun i _ => mul_self_nonneg _)) (by positivity)

/-- The real scale, once the maximum with 0 drops: g · (sqrt(var + eps))⁻¹. -/
theorem rscale_eq (h : ι → ℝ) (g : ℝ) {n eps : ℝ} (hn : n = (Fintype.card ι : ℝ)) (hn0 : 0 < n) :
    rscale h g n eps = g * (Real.sqrt (rvar h n + eps))⁻¹ := by
  rw [rscale, ← rvar_eq_rvar' h hn hn0.ne', max_eq_left (rvar_nonneg h hn0)]

/-- The folded linear form is the normalised one, in the reals. -/
theorem real_fold (a : ι → κ₁ → ℝ) (b : ι → κ₂ → ℝ) (wa : κ₁ → ℝ) (wb : κ₂ → ℝ) (ba g be m s : ℝ) (i : ι) :
    ((∑ l, a i l * (wa l * (g * s⁻¹))) + (∑ l, b i l * (wb l * (g * s⁻¹)))) + (ba * (g * s⁻¹) + (be - m * (g * s⁻¹)))
      = g * (rpre a b wa wb ba i - m) * (1 / s) + be := by
  have e1 : ∑ l, a i l * (wa l * (g * s⁻¹)) = (∑ l, a i l * wa l) * (g * s⁻¹) := by
    rw [Finset.sum_mul]; exact Finset.sum_congr rfl (fun l _ => by ring)
  have e2 : ∑ l, b i l * (wb l * (g * s⁻¹)) = (∑ l, b i l * wb l) * (g * s⁻¹) := by
    rw [Finset.sum_mul]; exact Finset.sum_congr rfl (fun l _ => by ring)
  rw [e1, e2, rpre, one_div]
  ring

/-! ### The law -/

/-- The law on coerced reals. -/
theorem kerFold_eq_refNorm_coe (a : ι → κ₁ → ℝ) (b : ι → κ₂ → ℝ) (wa : κ₁ → ℝ) (wb : κ₂ → ℝ) (ba g be : ℝ)
    (n eps : ℝ) (hn : n = (Fintype.card ι : ℝ)) (hcard : 0 < Fintype.card ι) (heps : 0 < eps) (i : ι) :
    kerFold (fun i l => (a i l : EReal)) (fun i l => (b i l : EReal)) (fun l => (wa l : EReal)) (fun l => (wb l : EReal))
        (ba : EReal) (g : EReal) (be : EReal) (n : EReal) (eps : EReal) i
      = refNorm (pre (fun i l => (a i l : EReal)) (fun i l => (b i l : EReal)) (fun l => (wa l : EReal)) (fun l => (wb l : EReal)) (ba : EReal))
          (g : EReal) (be : EReal) (n : EReal) (eps : EReal) i := by
  have hn0 : 0 < n := by rw [hn]; exact_mod_cast hcard
  have hpos : 0 < rvar (rpre a b wa wb ba) n + eps := add_pos_of_nonneg_of_pos (rvar_nonneg _ hn0) heps
  rw [kerFold_coe_eq a b wa wb ba g be hn0.ne' heps i, pre_coe_eq, refNorm_coe_eq _ g be hn0.ne' hpos i,
    rscale_eq _ g hn hn0, real_fold]

/-- The column of the first layer on real-valued data is real-valued. -/
theorem pre_coe (a : ι → κ₁ → EReal) (b : ι → κ₂ → EReal) (wa : κ₁ → EReal) (wb : κ₂ → EReal) (ba : EReal)
    (ha : ∀ i l, ∃ r : ℝ, a i l = (r : EReal)) (hb : ∀ i l, ∃ r : ℝ, b i l = (r : EReal)) (hwa : ∀ l, ∃ r : ℝ, wa l = (r : EReal)) (hwb : ∀ l, ∃ r : ℝ, wb l = (r : EReal))
    (hba : ∃ r : ℝ, ba = (r : EReal)) :
    ∃ r : ι → ℝ, ∀ i, pre a b wa wb ba i = (r i : EReal) := by
  choose ra hra using ha
  choose rb hrb using hb
  choose rwa hrwa using hwa
  choose rwb hrwb using hwb
  obtain ⟨rba, rfl⟩ := hba
  obtain rfl : a = fun i l => (ra i l : EReal) := by funext i l; exact hra i l
  obtain rfl : b = fun i l => (rb i l : EReal) := by funext i l; exact hrb i l
  obtain rfl : wa = fun l => (rwa l : EReal) := by funext l; exact hrwa l
  obtain rfl : wb = fun l => (rwb l : EReal) := by funext l; exact hrwb l
  exact ⟨rpre ra rb rwa rwb rba, fun i => congrFun (pre_coe_eq ra rb rwa rwb rba) i⟩

/-- The mean of a real-valued column at a nonzero real n is real. -/
theorem mean_coe (h : ι → EReal) (hh : ∀ i, ∃ r : ℝ, h i = (r : EReal)) {n : ℝ} (hn : n ≠ 0) :
    ∃ r : ℝ, mean h (n : EReal) = (r : EReal) := by
  choose rh hrh using hh
  obtain rfl : h = fun i => (rh i : EReal) := by funext i; exact hrh i
  exact ⟨rmean rh n, mean_coe_eq rh hn⟩

/-- The scale of a real-valued column, at a real g, a nonzero real n and a positive real eps, is real. -/
theorem scale_coe (h : ι → EReal) (hh : ∀ i, ∃ r : ℝ, h i = (r : EReal)) (g : EReal) (hg : ∃ r : ℝ, g = (r : EReal))
    {n eps : ℝ} (hn : n ≠ 0) (heps : 0 < eps) :
    ∃ r : ℝ, scale h g (n : EReal) (eps : EReal) = (r : EReal) := by
  choose rh hrh using hh
  obtain ⟨rg, rfl⟩ := hg
  obtain rfl : h = fun i => (rh i : EReal) := by funext i; exact hrh i
  exact ⟨rscale rh rg n eps, scale_coe_eq rh rg hn heps⟩

/-- THE LAW: on real-valued data the folded layer is the normalised one. -/
theorem kerFold_eq_refNorm (a : ι → κ₁ → EReal) (b : ι → κ₂ → EReal) (wa : κ₁ → EReal) (wb : κ₂ → EReal) (ba g be : EReal)
    (ha : ∀ i l, ∃ r : ℝ, a i l = (r : EReal)) (hb : ∀ i l, ∃ r : ℝ, b i l = (r : EReal)) (hwa : ∀ l, ∃ r : ℝ, wa l = (r : EReal)) (hwb : ∀ l, ∃ r : ℝ, wb l = (r : EReal))
    (hba : ∃ r : ℝ, ba = (r : EReal)) (hg : ∃ r : ℝ, g = (r : EReal)) (hbe : ∃ r : ℝ, be = (r : EReal))
    (n eps : ℝ) (hn : n = (Fintype.card ι : ℝ)) (hcard : 0 < Fintype.card ι) (heps : 0 < eps) (i : ι) :
    kerFold a b wa wb ba g be (n : EReal) (eps : EReal) i = refNorm (pre a b wa wb ba) g be (n : EReal) (eps : EReal) i := by
  choose ra hra using ha
  choose rb hrb using hb
  choose rwa hrwa using hwa
  choose rwb hrwb using hwb
  obtain ⟨rba, rfl⟩ := hba
  obtain ⟨rg, rfl⟩ := hg
  obtain ⟨rbe, rfl⟩ := hbe
  obtain rfl : a = fun i l => (ra i l : EReal) := by funext i l; exact hra i l
  obtain rfl : b = fun i l => (rb i l : EReal) := by funext i l; exact hrb i l
  obtain rfl : wa = fun l => (rwa l : EReal) := by funext l; exact hrwa l
  obtain rfl : wb = fun l => (rwb l : EReal) := by funext l; exact hrwb l
  exact kerFold_eq_refNorm_coe ra rb rwa rwb rba rg rbe n eps hn hcard heps i

end LibBatchNormFold
-- ==== Proof.KIStatsVal.lean ====
import proofs.«167414_j65335042507073_2_alg».proof.Proof.KIStats2
import proofs.«167414_j65335042507073_2_alg».proof.Proof.KIPay
import proofs.«167414_j65335042507073_2_alg».proof.Proof.LibBatchNormFold
import Idealize.ShloMosaic.Lib.Pipeline.Value

/-!
# The two statistics regions' result arrays, as sums over all rows

A statistics region walks the rows of its two row operands block by block. At each point it forms the first layer
`h = (a · Wa + b · Wb) + bias` on the block and adds the column sums of `h` and of `h · h` to two running sums, which
start at zero; the two result arrays are single blocks written back after the last point. Hence, lane by lane, the
first result is `∑ e, h e` and the second `∑ e, h e · h e` over ALL rows `e` of the operands, `h` computed from the
arrays as the region finds them:

* a block of a row operand at local row `r` is the array at global row `t · B + r` (`B` rows per block), the weights
  and the bias are read whole at every point;
* after point `n` the running sums are the sums over the rows below `(n + 1) · B` (induction on `n`, splitting a sum
  over a range);
* the result arrays hold the running sums after the last point, where `(n + 1) · B` is the number of rows.

Region 0 has 125 points of 6400 rows (800000 rows), region 2 has 10 points of 5000 rows (50000 rows).
-/

set_option maxRecDepth 16384

noncomputable section

namespace Cert.KernelIdeal.StatsVal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Cert.KernelIdeal.Pay Idealize.ShloMosaic.ValueIdx
open scoped BigOperators

section Region
variable (V : (c : Dev nD) → (b : Ref sig .tc) → Buf (Elt Ideal) ((c : Thread nD τ).loc b))

/-! ## Region 0: blocks of 6400 rows, 125 points -/

/-- The index maps of the windows, decided over the grid: the two row operands' blocks move down one block per point, the
    three whole-array operands and the two results stay. -/
theorem idx0 : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem lt0 (t : Fin cfg0.N) (r : Fin 6400) : t.val * 6400 + r.val < 800000 := by
  have ht : t.val < 125 := lt_of_lt_of_eq t.isLt N_0
  have hr := r.isLt
  omega

/-- Block `t` of the first row operand, at local row `r`, is the array at global row `t · 6400 + r`. -/
theorem blkA0_0 (c : Dev nD) (t : Fin cfg0.N) (r : Fin 6400) (l : Fin 64) :
    iblk0 V c 0 t (ix2 r l) = V c main_v10 (ix2 ⟨t.val * 6400 + r.val, lt0 t r⟩ l) := by
  obtain ⟨e0, e1, -⟩ := idx0 t
  show V c main_v10 (((cfg0.win 0).blk t).view.emb (ix2 r l)) = _
  refine congrArg (V c main_v10) ?_
  funext a; apply Fin.ext
  match a with
  | ⟨0, _⟩ => show win0_0.index t (0 : Fin 2) * 6400 + 1 * r.val = t.val * 6400 + r.val; omega
  | ⟨1, _⟩ => show win0_0.index t (1 : Fin 2) * 64 + 1 * l.val = l.val; omega

/-- Block `t` of the second row operand likewise. -/
theorem blkA0_1 (c : Dev nD) (t : Fin cfg0.N) (r : Fin 6400) (l : Fin 32) :
    iblk0 V c 1 t (ix2 r l) = V c main_arg2 (ix2 ⟨t.val * 6400 + r.val, lt0 t r⟩ l) := by
  obtain ⟨-, -, e0, e1, -⟩ := idx0 t
  show V c main_arg2 (((cfg0.win 1).blk t).view.emb (ix2 r l)) = _
  refine congrArg (V c main_arg2) ?_
  funext a; apply Fin.ext
  match a with
  | ⟨0, _⟩ => show win0_1.index t (0 : Fin 2) * 6400 + 1 * r.val = t.val * 6400 + r.val; omega
  | ⟨1, _⟩ => show win0_1.index t (1 : Fin 2) * 32 + 1 * l.val = l.val; omega

/-- The first weight operand is read whole at every point. -/
theorem blkA0_2 (c : Dev nD) (t : Fin cfg0.N) (l : Fin 64) (k : Fin 128) :
    iblk0 V c 2 t (ix2 l k) = V c main_v11 (ix2 l k) := by
  obtain ⟨-, -, -, -, e0, e1, -⟩ := idx0 t
  show V c main_v11 (((cfg0.win 2).blk t).view.emb (ix2 l k)) = _
  refine congrArg (V c main_v11) ?_
  funext a; apply Fin.ext
  match a with
  | ⟨0, _⟩ => show win0_2.index t (0 : Fin 2) * 64 + 1 * l.val = l.val; omega
  | ⟨1, _⟩ => show win0_2.index t (1 : Fin 2) * 128 + 1 * k.val = k.val; omega

/-- The second weight operand is read whole at every point. -/
theorem blkA0_3 (c : Dev nD) (t : Fin cfg0.N) (l : Fin 32) (k : Fin 128) :
    iblk0 V c 3 t (ix2 l k) = V c main_v12 (ix2 l k) := by
  obtain ⟨-, -, -, -, -, -, e0, e1, -⟩ := idx0 t
  show V c main_v12 (((cfg0.win 3).blk t).view.emb (ix2 l k)) = _
  refine congrArg (V c main_v12) ?_
  funext a; apply Fin.ext
  match a with
  | ⟨0, _⟩ => show win0_3.index t (0 : Fin 2) * 32 + 1 * l.val = l.val; omega
  | ⟨1, _⟩ => show win0_3.index t (1 : Fin 2) * 128 + 1 * k.val = k.val; omega

/-- The bias is read whole at every point. -/
theorem blkA0_4 (c : Dev nD) (t : Fin cfg0.N) (k : Fin 128) :
    iblk0 V c 4 t (ix1 k) = V c main_arg6 (ix1 k) := by
  obtain ⟨-, -, -, -, -, -, -, -, e0, -⟩ := idx0 t
  show V c main_arg6 (((cfg0.win 4).blk t).view.emb (ix1 k)) = _
  refine congrArg (V c main_arg6) ?_
  funext a; apply Fin.ext
  match a with
  | ⟨0, _⟩ => show win0_4.index t (0 : Fin 1) * 128 + 1 * k.val = k.val; omega

/-- Lane `k` of the first layer over all 800000 rows, as the region finds the arrays. -/
def hcol0 (c : Dev nD) (k : Fin 128) : Fin 800000 → EReal :=
  LibBatchNormFold.pre (fun e l => V c main_v10 (ix2 e l)) (fun e l => V c main_arg2 (ix2 e l))
    (fun l => V c main_v11 (ix2 l k)) (fun l => V c main_v12 (ix2 l k)) (V c main_arg6 (ix1 k))

/-- The same lane on the naturals, zero past the last row: the summand of the sums over ranges. -/
def gcol0 (c : Dev nD) (k : Fin 128) (e : ℕ) : EReal := if h : e < 800000 then hcol0 V c k ⟨e, h⟩ else 0

/-- One point's step of the running sum, over variables: the sum so far plus the block's first layer summed over its rows. -/
theorem stepS0_apply (x0 : Vec Ideal S6400x64 .f32) (x1 : Vec Ideal S6400x32 .f32) (x2 : Vec Ideal S64x128 .f32)
    (x3 : Vec Ideal S32x128 .f32) (x4 : Vec Ideal S128 .f32) (s : Vec Ideal S1x128 .f32) (k : Fin 128) :
    stepS0 x0 x1 x2 x3 x4 s (ix2 0 k)
      = s (ix2 0 k) + ∑ r : Fin 6400, (((∑ l : Fin 64, x0 (ix2 r l) * x2 (ix2 l k)) + (∑ l : Fin 32, x1 (ix2 r l) * x3 (ix2 l k))) + x4 (ix1 k)) := by
  unfold stepS0
  refine (pay5_apply x0 x1 x2 x3 x4 s k).trans ?_
  exact congrArg (s (ix2 0 k) + ·) (Finset.sum_congr rfl fun r _ => pay4_apply x0 x1 x2 x3 x4 r k)

/-- One point's step of the running sum of squares, over variables. -/
theorem stepQ0_apply (x0 : Vec Ideal S6400x64 .f32) (x1 : Vec Ideal S6400x32 .f32) (x2 : Vec Ideal S64x128 .f32)
    (x3 : Vec Ideal S32x128 .f32) (x4 : Vec Ideal S128 .f32) (q : Vec Ideal S1x128 .f32) (k : Fin 128) :
    stepQ0 x0 x1 x2 x3 x4 q (ix2 0 k)
      = q (ix2 0 k) + ∑ r : Fin 6400, (((∑ l : Fin 64, x0 (ix2 r l) * x2 (ix2 l k)) + (∑ l : Fin 32, x1 (ix2 r l) * x3 (ix2 l k))) + x4 (ix1 k))
          * (((∑ l : Fin 64, x0 (ix2 r l) * x2 (ix2 l k)) + (∑ l : Fin 32, x1 (ix2 r l) * x3 (ix2 l k))) + x4 (ix1 k)) := by
  unfold stepQ0
  refine (pay16_apply x0 x1 x2 x3 x4 q k).trans ?_
  exact congrArg (q (ix2 0 k) + ·) (Finset.sum_congr rfl fun r _ =>
    congrArg₂ (· * ·) (pay4_apply x0 x1 x2 x3 x4 r k) (pay4_apply x0 x1 x2 x3 x4 r k))

/-- The first layer on block `t` at local row `r` is the layer's lane at global row `t · 6400 + r`. -/
theorem row0 (c : Dev nD) (t : Fin cfg0.N) (r : Fin 6400) (k : Fin 128)
    (x0 : Vec Ideal S6400x64 .f32) (x1 : Vec Ideal S6400x32 .f32) (x2 : Vec Ideal S64x128 .f32)
    (x3 : Vec Ideal S32x128 .f32) (x4 : Vec Ideal S128 .f32)
    (h0 : x0 = iblk0 V c 0 t) (h1 : x1 = iblk0 V c 1 t) (h2 : x2 = iblk0 V c 2 t) (h3 : x3 = iblk0 V c 3 t) (h4 : x4 = iblk0 V c 4 t) :
    ((∑ l : Fin 64, x0 (ix2 r l) * x2 (ix2 l k)) + (∑ l : Fin 32, x1 (ix2 r l) * x3 (ix2 l k))) + x4 (ix1 k)
      = gcol0 V c k (t.val * 6400 + r.val) := by
  subst h0 h1 h2 h3 h4
  unfold gcol0
  rw [dif_pos (lt0 t r)]
  unfold hcol0 LibBatchNormFold.pre
  refine congrArg₂ (· + ·) (congrArg₂ (· + ·) (Finset.sum_congr rfl fun l _ => ?_) (Finset.sum_congr rfl fun l _ => ?_)) ?_
  · rw [blkA0_0 V c t r l, blkA0_2 V c t l k]
  · rw [blkA0_1 V c t r l, blkA0_3 V c t l k]
  · exact blkA0_4 V c t k

/-- The step at point `t` adds the layer's lane over the rows `t · 6400 ≤ e < (t + 1) · 6400`. -/
theorem stepS0_blk (c : Dev nD) (t : Fin cfg0.N) (s : Vec Ideal S1x128 .f32) (k : Fin 128) :
    stepS0 (iblk0 V c 0 t) (iblk0 V c 1 t) (iblk0 V c 2 t) (iblk0 V c 3 t) (iblk0 V c 4 t) s (ix2 0 k)
      = s (ix2 0 k) + ∑ x ∈ Finset.range 6400, gcol0 V c k (t.val * 6400 + x) := by
  refine (stepS0_apply _ _ _ _ _ s k).trans (congrArg (s (ix2 0 k) + ·) ?_)
  rw [Finset.sum_range]
  exact Finset.sum_congr rfl fun r _ => row0 V c t r k _ _ _ _ _ rfl rfl rfl rfl rfl

theorem stepQ0_blk (c : Dev nD) (t : Fin cfg0.N) (q : Vec Ideal S1x128 .f32) (k : Fin 128) :
    stepQ0 (iblk0 V c 0 t) (iblk0 V c 1 t) (iblk0 V c 2 t) (iblk0 V c 3 t) (iblk0 V c 4 t) q (ix2 0 k)
      = q (ix2 0 k) + ∑ x ∈ Finset.range 6400, gcol0 V c k (t.val * 6400 + x) * gcol0 V c k (t.val * 6400 + x) := by
  refine (stepQ0_apply _ _ _ _ _ q k).trans (congrArg (q (ix2 0 k) + ·) ?_)
  rw [Finset.sum_range]
  exact Finset.sum_congr rfl fun r _ => congrArg₂ (· * ·) (row0 V c t r k _ _ _ _ _ rfl rfl rfl rfl rfl) (row0 V c t r k _ _ _ _ _ rfl rfl rfl rfl rfl)

/-- After point `n` the two running sums hold the lane, and its square, summed over the rows below `(n + 1) · 6400`. -/
theorem acc0_sum (c : Dev nD) (k : Fin 128) : ∀ (n : ℕ) (hn : n < cfg0.N),
    (acc0 V c n hn).1 (ix2 0 k) = ∑ e ∈ Finset.range ((n + 1) * 6400), gcol0 V c k e
    ∧ (acc0 V c n hn).2 (ix2 0 k) = ∑ e ∈ Finset.range ((n + 1) * 6400), gcol0 V c k e * gcol0 V c k e
  | 0, hn => by
    constructor
    · show stepS0 (iblk0 V c 0 ⟨0, hn⟩) (iblk0 V c 1 ⟨0, hn⟩) (iblk0 V c 2 ⟨0, hn⟩) (iblk0 V c 3 ⟨0, hn⟩) (iblk0 V c 4 ⟨0, hn⟩) (k0_pay2 (F := Ideal)) (ix2 0 k) = _
      rw [stepS0_blk V c ⟨0, hn⟩ (k0_pay2 (F := Ideal)) k, pay2_apply, zero_add]
      exact Finset.sum_congr (by norm_num) fun x _ => by rw [show (⟨0, hn⟩ : Fin cfg0.N).val * 6400 + x = x by simp]
    · show stepQ0 (iblk0 V c 0 ⟨0, hn⟩) (iblk0 V c 1 ⟨0, hn⟩) (iblk0 V c 2 ⟨0, hn⟩) (iblk0 V c 3 ⟨0, hn⟩) (iblk0 V c 4 ⟨0, hn⟩) (k0_pay3 (F := Ideal)) (ix2 0 k) = _
      rw [stepQ0_blk V c ⟨0, hn⟩ (k0_pay3 (F := Ideal)) k, pay3_apply, zero_add]
      exact Finset.sum_congr (by norm_num) fun x _ => by rw [show (⟨0, hn⟩ : Fin cfg0.N).val * 6400 + x = x by simp]
  | n + 1, hn => by
    obtain ⟨ih1, ih2⟩ := acc0_sum c k n (Nat.lt_of_succ_lt hn)
    have hsplit : (n + 1 + 1) * 6400 = (n + 1) * 6400 + 6400 := by omega
    constructor
    · show stepS0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (acc0 V c n (Nat.lt_of_succ_lt hn)).1 (ix2 0 k) = _
      rw [stepS0_blk V c ⟨n + 1, hn⟩ _ k, ih1, hsplit, Finset.sum_range_add]
    · show stepQ0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (acc0 V c n (Nat.lt_of_succ_lt hn)).2 (ix2 0 k) = _
      rw [stepQ0_blk V c ⟨n + 1, hn⟩ _ k, ih2, hsplit, Finset.sum_range_add]

theorem last0 : 124 < cfg0.N := lt_of_lt_of_eq (by norm_num) N_0.symm

/-- The first result array after the run: what the running sum holds after the last point. Its one block is the whole
    array, written back at the last point only. -/
theorem arr0_5 (c : Dev nD) : (dat0 V c).arrAt 5 cfg0.N = (acc0 V c 124 last0).1 := by
  refine (dat0 V c).arrAt_eq_of_cover 5 _ (fun t hf => ?_) (fun i => ?_)
  · have h124 : t.val = 124 := by
      have h1 := (flush0_5 t).1 hf
      have h2 : t.val < 125 := lt_of_lt_of_eq t.isLt N_0
      omega
    obtain ⟨n, hn⟩ := t
    simp only at h124
    subst h124
    show (cfg0.win 5).cut (grid0.coords ⟨124, hn⟩) ((dat0 V c).after 5 ⟨124, hn⟩) = _
    rw [after0_5]
    obtain ⟨-, -, -, -, -, -, -, -, -, e0, e1, -⟩ := idx0 ⟨124, hn⟩
    funext j
    show (acc0 V c 124 hn).1 j = (acc0 V c 124 last0).1 (((cfg0.win 5).blk ⟨124, hn⟩).view.emb j)
    refine congrArg (acc0 V c 124 hn).1 ?_
    funext a; apply Fin.ext
    match a with
    | ⟨0, _⟩ => show (j 0).val = win0_5.index ⟨124, hn⟩ (0 : Fin 2) * 1 + 1 * (j 0).val; omega
    | ⟨1, _⟩ => show (j 1).val = win0_5.index ⟨124, hn⟩ (1 : Fin 2) * 128 + 1 * (j 1).val; omega
  · obtain ⟨-, -, -, -, -, -, -, -, -, e0, e1, -⟩ := idx0 ⟨124, last0⟩
    refine ⟨⟨124, last0⟩, (flush0_5 _).2 (by norm_num), ?_⟩
    show i ∈ ((View.whole main_v13_0).slice (win0_5.rect ⟨124, last0⟩)).set
    rw [View.set_slice_whole, Rect.mem_set_unit]
    intro a
    match a with
    | ⟨0, _⟩ =>
      show win0_5.index ⟨124, last0⟩ (0 : Fin 2) * 1 ≤ (i 0).val ∧ (i 0).val < win0_5.index ⟨124, last0⟩ (0 : Fin 2) * 1 + 1
      have hi : (i 0).val < 1 := (i 0).isLt
      omega
    | ⟨1, _⟩ =>
      show win0_5.index ⟨124, last0⟩ (1 : Fin 2) * 128 ≤ (i 1).val ∧ (i 1).val < win0_5.index ⟨124, last0⟩ (1 : Fin 2) * 128 + 128
      have hi : (i 1).val < 128 := (i 1).isLt
      omega

/-- The second result array after the run: what the running sum of squares holds after the last point. -/
theorem arr0_6 (c : Dev nD) : (dat0 V c).arrAt 6 cfg0.N = (acc0 V c 124 last0).2 := by
  refine (dat0 V c).arrAt_eq_of_cover 6 _ (fun t hf => ?_) (fun i => ?_)
  · have h124 : t.val = 124 := by
      have h1 := (flush0_6 t).1 hf
      have h2 : t.val < 125 := lt_of_lt_of_eq t.isLt N_0
      omega
    obtain ⟨n, hn⟩ := t
    simp only at h124
    subst h124
    show (cfg0.win 6).cut (grid0.coords ⟨124, hn⟩) ((dat0 V c).after 6 ⟨124, hn⟩) = _
    rw [after0_6]
    obtain ⟨-, -, -, -, -, -, -, -, -, -, -, e0, e1⟩ := idx0 ⟨124, hn⟩
    funext j
    show (acc0 V c 124 hn).2 j = (acc0 V c 124 last0).2 (((cfg0.win 6).blk ⟨124, hn⟩).view.emb j)
    refine congrArg (acc0 V c 124 hn).2 ?_
    funext a; apply Fin.ext
    match a with
    | ⟨0, _⟩ => show (j 0).val = win0_6.index ⟨124, hn⟩ (0 : Fin 2) * 1 + 1 * (j 0).val; omega
    | ⟨1, _⟩ => show (j 1).val = win0_6.index ⟨124, hn⟩ (1 : Fin 2) * 128 + 1 * (j 1).val; omega
  · obtain ⟨-, -, -, -, -, -, -, -, -, -, -, e0, e1⟩ := idx0 ⟨124, last0⟩
    refine ⟨⟨124, last0⟩, (flush0_6 _).2 (by norm_num), ?_⟩
    show i ∈ ((View.whole main_v13_1).slice (win0_6.rect ⟨124, last0⟩)).set
    rw [View.set_slice_whole, Rect.mem_set_unit]
    intro a
    match a with
    | ⟨0, _⟩ =>
      show win0_6.index ⟨124, last0⟩ (0 : Fin 2) * 1 ≤ (i 0).val ∧ (i 0).val < win0_6.index ⟨124, last0⟩ (0 : Fin 2) * 1 + 1
      have hi : (i 0).val < 1 := (i 0).isLt
      omega
    | ⟨1, _⟩ =>
      show win0_6.index ⟨124, last0⟩ (1 : Fin 2) * 128 ≤ (i 1).val ∧ (i 1).val < win0_6.index ⟨124, last0⟩ (1 : Fin 2) * 128 + 128
      have hi : (i 1).val < 128 := (i 1).isLt
      omega

/-- The sum over the range below 800000 of the lane is its sum over all rows. -/
theorem gsum0 (c : Dev nD) (k : Fin 128) :
    ∑ e ∈ Finset.range 800000, gcol0 V c k e = ∑ e : Fin 800000, hcol0 V c k e := by
  rw [Finset.sum_fin_eq_sum_range]
  rfl

/-- The same for the squares. -/
theorem gsq0 (c : Dev nD) (k : Fin 128) :
    ∑ e ∈ Finset.range 800000, gcol0 V c k e * gcol0 V c k e = ∑ e : Fin 800000, hcol0 V c k e * hcol0 V c k e := by
  rw [Finset.sum_fin_eq_sum_range]
  refine Finset.sum_congr rfl fun e _ => ?_
  unfold gcol0
  split
  · rfl
  · exact mul_zero _

/-- The first result array, lane `k`: the first layer's lane summed over all 800000 rows. -/
theorem sum0_apply (c : Dev nD) (k : Fin 128) :
    ((dat0 V c).arrAt 5 cfg0.N : S1x128.Idx → EReal) (ix2 0 k) = ∑ e : Fin 800000, hcol0 V c k e := by
  rw [arr0_5, (acc0_sum V c k 124 last0).1]
  exact gsum0 V c k

/-- The second result array, lane `k`: the square of the first layer's lane summed over all 800000 rows. -/
theorem sumsq0_apply (c : Dev nD) (k : Fin 128) :
    ((dat0 V c).arrAt 6 cfg0.N : S1x128.Idx → EReal) (ix2 0 k) = ∑ e : Fin 800000, hcol0 V c k e * hcol0 V c k e := by
  rw [arr0_6, (acc0_sum V c k 124 last0).2]
  exact gsq0 V c k

/-! ## Region 2: blocks of 5000 rows, 10 points -/

/-- The index maps of the windows, decided over the grid: the two row operands' blocks move down one block per point, the
    three whole-array operands and the two results stay. -/
theorem idx2 : ∀ t : Fin grid2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

theorem lt2 (t : Fin cfg2.N) (r : Fin 5000) : t.val * 5000 + r.val < 50000 := by
  have ht : t.val < 10 := lt_of_lt_of_eq t.isLt N_2
  have hr := r.isLt
  omega

/-- Block `t` of the first row operand, at local row `r`, is the array at global row `t · 5000 + r`. -/
theorem blkA2_0 (c : Dev nD) (t : Fin cfg2.N) (r : Fin 5000) (l : Fin 64) :
    iblk2 V c 0 t (ix2 r l) = V c main_arg0 (ix2 ⟨t.val * 5000 + r.val, lt2 t r⟩ l) := by
  obtain ⟨e0, e1, -⟩ := idx2 t
  show V c main_arg0 (((cfg2.win 0).blk t).view.emb (ix2 r l)) = _
  refine congrArg (V c main_arg0) ?_
  funext a; apply Fin.ext
  match a with
  | ⟨0, _⟩ => show win2_0.index t (0 : Fin 2) * 5000 + 1 * r.val = t.val * 5000 + r.val; omega
  | ⟨1, _⟩ => show win2_0.index t (1 : Fin 2) * 64 + 1 * l.val = l.val; omega

/-- Block `t` of the second row operand likewise. -/
theorem blkA2_1 (c : Dev nD) (t : Fin cfg2.N) (r : Fin 5000) (l : Fin 128) :
    iblk2 V c 1 t (ix2 r l) = V c main_v41 (ix2 ⟨t.val * 5000 + r.val, lt2 t r⟩ l) := by
  obtain ⟨-, -, e0, e1, -⟩ := idx2 t
  show V c main_v41 (((cfg2.win 1).blk t).view.emb (ix2 r l)) = _
  refine congrArg (V c main_v41) ?_
  funext a; apply Fin.ext
  match a with
  | ⟨0, _⟩ => show win2_1.index t (0 : Fin 2) * 5000 + 1 * r.val = t.val * 5000 + r.val; omega
  | ⟨1, _⟩ => show win2_1.index t (1 : Fin 2) * 128 + 1 * l.val = l.val; omega

/-- The first weight operand is read whole at every point. -/
theorem blkA2_2 (c : Dev nD) (t : Fin cfg2.N) (l : Fin 64) (k : Fin 128) :
    iblk2 V c 2 t (ix2 l k) = V c main_v42 (ix2 l k) := by
  obtain ⟨-, -, -, -, e0, e1, -⟩ := idx2 t
  show V c main_v42 (((cfg2.win 2).blk t).view.emb (ix2 l k)) = _
  refine congrArg (V c main_v42) ?_
  funext a; apply Fin.ext
  match a with
  | ⟨0, _⟩ => show win2_2.index t (0 : Fin 2) * 64 + 1 * l.val = l.val; omega
  | ⟨1, _⟩ => show win2_2.index t (1 : Fin 2) * 128 + 1 * k.val = k.val; omega

/-- The second weight operand is read whole at every point. -/
theorem blkA2_3 (c : Dev nD) (t : Fin cfg2.N) (l : Fin 128) (k : Fin 128) :
    iblk2 V c 3 t (ix2 l k) = V c main_v43 (ix2 l k) := by
  obtain ⟨-, -, -, -, -, -, e0, e1, -⟩ := idx2 t
  show V c main_v43 (((cfg2.win 3).blk t).view.emb (ix2 l k)) = _
  refine congrArg (V c main_v43) ?_
  funext a; apply Fin.ext
  match a with
  | ⟨0, _⟩ => show win2_3.index t (0 : Fin 2) * 128 + 1 * l.val = l.val; omega
  | ⟨1, _⟩ => show win2_3.index t (1 : Fin 2) * 128 + 1 * k.val = k.val; omega

/-- The bias is read whole at every point. -/
theorem blkA2_4 (c : Dev nD) (t : Fin cfg2.N) (k : Fin 128) :
    iblk2 V c 4 t (ix1 k) = V c main_arg12 (ix1 k) := by
  obtain ⟨-, -, -, -, -, -, -, -, e0, -⟩ := idx2 t
  show V c main_arg12 (((cfg2.win 4).blk t).view.emb (ix1 k)) = _
  refine congrArg (V c main_arg12) ?_
  funext a; apply Fin.ext
  match a with
  | ⟨0, _⟩ => show win2_4.index t (0 : Fin 1) * 128 + 1 * k.val = k.val; omega

/-- Lane `k` of the first layer over all 50000 rows, as the region finds the arrays. -/
def hcol2 (c : Dev nD) (k : Fin 128) : Fin 50000 → EReal :=
  LibBatchNormFold.pre (fun e l => V c main_arg0 (ix2 e l)) (fun e l => V c main_v41 (ix2 e l))
    (fun l => V c main_v42 (ix2 l k)) (fun l => V c main_v43 (ix2 l k)) (V c main_arg12 (ix1 k))

/-- The same lane on the naturals, zero past the last row: the summand of the sums over ranges. -/
def gcol2 (c : Dev nD) (k : Fin 128) (e : ℕ) : EReal := if h : e < 50000 then hcol2 V c k ⟨e, h⟩ else 0

/-- One point's step of the running sum, over variables: the sum so far plus the block's first layer summed over its rows. -/
theorem stepS2_apply (x0 : Vec Ideal S5000x64 .f32) (x1 : Vec Ideal S5000x128 .f32) (x2 : Vec Ideal S64x128 .f32)
    (x3 : Vec Ideal S128x128 .f32) (x4 : Vec Ideal S128 .f32) (s : Vec Ideal S1x128 .f32) (k : Fin 128) :
    stepS2 x0 x1 x2 x3 x4 s (ix2 0 k)
      = s (ix2 0 k) + ∑ r : Fin 5000, (((∑ l : Fin 64, x0 (ix2 r l) * x2 (ix2 l k)) + (∑ l : Fin 128, x1 (ix2 r l) * x3 (ix2 l k))) + x4 (ix1 k)) := by
  unfold stepS2
  refine (k2_pay5_apply x0 x1 x2 x3 x4 s k).trans ?_
  exact congrArg (s (ix2 0 k) + ·) (Finset.sum_congr rfl fun r _ => k2_pay4_apply x0 x1 x2 x3 x4 r k)

/-- One point's step of the running sum of squares, over variables. -/
theorem stepQ2_apply (x0 : Vec Ideal S5000x64 .f32) (x1 : Vec Ideal S5000x128 .f32) (x2 : Vec Ideal S64x128 .f32)
    (x3 : Vec Ideal S128x128 .f32) (x4 : Vec Ideal S128 .f32) (q : Vec Ideal S1x128 .f32) (k : Fin 128) :
    stepQ2 x0 x1 x2 x3 x4 q (ix2 0 k)
      = q (ix2 0 k) + ∑ r : Fin 5000, (((∑ l : Fin 64, x0 (ix2 r l) * x2 (ix2 l k)) + (∑ l : Fin 128, x1 (ix2 r l) * x3 (ix2 l k))) + x4 (ix1 k))
          * (((∑ l : Fin 64, x0 (ix2 r l) * x2 (ix2 l k)) + (∑ l : Fin 128, x1 (ix2 r l) * x3 (ix2 l k))) + x4 (ix1 k)) := by
  unfold stepQ2
  refine (k2_pay16_apply x0 x1 x2 x3 x4 q k).trans ?_
  exact congrArg (q (ix2 0 k) + ·) (Finset.sum_congr rfl fun r _ =>
    congrArg₂ (· * ·) (k2_pay4_apply x0 x1 x2 x3 x4 r k) (k2_pay4_apply x0 x1 x2 x3 x4 r k))

/-- The first layer on block `t` at local row `r` is the layer's lane at global row `t · 5000 + r`. -/
theorem row2 (c : Dev nD) (t : Fin cfg2.N) (r : Fin 5000) (k : Fin 128)
    (x0 : Vec Ideal S5000x64 .f32) (x1 : Vec Ideal S5000x128 .f32) (x2 : Vec Ideal S64x128 .f32)
    (x3 : Vec Ideal S128x128 .f32) (x4 : Vec Ideal S128 .f32)
    (h0 : x0 = iblk2 V c 0 t) (h1 : x1 = iblk2 V c 1 t) (h2 : x2 = iblk2 V c 2 t) (h3 : x3 = iblk2 V c 3 t) (h4 : x4 = iblk2 V c 4 t) :
    ((∑ l : Fin 64, x0 (ix2 r l) * x2 (ix2 l k)) + (∑ l : Fin 128, x1 (ix2 r l) * x3 (ix2 l k))) + x4 (ix1 k)
      = gcol2 V c k (t.val * 5000 + r.val) := by
  subst h0 h1 h2 h3 h4
  unfold gcol2
  rw [dif_pos (lt2 t r)]
  unfold hcol2 LibBatchNormFold.pre
  refine congrArg₂ (· + ·) (congrArg₂ (· + ·) (Finset.sum_congr rfl fun l _ => ?_) (Finset.sum_congr rfl fun l _ => ?_)) ?_
  · rw [blkA2_0 V c t r l, blkA2_2 V c t l k]
  · rw [blkA2_1 V c t r l, blkA2_3 V c t l k]
  · exact blkA2_4 V c t k

/-- The step at point `t` adds the layer's lane over the rows `t · 5000 ≤ e < (t + 1) · 5000`. -/
theorem stepS2_blk (c : Dev nD) (t : Fin cfg2.N) (s : Vec Ideal S1x128 .f32) (k : Fin 128) :
    stepS2 (iblk2 V c 0 t) (iblk2 V c 1 t) (iblk2 V c 2 t) (iblk2 V c 3 t) (iblk2 V c 4 t) s (ix2 0 k)
      = s (ix2 0 k) + ∑ x ∈ Finset.range 5000, gcol2 V c k (t.val * 5000 + x) := by
  refine (stepS2_apply _ _ _ _ _ s k).trans (congrArg (s (ix2 0 k) + ·) ?_)
  rw [Finset.sum_range]
  exact Finset.sum_congr rfl fun r _ => row2 V c t r k _ _ _ _ _ rfl rfl rfl rfl rfl

theorem stepQ2_blk (c : Dev nD) (t : Fin cfg2.N) (q : Vec Ideal S1x128 .f32) (k : Fin 128) :
    stepQ2 (iblk2 V c 0 t) (iblk2 V c 1 t) (iblk2 V c 2 t) (iblk2 V c 3 t) (iblk2 V c 4 t) q (ix2 0 k)
      = q (ix2 0 k) + ∑ x ∈ Finset.range 5000, gcol2 V c k (t.val * 5000 + x) * gcol2 V c k (t.val * 5000 + x) := by
  refine (stepQ2_apply _ _ _ _ _ q k).trans (congrArg (q (ix2 0 k) + ·) ?_)
  rw [Finset.sum_range]
  exact Finset.sum_congr rfl fun r _ => congrArg₂ (· * ·) (row2 V c t r k _ _ _ _ _ rfl rfl rfl rfl rfl) (row2 V c t r k _ _ _ _ _ rfl rfl rfl rfl rfl)

/-- After point `n` the two running sums hold the lane, and its square, summed over the rows below `(n + 1) · 5000`. -/
theorem acc2_sum (c : Dev nD) (k : Fin 128) : ∀ (n : ℕ) (hn : n < cfg2.N),
    (acc2 V c n hn).1 (ix2 0 k) = ∑ e ∈ Finset.range ((n + 1) * 5000), gcol2 V c k e
    ∧ (acc2 V c n hn).2 (ix2 0 k) = ∑ e ∈ Finset.range ((n + 1) * 5000), gcol2 V c k e * gcol2 V c k e
  | 0, hn => by
    constructor
    · show stepS2 (iblk2 V c 0 ⟨0, hn⟩) (iblk2 V c 1 ⟨0, hn⟩) (iblk2 V c 2 ⟨0, hn⟩) (iblk2 V c 3 ⟨0, hn⟩) (iblk2 V c 4 ⟨0, hn⟩) (k2_pay2 (F := Ideal)) (ix2 0 k) = _
      rw [stepS2_blk V c ⟨0, hn⟩ (k2_pay2 (F := Ideal)) k, k2_pay2_apply, zero_add]
      exact Finset.sum_congr (by norm_num) fun x _ => by rw [show (⟨0, hn⟩ : Fin cfg2.N).val * 5000 + x = x by simp]
    · show stepQ2 (iblk2 V c 0 ⟨0, hn⟩) (iblk2 V c 1 ⟨0, hn⟩) (iblk2 V c 2 ⟨0, hn⟩) (iblk2 V c 3 ⟨0, hn⟩) (iblk2 V c 4 ⟨0, hn⟩) (k2_pay3 (F := Ideal)) (ix2 0 k) = _
      rw [stepQ2_blk V c ⟨0, hn⟩ (k2_pay3 (F := Ideal)) k, k2_pay3_apply, zero_add]
      exact Finset.sum_congr (by norm_num) fun x _ => by rw [show (⟨0, hn⟩ : Fin cfg2.N).val * 5000 + x = x by simp]
  | n + 1, hn => by
    obtain ⟨ih1, ih2⟩ := acc2_sum c k n (Nat.lt_of_succ_lt hn)
    have hsplit : (n + 1 + 1) * 5000 = (n + 1) * 5000 + 5000 := by omega
    constructor
    · show stepS2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (acc2 V c n (Nat.lt_of_succ_lt hn)).1 (ix2 0 k) = _
      rw [stepS2_blk V c ⟨n + 1, hn⟩ _ k, ih1, hsplit, Finset.sum_range_add]
    · show stepQ2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (acc2 V c n (Nat.lt_of_succ_lt hn)).2 (ix2 0 k) = _
      rw [stepQ2_blk V c ⟨n + 1, hn⟩ _ k, ih2, hsplit, Finset.sum_range_add]

theorem last2 : 9 < cfg2.N := lt_of_lt_of_eq (by norm_num) N_2.symm

/-- The first result array after the run: what the running sum holds after the last point. Its one block is the whole
    array, written back at the last point only. -/
theorem arr2_5 (c : Dev nD) : (dat2 V c).arrAt 5 cfg2.N = (acc2 V c 9 last2).1 := by
  refine (dat2 V c).arrAt_eq_of_cover 5 _ (fun t hf => ?_) (fun i => ?_)
  · have h124 : t.val = 9 := by
      have h1 := (flush2_5 t).1 hf
      have h2 : t.val < 10 := lt_of_lt_of_eq t.isLt N_2
      omega
    obtain ⟨n, hn⟩ := t
    simp only at h124
    subst h124
    show (cfg2.win 5).cut (grid2.coords ⟨9, hn⟩) ((dat2 V c).after 5 ⟨9, hn⟩) = _
    rw [after2_5]
    obtain ⟨-, -, -, -, -, -, -, -, -, e0, e1, -⟩ := idx2 ⟨9, hn⟩
    funext j
    show (acc2 V c 9 hn).1 j = (acc2 V c 9 last2).1 (((cfg2.win 5).blk ⟨9, hn⟩).view.emb j)
    refine congrArg (acc2 V c 9 hn).1 ?_
    funext a; apply Fin.ext
    match a with
    | ⟨0, _⟩ => show (j 0).val = win2_5.index ⟨9, hn⟩ (0 : Fin 2) * 1 + 1 * (j 0).val; omega
    | ⟨1, _⟩ => show (j 1).val = win2_5.index ⟨9, hn⟩ (1 : Fin 2) * 128 + 1 * (j 1).val; omega
  · obtain ⟨-, -, -, -, -, -, -, -, -, e0, e1, -⟩ := idx2 ⟨9, last2⟩
    refine ⟨⟨9, last2⟩, (flush2_5 _).2 (by norm_num), ?_⟩
    show i ∈ ((View.whole main_v44_0).slice (win2_5.rect ⟨9, last2⟩)).set
    rw [View.set_slice_whole, Rect.mem_set_unit]
    intro a
    match a with
    | ⟨0, _⟩ =>
      show win2_5.index ⟨9, last2⟩ (0 : Fin 2) * 1 ≤ (i 0).val ∧ (i 0).val < win2_5.index ⟨9, last2⟩ (0 : Fin 2) * 1 + 1
      have hi : (i 0).val < 1 := (i 0).isLt
      omega
    | ⟨1, _⟩ =>
      show win2_5.index ⟨9, last2⟩ (1 : Fin 2) * 128 ≤ (i 1).val ∧ (i 1).val < win2_5.index ⟨9, last2⟩ (1 : Fin 2) * 128 + 128
      have hi : (i 1).val < 128 := (i 1).isLt
      omega

/-- The second result array after the run: what the running sum of squares holds after the last point. -/
theorem arr2_6 (c : Dev nD) : (dat2 V c).arrAt 6 cfg2.N = (acc2 V c 9 last2).2 := by
  refine (dat2 V c).arrAt_eq_of_cover 6 _ (fun t hf => ?_) (fun i => ?_)
  · have h124 : t.val = 9 := by
      have h1 := (flush2_6 t).1 hf
      have h2 : t.val < 10 := lt_of_lt_of_eq t.isLt N_2
      omega
    obtain ⟨n, hn⟩ := t
    simp only at h124
    subst h124
    show (cfg2.win 6).cut (grid2.coords ⟨9, hn⟩) ((dat2 V c).after 6 ⟨9, hn⟩) = _
    rw [after2_6]
    obtain ⟨-, -, -, -, -, -, -, -, -, -, -, e0, e1⟩ := idx2 ⟨9, hn⟩
    funext j
    show (acc2 V c 9 hn).2 j = (acc2 V c 9 last2).2 (((cfg2.win 6).blk ⟨9, hn⟩).view.emb j)
    refine congrArg (acc2 V c 9 hn).2 ?_
    funext a; apply Fin.ext
    match a with
    | ⟨0, _⟩ => show (j 0).val = win2_6.index ⟨9, hn⟩ (0 : Fin 2) * 1 + 1 * (j 0).val; omega
    | ⟨1, _⟩ => show (j 1).val = win2_6.index ⟨9, hn⟩ (1 : Fin 2) * 128 + 1 * (j 1).val; omega
  · obtain ⟨-, -, -, -, -, -, -, -, -, -, -, e0, e1⟩ := idx2 ⟨9, last2⟩
    refine ⟨⟨9, last2⟩, (flush2_6 _).2 (by norm_num), ?_⟩
    show i ∈ ((View.whole main_v44_1).slice (win2_6.rect ⟨9, last2⟩)).set
    rw [View.set_slice_whole, Rect.mem_set_unit]
    intro a
    match a with
    | ⟨0, _⟩ =>
      show win2_6.index ⟨9, last2⟩ (0 : Fin 2) * 1 ≤ (i 0).val ∧ (i 0).val < win2_6.index ⟨9, last2⟩ (0 : Fin 2) * 1 + 1
      have hi : (i 0).val < 1 := (i 0).isLt
      omega
    | ⟨1, _⟩ =>
      show win2_6.index ⟨9, last2⟩ (1 : Fin 2) * 128 ≤ (i 1).val ∧ (i 1).val < win2_6.index ⟨9, last2⟩ (1 : Fin 2) * 128 + 128
      have hi : (i 1).val < 128 := (i 1).isLt
      omega

/-- The sum over the range below 50000 of the lane is its sum over all rows. -/
theorem gsum2 (c : Dev nD) (k : Fin 128) :
    ∑ e ∈ Finset.range 50000, gcol2 V c k e = ∑ e : Fin 50000, hcol2 V c k e := by
  rw [Finset.sum_fin_eq_sum_range]
  rfl

/-- The same for the squares. -/
theorem gsq2 (c : Dev nD) (k : Fin 128) :
    ∑ e ∈ Finset.range 50000, gcol2 V c k e * gcol2 V c k e = ∑ e : Fin 50000, hcol2 V c k e * hcol2 V c k e := by
  rw [Finset.sum_fin_eq_sum_range]
  refine Finset.sum_congr rfl fun e _ => ?_
  unfold gcol2
  split
  · rfl
  · exact mul_zero _

/-- The first result array, lane `k`: the first layer's lane summed over all 50000 rows. -/
theorem sum2_apply (c : Dev nD) (k : Fin 128) :
    ((dat2 V c).arrAt 5 cfg2.N : S1x128.Idx → EReal) (ix2 0 k) = ∑ e : Fin 50000, hcol2 V c k e := by
  rw [arr2_5, (acc2_sum V c k 9 last2).1]
  exact gsum2 V c k

/-- The second result array, lane `k`: the square of the first layer's lane summed over all 50000 rows. -/
theorem sumsq2_apply (c : Dev nD) (k : Fin 128) :
    ((dat2 V c).arrAt 6 cfg2.N : S1x128.Idx → EReal) (ix2 0 k) = ∑ e : Fin 50000, hcol2 V c k e * hcol2 V c k e := by
  rw [arr2_6, (acc2_sum V c k 9 last2).2]
  exact gsq2 V c k

end Region
end Cert.KernelIdeal.StatsVal

end
-- ==== Proof.KIHost.lean ====
/-
  The four host stretches of the kernel program read back, at the ideal instance, from an arbitrary starting
  valuation W: what each buffer a stretch writes holds afterwards, as a term of W's buffers — the composed
  operations for the gather and the scatter-add, an element formula for the sliced weights and for the folded
  batch-normalisation scale, weights and bias.
-/
import proofs.«167414_j65335042507073_2_alg».proof.Proof.Gen.KernelIdeal.Launch
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.HostRead

open Cert.KernelIdeal Cert.KernelIdeal.Gen Idealize.ShloMosaic Idealize.ShloMosaic.ValueIdx Idealize.ShloMosaic.StableHlo

/-! ## Layout operations of these stretches read at an index -/

section Layout
variable {α : Type}

/-- One row of 128 broadcast over n rows reads, at (l, k), the row at (0, k). -/
theorem bcastRow_apply {n : Nat} (h : (⟨2, ![1, 128]⟩ : Shape).BroadcastsInDim ⟨2, ![n, 128]⟩ ![0, 1])
    (x : (⟨2, ![1, 128]⟩ : Shape).Idx → α) (l : Fin n) (k : Fin 128) :
    broadcastInDim ⟨2, ![n, 128]⟩ ![0, 1] h x (ix2 l k) = x (ix2 (0 : Fin 1) k) :=
  broadcastInDim_apply _ h x _ _ (fun a => by
    match a with
    | ⟨0, _⟩ => rfl
    | ⟨1, _⟩ => rfl)

/-- A vector of 128 broadcast to one row reads, at (u, k), the vector at k. -/
theorem bcastVec_apply (h : (⟨1, ![128]⟩ : Shape).BroadcastsInDim ⟨2, ![1, 128]⟩ ![1])
    (x : (⟨1, ![128]⟩ : Shape).Idx → α) (u : Fin 1) (k : Fin 128) :
    broadcastInDim ⟨2, ![1, 128]⟩ ![1] h x (ix2 u k) = x (ix1 k) :=
  broadcastInDim_apply _ h x _ _ (fun a => by
    match a with
    | ⟨0, _⟩ => rfl)

end Layout

variable (W : Valuation τ sig (Elt Ideal))

/-! ## Stretch 0: the edge table's rows, the gather, the first layer's weight blocks -/

/-- After stretch 0 the destination row of the edge table is the reshape of the slice [1:2] of argument 1. -/
theorem v3_eq :
    (StableHlo.after (hostOps0 (F := Ideal)) W (Proc.devRef .tc main_v3) : S800000.Idx → BitVec 32)
      = shapeCast S800000 (extractStridedSlice S1x800000 ![1, 0] (W (Proc.devRef .tc main_arg1)) slices_S2x800000_S1x800000_1_0)
          shapeCasts_S1x800000_S800000 := by
  after_results
  rfl

/-- After stretch 0 the gathered node features are the gather of argument 0 at the source column: the slice [0:1] of
    argument 1 reshaped, an index below zero shifted up by 50000, broadcast to a column. -/
theorem v10_eq :
    (StableHlo.after (hostOps0 (F := Ideal)) W (Proc.devRef .tc main_v10) : S800000x64.Idx → EReal)
      = Host.gather gather_S50000x64_S800000x1_S800000x64_1_0_n_n_0_1_164 (W (Proc.devRef .tc main_arg0))
          (broadcastInDim S800000x1 ![0] bcast_S800000_S800000x1_0
            (select
              (cmpi .slt
                (shapeCast S800000 (extractStridedSlice S1x800000 ![0, 0] (W (Proc.devRef .tc main_arg1)) slices_S2x800000_S1x800000_0_0)
                  shapeCasts_S1x800000_S800000)
                (broadcastInDim S800000 ![] bcast_S_S800000 (constantI S_ 32 0#32)))
              (addi
                (shapeCast S800000 (extractStridedSlice S1x800000 ![0, 0] (W (Proc.devRef .tc main_arg1)) slices_S2x800000_S1x800000_0_0)
                  shapeCasts_S1x800000_S800000)
                (broadcastInDim S800000 ![] bcast_S_S800000 (constantI S_ 32 50000#32)))
              (shapeCast S800000 (extractStridedSlice S1x800000 ![0, 0] (W (Proc.devRef .tc main_arg1)) slices_S2x800000_S1x800000_0_0)
                shapeCasts_S1x800000_S800000))) := by
  after_results
  rfl

/-- After stretch 0 the first weight block is rows 0 … 63 of argument 5. -/
theorem v11_apply (l : Fin 64) (k : Fin 128) :
    (StableHlo.after (hostOps0 (F := Ideal)) W (Proc.devRef .tc main_v11) : S64x128.Idx → EReal) (ix2 l k)
      = (W (Proc.devRef .tc main_arg5) : S96x128.Idx → EReal) (ix2 (Fin.castAdd 32 l) k) := by
  after_results
  exact slice2_axis0_apply 0 _ _ l k (Fin.castAdd 32 l) (by rw [Fin.coe_castAdd, Nat.zero_add])

/-- After stretch 0 the second weight block is rows 64 … 95 of argument 5. -/
theorem v12_apply (l : Fin 32) (k : Fin 128) :
    (StableHlo.after (hostOps0 (F := Ideal)) W (Proc.devRef .tc main_v12) : S32x128.Idx → EReal) (ix2 l k)
      = (W (Proc.devRef .tc main_arg5) : S96x128.Idx → EReal) (ix2 (Fin.natAdd 64 l) k) := by
  after_results
  exact slice2_axis0_apply 64 _ _ l k (Fin.natAdd 64 l) (by rw [Fin.coe_natAdd])

/-! ## The folded batch-normalisation scale -/

/-- The host's reciprocal square root at an index is the extended reals' rsqrt of the element. -/
theorem hostRsqrt_apply {s : Shape} {φ : FTy} (x : FVec Ideal s φ) (i : s.Idx) : Host.rsqrt x i = Ideal.rsqrt (x i) := rfl

/-- The folded scale from its scalars: g · rsqrt(max(q/n − (s/n)·(s/n), 0) + eps), with s a column's sum, q its sum of
    squares, n the row count and eps the pattern 0x3727C5AC. -/
def scaleOf (g s q n : EReal) : EReal :=
  g * Ideal.rsqrt (max (Ideal.div q n - Ideal.div s n * Ideal.div s n) 0 + Ideal.ofBits .f32 0x3727C5AC#32)

/-- The first fold's scale at column k: g argument 7, the sums the two rows the first statistics call left, the row count
    the pattern 0x49435000 (800000). -/
def sc1 (k : Fin 128) : EReal :=
  scaleOf (W (Proc.devRef .tc main_arg7) (ix1 k)) (W (Proc.devRef .tc main_v13_0) (ix2 (0 : Fin 1) k))
    (W (Proc.devRef .tc main_v13_1) (ix2 (0 : Fin 1) k)) (Ideal.ofBits .f32 0x49435000#32)

/-- The second fold's scale at column k: g argument 13, the sums the two rows the second statistics call left, the row
    count the pattern 0x47435000 (50000). -/
def sc3 (k : Fin 128) : EReal :=
  scaleOf (W (Proc.devRef .tc main_arg13) (ix1 k)) (W (Proc.devRef .tc main_v44_0) (ix2 (0 : Fin 1) k))
    (W (Proc.devRef .tc main_v44_1) (ix2 (0 : Fin 1) k)) (Ideal.ofBits .f32 0x47435000#32)

/-- Product, sum and difference of extended reals, so typed that a buffer's element is read as one. -/
local infixl:70 " *ₑ " => (HMul.hMul : EReal → EReal → EReal)
/-- The sum of two extended reals, so typed. -/
local infixl:65 " +ₑ " => (HAdd.hAdd : EReal → EReal → EReal)
/-- The difference of two extended reals, so typed. -/
local infixl:65 " -ₑ " => (HSub.hSub : EReal → EReal → EReal)

/-- A constant scalar broadcast to any shape reads the constant's value everywhere. -/
theorem bcastConst_apply {T : Shape} (h : S_.BroadcastsInDim T ![]) (b : BitVec 32) (j : T.Idx) :
    broadcastInDim T ![] h (constant (F := Ideal) S_ .f32 b) j = Ideal.ofBits .f32 b := rfl

/-! ## Stretch 1: the first fold -/

/-- After stretch 1 the first folded weight block is the first weight block, each column times the scale. -/
theorem v31_apply (l : Fin 64) (k : Fin 128) :
    (StableHlo.after (hostOps1 (F := Ideal)) W (Proc.devRef .tc main_v31) : S64x128.Idx → EReal) (ix2 l k)
      = W (Proc.devRef .tc main_v11) (ix2 l k) *ₑ sc1 W k := by
  after_results_simp
  rw [mulf_apply, bcastRow_apply]
  simp only [sc1, sc3, scaleOf, mulf_apply, addf_apply, subf_apply, maximumf_apply, hostDivf_apply, hostRsqrt_apply]
  rw [bcastVec_apply, bcastConst_apply, bcastConst_apply, bcastConst_apply, Ideal.ofBits_zero_f32]

/-- After stretch 1 the second folded weight block is the second weight block, each column times the scale. -/
theorem v33_apply (l : Fin 32) (k : Fin 128) :
    (StableHlo.after (hostOps1 (F := Ideal)) W (Proc.devRef .tc main_v33) : S32x128.Idx → EReal) (ix2 l k)
      = W (Proc.devRef .tc main_v12) (ix2 l k) *ₑ sc1 W k := by
  after_results_simp
  rw [mulf_apply, bcastRow_apply]
  simp only [sc1, sc3, scaleOf, mulf_apply, addf_apply, subf_apply, maximumf_apply, hostDivf_apply, hostRsqrt_apply]
  rw [bcastVec_apply, bcastConst_apply, bcastConst_apply, bcastConst_apply, Ideal.ofBits_zero_f32]

/-- After stretch 1 the folded bias is the bias times the scale, plus the shift: beta minus the mean times the scale. -/
theorem v37_apply (k : Fin 128) :
    (StableHlo.after (hostOps1 (F := Ideal)) W (Proc.devRef .tc main_v37) : S128.Idx → EReal) (ix1 k)
      = W (Proc.devRef .tc main_arg6) (ix1 k) *ₑ sc1 W k
        +ₑ (W (Proc.devRef .tc main_arg8) (ix1 k)
          -ₑ Ideal.div (W (Proc.devRef .tc main_v13_0) (ix2 (0 : Fin 1) k)) (Ideal.ofBits .f32 0x49435000#32) *ₑ sc1 W k) := by
  after_results_simp
  refine (shapeCast_1a_a_apply _ _ k).trans ?_
  simp only [sc1, sc3, scaleOf, mulf_apply, addf_apply, subf_apply, maximumf_apply, hostDivf_apply, hostRsqrt_apply]
  rw [bcastVec_apply, bcastVec_apply, bcastVec_apply, bcastConst_apply, bcastConst_apply, bcastConst_apply, Ideal.ofBits_zero_f32]

/-! ## Stretch 2: the scatter-add, the second layer's weight blocks -/

/-- After stretch 2 the aggregated messages are the scatter-add, into zeros, of buffer 38's rows at the destination column:
    buffer 3 broadcast to a column. -/
theorem v41_eq :
    (StableHlo.after (hostOps2 (F := Ideal)) W (Proc.devRef .tc main_v41) : S50000x128.Idx → EReal)
      = Host.scatterAdd (F := Ideal) scatter_S50000x128_S800000x1_S800000x128_1_0_0_1
          (broadcastInDim S50000x128 ![] bcast_S_S50000x128 (constant (F := Ideal) S_ .f32 0x00000000#32))
          (broadcastInDim S800000x1 ![0] bcast_S800000_S800000x1_0 (W (Proc.devRef .tc main_v3)))
          (W (Proc.devRef .tc main_v38)) := by
  after_results

/-- After stretch 2 the first weight block of the second perceptron is rows 0 … 63 of argument 11. -/
theorem v42_apply (l : Fin 64) (k : Fin 128) :
    (StableHlo.after (hostOps2 (F := Ideal)) W (Proc.devRef .tc main_v42) : S64x128.Idx → EReal) (ix2 l k)
      = (W (Proc.devRef .tc main_arg11) : S192x128.Idx → EReal) (ix2 (Fin.castAdd 128 l) k) := by
  after_results
  exact slice2_axis0_apply 0 _ _ l k (Fin.castAdd 128 l) (by rw [Fin.coe_castAdd, Nat.zero_add])

/-- After stretch 2 the second weight block of the second perceptron is rows 64 … 191 of argument 11. -/
theorem v43_apply (l : Fin 128) (k : Fin 128) :
    (StableHlo.after (hostOps2 (F := Ideal)) W (Proc.devRef .tc main_v43) : S128x128.Idx → EReal) (ix2 l k)
      = (W (Proc.devRef .tc main_arg11) : S192x128.Idx → EReal) (ix2 (Fin.natAdd 64 l) k) := by
  after_results
  exact slice2_axis0_apply 64 _ _ l k (Fin.natAdd 64 l) (by rw [Fin.coe_natAdd])

/-! ## Stretch 3: the second fold -/

/-- After stretch 3 the first folded weight block is buffer 42, each column times the scale. -/
theorem v62_apply (l : Fin 64) (k : Fin 128) :
    (StableHlo.after (hostOps3 (F := Ideal)) W (Proc.devRef .tc main_v62) : S64x128.Idx → EReal) (ix2 l k)
      = W (Proc.devRef .tc main_v42) (ix2 l k) *ₑ sc3 W k := by
  after_results_simp
  rw [mulf_apply, bcastRow_apply]
  simp only [sc1, sc3, scaleOf, mulf_apply, addf_apply, subf_apply, maximumf_apply, hostDivf_apply, hostRsqrt_apply]
  rw [bcastVec_apply, bcastConst_apply, bcastConst_apply, bcastConst_apply, Ideal.ofBits_zero_f32]

/-- After stretch 3 the second folded weight block is buffer 43, each column times the scale. -/
theorem v64_apply (l : Fin 128) (k : Fin 128) :
    (StableHlo.after (hostOps3 (F := Ideal)) W (Proc.devRef .tc main_v64) : S128x128.Idx → EReal) (ix2 l k)
      = W (Proc.devRef .tc main_v43) (ix2 l k) *ₑ sc3 W k := by
  after_results_simp
  rw [mulf_apply, bcastRow_apply]
  simp only [sc1, sc3, scaleOf, mulf_apply, addf_apply, subf_apply, maximumf_apply, hostDivf_apply, hostRsqrt_apply]
  rw [bcastVec_apply, bcastConst_apply, bcastConst_apply, bcastConst_apply, Ideal.ofBits_zero_f32]

/-- After stretch 3 the folded bias is the bias times the scale, plus the shift: beta minus the mean times the scale. -/
theorem v68_apply (k : Fin 128) :
    (StableHlo.after (hostOps3 (F := Ideal)) W (Proc.devRef .tc main_v68) : S128.Idx → EReal) (ix1 k)
      = W (Proc.devRef .tc main_arg12) (ix1 k) *ₑ sc3 W k
        +ₑ (W (Proc.devRef .tc main_arg14) (ix1 k)
          -ₑ Ideal.div (W (Proc.devRef .tc main_v44_0) (ix2 (0 : Fin 1) k)) (Ideal.ofBits .f32 0x47435000#32) *ₑ sc3 W k) := by
  after_results_simp
  refine (shapeCast_1a_a_apply _ _ k).trans ?_
  simp only [sc1, sc3, scaleOf, mulf_apply, addf_apply, subf_apply, maximumf_apply, hostDivf_apply, hostRsqrt_apply]
  rw [bcastVec_apply, bcastVec_apply, bcastVec_apply, bcastConst_apply, bcastConst_apply, bcastConst_apply, Ideal.ofBits_zero_f32]

end Cert.KernelIdeal.HostRead

end
-- ==== Proof.Spec.lean ====
import proofs.«167414_j65335042507073_2_alg».proof.Proof.LibBatchNormFold

/-!
The specification both programs are compared with: one two-layer perceptron with batch normalisation, index by index
on the extended reals. The first linear layer acts on two row operands (the weight matrix's rows split between them),
every hidden column is normalised over ALL rows (its mean and its mean squared deviation), passed through relu, and the
second linear layer is applied. `mlp` is the form with the normalisation written out, `mlpFold` the form in which the
normalisation's scale and shift are folded into the first layer's weights and bias; on real-valued data they agree.
-/

noncomputable section

namespace Cert.Spec

open LibBatchNormFold

/-- The perceptron with the normalisation written out: entry (i, j) of the result. -/
def mlp {E DA DB H OD : Nat} (a : Fin E → Fin DA → EReal) (b : Fin E → Fin DB → EReal) (W : Fin (DA + DB) → Fin H → EReal) (ba g be : Fin H → EReal) (W2 : Fin H → Fin OD → EReal) (b2 : Fin OD → EReal) (n eps : EReal) (i : Fin E) (j : Fin OD) : EReal :=
    (∑ k : Fin H, max (LibBatchNormFold.refNorm (LibBatchNormFold.pre a b (fun l => W (Fin.castAdd DB l) k) (fun l => W (Fin.natAdd DA l) k) (ba k)) (g k) (be k) n eps i) 0 * W2 k j) + b2 j

/-- The same with scale and shift folded into the first layer. -/
def mlpFold {E DA DB H OD : Nat} (a : Fin E → Fin DA → EReal) (b : Fin E → Fin DB → EReal) (W : Fin (DA + DB) → Fin H → EReal) (ba g be : Fin H → EReal) (W2 : Fin H → Fin OD → EReal) (b2 : Fin OD → EReal) (n eps : EReal) (i : Fin E) (j : Fin OD) : EReal :=
    (∑ k : Fin H, max (LibBatchNormFold.kerFold a b (fun l => W (Fin.castAdd DB l) k) (fun l => W (Fin.natAdd DA l) k) (ba k) (g k) (be k) n eps i) 0 * W2 k j) + b2 j

/-- On real-valued operands, with `n` the number of rows and a positive `eps`, the folded form is the normalised one. -/
theorem mlpFold_eq_mlp {E DA DB H OD : Nat} (a : Fin E → Fin DA → EReal) (b : Fin E → Fin DB → EReal) (W : Fin (DA + DB) → Fin H → EReal) (ba g be : Fin H → EReal) (W2 : Fin H → Fin OD → EReal) (b2 : Fin OD → EReal)
    (ha : ∀ i l, ∃ r : ℝ, a i l = (r : EReal)) (hb : ∀ i l, ∃ r : ℝ, b i l = (r : EReal)) (hW : ∀ l k, ∃ r : ℝ, W l k = (r : EReal))
    (hba : ∀ k, ∃ r : ℝ, ba k = (r : EReal)) (hg : ∀ k, ∃ r : ℝ, g k = (r : EReal)) (hbe : ∀ k, ∃ r : ℝ, be k = (r : EReal))
    (n eps : ℝ) (hn : n = (E : ℝ)) (hE : 0 < E) (heps : 0 < eps) (i : Fin E) (j : Fin OD) :
    mlpFold a b W ba g be W2 b2 (n : EReal) (eps : EReal) i j = mlp a b W ba g be W2 b2 (n : EReal) (eps : EReal) i j := by
  unfold mlpFold mlp
  congr 1
  refine Finset.sum_congr rfl fun k _ => ?_
  rw [kerFold_eq_refNorm a b _ _ (ba k) (g k) (be k) ha hb (fun l => hW _ k) (fun l => hW _ k) (hba k) (hg k) (hbe k) n eps
    (by rw [hn, Fintype.card_fin]) (by rw [Fintype.card_fin]; exact hE) heps i]

end Cert.Spec

end
-- ==== Proof.KIStage.lean ====
/-
  The kernel program's two perceptron stages, chained from the launch memory: region 1's result array is the folded
  perceptron of the gathered node features and the edge features (the edge stage), region 3's the folded perceptron of
  the node features and the aggregated messages (the node stage); between them the gather and the scatter-add, as the
  host operations compose them. Each stage: the fused region's result is a block product of the arrays it is entered
  with; the folded weights and bias among them are, entry by entry, the launch weights times the column's scale and the
  bias times the scale plus the shift; the scale's two sums are what the statistics region before it left, the sums
  over all rows of the first layer's column; and every other operand comes through from the launch unchanged.
-/
import proofs.«167414_j65335042507073_2_alg».proof.Proof.KIRun
import proofs.«167414_j65335042507073_2_alg».proof.Proof.KIFusedVal
import proofs.«167414_j65335042507073_2_alg».proof.Proof.KIStatsVal
import proofs.«167414_j65335042507073_2_alg».proof.Proof.KIHost
import proofs.«167414_j65335042507073_2_alg».proof.Proof.Spec

set_option maxRecDepth 16384

noncomputable section

namespace Cert.KernelIdeal.Hand

open Cert.KernelIdeal Cert.KernelIdeal.Gen Cert.KernelIdeal.HostRead Cert.KernelIdeal.StatsVal
open Idealize.ShloMosaic Idealize.ShloMosaic.TcCoe Idealize.ShloMosaic.ValueIdx
open Idealize.SL Idealize.SL.Sem

/-! ## The fused block product with folded operands is the specification's folded perceptron -/

/-- When the row operands are A and B entry by entry, the two weight blocks the two row blocks of Wm times the column's
    scale, the first bias the bias times the scale plus the shift, and the second layer W2 and B2, the fused block
    product is the folded perceptron, entry by entry: both are the same sums. -/
theorem fusedAt_eq_mlpFold {NR DB OD : Nat}
    (a : (⟨2, ![NR, 64]⟩ : Shape).Idx → EReal) (b : (⟨2, ![NR, DB]⟩ : Shape).Idx → EReal)
    (wa : (⟨2, ![64, 128]⟩ : Shape).Idx → EReal) (wb : (⟨2, ![DB, 128]⟩ : Shape).Idx → EReal) (b1 : (⟨1, ![128]⟩ : Shape).Idx → EReal)
    (w2 : (⟨2, ![128, OD]⟩ : Shape).Idx → EReal) (b2 : (⟨1, ![OD]⟩ : Shape).Idx → EReal)
    (A : Fin NR → Fin 64 → EReal) (B : Fin NR → Fin DB → EReal) (Wm : Fin (64 + DB) → Fin 128 → EReal)
    (ba g be : Fin 128 → EReal) (W2 : Fin 128 → Fin OD → EReal) (B2 : Fin OD → EReal) (n eps : EReal)
    (ha : ∀ e l, a (ix2 e l) = A e l) (hb : ∀ e l, b (ix2 e l) = B e l)
    (hwa : ∀ l k, wa (ix2 l k) = Wm (Fin.castAdd DB l) k
      * LibBatchNormFold.scale (LibBatchNormFold.pre A B (fun l => Wm (Fin.castAdd DB l) k) (fun l => Wm (Fin.natAdd 64 l) k) (ba k)) (g k) n eps)
    (hwb : ∀ l k, wb (ix2 l k) = Wm (Fin.natAdd 64 l) k
      * LibBatchNormFold.scale (LibBatchNormFold.pre A B (fun l => Wm (Fin.castAdd DB l) k) (fun l => Wm (Fin.natAdd 64 l) k) (ba k)) (g k) n eps)
    (hb1 : ∀ k, b1 (ix1 k) = ba k
        * LibBatchNormFold.scale (LibBatchNormFold.pre A B (fun l => Wm (Fin.castAdd DB l) k) (fun l => Wm (Fin.natAdd 64 l) k) (ba k)) (g k) n eps
      + LibBatchNormFold.shift (LibBatchNormFold.pre A B (fun l => Wm (Fin.castAdd DB l) k) (fun l => Wm (Fin.natAdd 64 l) k) (ba k)) (g k) (be k) n eps)
    (hw2 : ∀ k j, w2 (ix2 k j) = W2 k j) (hb2 : ∀ j, b2 (ix1 j) = B2 j) (e : Fin NR) (j : Fin OD) :
    fusedAt a b wa wb b1 w2 b2 e j = Cert.Spec.mlpFold A B Wm ba g be W2 B2 n eps e j := by
  unfold fusedAt Cert.Spec.mlpFold LibBatchNormFold.kerFold
  simp only [ha, hb, hwa, hwb, hb1, hw2, hb2]

variable (m : (ℓ : Loc nD τ sig) → Buf (Elt Ideal) ℓ) (ρ : Dev nD → PrngReg) (c : Dev nD)

/-! ## Buffers that come through unchanged -/

/-- A buffer stretch 0 does not write is, after it, as launched. -/
theorem W1_arg (r : Ref sig .tc) (h0 : r ∉ hostOps0_W) : W1 m ρ c (Proc.devRef .tc r) = m ((c : Thread nD τ).loc r) :=
  (StableHlo.after_of_writes_sub hostOps0 _ hostOps0_writes h0).trans rfl
/-- … and, when no result of region 0, at region 0's exit too. -/
theorem W2_arg (r : Ref sig .tc) (h0 : r ∉ hostOps0_W) (hk : r ∉ ([main_v13_0, main_v13_1] : List (Ref sig .tc))) :
    W2 m ρ c (Proc.devRef .tc r) = m ((c : Thread nD τ).loc r) := (W2_keep m ρ c r hk).trans (W1_arg m ρ c r h0)
/-- … and, when stretch 1 does not write it, at region 1's entry. -/
theorem W3_arg (r : Ref sig .tc) (h0 : r ∉ hostOps0_W) (hk : r ∉ ([main_v13_0, main_v13_1] : List (Ref sig .tc))) (h1 : r ∉ hostOps1_W) :
    W3 m ρ c (Proc.devRef .tc r) = m ((c : Thread nD τ).loc r) :=
  (StableHlo.after_of_writes_sub hostOps1 _ hostOps1_writes h1).trans (W2_arg m ρ c r h0 hk)

/-! ## The edge stage: region 1's result is the folded perceptron of the gathered rows and the edge features -/

section Edge

/-- The gathered node features at region 1's entry, entry by entry. -/
abbrev eA : Fin 800000 → Fin 64 → EReal := fun e l => W1 m ρ c (Proc.devRef .tc main_v10) (ix2 e l)
/-- The edge features, entry by entry. -/
abbrev eB : Fin 800000 → Fin 32 → EReal := fun e l => m ((c : Thread nD τ).loc main_arg2) (ix2 e l)
/-- The first perceptron's first weight matrix, entry by entry. -/
abbrev eW : Fin (64 + 32) → Fin 128 → EReal := fun l k => m ((c : Thread nD τ).loc main_arg5) (ix2 l k)
/-- The first perceptron's first bias. -/
abbrev eba : Fin 128 → EReal := fun k => m ((c : Thread nD τ).loc main_arg6) (ix1 k)
/-- The first perceptron's normalisation gain. -/
abbrev eg : Fin 128 → EReal := fun k => m ((c : Thread nD τ).loc main_arg7) (ix1 k)
/-- The first perceptron's normalisation offset. -/
abbrev ebe : Fin 128 → EReal := fun k => m ((c : Thread nD τ).loc main_arg8) (ix1 k)
/-- Column k of the first perceptron's first layer over all edges. -/
abbrev eh (k : Fin 128) : Fin 800000 → EReal :=
  LibBatchNormFold.pre (eA m ρ c) (eB m c) (fun l => eW m c (Fin.castAdd 32 l) k) (fun l => eW m c (Fin.natAdd 64 l) k) (eba m c k)

/-- At region 0's exit the first weight block is rows 0 … 63 of the weight matrix. -/
theorem edge_w11 (l : Fin 64) (k : Fin 128) :
    (W2 m ρ c (Proc.devRef .tc main_v11) : S64x128.Idx → EReal) (ix2 l k) = eW m c (Fin.castAdd 32 l) k :=
  (congrFun (W2_keep m ρ c main_v11 (by decide)) _).trans (v11_apply (W0 m ρ c) l k)
/-- At region 0's exit the second weight block is rows 64 … 95 of the weight matrix. -/
theorem edge_w12 (l : Fin 32) (k : Fin 128) :
    (W2 m ρ c (Proc.devRef .tc main_v12) : S32x128.Idx → EReal) (ix2 l k) = eW m c (Fin.natAdd 64 l) k :=
  (congrFun (W2_keep m ρ c main_v12 (by decide)) _).trans (v12_apply (W0 m ρ c) l k)

/-- The column the first statistics region sums is the specification's column. -/
theorem edge_hcol (k : Fin 128) : hcol0 (U1 m ρ) c k = eh m ρ c k := by
  have e2 : U1 m ρ c main_arg2 = m ((c : Thread nD τ).loc main_arg2) := W1_arg m ρ c main_arg2 (by decide)
  have e6 : U1 m ρ c main_arg6 = m ((c : Thread nD τ).loc main_arg6) := W1_arg m ρ c main_arg6 (by decide)
  have e11 : (fun l : Fin 64 => (U1 m ρ c main_v11 : S64x128.Idx → EReal) (ix2 l k)) = fun l => eW m c (Fin.castAdd 32 l) k :=
    funext fun l => v11_apply (W0 m ρ c) l k
  have e12 : (fun l : Fin 32 => (U1 m ρ c main_v12 : S32x128.Idx → EReal) (ix2 l k)) = fun l => eW m c (Fin.natAdd 64 l) k :=
    funext fun l => v12_apply (W0 m ρ c) l k
  unfold hcol0
  rw [e2, e6, e11, e12]

/-- The first statistics region's first result, column k: the column's sum over all edges. -/
theorem edge_sum (k : Fin 128) :
    (W2 m ρ c (Proc.devRef .tc main_v13_0) : S1x128.Idx → EReal) (ix2 (0 : Fin 1) k) = ∑ e, eh m ρ c k e :=
  (congrFun (W2_arr m ρ c 5) (ix2 (0 : Fin 1) k)).trans ((sum0_apply (U1 m ρ) c k).trans (by rw [edge_hcol]))
/-- The first statistics region's second result, column k: the column's sum of squares over all edges. -/
theorem edge_sumsq (k : Fin 128) :
    (W2 m ρ c (Proc.devRef .tc main_v13_1) : S1x128.Idx → EReal) (ix2 (0 : Fin 1) k) = ∑ e, eh m ρ c k e * eh m ρ c k e :=
  (congrFun (W2_arr m ρ c 6) (ix2 (0 : Fin 1) k)).trans ((sumsq0_apply (U1 m ρ) c k).trans (by rw [edge_hcol]))

/-- The first fold's scale is the specification's scale of the column. -/
theorem edge_sc (k : Fin 128) :
    sc1 (W2 m ρ c) k = LibBatchNormFold.scale (eh m ρ c k) (eg m c k) (Ideal.ofBits .f32 0x49435000#32) (Ideal.ofBits .f32 0x3727C5AC#32) := by
  unfold sc1 scaleOf LibBatchNormFold.scale LibBatchNormFold.mean
  rw [edge_sum, edge_sumsq, W2_arg m ρ c main_arg7 (by decide) (by decide)]

/-- The first folded weight block, entry by entry. -/
theorem edge_v31 (l : Fin 64) (k : Fin 128) :
    (U3 m ρ c main_v31 : S64x128.Idx → EReal) (ix2 l k)
      = eW m c (Fin.castAdd 32 l) k * LibBatchNormFold.scale (eh m ρ c k) (eg m c k) (Ideal.ofBits .f32 0x49435000#32) (Ideal.ofBits .f32 0x3727C5AC#32) := by
  refine (v31_apply (W2 m ρ c) l k).trans ?_
  rw [edge_sc, edge_w11]
/-- The second folded weight block, entry by entry. -/
theorem edge_v33 (l : Fin 32) (k : Fin 128) :
    (U3 m ρ c main_v33 : S32x128.Idx → EReal) (ix2 l k)
      = eW m c (Fin.natAdd 64 l) k * LibBatchNormFold.scale (eh m ρ c k) (eg m c k) (Ideal.ofBits .f32 0x49435000#32) (Ideal.ofBits .f32 0x3727C5AC#32) := by
  refine (v33_apply (W2 m ρ c) l k).trans ?_
  rw [edge_sc, edge_w12]
/-- The folded bias, entry by entry. -/
theorem edge_v37 (k : Fin 128) :
    (U3 m ρ c main_v37 : S128.Idx → EReal) (ix1 k)
      = eba m c k * LibBatchNormFold.scale (eh m ρ c k) (eg m c k) (Ideal.ofBits .f32 0x49435000#32) (Ideal.ofBits .f32 0x3727C5AC#32)
        + LibBatchNormFold.shift (eh m ρ c k) (eg m c k) (ebe m c k) (Ideal.ofBits .f32 0x49435000#32) (Ideal.ofBits .f32 0x3727C5AC#32) := by
  refine (v37_apply (W2 m ρ c) k).trans ?_
  rw [edge_sc, edge_sum, W2_arg m ρ c main_arg6 (by decide) (by decide), W2_arg m ρ c main_arg8 (by decide) (by decide)]
  rfl

/-- (E) THE EDGE STAGE: region 1's result array is, entry by entry, the folded perceptron of the gathered node features and
    the edge features under the first perceptron's weights, with the row count and eps the program's literals. -/
theorem edge_stage (e : Fin 800000) (j : Fin 128) :
    ((dat1 (U3 m ρ) c).arrAt 7 cfg1.N : S800000x128.Idx → EReal) (ix2 e j)
      = Cert.Spec.mlpFold (fun e l => (W1 m ρ c (Proc.devRef .tc main_v10) : S800000x64.Idx → EReal) (ix2 e l))
          (fun e l => (m ((c : Thread nD τ).loc main_arg2) : S800000x32.Idx → EReal) (ix2 e l))
          (fun l k => (m ((c : Thread nD τ).loc main_arg5) : S96x128.Idx → EReal) (ix2 l k))
          (fun k => (m ((c : Thread nD τ).loc main_arg6) : S128.Idx → EReal) (ix1 k))
          (fun k => (m ((c : Thread nD τ).loc main_arg7) : S128.Idx → EReal) (ix1 k))
          (fun k => (m ((c : Thread nD τ).loc main_arg8) : S128.Idx → EReal) (ix1 k))
          (fun k j => (m ((c : Thread nD τ).loc main_arg9) : S128x128.Idx → EReal) (ix2 k j))
          (fun j => (m ((c : Thread nD τ).loc main_arg10) : S128.Idx → EReal) (ix1 j))
          (Ideal.ofBits .f32 0x49435000#32) (Ideal.ofBits .f32 0x3727C5AC#32) e j := by
  rw [final1 (U3 m ρ) c, G1_ix2]
  exact fusedAt_eq_mlpFold _ _ _ _ _ _ _ (eA m ρ c) (eB m c) (eW m c) (eba m c) (eg m c) (ebe m c) _ _ _ _
    (fun e l => congrFun ((StableHlo.after_of_writes_sub hostOps1 _ hostOps1_writes (by decide)).trans (W2_keep m ρ c main_v10 (by decide))) _)
    (fun e l => congrFun (W3_arg m ρ c main_arg2 (by decide) (by decide) (by decide)) _)
    (edge_v31 m ρ c) (edge_v33 m ρ c) (edge_v37 m ρ c)
    (fun k j => congrFun (W3_arg m ρ c main_arg9 (by decide) (by decide) (by decide)) _)
    (fun j => congrFun (W3_arg m ρ c main_arg10 (by decide) (by decide) (by decide)) _) e j

end Edge

/-! ## Buffers that come through unchanged, further on -/

/-- An argument array untouched up to region 1's exit. -/
theorem W4_arg (r : Ref sig .tc) (h0 : r ∉ hostOps0_W) (hk0 : r ∉ ([main_v13_0, main_v13_1] : List (Ref sig .tc))) (h1 : r ∉ hostOps1_W)
    (hk1 : r ∉ ([main_v38] : List (Ref sig .tc))) : W4 m ρ c (Proc.devRef .tc r) = m ((c : Thread nD τ).loc r) :=
  (W4_keep m ρ c r hk1).trans (W3_arg m ρ c r h0 hk0 h1)
/-- … up to region 2's entry. -/
theorem W5_arg (r : Ref sig .tc) (h0 : r ∉ hostOps0_W) (hk0 : r ∉ ([main_v13_0, main_v13_1] : List (Ref sig .tc))) (h1 : r ∉ hostOps1_W)
    (hk1 : r ∉ ([main_v38] : List (Ref sig .tc))) (h2 : r ∉ hostOps2_W) : W5 m ρ c (Proc.devRef .tc r) = m ((c : Thread nD τ).loc r) :=
  (StableHlo.after_of_writes_sub hostOps2 _ hostOps2_writes h2).trans (W4_arg m ρ c r h0 hk0 h1 hk1)
/-- … up to region 2's exit. -/
theorem W6_arg (r : Ref sig .tc) (h0 : r ∉ hostOps0_W) (hk0 : r ∉ ([main_v13_0, main_v13_1] : List (Ref sig .tc))) (h1 : r ∉ hostOps1_W)
    (hk1 : r ∉ ([main_v38] : List (Ref sig .tc))) (h2 : r ∉ hostOps2_W) (hk2 : r ∉ ([main_v44_0, main_v44_1] : List (Ref sig .tc))) :
    W6 m ρ c (Proc.devRef .tc r) = m ((c : Thread nD τ).loc r) :=
  (W6_keep m ρ c r hk2).trans (W5_arg m ρ c r h0 hk0 h1 hk1 h2)
/-- … up to region 3's entry. -/
theorem W7_arg (r : Ref sig .tc) (h0 : r ∉ hostOps0_W) (hk0 : r ∉ ([main_v13_0, main_v13_1] : List (Ref sig .tc))) (h1 : r ∉ hostOps1_W)
    (hk1 : r ∉ ([main_v38] : List (Ref sig .tc))) (h2 : r ∉ hostOps2_W) (hk2 : r ∉ ([main_v44_0, main_v44_1] : List (Ref sig .tc)))
    (h3 : r ∉ hostOps3_W) : W7 m ρ c (Proc.devRef .tc r) = m ((c : Thread nD τ).loc r) :=
  (StableHlo.after_of_writes_sub hostOps3 _ hostOps3_writes h3).trans (W6_arg m ρ c r h0 hk0 h1 hk1 h2 hk2)

/-! ## The node stage: region 3's result is the folded perceptron of the node features and the aggregated messages -/

section Node

/-- The node features, entry by entry. -/
abbrev nA : Fin 50000 → Fin 64 → EReal := fun i l => m ((c : Thread nD τ).loc main_arg0) (ix2 i l)
/-- The aggregated messages at region 2's entry, entry by entry. -/
abbrev nB : Fin 50000 → Fin 128 → EReal := fun i l => W5 m ρ c (Proc.devRef .tc main_v41) (ix2 i l)
/-- The second perceptron's first weight matrix, entry by entry. -/
abbrev nW : Fin (64 + 128) → Fin 128 → EReal := fun l k => m ((c : Thread nD τ).loc main_arg11) (ix2 l k)
/-- The second perceptron's first bias. -/
abbrev nba : Fin 128 → EReal := fun k => m ((c : Thread nD τ).loc main_arg12) (ix1 k)
/-- The second perceptron's normalisation gain. -/
abbrev ng : Fin 128 → EReal := fun k => m ((c : Thread nD τ).loc main_arg13) (ix1 k)
/-- The second perceptron's normalisation offset. -/
abbrev nbe : Fin 128 → EReal := fun k => m ((c : Thread nD τ).loc main_arg14) (ix1 k)
/-- Column k of the second perceptron's first layer over all nodes. -/
abbrev nh (k : Fin 128) : Fin 50000 → EReal :=
  LibBatchNormFold.pre (nA m c) (nB m ρ c) (fun l => nW m c (Fin.castAdd 128 l) k) (fun l => nW m c (Fin.natAdd 64 l) k) (nba m c k)

/-- At region 2's entry the first weight block is rows 0 … 63 of the weight matrix. -/
theorem node_w42 (l : Fin 64) (k : Fin 128) :
    (W5 m ρ c (Proc.devRef .tc main_v42) : S64x128.Idx → EReal) (ix2 l k) = nW m c (Fin.castAdd 128 l) k :=
  (v42_apply (W4 m ρ c) l k).trans (congrFun (W4_arg m ρ c main_arg11 (by decide) (by decide) (by decide) (by decide)) _)
/-- At region 2's entry the second weight block is rows 64 … 191 of the weight matrix. -/
theorem node_w43 (l : Fin 128) (k : Fin 128) :
    (W5 m ρ c (Proc.devRef .tc main_v43) : S128x128.Idx → EReal) (ix2 l k) = nW m c (Fin.natAdd 64 l) k :=
  (v43_apply (W4 m ρ c) l k).trans (congrFun (W4_arg m ρ c main_arg11 (by decide) (by decide) (by decide) (by decide)) _)

/-- The column the second statistics region sums is the specification's column. -/
theorem node_hcol (k : Fin 128) : hcol2 (U5 m ρ) c k = nh m ρ c k := by
  have e0 : U5 m ρ c main_arg0 = m ((c : Thread nD τ).loc main_arg0) := W5_arg m ρ c main_arg0 (by decide) (by decide) (by decide) (by decide) (by decide)
  have e12 : U5 m ρ c main_arg12 = m ((c : Thread nD τ).loc main_arg12) := W5_arg m ρ c main_arg12 (by decide) (by decide) (by decide) (by decide) (by decide)
  have e42 : (fun l : Fin 64 => (U5 m ρ c main_v42 : S64x128.Idx → EReal) (ix2 l k)) = fun l => nW m c (Fin.castAdd 128 l) k :=
    funext fun l => node_w42 m ρ c l k
  have e43 : (fun l : Fin 128 => (U5 m ρ c main_v43 : S128x128.Idx → EReal) (ix2 l k)) = fun l => nW m c (Fin.natAdd 64 l) k :=
    funext fun l => node_w43 m ρ c l k
  unfold hcol2
  rw [e0, e12, e42, e43]

/-- The second statistics region's first result, column k: the column's sum over all nodes. -/
theorem node_sum (k : Fin 128) :
    (W6 m ρ c (Proc.devRef .tc main_v44_0) : S1x128.Idx → EReal) (ix2 (0 : Fin 1) k) = ∑ e, nh m ρ c k e :=
  (congrFun (W6_arr m ρ c 5) (ix2 (0 : Fin 1) k)).trans ((sum2_apply (U5 m ρ) c k).trans (by rw [node_hcol]))
/-- The second statistics region's second result, column k: the column's sum of squares over all nodes. -/
theorem node_sumsq (k : Fin 128) :
    (W6 m ρ c (Proc.devRef .tc main_v44_1) : S1x128.Idx → EReal) (ix2 (0 : Fin 1) k) = ∑ e, nh m ρ c k e * nh m ρ c k e :=
  (congrFun (W6_arr m ρ c 6) (ix2 (0 : Fin 1) k)).trans ((sumsq2_apply (U5 m ρ) c k).trans (by rw [node_hcol]))

/-- The second fold's scale is the specification's scale of the column. -/
theorem node_sc (k : Fin 128) :
    sc3 (W6 m ρ c) k = LibBatchNormFold.scale (nh m ρ c k) (ng m c k) (Ideal.ofBits .f32 0x47435000#32) (Ideal.ofBits .f32 0x3727C5AC#32) := by
  unfold sc3 scaleOf LibBatchNormFold.scale LibBatchNormFold.mean
  rw [node_sum, node_sumsq, W6_arg m ρ c main_arg13 (by decide) (by decide) (by decide) (by decide) (by decide) (by decide)]

/-- At region 2's exit the two weight blocks are still the weight matrix's row blocks. -/
theorem node_w42' (l : Fin 64) (k : Fin 128) :
    (W6 m ρ c (Proc.devRef .tc main_v42) : S64x128.Idx → EReal) (ix2 l k) = nW m c (Fin.castAdd 128 l) k :=
  (congrFun (W6_keep m ρ c main_v42 (by decide)) _).trans (node_w42 m ρ c l k)
/-- The same for the second block. -/
theorem node_w43' (l : Fin 128) (k : Fin 128) :
    (W6 m ρ c (Proc.devRef .tc main_v43) : S128x128.Idx → EReal) (ix2 l k) = nW m c (Fin.natAdd 64 l) k :=
  (congrFun (W6_keep m ρ c main_v43 (by decide)) _).trans (node_w43 m ρ c l k)

/-- The first folded weight block, entry by entry. -/
theorem node_v62 (l : Fin 64) (k : Fin 128) :
    (U7 m ρ c main_v62 : S64x128.Idx → EReal) (ix2 l k)
      = nW m c (Fin.castAdd 128 l) k * LibBatchNormFold.scale (nh m ρ c k) (ng m c k) (Ideal.ofBits .f32 0x47435000#32) (Ideal.ofBits .f32 0x3727C5AC#32) := by
  refine (v62_apply (W6 m ρ c) l k).trans ?_
  rw [node_sc, node_w42']
/-- The second folded weight block, entry by entry. -/
theorem node_v64 (l : Fin 128) (k : Fin 128) :
    (U7 m ρ c main_v64 : S128x128.Idx → EReal) (ix2 l k)
      = nW m c (Fin.natAdd 64 l) k * LibBatchNormFold.scale (nh m ρ c k) (ng m c k) (Ideal.ofBits .f32 0x47435000#32) (Ideal.ofBits .f32 0x3727C5AC#32) := by
  refine (v64_apply (W6 m ρ c) l k).trans ?_
  rw [node_sc, node_w43']
/-- The folded bias, entry by entry. -/
theorem node_v68 (k : Fin 128) :
    (U7 m ρ c main_v68 : S128.Idx → EReal) (ix1 k)
      = nba m c k * LibBatchNormFold.scale (nh m ρ c k) (ng m c k) (Ideal.ofBits .f32 0x47435000#32) (Ideal.ofBits .f32 0x3727C5AC#32)
        + LibBatchNormFold.shift (nh m ρ c k) (ng m c k) (nbe m c k) (Ideal.ofBits .f32 0x47435000#32) (Ideal.ofBits .f32 0x3727C5AC#32) := by
  refine (v68_apply (W6 m ρ c) k).trans ?_
  rw [node_sc, node_sum, W6_arg m ρ c main_arg12 (by decide) (by decide) (by decide) (by decide) (by decide) (by decide),
    W6_arg m ρ c main_arg14 (by decide) (by decide) (by decide) (by decide) (by decide) (by decide)]
  rfl

/-- (N) THE NODE STAGE: region 3's result array is, entry by entry, the folded perceptron of the node features and the
    aggregated messages under the second perceptron's weights, with the row count and eps the program's literals. -/
theorem node_stage (i : Fin 50000) (j : Fin 64) :
    ((dat3 (U7 m ρ) c).arrAt 7 cfg3.N : S50000x64.Idx → EReal) (ix2 i j)
      = Cert.Spec.mlpFold (fun i l => (m ((c : Thread nD τ).loc main_arg0) : S50000x64.Idx → EReal) (ix2 i l))
          (fun i l => (W5 m ρ c (Proc.devRef .tc main_v41) : S50000x128.Idx → EReal) (ix2 i l))
          (fun l k => (m ((c : Thread nD τ).loc main_arg11) : S192x128.Idx → EReal) (ix2 l k))
          (fun k => (m ((c : Thread nD τ).loc main_arg12) : S128.Idx → EReal) (ix1 k))
          (fun k => (m ((c : Thread nD τ).loc main_arg13) : S128.Idx → EReal) (ix1 k))
          (fun k => (m ((c : Thread nD τ).loc main_arg14) : S128.Idx → EReal) (ix1 k))
          (fun k j => (m ((c : Thread nD τ).loc main_arg15) : S128x64.Idx → EReal) (ix2 k j))
          (fun j => (m ((c : Thread nD τ).loc main_arg16) : S64.Idx → EReal) (ix1 j))
          (Ideal.ofBits .f32 0x47435000#32) (Ideal.ofBits .f32 0x3727C5AC#32) i j := by
  rw [final3 (U7 m ρ) c, G3_ix2]
  exact fusedAt_eq_mlpFold _ _ _ _ _ _ _ (nA m c) (nB m ρ c) (nW m c) (nba m c) (ng m c) (nbe m c) _ _ _ _
    (fun e l => congrFun (W7_arg m ρ c main_arg0 (by decide) (by decide) (by decide) (by decide) (by decide) (by decide) (by decide)) _)
    (fun e l => congrFun ((StableHlo.after_of_writes_sub hostOps3 _ hostOps3_writes (by decide)).trans (W6_keep m ρ c main_v41 (by decide))) _)
    (node_v62 m ρ c) (node_v64 m ρ c) (node_v68 m ρ c)
    (fun k j => congrFun (W7_arg m ρ c main_arg15 (by decide) (by decide) (by decide) (by decide) (by decide) (by decide) (by decide)) _)
    (fun j => congrFun (W7_arg m ρ c main_arg16 (by decide) (by decide) (by decide) (by decide) (by decide) (by decide) (by decide)) _) i j

end Node

/-! ## The gather and the scatter-add between the stages -/

/-- (G) The gathered node features at region 0's entry: the gather of argument 0 at the source column of argument 1. -/
theorem v10_W1 :
    (W1 m ρ c (Proc.devRef .tc main_v10) : S800000x64.Idx → EReal)
      = Host.gather gather_S50000x64_S800000x1_S800000x64_1_0_n_n_0_1_164 (m ((c : Thread nD τ).loc main_arg0))
          (broadcastInDim S800000x1 ![0] bcast_S800000_S800000x1_0
            (select
              (cmpi .slt
                (shapeCast S800000 (extractStridedSlice S1x800000 ![0, 0] (m ((c : Thread nD τ).loc main_arg1)) slices_S2x800000_S1x800000_0_0)
                  shapeCasts_S1x800000_S800000)
                (broadcastInDim S800000 ![] bcast_S_S800000 (constantI S_ 32 0#32)))
              (addi
                (shapeCast S800000 (extractStridedSlice S1x800000 ![0, 0] (m ((c : Thread nD τ).loc main_arg1)) slices_S2x800000_S1x800000_0_0)
                  shapeCasts_S1x800000_S800000)
                (broadcastInDim S800000 ![] bcast_S_S800000 (constantI S_ 32 50000#32)))
              (shapeCast S800000 (extractStridedSlice S1x800000 ![0, 0] (m ((c : Thread nD τ).loc main_arg1)) slices_S2x800000_S1x800000_0_0)
                shapeCasts_S1x800000_S800000))) :=
  v10_eq (W0 m ρ c)

/-- At region 1's exit the destination row of the edge table is still the reshape of the slice [1:2] of argument 1. -/
theorem W4_v3 :
    (W4 m ρ c (Proc.devRef .tc main_v3) : S800000.Idx → BitVec 32)
      = shapeCast S800000 (extractStridedSlice S1x800000 ![1, 0] (m ((c : Thread nD τ).loc main_arg1)) slices_S2x800000_S1x800000_1_0)
          shapeCasts_S1x800000_S800000 :=
  (W4_keep m ρ c main_v3 (by decide)).trans
    ((StableHlo.after_of_writes_sub hostOps1 _ hostOps1_writes (by decide)).trans
      ((W2_keep m ρ c main_v3 (by decide)).trans (v3_eq (W0 m ρ c))))

/-- (S) The aggregated messages at region 2's entry: the scatter-add, into zeros, of region 1's result rows at the
    destination column of argument 1. -/
theorem v41_W5 :
    (W5 m ρ c (Proc.devRef .tc main_v41) : S50000x128.Idx → EReal)
      = Host.scatterAdd (F := Ideal) scatter_S50000x128_S800000x1_S800000x128_1_0_0_1
          (broadcastInDim S50000x128 ![] bcast_S_S50000x128 (constant (F := Ideal) S_ .f32 0x00000000#32))
          (broadcastInDim S800000x1 ![0] bcast_S800000_S800000x1_0
            (shapeCast S800000 (extractStridedSlice S1x800000 ![1, 0] (m ((c : Thread nD τ).loc main_arg1)) slices_S2x800000_S1x800000_1_0)
              shapeCasts_S1x800000_S800000))
          ((dat1 (U3 m ρ) c).arrAt 7 cfg1.N) := by
  have h38 : W4 m ρ c (Proc.devRef .tc main_v38) = (dat1 (U3 m ρ) c).arrAt 7 cfg1.N := W4_arr m ρ c 7
  refine (v41_eq (W4 m ρ c)).trans ?_
  rw [h38, W4_v3]

end Cert.KernelIdeal.Hand

end
-- ==== Proof.RefRead.lean ====
import proofs.«167414_j65335042507073_2_alg».proof.Proof.RefRun
import proofs.«167414_j65335042507073_2_alg».proof.Proof.Spec
import Idealize.ShloMosaic.Lib.ValueIdx
import Idealize.ShloMosaic.Lib.StackMember
import Idealize.ShloMosaic.Lib.Pipeline.Value
import Idealize.ShloMosaic.PureOps.Ideal.Laws

noncomputable section

/-! # The reference's stages read at an entry, at the ideal values

Each stage of `RefRun.out` at the extended reals, one entry at a time: a broadcast reads its source, a linear layer
is a finite sum over the contracted column, a batch mean and variance are sums over the rows divided by the row
count, and a perceptron (linear, batch normalisation, relu, linear) is the specification's `Cert.Spec.mlp`. The gather
and the scatter-add are never opened. -/

namespace Cert.ReferenceIdeal.RefRead

open Cert.ReferenceIdeal Cert.ReferenceIdeal.Gen Cert.ReferenceIdeal.RefRun Idealize.ShloMosaic Idealize.ShloMosaic.ValueIdx
open scoped BigOperators

/-! ## The float literals as extended reals -/

/-- 0x49435000 is 800000. -/
theorem ofBits_NE : Ideal.ofBits .f32 0x49435000#32 = ((800000 : ℝ) : EReal) := by
  simp [Ideal.ofBits, Ideal.ieee, -EReal.coe_mul]; norm_num
/-- 0x47435000 is 50000. -/
theorem ofBits_NN : Ideal.ofBits .f32 0x47435000#32 = ((50000 : ℝ) : EReal) := by
  simp [Ideal.ofBits, Ideal.ieee, -EReal.coe_mul]; norm_num
/-- 0x3727C5AC is 10995116 · 2⁻⁴⁰, the f32 nearest 1e-5. -/
theorem ofBits_EPS : Ideal.ofBits .f32 0x3727C5AC#32 = (((10995116 : ℝ) * 2⁻¹ ^ 40 : ℝ) : EReal) := by
  simp [Ideal.ofBits, Ideal.ieee, -EReal.coe_mul] <;> norm_num
theorem ofBits_NE_pos : 0 < Ideal.ofBits .f32 0x49435000#32 := by
  rw [ofBits_NE]; exact EReal.coe_pos.mpr (by norm_num)
theorem ofBits_NN_pos : 0 < Ideal.ofBits .f32 0x47435000#32 := by
  rw [ofBits_NN]; exact EReal.coe_pos.mpr (by norm_num)
theorem ofBits_EPS_pos : 0 < Ideal.ofBits .f32 0x3727C5AC#32 := by
  rw [ofBits_EPS]; exact EReal.coe_pos.mpr (by positivity)

/-! ## Broadcasts read at an index -/

section Broadcasts
variable {α : Type}

/-- A vector of 128 as the one row of a 1 × 128 array. -/
theorem bc_S128_S1x128 (v : S128.Idx → α) (j : S1x128.Idx) :
    broadcastInDim S1x128 ![1] bcast_S128_S1x128_1 v j = v (ix1 (j 1)) := by
  unfold broadcastInDim
  congr 1; funext a
  match a with
  | ⟨0, _⟩ => exact Fin.ext rfl

/-- A scalar as every entry of a 1 × 128 array. -/
theorem bc_S_S1x128 (c : S_.Idx → α) (j : S1x128.Idx) : broadcastInDim S1x128 ![] bcast_S_S1x128 c j = c ix0 := by
  unfold broadcastInDim
  congr 1; funext a; exact a.elim0

/-- A scalar as every entry of a vector of 128. -/
theorem bc_S_S128 (c : S_.Idx → α) (j : S128.Idx) : broadcastInDim S128 ![] bcast_S_S128 c j = c ix0 := by
  unfold broadcastInDim
  congr 1; funext a; exact a.elim0

variable {F : FTy → Type} [FloatOps F]

theorem rowsE_apply (v : FVec F S128 .f32) (j : S800000x128.Idx) : rowsE v j = v (ix1 (j 1)) := by
  unfold rowsE broadcastInDim
  congr 1; funext a
  match a with
  | ⟨0, _⟩ => exact Fin.ext rfl

theorem rowsN_apply (v : FVec F S128 .f32) (j : S50000x128.Idx) : rowsN v j = v (ix1 (j 1)) := by
  unfold rowsN broadcastInDim
  congr 1; funext a
  match a with
  | ⟨0, _⟩ => exact Fin.ext rfl

theorem rows64_apply (v : FVec F S64 .f32) (j : S50000x64.Idx) : rows64 v j = v (ix1 (j 1)) := by
  unfold rows64 broadcastInDim
  congr 1; funext a
  match a with
  | ⟨0, _⟩ => exact Fin.ext rfl

end Broadcasts

/-- The host's quotient and square root at an index, at the ideal values. -/
theorem hostDivf_apply {s : Shape} {φ : FTy} (a b : FVec Ideal s φ) (i : s.Idx) : Host.divf a b i = Ideal.div (a i) (b i) := rfl
theorem hostSqrt_apply {s : Shape} {φ : FTy} (a : FVec Ideal s φ) (i : s.Idx) : Host.sqrt a i = Ideal.sqrt (a i) := rfl

/-! ### The 800000-row side -/

section SideE
variable {α : Type}

/-- A 1 × 128 array as every row of a 800000 × 128 array. -/
theorem bc_S1x128_E (m : S1x128.Idx → α) (j : S800000x128.Idx) :
    broadcastInDim S800000x128 ![0, 1] bcast_S1x128_S800000x128_0_1 m j = m (ix2 0 (j 1)) := by
  unfold broadcastInDim
  congr 1; funext a
  match a with
  | ⟨0, _⟩ => exact Fin.ext rfl
  | ⟨1, _⟩ => exact Fin.ext rfl

/-- A scalar as every entry of a 800000 × 128 array. -/
theorem bc_S_E (c : S_.Idx → α) (j : S800000x128.Idx) : broadcastInDim S800000x128 ![] bcast_S_S800000x128 c j = c ix0 := by
  unfold broadcastInDim
  congr 1; funext a; exact a.elim0

end SideE

/-- The host's sum over the rows from the literal zero, at a column: the sum of the column. -/
theorem colSumE (h : FVec Ideal S800000x128 .f32) (c : Fin 128) :
    Host.reduceAdd h (constant S_ .f32 0x00000000#32) reducesTo_S800000x128_S128_d0 h_S_ (ix1 c) = ∑ i : Fin 800000, h (ix2 i c) := by
  show Ideal.hostReduceAdd reducesTo_S800000x128_S128_d0 h (Ideal.ofBits .f32 0x00000000#32) (ix1 c) = _
  rw [Ideal.hostReduceAdd_single _ (by decide : S800000x128.Reduces [0] S128), Ideal.ofBits_zero_f32, zero_add]
  exact Finset.sum_congr rfl fun k _ => congrArg h (by
    funext a
    match a with
    | ⟨0, _⟩ => exact Fin.ext rfl
    | ⟨1, _⟩ => exact Fin.ext rfl)

/-- The batch mean at a column. -/
theorem meanE_apply (h : FVec Ideal S800000x128 .f32) (c : Fin 128) :
    meanE h (ix1 c) = Ideal.div (∑ i : Fin 800000, h (ix2 i c)) (Ideal.ofBits .f32 0x49435000#32) := by
  unfold meanE
  rw [hostDivf_apply, colSumE, bc_S_S128, constant_apply]

/-- 800000 − ddof with ddof = 0 is 800000. -/
theorem cntE_apply (j : S_.Idx) : cntE (F := Ideal) j = Ideal.ofBits .f32 0x49435000#32 := by
  show Ideal.ofBits .f32 0x49435000#32 - (((0#32 : BitVec 32).toInt : ℝ) : EReal) = _
  simp

/-- 800000 − ddof is above zero. -/
theorem cntE_pos : cmpf .ogt (cntE (F := Ideal)) (constant S_ .f32 0x00000000#32) ix0 = 1#1 := by
  show BitVec.ofBool (decide (Ideal.ofBits .f32 0x00000000#32 < cntE (F := Ideal) ix0)) = 1#1
  rw [cntE_apply, Ideal.ofBits_zero_f32, decide_eq_true ofBits_NE_pos]
  rfl

/-- The deviation from the batch mean at an entry. -/
theorem devE_apply (h : FVec Ideal S800000x128 .f32) (i : Fin 800000) (c : Fin 128) :
    devE h (ix2 i c) = h (ix2 i c) - meanE h (ix1 c) := by
  unfold devE
  rw [subf_apply, bc_S1x128_E, hostDivf_apply, bc_S128_S1x128, bc_S_S1x128, constant_apply, colSumE, meanE_apply]

/-- The batch variance at a column: the divisor 800000 − 0 is positive, so the select takes the quotient. -/
theorem varE_apply (h : FVec Ideal S800000x128 .f32) (c : Fin 128) :
    varE h (ix1 c) = Ideal.div (∑ i : Fin 800000, (h (ix2 i c) - meanE h (ix1 c)) * (h (ix2 i c) - meanE h (ix1 c)))
      (Ideal.ofBits .f32 0x49435000#32) := by
  unfold varE
  rw [select_apply, bc_S_S128, cntE_pos, select_one, hostDivf_apply, colSumE, bc_S_S128, cntE_apply]
  refine congrArg (fun t => Ideal.div t (Ideal.ofBits .f32 0x49435000#32)) (Finset.sum_congr rfl fun i _ => ?_)
  rw [mulf_apply, devE_apply]

/-- The normalisation at an entry. -/
theorem normE_apply (h : FVec Ideal S800000x128 .f32) (μ v g β : FVec Ideal S128 .f32) (i : Fin 800000) (c : Fin 128) :
    normE h μ v g β (ix2 i c)
      = Ideal.div (g (ix1 c) * (h (ix2 i c) - μ (ix1 c))) (Ideal.sqrt (v (ix1 c) + Ideal.ofBits .f32 0x3727C5AC#32)) + β (ix1 c) := by
  unfold normE
  rw [addf_apply, hostDivf_apply, mulf_apply, subf_apply, rowsE_apply, rowsE_apply, rowsE_apply, rowsE_apply,
    hostSqrt_apply, addf_apply, bc_S_S128, constant_apply]

/-- max(·, 0) at an entry. -/
theorem reluE_apply (a : FVec Ideal S800000x128 .f32) (j : S800000x128.Idx) : reluE a j = max (a j) 0 := by
  unfold reluE
  rw [maximumf_apply, bc_S_E, constant_apply, Ideal.ofBits_zero_f32]

/-! ### The 50000-row side -/

section SideN
variable {α : Type}

/-- A 1 × 128 array as every row of a 50000 × 128 array. -/
theorem bc_S1x128_N (m : S1x128.Idx → α) (j : S50000x128.Idx) :
    broadcastInDim S50000x128 ![0, 1] bcast_S1x128_S50000x128_0_1 m j = m (ix2 0 (j 1)) := by
  unfold broadcastInDim
  congr 1; funext a
  match a with
  | ⟨0, _⟩ => exact Fin.ext rfl
  | ⟨1, _⟩ => exact Fin.ext rfl

/-- A scalar as every entry of a 50000 × 128 array. -/
theorem bc_S_N (c : S_.Idx → α) (j : S50000x128.Idx) : broadcastInDim S50000x128 ![] bcast_S_S50000x128 c j = c ix0 := by
  unfold broadcastInDim
  congr 1; funext a; exact a.elim0

end SideN

/-- The host's sum over the rows from the literal zero, at a column: the sum of the column. -/
theorem colSumN (h : FVec Ideal S50000x128 .f32) (c : Fin 128) :
    Host.reduceAdd h (constant S_ .f32 0x00000000#32) reducesTo_S50000x128_S128_d0 h_S_ (ix1 c) = ∑ i : Fin 50000, h (ix2 i c) := by
  show Ideal.hostReduceAdd reducesTo_S50000x128_S128_d0 h (Ideal.ofBits .f32 0x00000000#32) (ix1 c) = _
  rw [Ideal.hostReduceAdd_single _ (by decide : S50000x128.Reduces [0] S128), Ideal.ofBits_zero_f32, zero_add]
  exact Finset.sum_congr rfl fun k _ => congrArg h (by
    funext a
    match a with
    | ⟨0, _⟩ => exact Fin.ext rfl
    | ⟨1, _⟩ => exact Fin.ext rfl)

/-- The batch mean at a column. -/
theorem meanN_apply (h : FVec Ideal S50000x128 .f32) (c : Fin 128) :
    meanN h (ix1 c) = Ideal.div (∑ i : Fin 50000, h (ix2 i c)) (Ideal.ofBits .f32 0x47435000#32) := by
  unfold meanN
  rw [hostDivf_apply, colSumN, bc_S_S128, constant_apply]

/-- 50000 − ddof with ddof = 0 is 50000. -/
theorem cntN_apply (j : S_.Idx) : cntN (F := Ideal) j = Ideal.ofBits .f32 0x47435000#32 := by
  show Ideal.ofBits .f32 0x47435000#32 - (((0#32 : BitVec 32).toInt : ℝ) : EReal) = _
  simp

/-- 50000 − ddof is above zero. -/
theorem cntN_pos : cmpf .ogt (cntN (F := Ideal)) (constant S_ .f32 0x00000000#32) ix0 = 1#1 := by
  show BitVec.ofBool (decide (Ideal.ofBits .f32 0x00000000#32 < cntN (F := Ideal) ix0)) = 1#1
  rw [cntN_apply, Ideal.ofBits_zero_f32, decide_eq_true ofBits_NN_pos]
  rfl

/-- The deviation from the batch mean at an entry. -/
theorem devN_apply (h : FVec Ideal S50000x128 .f32) (i : Fin 50000) (c : Fin 128) :
    devN h (ix2 i c) = h (ix2 i c) - meanN h (ix1 c) := by
  unfold devN
  rw [subf_apply, bc_S1x128_N, hostDivf_apply, bc_S128_S1x128, bc_S_S1x128, constant_apply, colSumN, meanN_apply]

/-- The batch variance at a column: the divisor 50000 − 0 is positive, so the select takes the quotient. -/
theorem varN_apply (h : FVec Ideal S50000x128 .f32) (c : Fin 128) :
    varN h (ix1 c) = Ideal.div (∑ i : Fin 50000, (h (ix2 i c) - meanN h (ix1 c)) * (h (ix2 i c) - meanN h (ix1 c)))
      (Ideal.ofBits .f32 0x47435000#32) := by
  unfold varN
  rw [select_apply, bc_S_S128, cntN_pos, select_one, hostDivf_apply, colSumN, bc_S_S128, cntN_apply]
  refine congrArg (fun t => Ideal.div t (Ideal.ofBits .f32 0x47435000#32)) (Finset.sum_congr rfl fun i _ => ?_)
  rw [mulf_apply, devN_apply]

/-- The normalisation at an entry. -/
theorem normN_apply (h : FVec Ideal S50000x128 .f32) (μ v g β : FVec Ideal S128 .f32) (i : Fin 50000) (c : Fin 128) :
    normN h μ v g β (ix2 i c)
      = Ideal.div (g (ix1 c) * (h (ix2 i c) - μ (ix1 c))) (Ideal.sqrt (v (ix1 c) + Ideal.ofBits .f32 0x3727C5AC#32)) + β (ix1 c) := by
  unfold normN
  rw [addf_apply, hostDivf_apply, mulf_apply, subf_apply, rowsN_apply, rowsN_apply, rowsN_apply, rowsN_apply,
    hostSqrt_apply, addf_apply, bc_S_S128, constant_apply]

/-- max(·, 0) at an entry. -/
theorem reluN_apply (a : FVec Ideal S50000x128 .f32) (j : S50000x128.Idx) : reluN a j = max (a j) 0 := by
  unfold reluN
  rw [maximumf_apply, bc_S_N, constant_apply, Ideal.ofBits_zero_f32]

/-! ## The linear layers at an entry: finite sums -/

theorem lin1_apply (a : FVec Ideal S800000x96 .f32) (w : FVec Ideal S96x128 .f32) (b : FVec Ideal S128 .f32)
    (i : Fin 800000) (c : Fin 128) :
    lin1 a w b (ix2 i c) = (∑ k : Fin 96, a (ix2 i k) * w (ix2 k c)) + b (ix1 c) := by
  unfold lin1
  rw [addf_apply, rowsE_apply,
    show dot_S800000x96_S96x128_S800000x128_1_0_0_1_n_n = DotDims.plain 800000 96 128 from rfl,
    StackMember.dotGeneral_plain_apply]

theorem lin2_apply (a : FVec Ideal S800000x128 .f32) (w : FVec Ideal S128x128 .f32) (b : FVec Ideal S128 .f32)
    (i : Fin 800000) (c : Fin 128) :
    lin2 a w b (ix2 i c) = (∑ k : Fin 128, a (ix2 i k) * w (ix2 k c)) + b (ix1 c) := by
  unfold lin2
  rw [addf_apply, rowsE_apply,
    show dot_S800000x128_S128x128_S800000x128_1_0_0_1_n_n = DotDims.plain 800000 128 128 from rfl,
    StackMember.dotGeneral_plain_apply]

theorem lin3_apply (a : FVec Ideal S50000x192 .f32) (w : FVec Ideal S192x128 .f32) (b : FVec Ideal S128 .f32)
    (i : Fin 50000) (c : Fin 128) :
    lin3 a w b (ix2 i c) = (∑ k : Fin 192, a (ix2 i k) * w (ix2 k c)) + b (ix1 c) := by
  unfold lin3
  rw [addf_apply, rowsN_apply,
    show dot_S50000x192_S192x128_S50000x128_1_0_0_1_n_n = DotDims.plain 50000 192 128 from rfl,
    StackMember.dotGeneral_plain_apply]

theorem lin4_apply (a : FVec Ideal S50000x128 .f32) (w : FVec Ideal S128x64 .f32) (b : FVec Ideal S64 .f32)
    (i : Fin 50000) (c : Fin 64) :
    lin4 a w b (ix2 i c) = (∑ k : Fin 128, a (ix2 i k) * w (ix2 k c)) + b (ix1 c) := by
  unfold lin4
  rw [addf_apply, rows64_apply,
    show dot_S50000x128_S128x64_S50000x64_1_0_0_1_n_n = DotDims.plain 50000 128 64 from rfl,
    StackMember.dotGeneral_plain_apply]

/-! ## The two joined inputs read at a column -/

/-- The first 64 columns of the first layer's input are the gathered node rows. -/
theorem edgeIn_left (x : FVec Ideal S50000x64 .f32) (ei : IVec S2x800000 32) (ea : FVec Ideal S800000x32 .f32)
    (e : Fin 800000) (l : Fin 64) :
    edgeIn x ei ea (ix2 e (Fin.castAdd 32 l)) = Host.gather gather_S50000x64_S800000x1_S800000x64_1_0_n_n_0_1_164 x (srcIdx ei) (ix2 e l) := by
  unfold edgeIn
  exact concatenate_pair_apply_left (t := S800000x96) (1 : Fin 2) _ _ concatenates_S800000x64_S800000x32_S800000x96_d1 _ rfl (ix2 e l)
    (fun b => by match b with | ⟨0, _⟩ => rfl | ⟨1, _⟩ => rfl)

/-- Its last 32 columns are the edge features. -/
theorem edgeIn_right (x : FVec Ideal S50000x64 .f32) (ei : IVec S2x800000 32) (ea : FVec Ideal S800000x32 .f32)
    (e : Fin 800000) (l : Fin 32) :
    edgeIn x ei ea (ix2 e (Fin.natAdd 64 l)) = ea (ix2 e l) := by
  unfold edgeIn
  exact concatenate_pair_apply_right (t := S800000x96) (1 : Fin 2) _ _ concatenates_S800000x64_S800000x32_S800000x96_d1 _ rfl rfl (ix2 e l)
    (fun b hb => by match b with | ⟨0, _⟩ => rfl | ⟨1, _⟩ => exact absurd rfl hb) (Nat.add_comm l.val 64)

/-- The first 64 columns of the third layer's input are the node features. -/
theorem nodeIn_left (x : FVec Ideal S50000x64 .f32) (a : FVec Ideal S50000x128 .f32) (i : Fin 50000) (l : Fin 64) :
    nodeIn x a (ix2 i (Fin.castAdd 128 l)) = x (ix2 i l) := by
  unfold nodeIn
  exact concatenate_pair_apply_left (t := S50000x192) (1 : Fin 2) _ _ concatenates_S50000x64_S50000x128_S50000x192_d1 _ rfl (ix2 i l)
    (fun b => by match b with | ⟨0, _⟩ => rfl | ⟨1, _⟩ => rfl)

/-- Its last 128 columns are the summed messages. -/
theorem nodeIn_right (x : FVec Ideal S50000x64 .f32) (a : FVec Ideal S50000x128 .f32) (i : Fin 50000) (l : Fin 128) :
    nodeIn x a (ix2 i (Fin.natAdd 64 l)) = a (ix2 i l) := by
  unfold nodeIn
  exact concatenate_pair_apply_right (t := S50000x192) (1 : Fin 2) _ _ concatenates_S50000x64_S50000x128_S50000x192_d1 _ rfl rfl (ix2 i l)
    (fun b hb => by match b with | ⟨0, _⟩ => rfl | ⟨1, _⟩ => exact absurd rfl hb) (Nat.add_comm l.val 64)

/-- The first hidden layer at an entry: the contraction over the 96 columns split at 64. -/
theorem hidE_apply (x : FVec Ideal S50000x64 .f32) (ei : IVec S2x800000 32) (ea : FVec Ideal S800000x32 .f32)
    (w1 : FVec Ideal S96x128 .f32) (b1 : FVec Ideal S128 .f32) (e : Fin 800000) (k : Fin 128) :
    hidE x ei ea w1 b1 (ix2 e k)
      = ((∑ l : Fin 64, Host.gather gather_S50000x64_S800000x1_S800000x64_1_0_n_n_0_1_164 x (srcIdx ei) (ix2 e l) * w1 (ix2 (Fin.castAdd 32 l) k))
          + (∑ l : Fin 32, ea (ix2 e l) * w1 (ix2 (Fin.natAdd 64 l) k))) + b1 (ix1 k) := by
  unfold hidE
  rw [lin1_apply]
  refine congrArg (· + b1 (ix1 k)) ?_
  refine (Fin.sum_univ_add (a := 64) (b := 32) (fun l : Fin (64 + 32) => edgeIn x ei ea (ix2 e l) * w1 (ix2 l k))).trans ?_
  simp only [edgeIn_left, edgeIn_right]

/-- The second hidden layer at an entry: the contraction over the 192 columns split at 64. -/
theorem hidN_apply (x : FVec Ideal S50000x64 .f32) (ei : IVec S2x800000 32) (ea : FVec Ideal S800000x32 .f32)
    (w1 : FVec Ideal S96x128 .f32) (b1 g1 β1 : FVec Ideal S128 .f32) (w2 : FVec Ideal S128x128 .f32) (b2 : FVec Ideal S128 .f32)
    (w3 : FVec Ideal S192x128 .f32) (b3 : FVec Ideal S128 .f32) (i : Fin 50000) (k : Fin 128) :
    hidN x ei ea w1 b1 g1 β1 w2 b2 w3 b3 (ix2 i k)
      = ((∑ l : Fin 64, x (ix2 i l) * w3 (ix2 (Fin.castAdd 128 l) k))
          + (∑ l : Fin 128, msgs x ei ea w1 b1 g1 β1 w2 b2 (ix2 i l) * w3 (ix2 (Fin.natAdd 64 l) k))) + b3 (ix1 k) := by
  unfold hidN
  rw [lin3_apply]
  refine congrArg (· + b3 (ix1 k)) ?_
  refine (Fin.sum_univ_add (a := 64) (b := 128) (fun l : Fin (64 + 128) => nodeIn x (msgs x ei ea w1 b1 g1 β1 w2 b2) (ix2 i l) * w3 (ix2 l k))).trans ?_
  simp only [nodeIn_left, nodeIn_right]

/-! ## The two perceptrons at an entry -/

/-- A message at an entry is the specification's perceptron on the gathered rows and the edge features, with batch
    size 800000. -/
theorem msg_apply (x : FVec Ideal S50000x64 .f32) (ei : IVec S2x800000 32) (ea : FVec Ideal S800000x32 .f32)
    (w1 : FVec Ideal S96x128 .f32) (b1 g1 β1 : FVec Ideal S128 .f32) (w2 : FVec Ideal S128x128 .f32) (b2 : FVec Ideal S128 .f32)
    (e : Fin 800000) (j : Fin 128) :
    lin2 (reluE (normE (hidE x ei ea w1 b1) (meanE (hidE x ei ea w1 b1)) (varE (hidE x ei ea w1 b1)) g1 β1)) w2 b2 (ix2 e j)
      = Cert.Spec.mlp (fun e l => Host.gather gather_S50000x64_S800000x1_S800000x64_1_0_n_n_0_1_164 x (srcIdx ei) (ix2 e l)) (fun e l => ea (ix2 e l))
          (fun l k => w1 (ix2 l k)) (fun k => b1 (ix1 k)) (fun k => g1 (ix1 k)) (fun k => β1 (ix1 k))
          (fun k j => w2 (ix2 k j)) (fun j => b2 (ix1 j))
          (Ideal.ofBits .f32 0x49435000#32) (Ideal.ofBits .f32 0x3727C5AC#32) e j := by
  rw [lin2_apply]
  unfold Cert.Spec.mlp
  refine congrArg (· + b2 (ix1 j)) (Finset.sum_congr rfl fun k _ => ?_)
  rw [reluE_apply, normE_apply, varE_apply, meanE_apply]
  simp only [hidE_apply]
  rfl

/-- The result at an entry is the specification's perceptron on the node features and the summed messages, with batch
    size 50000. -/
theorem out_apply (x : FVec Ideal S50000x64 .f32) (ei : IVec S2x800000 32) (ea : FVec Ideal S800000x32 .f32)
    (u : FVec Ideal S1x16 .f32) (batch : IVec S50000 32) (w1 : FVec Ideal S96x128 .f32) (b1 g1 β1 : FVec Ideal S128 .f32)
    (w2 : FVec Ideal S128x128 .f32) (b2 : FVec Ideal S128 .f32) (w3 : FVec Ideal S192x128 .f32) (b3 g2 β2 : FVec Ideal S128 .f32)
    (w4 : FVec Ideal S128x64 .f32) (b4 : FVec Ideal S64 .f32) (i : Fin 50000) (j : Fin 64) :
    out x ei ea u batch w1 b1 g1 β1 w2 b2 w3 b3 g2 β2 w4 b4 (ix2 i j)
      = Cert.Spec.mlp (fun i l => x (ix2 i l)) (fun i l => msgs x ei ea w1 b1 g1 β1 w2 b2 (ix2 i l))
          (fun l k => w3 (ix2 l k)) (fun k => b3 (ix1 k)) (fun k => g2 (ix1 k)) (fun k => β2 (ix1 k))
          (fun k j => w4 (ix2 k j)) (fun j => b4 (ix1 j))
          (Ideal.ofBits .f32 0x47435000#32) (Ideal.ofBits .f32 0x3727C5AC#32) i j := by
  unfold out
  rw [lin4_apply]
  unfold Cert.Spec.mlp
  refine congrArg (· + b4 (ix1 j)) (Finset.sum_congr rfl fun k _ => ?_)
  rw [reluN_apply, normN_apply, varN_apply, meanN_apply]
  simp only [hidN_apply]
  rfl

end Cert.ReferenceIdeal.RefRead

end
-- ==== Proof.LibScatterSet.lean ====
import Idealize.ShloMosaic.PureOps
import Idealize.ShloMosaic.Lib.ValueIdx

namespace Cert.Lib

open Idealize.ShloMosaic Idealize.ShloMosaic.ValueIdx

/-! ## A left fold of pointwise overwrites, read at one position -/

/-- A left fold whose every step leaves position `i` alone leaves the accumulator's value at `i`. -/
theorem foldl_apply_of_keep {β ι γ : Type} (step : (ι → γ) → β → (ι → γ)) (i : ι) (l : List β)
    (h : ∀ n ∈ l, ∀ r, step r n i = r i) (r : ι → γ) : l.foldl step r i = r i := by
  induction l generalizing r with
  | nil => rfl
  | cons n l ih =>
    rw [List.foldl_cons, ih (fun m hm => h m (List.mem_cons_of_mem _ hm)), h n List.mem_cons_self]

section General
variable {s si u : Shape} {α : Type} {w : Nat}

/-- An update index lands on `i` exactly when, on every axis, its start plus its window coordinate is
    `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    rw [Option.some.injEq]
    constructor
    · intro e a
      have h1 := congrArg (fun f => (f a).val) e
      have h2 := h a
      simp only at h1
      omega
    · intro e
      funext a
      apply Fin.ext
      have h1 := e a
      have h2 := h a
      simp only
      omega
  · next h =>
    constructor
    · intro e; cases e
    · intro e
      exact absurd (fun a => by have h1 := e a; have h2 := (i a).isLt; omega) h

/-- A position no update index lands on keeps the operand's value. -/
theorem scatter_set_miss (d : ScatterDims s si u) (x : s.Idx → α) (idx : IVec si w) (upd : u.Idx → α)
    (i : s.Idx) (hmiss : ∀ j, d.resultIdx? j idx ≠ some i) : Host.scatter d (fun _ b => b) x idx upd i = x i := by
  unfold Host.scatter
  refine foldl_apply_of_keep _ i _ (fun n _ r => ?_) x
  generalize ho : d.resultIdx? (u.rowMajor.symm n) idx = o
  cases o with
  | none => rfl
  | some i0 => exact if_neg (fun e => hmiss _ (e ▸ ho))

/-- When the body returns the update and exactly one update index lands on a position, the result there is that
    update's value. -/
theorem scatter_set_hit (d : ScatterDims s si u) (x : s.Idx → α) (idx : IVec si w) (upd : u.Idx → α)
    (i : s.Idx) (j₀ : u.Idx) (h₀ : d.resultIdx? j₀ idx = some i) (huniq : ∀ j, d.resultIdx? j idx = some i → j = j₀) :
    Host.scatter d (fun _ b => b) x idx upd i = upd j₀ := by
  unfold Host.scatter
  have hmem : u.rowMajor j₀ ∈ List.finRange u.numel := List.mem_finRange _
  have hnd := List.nodup_finRange u.numel
  generalize List.finRange u.numel = l at hmem hnd
  induction l generalizing x with
  | nil => cases hmem
  | cons n l ih =>
    rw [List.foldl_cons]
    rw [List.nodup_cons] at hnd
    by_cases hn : n = u.rowMajor j₀
    · subst hn
      rw [foldl_apply_of_keep _ i l (fun m hm r => ?_)]
      · simp only [Equiv.symm_apply_apply, h₀, if_true]
      · generalize ho : d.resultIdx? (u.rowMajor.symm m) idx = o
        cases o with
        | none => rfl
        | some i0 =>
          refine if_neg (fun e => ?_)
          subst e
          have := huniq _ ho
          exact hnd.1 (by rw [← this, Equiv.apply_symm_apply]; exact hm)
    · rcases List.mem_cons.1 hmem with e | hm
      · exact absurd e.symm hn
      · exact ih _ hm hnd.2

end General

/-! ## A block of channels written into `[16, 64, 256, 256]` at a run-time first channel -/

section Channels

/-- The dimension numbers of writing a `[16, C, 256, 256]` block into a `[16, 64, 256, 256]` array at one scatter
    index that names the first channel: every update axis is a window axis, nothing is inserted, and the one
    component of the start index goes to axis 1. -/
abbrev chanDims (C : Nat)
    (wf : ScatterDims.WF ⟨4, ![16, 64, 256, 256]⟩ ⟨1, ![1]⟩ ⟨4, ![16, C, 256, 256]⟩ [0, 1, 2, 3] [] [1] 0) :
    ScatterDims ⟨4, ![16, 64, 256, 256]⟩ ⟨1, ![1]⟩ ⟨4, ![16, C, 256, 256]⟩ :=
  ⟨[0, 1, 2, 3], [], [1], 0, wf⟩

/-- The window coordinate on every axis is the update index's own coordinate. -/
theorem chanDims_window (C : Nat)
    (wf : ScatterDims.WF ⟨4, ![16, 64, 256, 256]⟩ ⟨1, ![1]⟩ ⟨4, ![16, C, 256, 256]⟩ [0, 1, 2, 3] [] [1] 0)
    (j : (⟨4, ![16, C, 256, 256]⟩ : Shape).Idx) (a : Fin 4) : (chanDims C wf).window j a = (j a).val := by
  have hk : ∀ a : Fin 4, a ∈ Shape.kept ⟨4, ![16, 64, 256, 256]⟩ [] := by decide
  unfold ScatterDims.window
  rw [dif_pos (show a ∈ (chanDims C wf).sKept from hk a)]
  match a with
  | ⟨0, _⟩ => rfl
  | ⟨1, _⟩ => rfl
  | ⟨2, _⟩ => rfl
  | ⟨3, _⟩ => rfl

/-- The window starts at the scatter index's value on the channel axis and at `0` on the others. -/
theorem chanDims_start (C : Nat)
    (wf : ScatterDims.WF ⟨4, ![16, 64, 256, 256]⟩ ⟨1, ![1]⟩ ⟨4, ![16, C, 256, 256]⟩ [0, 1, 2, 3] [] [1] 0)
    (j : (⟨4, ![16, C, 256, 256]⟩ : Shape).Idx) {w : Nat} (idx : IVec ⟨1, ![1]⟩ w) (a : Fin 4) :
    (chanDims C wf).start j idx a = if a = 1 then (idx (ix1 0)).toInt else 0 := by
  unfold ScatterDims.start
  by_cases ha : a = 1
  · subst ha
    rw [dif_pos (show (1 : Fin 4) ∈ (chanDims C wf).scatterDimsToOperandDims from List.mem_singleton.mpr rfl),
      if_pos rfl]
    have hsi : (chanDims C wf).siIdx j ⟨List.idxOf (1 : Fin 4) (chanDims C wf).scatterDimsToOperandDims,
        List.idxOf_lt_length_iff.2 (List.mem_singleton.mpr rfl)⟩ = ix1 0 := by
      funext b; refine Fin.ext ?_
      match b with
      | ⟨0, _⟩ => rfl
    rw [hsi]
  · rw [dif_neg (show a ∉ (chanDims C wf).scatterDimsToOperandDims from fun h => ha (List.mem_singleton.mp h)),
      if_neg ha]

/-- An update index lands on `(n, ch, h, w)` exactly when its coordinates are `n`, `ch - k`, `h`, `w`, `k` the first
    channel the scatter index names. -/
theorem chanDims_resultIdx?_iff (C : Nat)
    (wf : ScatterDims.WF ⟨4, ![16, 64, 256, 256]⟩ ⟨1, ![1]⟩ ⟨4, ![16, C, 256, 256]⟩ [0, 1, 2, 3] [] [1] 0)
    {v : Nat} (idx : IVec ⟨1, ![1]⟩ v) (k : Nat) (hidx : (idx (ix1 0)).toInt = (k : Int))
    (j : (⟨4, ![16, C, 256, 256]⟩ : Shape).Idx) (n : Fin 16) (ch : Fin 64) (h : Fin 256) (w : Fin 256) :
    (chanDims C wf).resultIdx? j idx = some (ix4 n ch h w) ↔
      (j 0).val = n.val ∧ k + (j 1).val = ch.val ∧ (j 2).val = h.val ∧ (j 3).val = w.val := by
  rw [resultIdx?_eq_some_iff]
  have key : ∀ a : Fin 4, (chanDims C wf).start j idx a + ((chanDims C wf).window j a : Int)
      = (if a = 1 then (k : Int) else 0) + ((j a).val : Int) := by
    intro a; rw [chanDims_start, chanDims_window, hidx]
  constructor
  · intro e
    have e0 : (0 : Int) + ((j 0).val : Int) = (n.val : Int) := (key 0).symm.trans (e (0 : Fin 4))
    have e1 : (k : Int) + ((j 1).val : Int) = (ch.val : Int) := (key 1).symm.trans (e (1 : Fin 4))
    have e2 : (0 : Int) + ((j 2).val : Int) = (h.val : Int) := (key 2).symm.trans (e (2 : Fin 4))
    have e3 : (0 : Int) + ((j 3).val : Int) = (w.val : Int) := (key 3).symm.trans (e (3 : Fin 4))
    omega
  · rintro ⟨e0, e1, e2, e3⟩ a
    refine (key a).trans ?_
    match a with
    | ⟨0, _⟩ => show (0 : Int) + ((j 0).val : Int) = (n.val : Int); omega
    | ⟨1, _⟩ => show (k : Int) + ((j 1).val : Int) = (ch.val : Int); omega
    | ⟨2, _⟩ => show (0 : Int) + ((j 2).val : Int) = (h.val : Int); omega
    | ⟨3, _⟩ => show (0 : Int) + ((j 3).val : Int) = (w.val : Int); omega

/-- THE SCATTER READ AT `(n, ch, h, w)`: inside the written block of channels `[k, k + C)` it is the update at
    channel `ch - k`, outside it the operand. -/
theorem scatter_channels_apply {α : Type} (C : Nat)
    (wf : ScatterDims.WF ⟨4, ![16, 64, 256, 256]⟩ ⟨1, ![1]⟩ ⟨4, ![16, C, 256, 256]⟩ [0, 1, 2, 3] [] [1] 0)
    (x : (⟨4, ![16, 64, 256, 256]⟩ : Shape).Idx → α) (idx : IVec ⟨1, ![1]⟩ 32) (k : Nat)
    (hidx : (idx (ix1 0)).toInt = (k : Int)) (hk : k + C ≤ 64)
    (upd : (⟨4, ![16, C, 256, 256]⟩ : Shape).Idx → α) (n : Fin 16) (ch : Fin 64) (h : Fin 256) (w : Fin 256) :
    Host.scatter (⟨[0, 1, 2, 3], [], [1], 0, wf⟩ : ScatterDims ⟨4, ![16, 64, 256, 256]⟩ ⟨1, ![1]⟩ ⟨4, ![16, C, 256, 256]⟩)
        (fun _ b => b) x idx upd (ix4 n ch h w)
      = if hc : k ≤ ch.val ∧ ch.val < k + C then upd (ix4 n ⟨ch.val - k, by omega⟩ h w) else x (ix4 n ch h w) := by
  have hiff := fun j => chanDims_resultIdx?_iff C wf idx k hidx j n ch h w
  split
  · next hc =>
    refine scatter_set_hit (chanDims C wf) x idx upd _ _ ((hiff _).2 ⟨rfl, ?_, rfl, rfl⟩) (fun j hj => ?_)
    · show k + (ch.val - k) = ch.val
      omega
    · obtain ⟨e0, e1, e2, e3⟩ := (hiff j).1 hj
      funext a
      refine Fin.ext ?_
      match a with
      | ⟨0, _⟩ => exact e0
      | ⟨1, _⟩ => show (j 1).val = ch.val - k; omega
      | ⟨2, _⟩ => exact e2
      | ⟨3, _⟩ => exact e3
  · next hc =>
    refine scatter_set_miss (chanDims C wf) x idx upd _ (fun j hj => hc ?_)
    obtain ⟨e0, e1, e2, e3⟩ := (hiff j).1 hj
    have hj1 : (j 1).val < C := (j 1).isLt
    omega

end Channels

end Cert.Lib
-- ==== Proof.LibScatterRows.lean ====
import proofs.«167414_j65335042507073_2_alg».proof.Proof.LibScatterSet

/-!
# An accumulating scatter of rows, read at an index

An `[N, C]` operand receives the rows of an `[E, C]` array of updates: row `e` of the updates is added into the operand's
row named by the `e`-th scatter index, an entry of an `[E, 1]` array of integer words read signed. Several rows may name
the same operand row, and a row whose index is negative or at least `N` lands nowhere.

For the dimension numbers of such a scatter (update axis 1 the window axis, operand axis 0 inserted, the one component
of the start index sent to operand axis 0, the index vector on axis 1 of the scatter indices):

* update index `j` lands on `(n, c)` exactly when the scatter index of row `j 0` is `n` and `j 1 = c`
  (`rows_resultIdx?_iff`);
* at the ideal instance the result at `(n, c)` is the operand there plus the sum, over the rows `e` whose scatter index
  is `n`, of the update at `(e, c)` (`scatterAdd_rows_apply`, `host_scatterAdd_rows_apply`).

The sizes `N`, `C`, `E` and the index width are arbitrary.
-/

open scoped BigOperators

namespace Cert.LibScatterRows

open Idealize.ShloMosaic Idealize.ShloMosaic.ValueIdx

/-! ## The literal dimension numbers of a row scatter -/

section Literal
variable {N C E : Nat}

/-- The dimension numbers of adding the rows of an `[E, C]` array of updates into an `[N, C]` operand at `E` scatter
    indices held in an `[E, 1]` array: update axis 1 is the window axis, operand axis 0 is inserted, and the one
    component of each start index goes to operand axis 0. -/
abbrev rowDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  ⟨[1], [0], [0], 1, wf⟩

/-- The operand's axes that are not inserted: the column axis alone. -/
theorem rowDims_sKept (wf : ScatterDims.WF ⟨2, ![N, C]⟩ ⟨2, ![E, 1]⟩ ⟨2, ![E, C]⟩ [1] [0] [0] 1) :
    (rowDims N C E wf).sKept = [(1 : Fin 2)] :=
  (by decide : (List.finRange 2).filter (fun a => a ∉ [(0 : Fin 2)]) = [1])

/-- The window coordinate on the row axis is `0`: that axis is inserted. -/
theorem rowDims_window_row (wf : ScatterDims.WF ⟨2, ![N, C]⟩ ⟨2, ![E, 1]⟩ ⟨2, ![E, C]⟩ [1] [0] [0] 1)
    (j : (⟨2, ![E, C]⟩ : Shape).Idx) : (rowDims N C E wf).window j 0 = 0 := by
  unfold ScatterDims.window
  refine dif_neg ?_
  rw [rowDims_sKept]
  exact (by decide : (0 : Fin 2) ∉ [(1 : Fin 2)])

/-- The window coordinate on the column axis is the update index's column. -/
theorem rowDims_window_col (wf : ScatterDims.WF ⟨2, ![N, C]⟩ ⟨2, ![E, 1]⟩ ⟨2, ![E, C]⟩ [1] [0] [0] 1)
    (j : (⟨2, ![E, C]⟩ : Shape).Idx) : (rowDims N C E wf).window j 1 = (j 1).val := by
  unfold ScatterDims.window
  refine (dif_pos ?_).trans rfl
  rw [rowDims_sKept]
  exact List.mem_singleton.mpr rfl

/-- On the row axis the window starts at the row the update's scatter index names, read signed. -/
theorem rowDims_start_row (wf : ScatterDims.WF ⟨2, ![N, C]⟩ ⟨2, ![E, 1]⟩ ⟨2, ![E, C]⟩ [1] [0] [0] 1)
    (j : (⟨2, ![E, C]⟩ : Shape).Idx) {w : Nat} (idx : IVec ⟨2, ![E, 1]⟩ w) :
    (rowDims N C E wf).start j idx 0 = (idx (ix2 ⟨(j 0).val, (j 0).isLt⟩ (0 : Fin 1))).toInt := by
  unfold ScatterDims.start
  have hmem : (0 : Fin 2) ∈ (rowDims N C E wf).scatterDimsToOperandDims := List.mem_singleton.mpr rfl
  refine (dif_pos hmem).trans ?_
  have hsi : (rowDims N C E wf).siIdx j ⟨List.idxOf (0 : Fin 2) (rowDims N C E wf).scatterDimsToOperandDims,
      List.idxOf_lt_length_iff.2 hmem⟩ = ix2 ⟨(j 0).val, (j 0).isLt⟩ (0 : Fin 1) := by
    funext b; refine Fin.ext ?_
    match b with
    | ⟨0, _⟩ => rfl
    | ⟨1, _⟩ => rfl
  exact congrArg (fun i => (idx i).toInt) hsi

/-- On the column axis the window starts at `0`: no component of the start index goes there. -/
theorem rowDims_start_col (wf : ScatterDims.WF ⟨2, ![N, C]⟩ ⟨2, ![E, 1]⟩ ⟨2, ![E, C]⟩ [1] [0] [0] 1)
    (j : (⟨2, ![E, C]⟩ : Shape).Idx) {w : Nat} (idx : IVec ⟨2, ![E, 1]⟩ w) :
    (rowDims N C E wf).start j idx 1 = 0 := by
  unfold ScatterDims.start
  refine dif_neg (fun h => ?_)
  exact absurd (List.mem_singleton.mp h) (by decide : ¬ (1 : Fin 2) = 0)

/-- An update index lands on `(n, c)` exactly when its row's scatter index, read signed, is `n` and its column is
    `c`. -/
theorem rowDims_resultIdx?_iff (wf : ScatterDims.WF ⟨2, ![N, C]⟩ ⟨2, ![E, 1]⟩ ⟨2, ![E, C]⟩ [1] [0] [0] 1)
    {w : Nat} (idx : IVec ⟨2, ![E, 1]⟩ w) (j : (⟨2, ![E, C]⟩ : Shape).Idx) (n : Fin N) (c : Fin C) :
    (rowDims N C E wf).resultIdx? j idx = some (ix2 n c) ↔
      (idx (ix2 ⟨(j 0).val, (j 0).isLt⟩ (0 : Fin 1))).toInt = (n.val : Int) ∧ (j 1).val = c.val := by
  rw [Cert.Lib.resultIdx?_eq_some_iff]
  have k0 : (rowDims N C E wf).start j idx 0 + ((rowDims N C E wf).window j 0 : Int)
      = (idx (ix2 ⟨(j 0).val, (j 0).isLt⟩ (0 : Fin 1))).toInt := by
    rw [rowDims_start_row, rowDims_window_row]; simp
  have k1 : (rowDims N C E wf).start j idx 1 + ((rowDims N C E wf).window j 1 : Int) = ((j 1).val : Int) := by
    rw [rowDims_start_col, rowDims_window_col]; simp
  constructor
  · intro e
    have e0 : (idx (ix2 ⟨(j 0).val, (j 0).isLt⟩ (0 : Fin 1))).toInt = (n.val : Int) := k0.symm.trans (e (0 : Fin 2))
    have e1 : ((j 1).val : Int) = (c.val : Int) := k1.symm.trans (e (1 : Fin 2))
    exact ⟨e0, by exact_mod_cast e1⟩
  · rintro ⟨e0, e1⟩ a
    match a with
    | ⟨0, _⟩ => exact k0.trans e0
    | ⟨1, _⟩ =>
      refine k1.trans ?_
      show ((j 1).val : Int) = (c.val : Int)
      exact_mod_cast e1

end Literal

/-! ## Any dimension numbers with those four lists -/

section Rows
variable {N C E : Nat}

/-- The dimension numbers `d` are those of a row scatter: update axis 1 the window axis, operand axis 0 inserted,
    the start index's one component sent to operand axis 0, and the index vector on axis 1 of the scatter
    indices. -/
structure Rows (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  iv : d.indexVectorDim = 1

/-- For a row scatter, update index `j` lands on `(n, c)` exactly when the scatter index of row `j 0`, read
    signed, is `n` and `j`'s column is `c`. -/
theorem rows_resultIdx?_iff (d : ScatterDims ⟨2, ![N, C]⟩ ⟨2, ![E, 1]⟩ ⟨2, ![E, C]⟩) (h : Rows d) {w : Nat}
    (idx : IVec ⟨2, ![E, 1]⟩ w) (j : (⟨2, ![E, C]⟩ : Shape).Idx) (n : Fin N) (c : Fin C) :
    d.resultIdx? j idx = some (ix2 n c) ↔
      (idx (ix2 ⟨(j 0).val, (j 0).isLt⟩ (0 : Fin 1))).toInt = (n.val : Int) ∧ (j 1).val = c.val := by
  obtain ⟨uw, iw, sd, iv, wf⟩ := d
  obtain ⟨h1, h2, h3, h4⟩ := h
  dsimp only at h1 h2 h3 h4
  subst h1 h2 h3 h4
  exact rowDims_resultIdx?_iff wf idx j n c

/-- THE ACCUMULATING ROW SCATTER READ AT `(n, c)`: the operand there plus the sum, over the rows `e` of the updates
    whose scatter index read signed is `n`, of the update at `(e, c)`. Rows whose index is negative or at least
    `N` contribute to no position. -/
theorem scatterAdd_rows_apply (d : ScatterDims ⟨2, ![N, C]⟩ ⟨2, ![E, 1]⟩ ⟨2, ![E, C]⟩) (h : Rows d) {w : Nat}
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c)
      = x (ix2 n c) + ∑ e ∈ Finset.univ.filter (fun e : Fin E => (idx (ix2 e (0 : Fin 1))).toInt = (n.val : Int)),
          upd (ix2 e c) := by
  unfold Ideal.hostScatterAdd
  congr 1
  symm
  refine Finset.sum_bij (fun e _ => ix2 e c) ?_ ?_ ?_ ?_
  · intro e he
    rw [Finset.mem_filter] at he ⊢
    exact ⟨Finset.mem_univ _, (rows_resultIdx?_iff d h idx (ix2 e c) n c).2 ⟨he.2, rfl⟩⟩
  · intro e₁ _ e₂ _ heq
    exact congrFun heq (0 : Fin 2)
  · intro j hj
    rw [Finset.mem_filter] at hj
    obtain ⟨h0, h1⟩ := (rows_resultIdx?_iff d h idx j n c).1 hj.2
    refine ⟨⟨(j 0).val, (j 0).isLt⟩, Finset.mem_filter.2 ⟨Finset.mem_univ _, h0⟩, ?_⟩
    funext a
    match a with
    | ⟨0, _⟩ => rfl
    | ⟨1, _⟩ => exact Fin.ext h1.symm
  · intro e _
    rfl

/-- The same reading of the host's accumulating scatter operation at the ideal instance. -/
theorem host_scatterAdd_rows_apply (d : ScatterDims ⟨2, ![N, C]⟩ ⟨2, ![E, 1]⟩ ⟨2, ![E, C]⟩) (h : Rows d) {w : Nat}
    (x : FVec Ideal ⟨2, ![N, C]⟩ .f32) (idx : IVec ⟨2, ![E, 1]⟩ w)
    (upd : FVec Ideal ⟨2, ![E, C]⟩ .f32) (n : Fin N) (c : Fin C) :
    Host.scatterAdd (F := Ideal) (φ := .f32) d x idx upd (ix2 n c)
      = x (ix2 n c) + ∑ e ∈ Finset.univ.filter (fun e : Fin E => (idx (ix2 e (0 : Fin 1))).toInt = (n.val : Int)),
          upd (ix2 e c) :=
  scatterAdd_rows_apply d h x idx upd n c

end Rows

end Cert.LibScatterRows
-- ==== Proof.RealValued.lean ====
import proofs.«167414_j65335042507073_2_alg».proof.Proof.Spec
import proofs.«167414_j65335042507073_2_alg».proof.Proof.LibScatterRows
import proofs.«167414_j65335042507073_2_alg».proof.Proof.RefRead
import Idealize.ShloMosaic.Lib.ValueIdx
import Idealize.ShloMosaic.PureOps.Ideal.Laws

noncomputable section

/-! # Real-valued arrays stay real-valued

An array of extended reals is real-valued when every entry is the coercion of a real. A gather of a real-valued array,
an accumulating row scatter of real-valued arrays, the zero array, and the specification's perceptron on real-valued
operands with a positive batch size and a positive eps are all real-valued. -/

namespace Cert.RealValued

open Cert.ReferenceIdeal Cert.ReferenceIdeal.Gen Cert.ReferenceIdeal.RefRun Idealize.ShloMosaic Idealize.ShloMosaic.ValueIdx
open LibBatchNormFold
open scoped BigOperators

/-- A gather reads entries of its operand: real-valued when the operand is. -/
theorem gather_real {s si t : Shape} (d : GatherDims s si t) {w : Nat} (x : s.Idx → EReal) (idx : IVec si w)
    (hx : ∀ i, ∃ r : ℝ, x i = (r : EReal)) : ∀ j, ∃ r : ℝ, Host.gather d x idx j = (r : EReal) :=
  fun j => hx (d.operandIdx j idx)

/-- The specification's perceptron on real-valued operands, with n the (positive) number of rows and a positive eps, is
    real: every hidden column is real, its normalisation is the real formula (the variance plus eps is positive), and
    maxima, products and finite sums of reals are real. -/
theorem mlp_real {E DA DB H OD : Nat} (a : Fin E → Fin DA → EReal) (b : Fin E → Fin DB → EReal)
    (W : Fin (DA + DB) → Fin H → EReal) (ba g be : Fin H → EReal) (W2 : Fin H → Fin OD → EReal) (b2 : Fin OD → EReal)
    (ha : ∀ i l, ∃ r : ℝ, a i l = (r : EReal)) (hb : ∀ i l, ∃ r : ℝ, b i l = (r : EReal))
    (hW : ∀ l k, ∃ r : ℝ, W l k = (r : EReal)) (hba : ∀ k, ∃ r : ℝ, ba k = (r : EReal))
    (hg : ∀ k, ∃ r : ℝ, g k = (r : EReal)) (hbe : ∀ k, ∃ r : ℝ, be k = (r : EReal))
    (hW2 : ∀ k j, ∃ r : ℝ, W2 k j = (r : EReal)) (hb2 : ∀ j, ∃ r : ℝ, b2 j = (r : EReal))
    (n eps : ℝ) (hn : n = (E : ℝ)) (hE : 0 < E) (heps : 0 < eps) (i : Fin E) (j : Fin OD) :
    ∃ r : ℝ, Cert.Spec.mlp a b W ba g be W2 b2 (n : EReal) (eps : EReal) i j = (r : EReal) := by
  have hn0 : 0 < n := by rw [hn]; exact_mod_cast hE
  have key : ∀ k : Fin H, ∃ r : ℝ,
      max (refNorm (pre a b (fun l => W (Fin.castAdd DB l) k) (fun l => W (Fin.natAdd DA l) k) (ba k)) (g k) (be k)
        (n : EReal) (eps : EReal) i) 0 * W2 k j = (r : EReal) := by
    intro k
    obtain ⟨rp, hrp⟩ := pre_coe a b (fun l => W (Fin.castAdd DB l) k) (fun l => W (Fin.natAdd DA l) k) (ba k) ha hb
      (fun l => hW _ k) (fun l => hW _ k) (hba k)
    obtain ⟨rg, hrg⟩ := hg k
    obtain ⟨rbe, hrbe⟩ := hbe k
    obtain ⟨rw2, hrw2⟩ := hW2 k j
    have hpre : pre a b (fun l => W (Fin.castAdd DB l) k) (fun l => W (Fin.natAdd DA l) k) (ba k)
        = fun i => ((rp i : ℝ) : EReal) := funext hrp
    have hpos : 0 < rvar rp n + eps := add_pos_of_nonneg_of_pos (rvar_nonneg rp hn0) heps
    rw [hpre, hrg, hrbe, hrw2, refNorm_coe_eq rp rg rbe hn0.ne' hpos i, ← EReal.coe_zero, ← coe_max, ← EReal.coe_mul]
    exact ⟨_, rfl⟩
  choose r hr using key
  obtain ⟨rb2, hrb2⟩ := hb2 j
  refine ⟨(∑ k, r k) + rb2, ?_⟩
  unfold Cert.Spec.mlp
  rw [EReal.coe_add, coe_sum_univ, hrb2]
  exact congrArg (· + (rb2 : EReal)) (Finset.sum_congr rfl fun k _ => hr k)

/-- An accumulating row scatter of a real-valued array of updates into a real-valued operand is real-valued: each entry
    is the operand's plus a finite sum of updates. -/
theorem scatterAdd_rows_real {N C E w : Nat} (d : ScatterDims ⟨2, ![N, C]⟩ ⟨2, ![E, 1]⟩ ⟨2, ![E, C]⟩)
    (h : Cert.LibScatterRows.Rows d) (x : FVec Ideal ⟨2, ![N, C]⟩ .f32) (idx : IVec ⟨2, ![E, 1]⟩ w)
    (upd : FVec Ideal ⟨2, ![E, C]⟩ .f32) (hx : ∀ j, ∃ r : ℝ, x j = (r : EReal)) (hu : ∀ j, ∃ r : ℝ, upd j = (r : EReal)) :
    ∀ j, ∃ r : ℝ, Host.scatterAdd (F := Ideal) (φ := .f32) d x idx upd j = (r : EReal) := by
  intro j
  obtain ⟨n, c, rfl⟩ : ∃ (n : Fin N) (c : Fin C), j = ix2 n c := ⟨j 0, j 1, eq_ix2 j⟩
  choose rx hrx using hx
  choose ru hru using hu
  refine ⟨rx (ix2 n c) + ∑ e ∈ Finset.univ.filter (fun e : Fin E => (idx (ix2 e (0 : Fin 1))).toInt = (n.val : Int)),
    ru (ix2 e c), ?_⟩
  rw [Cert.LibScatterRows.host_scatterAdd_rows_apply d h, EReal.coe_add, coe_sum, hrx]
  exact congrArg (fun t => (rx (ix2 n c) : EReal) + t) (Finset.sum_congr rfl fun e _ => hru _)

/-- The zero array the messages are added into is real-valued. -/
theorem zeros_real : ∀ j, ∃ r : ℝ,
    broadcastInDim S50000x128 ![] bcast_S_S50000x128 (constant (F := Ideal) S_ .f32 0x00000000#32) j = (r : EReal) := by
  intro j
  refine ⟨0, ?_⟩
  show Ideal.ofBits .f32 0x00000000#32 = ((0 : ℝ) : EReal)
  rw [Ideal.ofBits_zero_f32, EReal.coe_zero]

/-- The reference's scatter has the dimension numbers of a row scatter. -/
theorem scatter_rows : Cert.LibScatterRows.Rows scatter_S50000x128_S800000x1_S800000x128_1_0_0_1 := ⟨rfl, rfl, rfl, rfl⟩

/-- The messages summed per node are real-valued when the messages are. -/
theorem agg_real (ei : IVec S2x800000 32) (msg : FVec Ideal S800000x128 .f32) (hm : ∀ j, ∃ r : ℝ, msg j = (r : EReal)) :
    ∀ j, ∃ r : ℝ, agg ei msg j = (r : EReal) := by
  unfold agg
  exact scatterAdd_rows_real _ scatter_rows _ _ _ zeros_real hm

/-- The summed messages are real-valued when the node features, the edge features and the first perceptron's weights
    are: every message is the specification's perceptron on real-valued operands, at the batch size 800000 and
    eps = 10995116 · 2⁻⁴⁰. -/
theorem msgs_real (x : FVec Ideal S50000x64 .f32) (ei : IVec S2x800000 32) (ea : FVec Ideal S800000x32 .f32)
    (w1 : FVec Ideal S96x128 .f32) (b1 g1 β1 : FVec Ideal S128 .f32) (w2 : FVec Ideal S128x128 .f32) (b2 : FVec Ideal S128 .f32)
    (hx : ∀ j, ∃ r : ℝ, x j = (r : EReal)) (hea : ∀ j, ∃ r : ℝ, ea j = (r : EReal)) (hw1 : ∀ j, ∃ r : ℝ, w1 j = (r : EReal))
    (hb1 : ∀ j, ∃ r : ℝ, b1 j = (r : EReal)) (hg1 : ∀ j, ∃ r : ℝ, g1 j = (r : EReal)) (hβ1 : ∀ j, ∃ r : ℝ, β1 j = (r : EReal))
    (hw2 : ∀ j, ∃ r : ℝ, w2 j = (r : EReal)) (hb2 : ∀ j, ∃ r : ℝ, b2 j = (r : EReal)) :
    ∀ i l, ∃ r : ℝ, msgs x ei ea w1 b1 g1 β1 w2 b2 (ix2 i l) = (r : EReal) := by
  intro i l
  unfold msgs
  refine agg_real ei _ (fun j => ?_) (ix2 i l)
  obtain ⟨e, c, rfl⟩ : ∃ (e : Fin 800000) (c : Fin 128), j = ix2 e c := ⟨j 0, j 1, eq_ix2 j⟩
  rw [Cert.ReferenceIdeal.RefRead.msg_apply, Cert.ReferenceIdeal.RefRead.ofBits_NE, Cert.ReferenceIdeal.RefRead.ofBits_EPS]
  exact mlp_real _ _ _ _ _ _ _ _ (fun e l => gather_real _ x _ hx _) (fun e l => hea _) (fun l k => hw1 _) (fun k => hb1 _)
    (fun k => hg1 _) (fun k => hβ1 _) (fun k j => hw2 _) (fun j => hb2 _) _ _ (by norm_num) (by norm_num) (by positivity) e c

/-- The result is real-valued when all the float arguments are: every entry is the specification's perceptron on the
    node features and the (real-valued) summed messages, at the batch size 50000 and eps = 10995116 · 2⁻⁴⁰. -/
theorem out_real (x : FVec Ideal S50000x64 .f32) (ei : IVec S2x800000 32) (ea : FVec Ideal S800000x32 .f32)
    (u : FVec Ideal S1x16 .f32) (batch : IVec S50000 32) (w1 : FVec Ideal S96x128 .f32) (b1 g1 β1 : FVec Ideal S128 .f32)
    (w2 : FVec Ideal S128x128 .f32) (b2 : FVec Ideal S128 .f32) (w3 : FVec Ideal S192x128 .f32) (b3 g2 β2 : FVec Ideal S128 .f32)
    (w4 : FVec Ideal S128x64 .f32) (b4 : FVec Ideal S64 .f32)
    (hx : ∀ j, ∃ r : ℝ, x j = (r : EReal)) (hea : ∀ j, ∃ r : ℝ, ea j = (r : EReal)) (hw1 : ∀ j, ∃ r : ℝ, w1 j = (r : EReal))
    (hb1 : ∀ j, ∃ r : ℝ, b1 j = (r : EReal)) (hg1 : ∀ j, ∃ r : ℝ, g1 j = (r : EReal)) (hβ1 : ∀ j, ∃ r : ℝ, β1 j = (r : EReal))
    (hw2 : ∀ j, ∃ r : ℝ, w2 j = (r : EReal)) (hb2 : ∀ j, ∃ r : ℝ, b2 j = (r : EReal)) (hw3 : ∀ j, ∃ r : ℝ, w3 j = (r : EReal))
    (hb3 : ∀ j, ∃ r : ℝ, b3 j = (r : EReal)) (hg2 : ∀ j, ∃ r : ℝ, g2 j = (r : EReal)) (hβ2 : ∀ j, ∃ r : ℝ, β2 j = (r : EReal))
    (hw4 : ∀ j, ∃ r : ℝ, w4 j = (r : EReal)) (hb4 : ∀ j, ∃ r : ℝ, b4 j = (r : EReal)) :
    ∀ i j, ∃ r : ℝ, out x ei ea u batch w1 b1 g1 β1 w2 b2 w3 b3 g2 β2 w4 b4 (ix2 i j) = (r : EReal) := by
  intro i j
  rw [Cert.ReferenceIdeal.RefRead.out_apply, Cert.ReferenceIdeal.RefRead.ofBits_NN, Cert.ReferenceIdeal.RefRead.ofBits_EPS]
  exact mlp_real _ _ _ _ _ _ _ _ (fun i l => hx _)
    (fun i l => msgs_real x ei ea w1 b1 g1 β1 w2 b2 hx hea hw1 hb1 hg1 hβ1 hw2 hb2 i l) (fun l k => hw3 _) (fun k => hb3 _)
    (fun k => hg2 _) (fun k => hβ2 _) (fun k j => hw4 _) (fun j => hb4 _) _ _ (by norm_num) (by norm_num) (by positivity) i j

end Cert.RealValued

end
-- ==== Proof.FiniteInputs.lean ====
/-
  The precondition read back: when the finiteness predicate of the seventeen argument arrays is all ones at the
  ideal instance, every element of every float array is a real number (neither infinity). Each conjunct of the
  predicate is an "all" over one array of the comparison |x| < +inf; the pattern 0x7F800000 denotes the top of the
  extended reals, |x| is max x (-x), and an extended real whose absolute value is below the top is a real.
-/
import proofs.«167414_j65335042507073_2_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic Cert.Pre_finite_inputs

/-- The rank-0 shape has one index. -/
local instance : Subsingleton S_.Idx := ⟨fun a b => funext fun d => d.elim0⟩

/-- The f32 pattern 0x7F800000 denotes the top of the extended reals. -/
theorem ofBits_inf : Ideal.ofBits .f32 0x7F800000#32 = (⊤ : EReal) := by
  simp [Ideal.ofBits, Ideal.ieee]

/-- An extended real whose absolute value max x (-x) compares below the pattern of +inf is a real number. -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    have h0 : Ideal.cmp .olt (max x (-x)) ⊤ = 0#1 := by simp [Ideal.cmp, hn]
    rw [h0] at h
    exact absurd h (by decide)
  induction x using EReal.rec with
  | bot =>
    rw [EReal.neg_bot, max_eq_right bot_le] at hlt
    exact absurd hlt (lt_irrefl _)
  | coe r => exact ⟨r, rfl⟩
  | top =>
    rw [max_eq_left le_top] at hlt
    exact absurd hlt (lt_irrefl _)

/-- One conjunct of the predicate: an "all" of |x| < +inf over an array that came out 1 makes every element real. -/
theorem real_of_all {s : Shape} {axes : List (Fin s.rank)} (x : FVec Ideal s .f32)
    (hb : S_.BroadcastsInDim s (![] : Fin 0 → Fin s.rank)) (hr : s.ReducesTo axes S_) (hu : 0 < S_.numel) (c : IVec S_ 1)
    (e : Host.reduce IntOp.andi (cmpf .olt (Host.absf x) (broadcastInDim s ![] hb (constant S_ .f32 0x7F800000#32))) c hr hu
      ValueIdx.ix0 = 1#1) :
    ∀ i, ∃ r : ℝ, x i = (r : EReal) := by
  intro i
  have hi := Host.reduce_andi_all _ c hr hu ValueIdx.ix0 e i
  exact real_of_abs_lt (x i) hi

variable [Facts]

/-- THE PRECONDITION DECODED: the predicate all ones makes every element of every float array a real number. -/
theorem real_of_finite (x0 : FVec Ideal S50000x64 .f32) (x1 : IVec S2x800000 32) (x2 : FVec Ideal S800000x32 .f32)
    (x3 : FVec Ideal S1x16 .f32) (x4 : IVec S50000 32) (x5 : FVec Ideal S96x128 .f32) (x6 : FVec Ideal S128 .f32)
    (x7 : FVec Ideal S128 .f32) (x8 : FVec Ideal S128 .f32) (x9 : FVec Ideal S128x128 .f32) (x10 : FVec Ideal S128 .f32)
    (x11 : FVec Ideal S192x128 .f32) (x12 : FVec Ideal S128 .f32) (x13 : FVec Ideal S128 .f32) (x14 : FVec Ideal S128 .f32)
    (x15 : FVec Ideal S128x64 .f32) (x16 : FVec Ideal S64 .f32)
    (h : Cert.Pre_finite_inputs.fn (F := Ideal) x0 x1 x2 x3 x4 x5 x6 x7 x8 x9 x10 x11 x12 x13 x14 x15 x16 = fun _ => 1#1) :
    (∀ i, ∃ r : ℝ, x0 i = (r : EReal)) ∧ (∀ i, ∃ r : ℝ, x2 i = (r : EReal)) ∧ (∀ i, ∃ r : ℝ, x5 i = (r : EReal))
      ∧ (∀ i, ∃ r : ℝ, x6 i = (r : EReal)) ∧ (∀ i, ∃ r : ℝ, x7 i = (r : EReal)) ∧ (∀ i, ∃ r : ℝ, x8 i = (r : EReal))
      ∧ (∀ i, ∃ r : ℝ, x9 i = (r : EReal)) ∧ (∀ i, ∃ r : ℝ, x10 i = (r : EReal)) ∧ (∀ i, ∃ r : ℝ, x11 i = (r : EReal))
      ∧ (∀ i, ∃ r : ℝ, x12 i = (r : EReal)) ∧ (∀ i, ∃ r : ℝ, x13 i = (r : EReal)) ∧ (∀ i, ∃ r : ℝ, x14 i = (r : EReal))
      ∧ (∀ i, ∃ r : ℝ, x15 i = (r : EReal)) ∧ (∀ i, ∃ r : ℝ, x16 i = (r : EReal)) ∧ (∀ i, ∃ r : ℝ, x3 i = (r : EReal)) := by
  have e := congrFun h ValueIdx.ix0
  simp only [fn, fn_part1, fn_part2, fn_part3, fn_part4, andi, IntOp.andi_eq_one] at e
  obtain ⟨⟨⟨⟨⟨⟨⟨⟨⟨⟨⟨⟨⟨⟨h0, h2⟩, h3⟩, h5⟩, h6⟩, h7⟩, h8⟩, h9⟩, h10⟩, h11⟩, h12⟩, h13⟩, h14⟩, h15⟩, h16⟩ := e
  exact ⟨real_of_all x0 _ _ _ _ h0, real_of_all x2 _ _ _ _ h2, real_of_all x5 _ _ _ _ h5, real_of_all x6 _ _ _ _ h6,
    real_of_all x7 _ _ _ _ h7, real_of_all x8 _ _ _ _ h8, real_of_all x9 _ _ _ _ h9, real_of_all x10 _ _ _ _ h10,
    real_of_all x11 _ _ _ _ h11, real_of_all x12 _ _ _ _ h12, real_of_all x13 _ _ _ _ h13, real_of_all x14 _ _ _ _ h14,
    real_of_all x15 _ _ _ _ h15, real_of_all x16 _ _ _ _ h16, real_of_all x3 _ _ _ _ h3⟩

end Cert.FiniteInputs

end
-- ==== Proof.Bridge.lean ====
import proofs.«167414_j65335042507073_2_alg».proof.Proof.KIStage
import proofs.«167414_j65335042507073_2_alg».proof.Proof.RefRead
import proofs.«167414_j65335042507073_2_alg».proof.Proof.RealValued
import proofs.«167414_j65335042507073_2_alg».proof.Proof.FiniteInputs

/-!
The two programs compute one function. On the edge side, entry (e, j) of the kernel's message array is the folded
perceptron of row e of the gathered node features and of the edge features; on real-valued data that is the perceptron
with the normalisation written out, which is what the reference's message array holds. Both programs then scatter-add
the messages with the very same operation, so the aggregated arrays agree; and the node side repeats the argument with
the node features and the aggregated messages as the two row operands.
-/

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem
open Cert.ReferenceIdeal.RefRun (out msgs agg lin2 reluE normE hidE meanE varE srcIdx dstIdx)

variable [Cert.Pre_finite_inputs.Facts]
variable (m : (ℓ : Loc nD τ sig) → Buf (Elt Ideal) ℓ) (ρ : Dev nD → PrngReg)

/-- The reference's result of core `c`'s seventeen argument arrays. -/
abbrev refOut (c : Dev nD) : S50000x64.Idx → EReal :=
  out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- The reference's message array of core `c`'s argument arrays. -/
abbrev refMsg (c : Dev nD) : S800000x128.Idx → EReal :=
  lin2 (F := Ideal) (reluE (F := Ideal) (normE (F := Ideal) (hidE (F := Ideal) (m ((c : Thread nD τ).loc main_arg0)) (m ((c : Thread nD τ).loc main_arg1)) (m ((c : Thread nD τ).loc main_arg2)) (m ((c : Thread nD τ).loc main_arg5)) (m ((c : Thread nD τ).loc main_arg6))) (meanE (F := Ideal) (hidE (F := Ideal) (m ((c : Thread nD τ).loc main_arg0)) (m ((c : Thread nD τ).loc main_arg1)) (m ((c : Thread nD τ).loc main_arg2)) (m ((c : Thread nD τ).loc main_arg5)) (m ((c : Thread nD τ).loc main_arg6)))) (varE (F := Ideal) (hidE (F := Ideal) (m ((c : Thread nD τ).loc main_arg0)) (m ((c : Thread nD τ).loc main_arg1)) (m ((c : Thread nD τ).loc main_arg2)) (m ((c : Thread nD τ).loc main_arg5)) (m ((c : Thread nD τ).loc main_arg6)))) (m ((c : Thread nD τ).loc main_arg7)) (m ((c : Thread nD τ).loc main_arg8)))) (m ((c : Thread nD τ).loc main_arg9)) (m ((c : Thread nD τ).loc main_arg10))

section
variable (hpre : ∀ c : Dev nD, Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) = fun _ => 1#1)
include hpre

/-- The kernel's message array is the reference's. -/
theorem msg_eq (c : Dev nD) : ((dat1 (U3 m ρ) c).arrAt 7 cfg1.N : S800000x128.Idx → EReal) = refMsg m c := by
  obtain ⟨h0, h2, h5, h6, h7, h8, h9, h10, -⟩ := Cert.FiniteInputs.real_of_finite (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (hpre c)
  funext idx
  obtain ⟨e, j, rfl⟩ : ∃ (e : Fin 800000) (j : Fin 128), idx = ix2 e j := ⟨idx 0, idx 1, eq_ix2 idx⟩
  have hrow : (W1 m ρ c (Proc.devRef .tc main_v10) : S800000x64.Idx → EReal) = Host.gather Cert.ReferenceIdeal.gather_S50000x64_S800000x1_S800000x64_1_0_n_n_0_1_164 (m ((c : Thread nD τ).loc main_arg0)) (srcIdx (m ((c : Thread nD τ).loc main_arg1))) :=
    (v10_W1 m ρ c).trans rfl
  unfold refMsg
  rw [edge_stage m ρ c e j, Cert.ReferenceIdeal.RefRead.msg_apply, hrow, Cert.ReferenceIdeal.RefRead.ofBits_NE, Cert.ReferenceIdeal.RefRead.ofBits_EPS]
  exact Cert.Spec.mlpFold_eq_mlp _ _ _ _ _ _ _ _
    (fun e l => Cert.RealValued.gather_real _ _ _ h0 _) (fun e l => h2 _) (fun l k => h5 _) (fun k => h6 _) (fun k => h7 _) (fun k => h8 _)
    800000 _ (by norm_num) (by norm_num) (by positivity) e j

/-- The kernel's aggregated messages are the reference's. -/
theorem agg_eq (c : Dev nD) :
    (W5 m ρ c (Proc.devRef .tc main_v41) : S50000x128.Idx → EReal) = msgs (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [v41_W5 m ρ c, msg_eq m ρ hpre c]
  rfl

/-- THE RESULT: what region 3 leaves in the result array is the reference's result of the argument arrays. -/
theorem result_bridge (c : Dev nD) : ((dat3 (U7 m ρ) c).arrAt 7 cfg3.N : S50000x64.Idx → EReal) = refOut m c := by
  obtain ⟨h0, h2, h5, h6, h7, h8, h9, h10, h11, h12, h13, h14, h15, h16, -⟩ := Cert.FiniteInputs.real_of_finite (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (hpre c)
  funext idx
  obtain ⟨i, j, rfl⟩ : ∃ (i : Fin 50000) (j : Fin 64), idx = ix2 i j := ⟨idx 0, idx 1, eq_ix2 idx⟩
  unfold refOut
  rw [node_stage m ρ c i j, agg_eq m ρ hpre c, Cert.ReferenceIdeal.RefRead.out_apply, Cert.ReferenceIdeal.RefRead.ofBits_NN, Cert.ReferenceIdeal.RefRead.ofBits_EPS]
  exact Cert.Spec.mlpFold_eq_mlp _ _ _ _ _ _ _ _
    (fun i l => h0 _) (fun i l => Cert.RealValued.msgs_real _ _ _ _ _ _ _ _ _ h0 h2 h5 h6 h7 h8 h9 h10 i l) (fun l k => h11 _) (fun k => h12 _) (fun k => h13 _) (fun k => h14 _)
    50000 _ (by norm_num) (by norm_num) (by positivity) i j

end

end Cert.Bridge

end
-- ==== Proof.lean ====
/-
  The certificate of one graph-network layer: a fused-kernel program against its plain reference.

  Both programs compute, for node features x, edge features and edge end points, two perceptrons with batch
  normalisation: the first on every edge (the source node's features beside the edge's), whose outputs are summed into
  their target nodes; the second on every node (its features beside the summed messages). The kernel program computes
  each perceptron in two passes over blocks of rows: a pass that accumulates, over the blocks, the column sums of the first
  linear layer and of its square, and — after the normalisation's scale and shift have been folded into that layer's
  weights and bias — a pass that applies both layers block by block. The reference normalises with the mean and the mean
  squared deviation. On the extended reals the two agree wherever the inputs are finite: the mean squared deviation is the
  mean square less the squared mean, that quantity is not negative so the kernel's clamp at zero is idle, and a product by
  the reciprocal square root is the quotient by the square root; distributing the scale over the linear layer needs the
  finiteness the precondition states.

  The frames: each kernel program is run segment by segment — four stretches of host operations, four kernel regions —
  with every buffer's contents known at each boundary (`run_all`), at the word-level instance and at the exact one; the
  reference is a straight-line host program with its outlined functions read in place. The ideal pass rewrote nothing, so
  the idealized kernel is the kernel's own text at the exact instance.
-/
import proofs.«167414_j65335042507073_2_alg».proof.Defs
import proofs.«167414_j65335042507073_2_alg».proof.Proof.Gen.Kernel
import proofs.«167414_j65335042507073_2_alg».proof.Proof.Gen.KernelIdeal
import proofs.«167414_j65335042507073_2_alg».proof.Proof.Gen.ReferenceIdeal
import proofs.«167414_j65335042507073_2_alg».proof.Proof.Gen.Pre_finite_inputs
import proofs.«167414_j65335042507073_2_alg».proof.Proof.KRun
import proofs.«167414_j65335042507073_2_alg».proof.Proof.KIRun
import proofs.«167414_j65335042507073_2_alg».proof.Proof.RefRun
import proofs.«167414_j65335042507073_2_alg».proof.Proof.Bridge

set_option maxRecDepth 16384

noncomputable section

namespace Cert.Proof

open Idealize.ShloMosaic Idealize.ShloMosaic.TcCoe Idealize.SL.Sem

/-- The kernel program as printed runs, and leaves its arguments as launched. -/
theorem frame_k : Cert.frame_Kernel := fun m ρ _ => Cert.Kernel.Hand.frame (F := Bits) m ρ

/-- So does its text read at the exact instance. -/
theorem frame_ki : Cert.frame_KernelIdeal := fun m ρ _ => Cert.KernelIdeal.Hand.frame (F := Ideal) m ρ

/-- The reference runs: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

open Cert.KernelIdeal Cert.KernelIdeal.Gen Cert.KernelIdeal.Hand in
/-- At the exact instance the kernel program's result array ends at what region 3's write-backs leave, which is the
    reference's result of the same arguments. -/
theorem algebraic : Cert.algebraic_KernelIdeal_ReferenceIdeal := by
  intro m ρ m' ρ' hpre hagree
  refine ⟨fun c => (dat3 (U7 m ρ) c).arrAt 7 cfg3.N, ?_, ?_⟩
  · exact (θ_run Cert.KernelIdeal.defs _ _).mono (fun r h c => ⟨result_eq m ρ r h c,
      (h c _ (mem_uc main_arg0 (by decide))).trans (W8_of_not_written m ρ c main_arg0 (by decide) (by decide) (by decide) (by decide) (by decide)),
      (h c _ (mem_uc main_arg1 (by decide))).trans (W8_of_not_written m ρ c main_arg1 (by decide) (by decide) (by decide) (by decide) (by decide)),
      (h c _ (mem_uc main_arg2 (by decide))).trans (W8_of_not_written m ρ c main_arg2 (by decide) (by decide) (by decide) (by decide) (by decide)),
      (h c _ (mem_uc main_arg3 (by decide))).trans (W8_of_not_written m ρ c main_arg3 (by decide) (by decide) (by decide) (by decide) (by decide)),
      (h c _ (mem_uc main_arg4 (by decide))).trans (W8_of_not_written m ρ c main_arg4 (by decide) (by decide) (by decide) (by decide) (by decide)),
      (h c _ (mem_uc main_arg5 (by decide))).trans (W8_of_not_written m ρ c main_arg5 (by decide) (by decide) (by decide) (by decide) (by decide)),
      (h c _ (mem_uc main_arg6 (by decide))).trans (W8_of_not_written m ρ c main_arg6 (by decide) (by decide) (by decide) (by decide) (by decide)),
      (h c _ (mem_uc main_arg7 (by decide))).trans (W8_of_not_written m ρ c main_arg7 (by decide) (by decide) (by decide) (by decide) (by decide)),
      (h c _ (mem_uc main_arg8 (by decide))).trans (W8_of_not_written m ρ c main_arg8 (by decide) (by decide) (by decide) (by decide) (by decide)),
      (h c _ (mem_uc main_arg9 (by decide))).trans (W8_of_not_written m ρ c main_arg9 (by decide) (by decide) (by decide) (by decide) (by decide)),
      (h c _ (mem_uc main_arg10 (by decide))).trans (W8_of_not_written m ρ c main_arg10 (by decide) (by decide) (by decide) (by decide) (by decide)),
      (h c _ (mem_uc main_arg11 (by decide))).trans (W8_of_not_written m ρ c main_arg11 (by decide) (by decide) (by decide) (by decide) (by decide)),
      (h c _ (mem_uc main_arg12 (by decide))).trans (W8_of_not_written m ρ c main_arg12 (by decide) (by decide) (by decide) (by decide) (by decide)),
      (h c _ (mem_uc main_arg13 (by decide))).trans (W8_of_not_written m ρ c main_arg13 (by decide) (by decide) (by decide) (by decide) (by decide)),
      (h c _ (mem_uc main_arg14 (by decide))).trans (W8_of_not_written m ρ c main_arg14 (by decide) (by decide) (by decide) (by decide) (by decide)),
      (h c _ (mem_uc main_arg15 (by decide))).trans (W8_of_not_written m ρ c main_arg15 (by decide) (by decide) (by decide) (by decide) (by decide)),
      (h c _ (mem_uc main_arg16 (by decide))).trans (W8_of_not_written m ρ c main_arg16 (by decide) (by decide) (by decide) (by decide) (by decide))⟩)
      (run_all (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10, e11, e12, e13, e14, e15, e16⟩ := hagree c
    rw [e0, e1, e2, e3, e4, e5, e6, e7, e8, e9, e10, e11, e12, e13, e14, e15, e16]
    exact (Cert.Bridge.result_bridge m ρ hpre c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
